-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16000x1 : Shape := ⟨2, ![16000, 1]⟩
abbrev S1024x1 : Shape := ⟨2, ![1024, 1]⟩
abbrev S50x2048 : Shape := ⟨2, ![50, 2048]⟩
abbrev S16000x1024 : Shape := ⟨2, ![16000, 1024]⟩
abbrev S16000x2048 : Shape := ⟨2, ![16000, 2048]⟩
abbrev S1024x1024 : Shape := ⟨2, ![1024, 1024]⟩
abbrev S4096x1024 : Shape := ⟨2, ![4096, 1024]⟩
abbrev S2048x1024 : Shape := ⟨2, ![2048, 1024]⟩
abbrev S4096x2048 : Shape := ⟨2, ![4096, 2048]⟩
abbrev S4096x16000 : Shape := ⟨2, ![4096, 16000]⟩
abbrev S50x1 : Shape := ⟨2, ![50, 1]⟩
abbrev S50x1024 : Shape := ⟨2, ![50, 1024]⟩
abbrev S_ : Shape := ⟨0, ![]⟩

class Facts : Prop where
  bcast_S_S16000x1 : S_.BroadcastsInDim S16000x1 (![] : Fin 0 → Fin S16000x1.rank)
  reducesTo_S16000x1_S_d0_1 : S16000x1.ReducesTo [0, 1] S_
  h_S_ : 0 < S_.numel
  bcast_S_S1024x1 : S_.BroadcastsInDim S1024x1 (![] : Fin 0 → Fin S1024x1.rank)
  reducesTo_S1024x1_S_d0_1 : S1024x1.ReducesTo [0, 1] S_
  bcast_S_S50x2048 : S_.BroadcastsInDim S50x2048 (![] : Fin 0 → Fin S50x2048.rank)
  reducesTo_S50x2048_S_d0_1 : S50x2048.ReducesTo [0, 1] S_
  bcast_S_S16000x1024 : S_.BroadcastsInDim S16000x1024 (![] : Fin 0 → Fin S16000x1024.rank)
  reducesTo_S16000x1024_S_d0_1 : S16000x1024.ReducesTo [0, 1] S_
  bcast_S_S16000x2048 : S_.BroadcastsInDim S16000x2048 (![] : Fin 0 → Fin S16000x2048.rank)
  reducesTo_S16000x2048_S_d0_1 : S16000x2048.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S4096x16000 : S_.BroadcastsInDim S4096x16000 (![] : Fin 0 → Fin S4096x16000.rank)
  reducesTo_S4096x16000_S_d0_1 : S4096x16000.ReducesTo [0, 1] S_
  bcast_S_S50x1 : S_.BroadcastsInDim S50x1 (![] : Fin 0 → Fin S50x1.rank)
  reducesTo_S50x1_S_d0_1 : S50x1.ReducesTo [0, 1] S_
  bcast_S_S50x1024 : S_.BroadcastsInDim S50x1024 (![] : Fin 0 → Fin S50x1024.rank)
  reducesTo_S50x1024_S_d0_1 : S50x1024.ReducesTo [0, 1] S_

variable [Facts]

def fn_part5 {F : FTy → Type} [FloatOps F] (main_arg18 : FVec F S50x2048 .f32) (main_v83 : IVec S_ 1) (main_v84 : FVec F S50x1024 .f32) (main_cst_32 : FVec F S_ .f32) : IVec S_ 1 :=
  let main_v85 : FVec F S50x1024 .f32 := broadcastInDim S50x1024 ![] bcast_S_S50x1024 main_cst_32
  let main_v86 : IVec S50x1024 1 := cmpf .olt main_v84 main_v85
  let main_c_33 : IVec S_ 1 := constantI S_ 1 1#1
  let main_v87 : IVec S_ 1 := (fun x v => Host.reduce IntOp.andi x v reducesTo_S50x1024_S_d0_1 h_S_) main_v86 main_c_33
  let main_v88 : IVec S_ 1 := andi main_v83 main_v87
  let main_v89 : FVec F S50x2048 .f32 := Host.absf main_arg18
  let main_cst_34 : FVec F S_ .f32 := constant S_ .f32 0x7F800000#32
  let main_v90 : FVec F S50x2048 .f32 := broadcastInDim S50x2048 ![] bcast_S_S50x2048 main_cst_34
  let main_v91 : IVec S50x2048 1 := cmpf .olt main_v89 main_v90
  let main_c_35 : IVec S_ 1 := constantI S_ 1 1#1
  let main_v92 : IVec S_ 1 := (fun x v => Host.reduce IntOp.andi x v reducesTo_S50x2048_S_d0_1 h_S_) main_v91 main_c_35
  let main_v93 : IVec S_ 1 := andi main_v88 main_v92
  main_v93

def fn_part4 {F : FTy → Type} [FloatOps F] (main_arg14 : FVec F S4096x2048 .f32) (main_arg15 : FVec F S4096x16000 .f32) (main_arg16 : FVec F S50x1 .f32) (main_arg17 : FVec F S50x1024 .f32) (main_arg18 : FVec F S50x2048 .f32) (main_v63 : IVec S_ 1) (main_v67 : IVec S_ 1) : IVec S_ 1 :=
  let main_v68 : IVec S_ 1 := andi main_v63 main_v67
  let main_v69 : FVec F S4096x2048 .f32 := Host.absf main_arg14
  let main_cst_26 : FVec F S_ .f32 := constant S_ .f32 0x7F800000#32
  let main_v70 : FVec F S4096x2048 .f32 := broadcastInDim S4096x2048 ![] bcast_S_S4096x2048 main_cst_26
  let main_v71 : IVec S4096x2048 1 := cmpf .olt main_v69 main_v70
  let main_c_27 : IVec S_ 1 := constantI S_ 1 1#1
  let main_v72 : IVec S_ 1 := (fun x v => Host.reduce IntOp.andi x v reducesTo_S4096x2048_S_d0_1 h_S_) main_v71 main_c_27
  let main_v73 : IVec S_ 1 := andi main_v68 main_v72
  let main_v74 : FVec F S4096x16000 .f32 := Host.absf main_arg15
  let main_cst_28 : FVec F S_ .f32 := constant S_ .f32 0x7F800000#32
  let main_v75 : FVec F S4096x16000 .f32 := broadcastInDim S4096x16000 ![] bcast_S_S4096x16000 main_cst_28
  let main_v76 : IVec S4096x16000 1 := cmpf .olt main_v74 main_v75
  let main_c_29 : IVec S_ 1 := constantI S_ 1 1#1
  let main_v77 : IVec S_ 1 := (fun x v => Host.reduce IntOp.andi x v reducesTo_S4096x16000_S_d0_1 h_S_) main_v76 main_c_29
  let main_v78 : IVec S_ 1 := andi main_v73 main_v77
  let main_v79 : FVec F S50x1 .f32 := Host.absf main_arg16
  let main_cst_30 : FVec F S_ .f32 := constant S_ .f32 0x7F800000#32
  let main_v80 : FVec F S50x1 .f32 := broadcastInDim S50x1 ![] bcast_S_S50x1 main_cst_30
  let main_v81 : IVec S50x1 1 := cmpf .olt main_v79 main_v80
  let main_c_31 : IVec S_ 1 := constantI S_ 1 1#1
  let main_v82 : IVec S_ 1 := (fun x v => Host.reduce IntOp.andi x v reducesTo_S50x1_S_d0_1 h_S_) main_v81 main_c_31
  let main_v83 : IVec S_ 1 := andi main_v78 main_v82
  let main_v84 : FVec F S50x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S2048x1024 .f32) (main_arg12 : FVec F S2048x1024 .f32) (main_arg13 : FVec F S2048x1024 .f32) (main_arg14 : FVec F S4096x2048 .f32) (main_arg15 : FVec F S4096x16000 .f32) (main_arg16 : FVec F S50x1 .f32) (main_arg17 : FVec F S50x1024 .f32) (main_arg18 : FVec F S50x2048 .f32) (main_v48 : IVec S_ 1) (main_v49 : FVec F S4096x1024 .f32) (main_v50 : FVec F S4096x1024 .f32) : IVec S_ 1 :=
  let main_v51 : IVec S4096x1024 1 := cmpf .olt main_v49 main_v50
  let main_c_19 : IVec S_ 1 := constantI S_ 1 1#1
  let main_v52 : IVec S_ 1 := (fun x v => Host.reduce IntOp.andi x v reducesTo_S4096x1024_S_d0_1 h_S_) main_v51 main_c_19
  let main_v53 : IVec S_ 1 := andi main_v48 main_v52
  let main_v54 : FVec F S2048x1024 .f32 := Host.absf main_arg11
  let main_cst_20 : FVec F S_ .f32 := constant S_ .f32 0x7F800000#32
  let main_v55 : FVec F S2048x1024 .f32 := broadcastInDim S2048x1024 ![] bcast_S_S2048x1024 main_cst_20
  let main_v56 : IVec S2048x1024 1 := cmpf .olt main_v54 main_v55
  let main_c_21 : IVec S_ 1 := constantI S_ 1 1#1
  let main_v57 : IVec S_ 1 := (fun x v => Host.reduce IntOp.andi x v reducesTo_S2048x1024_S_d0_1 h_S_) main_v56 main_c_21
  let main_v58 : IVec S_ 1 := andi main_v53 main_v57
  let main_v59 : FVec F S2048x1024 .f32 := Host.absf main_arg12
  let main_cst_22 : FVec F S_ .f32 := constant S_ .f32 0x7F800000#32
  let main_v60 : FVec F S2048x1024 .f32 := broadcastInDim S2048x1024 ![] bcast_S_S2048x1024 main_cst_22
  let main_v61 : IVec S2048x1024 1 := cmpf .olt main_v59 main_v60
  let main_c_23 : IVec S_ 1 := constantI S_ 1 1#1
  let main_v62 : IVec S_ 1 := (fun x v => Host.reduce IntOp.andi x v reducesTo_S2048x1024_S_d0_1 h_S_) main_v61 main_c_23
  let main_v63 : IVec S_ 1 := andi main_v58 main_v62
  let main_v64 : FVec F S2048x1024 .f32 := Host.absf main_arg13
  let main_cst_24 : FVec F S_ .f32 := constant S_ .f32 0x7F800000#32
  let main_v65 : FVec F S2048x1024 .f32 := broadcastInDim S2048x1024 ![] bcast_S_S2048x1024 main_cst_24
  let main_v66 : IVec S2048x1024 1 := cmpf .olt main_v64 main_v65
  let main_c_25 : IVec S_ 1 := constantI S_ 1 1#1
  let main_v67 : IVec S_ 1 := (fun x v => Host.reduce IntOp.andi x v reducesTo_S2048x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024x1024 .f32) (main_arg9 : FVec F S1024x1024 .f32) (main_arg10 : FVec F S4096x1024 .f32) (main_arg11 : FVec F S2048x1024 .f32) (main_arg12 : FVec F S2048x1024 .f32) (main_arg13 : FVec F S2048x1024 .f32) (main_arg14 : FVec F S4096x2048 .f32) (main_arg15 : FVec F S4096x16000 .f32) (main_arg16 : FVec F S50x1 .f32) (main_arg17 : FVec F S50x1024 .f32) (main_arg18 : FVec F S50x2048 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S4096x1024 .f32 := Host.absf main_arg10
  let main_cst_18 : FVec F S_ .f32 := constant S_ .f32 0x7F800000#32
  let main_v50 : FVec F S4096x1024 .f32 := broadcastInDim S4096x1024 ![] bcast_S_S4096x1024 main_cst_18
  fn_part3 (F := F) main_arg11 main_arg12 main_arg13 main_arg14 main_arg15 main_arg16 main_arg17 main_arg18 main_v48 main_v49 main_v50

def fn_part1 {F : FTy → Type} [FloatOps F] (main_arg4 : FVec F S16000x1024 .f32) (main_arg5 : FVec F S16000x1024 .f32) (main_arg6 : FVec F S16000x2048 .f32) (main_arg7 : FVec F S1024x1024 .f32) (main_arg8 : FVec F S1024x1024 .f32) (main_arg9 : FVec F S1024x1024 .f32) (main_arg10 : FVec F S4096x1024 .f32) (main_arg11 : FVec F S2048x1024 .f32) (main_arg12 : FVec F S2048x1024 .f32) (main_arg13 : FVec F S2048x1024 .f32) (main_arg14 : FVec F S4096x2048 .f32) (main_arg15 : FVec F S4096x16000 .f32) (main_arg16 : FVec F S50x1 .f32) (main_arg17 : FVec F S50x1024 .f32) (main_arg18 : FVec F S50x2048 .f32) (main_v13 : IVec S_ 1) (main_v16 : IVec S16000x1024 1) : IVec S_ 1 :=
  let main_c_5 : IVec S_ 1 := constantI S_ 1 1#1
  let main_v17 : IVec S_ 1 := (fun x v => Host.reduce IntOp.andi x v reducesTo_S16000x1024_S_d0_1 h_S_) main_v16 main_c_5
  let main_v18 : IVec S_ 1 := andi main_v13 main_v17
  let main_v19 : FVec F S16000x1024 .f32 := Host.absf main_arg4
  let main_cst_6 : FVec F S_ .f32 := constant S_ .f32 0x7F800000#32
  let main_v20 : FVec F S16000x1024 .f32 := broadcastInDim S16000x1024 ![] bcast_S_S16000x1024 main_cst_6
  let main_v21 : IVec S16000x1024 1 := cmpf .olt main_v19 main_v20
  let main_c_7 : IVec S_ 1 := constantI S_ 1 1#1
  let main_v22 : IVec S_ 1 := (fun x v => Host.reduce IntOp.andi x v reducesTo_S16000x1024_S_d0_1 h_S_) main_v21 main_c_7
  let main_v23 : IVec S_ 1 := andi main_v18 main_v22
  let main_v24 : FVec F S16000x1024 .f32 := Host.absf main_arg5
  let main_cst_8 : FVec F S_ .f32 := constant S_ .f32 0x7F800000#32
  let main_v25 : FVec F S16000x1024 .f32 := broadcastInDim S16000x1024 ![] bcast_S_S16000x1024 main_cst_8
  let main_v26 : IVec S16000x1024 1 := cmpf .olt main_v24 main_v25
  let main_c_9 : IVec S_ 1 := constantI S_ 1 1#1
  let main_v27 : IVec S_ 1 := (fun x v => Host.reduce IntOp.andi x v reducesTo_S16000x1024_S_d0_1 h_S_) main_v26 main_c_9
  let main_v28 : IVec S_ 1 := andi main_v23 main_v27
  let main_v29 : FVec F S16000x2048 .f32 := Host.absf main_arg6
  let main_cst_10 : FVec F S_ .f32 := constant S_ .f32 0x7F800000#32
  let main_v30 : FVec F S16000x2048 .f32 := broadcastInDim S16000x2048 ![] bcast_S_S16000x2048 main_cst_10
  let main_v31 : IVec S16000x2048 1 := cmpf .olt main_v29 main_v30
  let main_c_11 : IVec S_ 1 := constantI S_ 1 1#1
  let main_v32 : IVec S_ 1 := (fun x v => Host.reduce IntOp.andi x v reducesTo_S16000x2048_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S16000x1 .f32) (main_arg1 : FVec F S1024x1 .f32) (main_arg2 : FVec F S50x2048 .f32) (main_arg3 : FVec F S16000x1024 .f32) (main_arg4 : FVec F S16000x1024 .f32) (main_arg5 : FVec F S16000x1024 .f32) (main_arg6 : FVec F S16000x2048 .f32) (main_arg7 : FVec F S1024x1024 .f32) (main_arg8 : FVec F S1024x1024 .f32) (main_arg9 : FVec F S1024x1024 .f32) (main_arg10 : FVec F S4096x1024 .f32) (main_arg11 : FVec F S2048x1024 .f32) (main_arg12 : FVec F S2048x1024 .f32) (main_arg13 : FVec F S2048x1024 .f32) (main_arg14 : FVec F S4096x2048 .f32) (main_arg15 : FVec F S4096x16000 .f32) (main_arg16 : FVec F S50x1 .f32) (main_arg17 : FVec F S50x1024 .f32) (main_arg18 : FVec F S50x2048 .f32) : IVec S_ 1 :=
  let main_v0 : FVec F S16000x1 .f32 := Host.absf main_arg0
  let main_cst : FVec F S_ .f32 := constant S_ .f32 0x7F800000#32
  let main_v1 : FVec F S16000x1 .f32 := broadcastInDim S16000x1 ![] bcast_S_S16000x1 main_cst
  let main_v2 : IVec S16000x1 1 := cmpf .olt main_v0 main_v1
  let main_c : IVec S_ 1 := constantI S_ 1 1#1
  let main_v3 : IVec S_ 1 := (fun x v => Host.reduce IntOp.andi x v reducesTo_S16000x1_S_d0_1 h_S_) main_v2 main_c
  let main_v4 : FVec F S1024x1 .f32 := Host.absf main_arg1
  let main_cst_0 : FVec F S_ .f32 := constant S_ .f32 0x7F800000#32
  let main_v5 : FVec F S1024x1 .f32 := broadcastInDim S1024x1 ![] bcast_S_S1024x1 main_cst_0
  let main_v6 : IVec S1024x1 1 := cmpf .olt main_v4 main_v5
  let main_c_1 : IVec S_ 1 := constantI S_ 1 1#1
  let main_v7 : IVec S_ 1 := (fun x v => Host.reduce IntOp.andi x v reducesTo_S1024x1_S_d0_1 h_S_) main_v6 main_c_1
  let main_v8 : IVec S_ 1 := andi main_v3 main_v7
  let main_v9 : FVec F S50x2048 .f32 := Host.absf main_arg2
  let main_cst_2 : FVec F S_ .f32 := constant S_ .f32 0x7F800000#32
  let main_v10 : FVec F S50x2048 .f32 := broadcastInDim S50x2048 ![] bcast_S_S50x2048 main_cst_2
  let main_v11 : IVec S50x2048 1 := cmpf .olt main_v9 main_v10
  let main_c_3 : IVec S_ 1 := constantI S_ 1 1#1
  let main_v12 : IVec S_ 1 := (fun x v => Host.reduce IntOp.andi x v reducesTo_S50x2048_S_d0_1 h_S_) main_v11 main_c_3
  let main_v13 : IVec S_ 1 := andi main_v8 main_v12
  let main_v14 : FVec F S16000x1024 .f32 := Host.absf main_arg3
  let main_cst_4 : FVec F S_ .f32 := constant S_ .f32 0x7F800000#32
  let main_v15 : FVec F S16000x1024 .f32 := broadcastInDim S16000x1024 ![] bcast_S_S16000x1024 main_cst_4
  let main_v16 : IVec S16000x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S16000x1 : Shape := ⟨2, ![16000, 1]⟩
abbrev S1024x1 : Shape := ⟨2, ![1024, 1]⟩
abbrev S50x2048 : Shape := ⟨2, ![50, 2048]⟩
abbrev S16000x1024 : Shape := ⟨2, ![16000, 1024]⟩
abbrev S16000x2048 : Shape := ⟨2, ![16000, 2048]⟩
abbrev S1024x1024 : Shape := ⟨2, ![1024, 1024]⟩
abbrev S4096x1024 : Shape := ⟨2, ![4096, 1024]⟩
abbrev S2048x1024 : Shape := ⟨2, ![2048, 1024]⟩
abbrev S4096x2048 : Shape := ⟨2, ![4096, 2048]⟩
abbrev S4096x16000 : Shape := ⟨2, ![4096, 16000]⟩
abbrev S50x1 : Shape := ⟨2, ![50, 1]⟩
abbrev S50x1024 : Shape := ⟨2, ![50, 1024]⟩
abbrev S1000x512 : Shape := ⟨2, ![1000, 512]⟩
abbrev S1000x1 : Shape := ⟨2, ![1000, 1]⟩
abbrev S512x1 : Shape := ⟨2, ![512, 1]⟩
abbrev S4096x1 : Shape := ⟨2, ![4096, 1]⟩
abbrev S2048x640 : Shape := ⟨2, ![2048, 640]⟩
abbrev S640x1 : Shape := ⟨2, ![640, 1]⟩
abbrev S2048x1 : Shape := ⟨2, ![2048, 1]⟩
abbrev S1x50 : Shape := ⟨2, ![1, 50]⟩
abbrev S50x50 : Shape := ⟨2, ![50, 50]⟩
abbrev S1 : Shape := ⟨1, ![1]⟩
abbrev S1x1 : Shape := ⟨2, ![1, 1]⟩
abbrev S2048 : Shape := ⟨1, ![2048]⟩
abbrev S1x2048 : Shape := ⟨2, ![1, 2048]⟩
abbrev S2048x2x1024 : Shape := ⟨3, ![2048, 2, 1024]⟩
abbrev S2048x2x2048 : Shape := ⟨3, ![2048, 2, 2048]⟩
abbrev S2048x2x1 : Shape := ⟨3, ![2048, 2, 1]⟩
abbrev S512x2x1024 : Shape := ⟨3, ![512, 2, 1024]⟩
abbrev S512x2x2048 : Shape := ⟨3, ![512, 2, 2048]⟩
abbrev S512x2x1 : Shape := ⟨3, ![512, 2, 1]⟩
abbrev S512x1x1024 : Shape := ⟨3, ![512, 1, 1024]⟩
abbrev S512x1024 : Shape := ⟨2, ![512, 1024]⟩
abbrev S512x1x2048 : Shape := ⟨3, ![512, 1, 2048]⟩
abbrev S512x2048 : Shape := ⟨2, ![512, 2048]⟩
abbrev S512x1x1 : Shape := ⟨3, ![512, 1, 1]⟩
abbrev S1000x2048 : Shape := ⟨2, ![1000, 2048]⟩
abbrev S_ : Shape := ⟨0, ![]⟩

abbrev nBuf : Space → Nat
  | .hbm => 48
  | .vmem => 58
  | .smem => 0
  | _ => 0

abbrev bufTy : (tb : Table) → Fin (tcTables nBuf tb) → BufTy
  | .hbm, ⟨0, _⟩ => ⟨S16000x1, .f32⟩
  | .hbm, ⟨1, _⟩ => ⟨S1024x1, .f32⟩
  | .hbm, ⟨2, _⟩ => ⟨S50x2048, .f32⟩
  | .hbm, ⟨3, _⟩ => ⟨S16000x1024, .f32⟩
  | .hbm, ⟨4, _⟩ => ⟨S16000x1024, .f32⟩
  | .hbm, ⟨5, _⟩ => ⟨S16000x1024, .f32⟩
  | .hbm, ⟨6, _⟩ => ⟨S16000x2048, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S4096x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S4096x2048, .f32⟩
  | .hbm, ⟨15, _⟩ => ⟨S4096x16000, .f32⟩
  | .hbm, ⟨16, _⟩ => ⟨S50x1, .f32⟩
  | .hbm, ⟨17, _⟩ => ⟨S50x1024, .f32⟩
  | .hbm, ⟨18, _⟩ => ⟨S50x2048, .f32⟩
  | .hbm, ⟨19, _⟩ => ⟨S1024x1, .f32⟩
  | .hbm, ⟨20, _⟩ => ⟨S1024x1, .f32⟩
  | .hbm, ⟨21, _⟩ => ⟨S1024x1, .f32⟩
  | .hbm, ⟨22, _⟩ => ⟨S4096x1, .f32⟩
  | .hbm, ⟨23, _⟩ => ⟨S2048x1, .f32⟩
  | .hbm, ⟨24, _⟩ => ⟨S50x2048, .f32⟩
  | .hbm, ⟨25, _⟩ => ⟨S1024x1, .f32⟩
  | .hbm, ⟨26, _⟩ => ⟨S1024x1, .f32⟩
  | .hbm, ⟨27, _⟩ => ⟨S1024x1, .f32⟩
  | .hbm, ⟨28, _⟩ => ⟨S2048x2x1024, .f32⟩
  | .hbm, ⟨29, _⟩ => ⟨S2048x2x2048, .f32⟩
  | .hbm, ⟨30, _⟩ => ⟨S2048x2x1, .f32⟩
  | .hbm, ⟨31, _⟩ => ⟨S2048x1, .f32⟩
  | .hbm, ⟨32, _⟩ => ⟨S16000x1, .f32⟩
  | .hbm, ⟨33, _⟩ => ⟨S_, .f32⟩
  | .hbm, ⟨34, _⟩ => ⟨S1, .f32⟩
  | .hbm, ⟨35, _⟩ => ⟨S_, .f32⟩
  | .hbm, ⟨36, _⟩ => ⟨S1, .f32⟩
  | .hbm, ⟨37, _⟩ => ⟨S1, .f32⟩
  | .hbm, ⟨38, _⟩ => ⟨S1x1, .f32⟩
  | .hbm, ⟨39, _⟩ => ⟨S16000x1, .f32⟩
  | .hbm, ⟨40, _⟩ => ⟨S16000x1, .f32⟩
  | .hbm, ⟨41, _⟩ => ⟨S16000x1, .f32⟩
  | .hbm, ⟨42, _⟩ => ⟨S_, .f32⟩
  | .hbm, ⟨43, _⟩ => ⟨S1, .f32⟩
  | .hbm, ⟨44, _⟩ => ⟨S1x1, .f32⟩
  | .hbm, ⟨45, _⟩ => ⟨S1x1, .f32⟩
  | .hbm, ⟨46, _⟩ => ⟨S16000x1, .f32⟩
  | .hbm, ⟨47, _⟩ => ⟨S16000x1, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S1000x512, .f32⟩
  | .local _ .vmem, ⟨5, _⟩ => ⟨S1000x512, .f32⟩
  | .local _ .vmem, ⟨6, _⟩ => ⟨S1000x1, .f32⟩
  | .local _ .vmem, ⟨7, _⟩ => ⟨S1000x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S2048x640, .f32⟩
  | .local _ .vmem, ⟨15, _⟩ => ⟨S2048x640, .f32⟩
  | .local _ .vmem, ⟨16, _⟩ => ⟨S640x1, .f32⟩
  | .local _ .vmem, ⟨17, _⟩ => ⟨S640x1, .f32⟩
  | .local _ .vmem, ⟨18, _⟩ => ⟨S2048x1, .f32⟩
  | .local _ .vmem, ⟨19, _⟩ => ⟨S2048x1, .f32⟩
  | .local _ .vmem, ⟨20, _⟩ => ⟨S1024x1, .f32⟩
  | .local _ .vmem, ⟨21, _⟩ => ⟨S50x2048, .f32⟩
  | .local _ .vmem, ⟨22, _⟩ => ⟨S50x1024, .f32⟩
  | .local _ .vmem, ⟨23, _⟩ => ⟨S50x2048, .f32⟩
  | .local _ .vmem, ⟨24, _⟩ => ⟨S50x1, .f32⟩
  | .local _ .vmem, ⟨25, _⟩ => ⟨S1024x1, .f32⟩
  | .local _ .vmem, ⟨26, _⟩ => ⟨S1024x1, .f32⟩
  | .local _ .vmem, ⟨27, _⟩ => ⟨S1024x1024, .f32⟩
  | .local _ .vmem, ⟨28, _⟩ => ⟨S1024x1024, .f32⟩
  | .local _ .vmem, ⟨29, _⟩ => ⟨S2048x1024, .f32⟩
  | .local _ .vmem, ⟨30, _⟩ => ⟨S2048x1024, .f32⟩
  | .local _ .vmem, ⟨31, _⟩ => ⟨S2048x1, .f32⟩
  | .local _ .vmem, ⟨32, _⟩ => ⟨S50x2048, .f32⟩
  | .local _ .vmem, ⟨33, _⟩ => ⟨S1024x1, .f32⟩
  | .local _ .vmem, ⟨34, _⟩ => ⟨S1024x1, .f32⟩
  | .local _ .vmem, ⟨35, _⟩ => ⟨S1024x1024, .f32⟩
  | .local _ .vmem, ⟨36, _⟩ => ⟨S2048x1024, .f32⟩
  | .local _ .vmem, ⟨37, _⟩ => ⟨S1024x1, .f32⟩
  | .local _ .vmem, ⟨38, _⟩ => ⟨S1024x1, .f32⟩
  | .local _ .vmem, ⟨39, _⟩ => ⟨S2048x1, .f32⟩
  | .local _ .vmem, ⟨40, _⟩ => ⟨S1024x1, .f32⟩
  | .local _ .vmem, ⟨41, _⟩ => ⟨S1024x1, .f32⟩
  | .local _ .vmem, ⟨42, _⟩ => ⟨S1024x1, .f32⟩
  | .local _ .vmem, ⟨43, _⟩ => ⟨S512x2x1024, .f32⟩
  | .local _ .vmem, ⟨44, _⟩ => ⟨S512x2x1024, .f32⟩
  | .local _ .vmem, ⟨45, _⟩ => ⟨S512x2x2048, .f32⟩
  | .local _ .vmem, ⟨46, _⟩ => ⟨S512x2x2048, .f32⟩
  | .local _ .vmem, ⟨47, _⟩ => ⟨S512x2x1, .f32⟩
  | .local _ .vmem, ⟨48, _⟩ => ⟨S512x2x1, .f32⟩
  | .local _ .vmem, ⟨49, _⟩ => ⟨S1024x1, .f32⟩
  | .local _ .vmem, ⟨50, _⟩ => ⟨S2048x1, .f32⟩
  | .local _ .vmem, ⟨51, _⟩ => ⟨S512x1, .f32⟩
  | .local _ .vmem, ⟨52, _⟩ => ⟨S512x1, .f32⟩
  | .local _ .vmem, ⟨53, _⟩ => ⟨S1000x2048, .f32⟩
  | .local _ .vmem, ⟨54, _⟩ => ⟨S1000x2048, .f32⟩
  | .local _ .vmem, ⟨55, _⟩ => ⟨S2048x1, .f32⟩
  | .local _ .vmem, ⟨56, _⟩ => ⟨S1000x1, .f32⟩
  | .local _ .vmem, ⟨57, _⟩ => ⟨S1000x1, .f32⟩
  | _, _ => ⟨S16000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0_0 : Ref sig .tc := ⟨.hbm, 19, rfl⟩
abbrev main_v0_1 : Ref sig .tc := ⟨.hbm, 20, rfl⟩
abbrev main_v0_2 : Ref sig .tc := ⟨.hbm, 21, rfl⟩
abbrev main_v1 : Ref sig .tc := ⟨.hbm, 22, rfl⟩
abbrev main_v2_0 : Ref sig .tc := ⟨.hbm, 23, rfl⟩
abbrev main_v2_1 : Ref sig .tc := ⟨.hbm, 24, rfl⟩
abbrev main_v2_2 : Ref sig .tc := ⟨.hbm, 25, rfl⟩
abbrev main_v2_3 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_call0_cst : Ref sig .tc := ⟨.hbm, 33, rfl⟩
abbrev main_call0_v0 : Ref sig .tc := ⟨.hbm, 34, rfl⟩
abbrev main_call0_cst_0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_cst_1 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_v9 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg10_0 : Ref sig .tc := ⟨.vmem, 30, rfl⟩
abbrev cc2_stg11_0 : Ref sig .tc := ⟨.vmem, 31, rfl⟩
abbrev cc2_stg12_0 : Ref sig .tc := ⟨.vmem, 32, rfl⟩
abbrev cc2_stg13_0 : Ref sig .tc := ⟨.vmem, 33, rfl⟩
abbrev cc2_stg14_0 : Ref sig .tc := ⟨.vmem, 34, rfl⟩
abbrev cc3_stg0_0 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc4_stg0_0 : Ref sig .tc := ⟨.vmem, 43, rfl⟩
abbrev cc4_stg0_1 : Ref sig .tc := ⟨.vmem, 44, rfl⟩
abbrev cc4_stg1_0 : Ref sig .tc := ⟨.vmem, 45, rfl⟩
abbrev cc4_stg1_1 : Ref sig .tc := ⟨.vmem, 46, rfl⟩
abbrev cc4_stg2_0 : Ref sig .tc := ⟨.vmem, 47, rfl⟩
abbrev cc4_stg2_1 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg5_1 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg2_0 : Ref sig .tc := ⟨.vmem, 56, rfl⟩
abbrev cc5_stg2_1 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc2_sem0_0 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem10_0 : DmaSem sig := 30
abbrev cc2_sem11_0 : DmaSem sig := 31
abbrev cc2_sem12_0 : DmaSem sig := 32
abbrev cc2_sem13_0 : DmaSem sig := 33
abbrev cc2_sem14_0 : DmaSem sig := 34
abbrev cc3_sem0_0 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc4_sem0_0 : DmaSem sig := 43
abbrev cc4_sem0_1 : DmaSem sig := 44
abbrev cc4_sem1_0 : DmaSem sig := 45
abbrev cc4_sem1_1 : DmaSem sig := 46
abbrev cc4_sem2_0 : DmaSem sig := 47
abbrev cc4_sem2_1 : DmaSem sig := 48
abbrev cc4_sem3_0 : DmaSem sig := 49
abbrev cc4_sem4_0 : DmaSem sig := 50
abbrev cc4_sem5_0 : DmaSem sig := 51
abbrev cc4_sem5_1 : DmaSem sig := 52
abbrev cc5_sem0_0 : DmaSem sig := 53
abbrev cc5_sem0_1 : DmaSem sig := 54
abbrev cc5_sem1_0 : DmaSem sig := 55
abbrev cc5_sem2_0 : DmaSem sig := 56
abbrev cc5_sem2_1 : DmaSem sig := 57

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![2, 25], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x640 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S640x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S50x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S50x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S50x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S50x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1024x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1024x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1024x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S2048x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S2048x1024 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S2048x1 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S50x2048 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1024x1 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1024x1 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1024x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S2048x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1024x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S2048x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1024x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1024x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1024x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![4], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x2x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x2x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S512x2x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1024x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S2048x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S512x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2048x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  inb_S512x1_S512x1_0_0 : ∀ a, (![0, 0] : Fin 2 → Nat) a + S512x1.size a ≤ S512x1.size a
  h_S512x1 : 0 < S512x1.numel
  inb_S1000x1_S1000x1_0_0 : ∀ a, (![0, 0] : Fin 2 → Nat) a + S1000x1.size a ≤ S1000x1.size a
  h_S1000x1 : 0 < S1000x1.numel
  bitsLt_bf16_f32 : FTy.bits .bf16 < FTy.bits .f32
  inb_S1000x512_S1000x512_0_0 : ∀ a, (![0, 0] : Fin 2 → Nat) a + S1000x512.size a ≤ S1000x512.size a
  h_S1000x512 : 0 < S1000x512.numel
  shapeCasts_S512x1_S512x1 : S512x1.ShapeCasts S512x1
  inb_S2048x1_S2048x1_0_0 : ∀ a, (![0, 0] : Fin 2 → Nat) a + S2048x1.size a ≤ S2048x1.size a
  h_S2048x1 : 0 < S2048x1.numel
  inb_S2048x640_S2048x640_0_0 : ∀ a, (![0, 0] : Fin 2 → Nat) a + S2048x640.size a ≤ S2048x640.size a
  h_S2048x640 : 0 < S2048x640.numel
  inb_S640x1_S640x1_0_0 : ∀ a, (![0, 0] : Fin 2 → Nat) a + S640x1.size a ≤ S640x1.size a
  h_S640x1 : 0 < S640x1.numel
  shapeCasts_S2048x1_S2048x1 : S2048x1.ShapeCasts S2048x1
  inb_S1024x1_S1024x1_0_0 : ∀ a, (![0, 0] : Fin 2 → Nat) a + S1024x1.size a ≤ S1024x1.size a
  h_S1024x1 : 0 < S1024x1.numel
  inb_S50x1024_S50x1024_0_0 : ∀ a, (![0, 0] : Fin 2 → Nat) a + S50x1024.size a ≤ S50x1024.size a
  h_S50x1024 : 0 < S50x1024.numel
  inb_S50x2048_S50x2048_0_0 : ∀ a, (![0, 0] : Fin 2 → Nat) a + S50x2048.size a ≤ S50x2048.size a
  h_S50x2048 : 0 < S50x2048.numel
  broadcasts_S1x50_S50x50 : S1x50.Broadcasts S50x50
  inb_S50x1_S50x1_0_0 : ∀ a, (![0, 0] : Fin 2 → Nat) a + S50x1.size a ≤ S50x1.size a
  h_S50x1 : 0 < S50x1.numel
  reduces_S50x1_S1 : S50x1.Reduces [0] S1
  shapeCasts_S1_S1x1 : S1.ShapeCasts S1x1
  broadcasts_S1x1_S50x1 : S1x1.Broadcasts S50x1
  broadcasts_S50x1_S50x2048 : S50x1.Broadcasts S50x2048
  reduces_S50x2048_S2048 : S50x2048.Reduces [0] S2048
  shapeCasts_S2048_S1x2048 : S2048.ShapeCasts S1x2048
  transposes_S1x2048_p1_0_S2048x1 : S1x2048.Transposes [1, 0] S2048x1
  inb_S1024x1024_S1024x1024_0_0 : ∀ a, (![0, 0] : Fin 2 → Nat) a + S1024x1024.size a ≤ S1024x1024.size a
  h_S1024x1024 : 0 < S1024x1024.numel
  inb_S2048x1024_S2048x1024_0_0 : ∀ a, (![0, 0] : Fin 2 → Nat) a + S2048x1024.size a ≤ S2048x1024.size a
  h_S2048x1024 : 0 < S2048x1024.numel
  shapeCasts_S1024x1_S1024x1 : S1024x1.ShapeCasts S1024x1
  shapeCasts_S4096x1024_S2048x2x1024 : S4096x1024.ShapeCasts S2048x2x1024
  shapeCasts_S4096x2048_S2048x2x2048 : S4096x2048.ShapeCasts S2048x2x2048
  shapeCasts_S4096x1_S2048x2x1 : S4096x1.ShapeCasts S2048x2x1
  inb_S512x2x1024_S512x2x1024_0_0_0 : ∀ a, (![0, 0, 0] : Fin 3 → Nat) a + S512x2x1024.size a ≤ S512x2x1024.size a
  h_S512x2x1024 : 0 < S512x2x1024.numel
  shapeCasts_S512x2x1024_S512x2x1024 : S512x2x1024.ShapeCasts S512x2x1024
  inb_S512x2x2048_S512x2x2048_0_0_0 : ∀ a, (![0, 0, 0] : Fin 3 → Nat) a + S512x2x2048.size a ≤ S512x2x2048.size a
  h_S512x2x2048 : 0 < S512x2x2048.numel
  shapeCasts_S512x2x2048_S512x2x2048 : S512x2x2048.ShapeCasts S512x2x2048
  inb_S512x2x1_S512x2x1_0_0_0 : ∀ a, (![0, 0, 0] : Fin 3 → Nat) a + S512x2x1.size a ≤ S512x2x1.size a
  h_S512x2x1 : 0 < S512x2x1.numel
  shapeCasts_S512x2x1_S512x2x1 : S512x2x1.ShapeCasts S512x2x1
  slices_S512x2x1024_o0_0_0_S512x1x1024 : S512x2x1024.Slices ![0, 0, 0] S512x1x1024
  shapeCasts_S512x1x1024_S512x1024 : S512x1x1024.ShapeCasts S512x1024
  slices_S512x2x1024_o0_1_0_S512x1x1024 : S512x2x1024.Slices ![0, 1, 0] S512x1x1024
  slices_S512x2x2048_o0_0_0_S512x1x2048 : S512x2x2048.Slices ![0, 0, 0] S512x1x2048
  shapeCasts_S512x1x2048_S512x2048 : S512x1x2048.ShapeCasts S512x2048
  slices_S512x2x2048_o0_1_0_S512x1x2048 : S512x2x2048.Slices ![0, 1, 0] S512x1x2048
  slices_S512x2x1_o0_0_0_S512x1x1 : S512x2x1.Slices ![0, 0, 0] S512x1x1
  shapeCasts_S512x1x1_S512x1 : S512x1x1.ShapeCasts S512x1
  slices_S512x2x1_o0_1_0_S512x1x1 : S512x2x1.Slices ![0, 1, 0] S512x1x1
  inb_S1000x2048_S1000x2048_0_0 : ∀ a, (![0, 0] : Fin 2 → Nat) a + S1000x2048.size a ≤ S1000x2048.size a
  h_S1000x2048 : 0 < S1000x2048.numel
  reducesTo_S16000x1_S1_d0 : S16000x1.ReducesTo [0] S1
  h_S_ : 0 < S_.numel
  bcast_S_S1 : S_.BroadcastsInDim S1 (![] : Fin 0 → Fin S1.rank)
  bcast_S1_S1x1_1 : S1.BroadcastsInDim S1x1 (![1] : Fin 1 → Fin S1x1.rank)
  bcast_S1x1_S16000x1_0_1 : S1x1.BroadcastsInDim S16000x1 (![0, 1] : Fin 2 → Fin S16000x1.rank)
  dot_S1000x512_S1000x1_S512x1_0_0_1_1_n_n_wf : DotDims.WF S1000x512 S1000x1 S512x1 [0] [0] [1] [1] [] []
  dot_S2048x640_S640x1_S2048x1_1_0_0_1_n_n_wf : DotDims.WF S2048x640 S640x1 S2048x1 [1] [0] [0] [1] [] []
  dot_S1024x1_S50x1024_S1x50_0_1_1_0_n_n_wf : DotDims.WF S1024x1 S50x1024 S1x50 [0] [1] [1] [0] [] []
  dot_S50x2048_S50x2048_S50x50_1_1_0_0_n_n_wf : DotDims.WF S50x2048 S50x2048 S50x50 [1] [1] [0] [0] [] []
  dot_S50x50_S50x1_S50x1_1_0_0_1_n_n_wf : DotDims.WF S50x50 S50x1 S50x1 [1] [0] [0] [1] [] []
  dot_S1024x1024_S1024x1_S1024x1_0_0_1_1_n_n_wf : DotDims.WF S1024x1024 S1024x1 S1024x1 [0] [0] [1] [1] [] []
  dot_S2048x1024_S2048x1_S1024x1_0_0_1_1_n_n_wf : DotDims.WF S2048x1024 S2048x1 S1024x1 [0] [0] [1] [1] [] []
  dot_S512x1024_S1024x1_S512x1_1_0_0_1_n_n_wf : DotDims.WF S512x1024 S1024x1 S512x1 [1] [0] [0] [1] [] []
  dot_S512x2048_S2048x1_S512x1_1_0_0_1_n_n_wf : DotDims.WF S512x2048 S2048x1 S512x1 [1] [0] [0] [1] [] []
  dot_S1000x2048_S2048x1_S1000x1_1_0_0_1_n_n_wf : DotDims.WF S1000x2048 S2048x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S16000x1024.size a
  hwx0_0 : ∀ i : grid0.Coords, EltTy.bits .f32 = 32 ∨ (Rect.block (s := S16000x1024) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S16000x1024.size a
  hwx0_1 : ∀ i : grid0.Coords, EltTy.bits .f32 = 32 ∨ (Rect.block (s := S16000x1024) S1000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S16000x1024.size a
  hwx0_2 : ∀ i : grid0.Coords, EltTy.bits .f32 = 32 ∨ (Rect.block (s := S16000x1024) S1000x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1.size a ≤ S16000x1.size a
  hwx0_3 : ∀ i : grid0.Coords, EltTy.bits .f32 = 32 ∨ (Rect.block (s := S16000x1) S1000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S1024x1.size a
  hwx0_4 : ∀ i : grid0.Coords, EltTy.bits .f32 = 32 ∨ (Rect.block (s := S1024x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S1024x1.size a
  hwx0_5 : ∀ i : grid0.Coords, EltTy.bits .f32 = 32 ∨ (Rect.block (s := S1024x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S1024x1.size a
  hwx0_6 : ∀ i : grid0.Coords, EltTy.bits .f32 = 32 ∨ (Rect.block (s := S1024x1) S512x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x640.size a ≤ S4096x16000.size a
  hwx1_0 : ∀ i : grid1.Coords, EltTy.bits .f32 = 32 ∨ (Rect.block (s := S4096x16000) S2048x640.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S640x1.size a ≤ S16000x1.size a
  hwx1_1 : ∀ i : grid1.Coords, EltTy.bits .f32 = 32 ∨ (Rect.block (s := S16000x1) S640x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S4096x1.size a
  hwx1_2 : ∀ i : grid1.Coords, EltTy.bits .f32 = 32 ∨ (Rect.block (s := S4096x1) S2048x1.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x1.size a ≤ S1024x1.size a
  hwx2_0 : ∀ i : grid2.Coords, EltTy.bits .f32 = 32 ∨ (Rect.block (s := S1024x1) S1024x1.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S50x2048.size a ≤ S50x2048.size a
  hwx2_1 : ∀ i : grid2.Coords, EltTy.bits .f32 = 32 ∨ (Rect.block (s := S50x2048) S50x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S50x1024.size a ≤ S50x1024.size a
  hwx2_2 : ∀ i : grid2.Coords, EltTy.bits .f32 = 32 ∨ (Rect.block (s := S50x1024) S50x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S50x2048.size a ≤ S50x2048.size a
  hwx2_3 : ∀ i : grid2.Coords, EltTy.bits .f32 = 32 ∨ (Rect.block (s := S50x2048) S50x2048.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S50x1.size a ≤ S50x1.size a
  hwx2_4 : ∀ i : grid2.Coords, EltTy.bits .f32 = 32 ∨ (Rect.block (s := S50x1) S50x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x1.size a ≤ S1024x1.size a
  hwx2_5 : ∀ i : grid2.Coords, EltTy.bits .f32 = 32 ∨ (Rect.block (s := S1024x1) S1024x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1024x1.size a ≤ S1024x1.size a
  hwx2_6 : ∀ i : grid2.Coords, EltTy.bits .f32 = 32 ∨ (Rect.block (s := S1024x1) S1024x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1024x1024.size a ≤ S1024x1024.size a
  hwx2_7 : ∀ i : grid2.Coords, EltTy.bits .f32 = 32 ∨ (Rect.block (s := S1024x1024) S1024x1024.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1024x1024.size a ≤ S1024x1024.size a
  hwx2_8 : ∀ i : grid2.Coords, EltTy.bits .f32 = 32 ∨ (Rect.block (s := S1024x1024) S1024x1024.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S2048x1024.size a ≤ S2048x1024.size a
  hwx2_9 : ∀ i : grid2.Coords, EltTy.bits .f32 = 32 ∨ (Rect.block (s := S2048x1024) S2048x1024.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S2048x1024.size a ≤ S2048x1024.size a
  hwx2_10 : ∀ i : grid2.Coords, EltTy.bits .f32 = 32 ∨ (Rect.block (s := S2048x1024) S2048x1024.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S2048x1.size a ≤ S2048x1.size a
  hwx2_11 : ∀ i : grid2.Coords, EltTy.bits .f32 = 32 ∨ (Rect.block (s := S2048x1) S2048x1.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S50x2048.size a ≤ S50x2048.size a
  hwx2_12 : ∀ i : grid2.Coords, EltTy.bits .f32 = 32 ∨ (Rect.block (s := S50x2048) S50x2048.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1024x1.size a ≤ S1024x1.size a
  hwx2_13 : ∀ i : grid2.Coords, EltTy.bits .f32 = 32 ∨ (Rect.block (s := S1024x1) S1024x1.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1024x1.size a ≤ S1024x1.size a
  hwx2_14 : ∀ i : grid2.Coords, EltTy.bits .f32 = 32 ∨ (Rect.block (s := S1024x1) S1024x1.size (cc2_transform_14 i) (hinb2_14 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S1024x1024.size a
  hwx3_0 : ∀ i : grid3.Coords, EltTy.bits .f32 = 32 ∨ (Rect.block (s := S1024x1024) S1024x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2048x1024.size a ≤ S2048x1024.size a
  hwx3_1 : ∀ i : grid3.Coords, EltTy.bits .f32 = 32 ∨ (Rect.block (s := S2048x1024) S2048x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1024x1.size a ≤ S1024x1.size a
  hwx3_2 : ∀ i : grid3.Coords, EltTy.bits .f32 = 32 ∨ (Rect.block (s := S1024x1) S1024x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x1.size a ≤ S1024x1.size a
  hwx3_3 : ∀ i : grid3.Coords, EltTy.bits .f32 = 32 ∨ (Rect.block (s := S1024x1) S1024x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S2048x1.size a ≤ S2048x1.size a
  hwx3_4 : ∀ i : grid3.Coords, EltTy.bits .f32 = 32 ∨ (Rect.block (s := S2048x1) S2048x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1024x1.size a ≤ S1024x1.size a
  hwx3_5 : ∀ i : grid3.Coords, EltTy.bits .f32 = 32 ∨ (Rect.block (s := S1024x1) S1024x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1024x1.size a ≤ S1024x1.size a
  hwx3_6 : ∀ i : grid3.Coords, EltTy.bits .f32 = 32 ∨ (Rect.block (s := S1024x1) S1024x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1024x1.size a ≤ S1024x1.size a
  hwx3_7 : ∀ i : grid3.Coords, EltTy.bits .f32 = 32 ∨ (Rect.block (s := S1024x1) S1024x1.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x2x1024.size a ≤ S2048x2x1024.size a
  hwx4_0 : ∀ i : grid4.Coords, EltTy.bits .f32 = 32 ∨ (Rect.block (s := S2048x2x1024) S512x2x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x2x2048.size a ≤ S2048x2x2048.size a
  hwx4_1 : ∀ i : grid4.Coords, EltTy.bits .f32 = 32 ∨ (Rect.block (s := S2048x2x2048) S512x2x2048.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x2x1.size a ≤ S2048x2x1.size a
  hwx4_2 : ∀ i : grid4.Coords, EltTy.bits .f32 = 32 ∨ (Rect.block (s := S2048x2x1) S512x2x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1024x1.size a ≤ S1024x1.size a
  hwx4_3 : ∀ i : grid4.Coords, EltTy.bits .f32 = 32 ∨ (Rect.block (s := S1024x1) S1024x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S2048x1.size a ≤ S2048x1.size a
  hwx4_4 : ∀ i : grid4.Coords, EltTy.bits .f32 = 32 ∨ (Rect.block (s := S2048x1) S2048x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S512x1.size a ≤ S2048x1.size a
  hwx4_5 : ∀ i : grid4.Coords, EltTy.bits .f32 = 32 ∨ (Rect.block (s := S2048x1) S512x1.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x2048.size a ≤ S16000x2048.size a
  hwx5_0 : ∀ i : grid5.Coords, EltTy.bits .f32 = 32 ∨ (Rect.block (s := S16000x2048) S1000x2048.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S2048x1.size a ≤ S2048x1.size a
  hwx5_1 : ∀ i : grid5.Coords, EltTy.bits .f32 = 32 ∨ (Rect.block (s := S2048x1) S2048x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x1.size a ≤ S16000x1.size a
  hwx5_2 : ∀ i : grid5.Coords, EltTy.bits .f32 = 32 ∨ (Rect.block (s := S16000x1) S1000x1.size (cc5_transform_2 i) (hinb5_2 i)).WholeWords (EltTy.packing .f32)

variable [Facts₀]

def dot_S1000x512_S1000x1_S512x1_0_0_1_1_n_n : DotDims S1000x512 S1000x1 S512x1 where
  lhsContracting := [0]
  rhsContracting := [0]
  lhsNonContracting := [1]
  rhsNonContracting := [1]
  lhsBatch := []
  rhsBatch := []
  wf := dot_S1000x512_S1000x1_S512x1_0_0_1_1_n_n_wf
def dot_S2048x640_S640x1_S2048x1_1_0_0_1_n_n : DotDims S2048x640 S640x1 S2048x1 where
  lhsContracting := [1]
  rhsContracting := [0]
  lhsNonContracting := [0]
  rhsNonContracting := [1]
  lhsBatch := []
  rhsBatch := []
  wf := dot_S2048x640_S640x1_S2048x1_1_0_0_1_n_n_wf
def dot_S1024x1_S50x1024_S1x50_0_1_1_0_n_n : DotDims S1024x1 S50x1024 S1x50 where
  lhsContracting := [0]
  rhsContracting := [1]
  lhsNonContracting := [1]
  rhsNonContracting := [0]
  lhsBatch := []
  rhsBatch := []
  wf := dot_S1024x1_S50x1024_S1x50_0_1_1_0_n_n_wf
def dot_S50x2048_S50x2048_S50x50_1_1_0_0_n_n : DotDims S50x2048 S50x2048 S50x50 where
  lhsContracting := [1]
  rhsContracting := [1]
  lhsNonContracting := [0]
  rhsNonContracting := [0]
  lhsBatch := []
  rhsBatch := []
  wf := dot_S50x2048_S50x2048_S50x50_1_1_0_0_n_n_wf
def dot_S50x50_S50x1_S50x1_1_0_0_1_n_n : DotDims S50x50 S50x1 S50x1 where
  lhsContracting := [1]
  rhsContracting := [0]
  lhsNonContracting := [0]
  rhsNonContracting := [1]
  lhsBatch := []
  rhsBatch := []
  wf := dot_S50x50_S50x1_S50x1_1_0_0_1_n_n_wf
def dot_S1024x1024_S1024x1_S1024x1_0_0_1_1_n_n : DotDims S1024x1024 S1024x1 S1024x1 where
  lhsContracting := [0]
  rhsContracting := [0]
  lhsNonContracting := [1]
  rhsNonContracting := [1]
  lhsBatch := []
  rhsBatch := []
  wf := dot_S1024x1024_S1024x1_S1024x1_0_0_1_1_n_n_wf
def dot_S2048x1024_S2048x1_S1024x1_0_0_1_1_n_n : DotDims S2048x1024 S2048x1 S1024x1 where
  lhsContracting := [0]
  rhsContracting := [0]
  lhsNonContracting := [1]
  rhsNonContracting := [1]
  lhsBatch := []
  rhsBatch := []
  wf := dot_S2048x1024_S2048x1_S1024x1_0_0_1_1_n_n_wf
def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf
def dot_S512x2048_S2048x1_S512x1_1_0_0_1_n_n : DotDims S512x2048 S2048x1 S512x1 where
  lhsContracting := [1]
  rhsContracting := [0]
  lhsNonContracting := [0]
  rhsNonContracting := [1]
  lhsBatch := []
  rhsBatch := []
  wf := dot_S512x2048_S2048x1_S512x1_1_0_0_1_n_n_wf
def dot_S1000x2048_S2048x1_S1000x1_1_0_0_1_n_n : DotDims S1000x2048 S2048x1 S1000x1 where
  lhsContracting := [1]
  rhsContracting := [0]
  lhsNonContracting := [0]
  rhsNonContracting := [1]
  lhsBatch := []
  rhsBatch := []
  wf := dot_S1000x2048_S2048x1_S1000x1_1_0_0_1_n_n_wf

abbrev win0_0 : Pipeline.Window sig grid0 :=
  Pipeline.Window.ofSpec (Memref.whole main_arg3) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1000x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S512x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg15) S2048x640.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S640x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2048x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S1024x1.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S50x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg17) S50x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg18) S50x2048.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S50x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v0_2) S1024x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v0_1) S1024x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg9) S1024x1024.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg8) S1024x1024.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg13) S2048x1024.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg12) S2048x1024.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v2_0) S2048x1.size cc2_transform_11 reads2_11 true true 1 stage2_11 sem2_11
    hrank2 hreads2_11 hinb2_11 nbuf2_11 (Memref.isWhole_whole _) hwx2_11 hstage2_11

abbrev win2_12 : Pipeline.Window sig grid2 :=
  Pipeline.Window.ofSpec (Memref.whole main_v2_1) S50x2048.size cc2_transform_12 reads2_12 true true 1 stage2_12 sem2_12
    hrank2 hreads2_12 hinb2_12 nbuf2_12 (Memref.isWhole_whole _) hwx2_12 hstage2_12

abbrev win2_13 : Pipeline.Window sig grid2 :=
  Pipeline.Window.ofSpec (Memref.whole main_v2_2) S1024x1.size cc2_transform_13 reads2_13 true true 1 stage2_13 sem2_13
    hrank2 hreads2_13 hinb2_13 nbuf2_13 (Memref.isWhole_whole _) hwx2_13 hstage2_13

abbrev win2_14 : Pipeline.Window sig grid2 :=
  Pipeline.Window.ofSpec (Memref.whole main_v2_3) S1024x1.size cc2_transform_14 reads2_14 true true 1 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

abbrev win3_0 : Pipeline.Window sig grid3 :=
  Pipeline.Window.ofSpec (Memref.whole main_arg7) S1024x1024.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S2048x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v0_0) S1024x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg1) S1024x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v2_0) S2048x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v2_2) S1024x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v2_3) S1024x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v3) S1024x1.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v4) S512x2x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S512x2x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v6) S512x2x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v3) S1024x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v2_0) S2048x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v7) S512x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_arg6) S1000x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v7) S2048x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v8) S1000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S16000x1 : Shape := ⟨2, ![16000, 1]⟩
abbrev S1024x1 : Shape := ⟨2, ![1024, 1]⟩
abbrev S50x2048 : Shape := ⟨2, ![50, 2048]⟩
abbrev S16000x1024 : Shape := ⟨2, ![16000, 1024]⟩
abbrev S16000x2048 : Shape := ⟨2, ![16000, 2048]⟩
abbrev S1024x1024 : Shape := ⟨2, ![1024, 1024]⟩
abbrev S4096x1024 : Shape := ⟨2, ![4096, 1024]⟩
abbrev S2048x1024 : Shape := ⟨2, ![2048, 1024]⟩
abbrev S4096x2048 : Shape := ⟨2, ![4096, 2048]⟩
abbrev S4096x16000 : Shape := ⟨2, ![4096, 16000]⟩
abbrev S50x1 : Shape := ⟨2, ![50, 1]⟩
abbrev S50x1024 : Shape := ⟨2, ![50, 1024]⟩
abbrev S1x50 : Shape := ⟨2, ![1, 50]⟩
abbrev S2048x50 : Shape := ⟨2, ![2048, 50]⟩
abbrev S50x50 : Shape := ⟨2, ![50, 50]⟩
abbrev S50 : Shape := ⟨1, ![50]⟩
abbrev S_ : Shape := ⟨0, ![]⟩
abbrev S1 : Shape := ⟨1, ![1]⟩
abbrev S2048 : Shape := ⟨1, ![2048]⟩
abbrev S2048x1 : Shape := ⟨2, ![2048, 1]⟩
abbrev S1024x16000 : Shape := ⟨2, ![1024, 16000]⟩
abbrev S1024x2048 : Shape := ⟨2, ![1024, 2048]⟩
abbrev S4096x1 : Shape := ⟨2, ![4096, 1]⟩
abbrev S2048x2x1 : Shape := ⟨3, ![2048, 2, 1]⟩
abbrev S1x1 : Shape := ⟨2, ![1, 1]⟩

abbrev nBuf : Space → Nat
  | .hbm => 134
  | .vmem => 0
  | .smem => 0
  | _ => 0

abbrev hbmTy0_0 (i : Nat) : BufTy := match i % 128 with
  | 0 => ⟨S16000x1, .f32⟩
  | 1 => ⟨S1024x1, .f32⟩
  | 2 => ⟨S50x2048, .f32⟩
  | 3 => ⟨S16000x1024, .f32⟩
  | 4 => ⟨S16000x1024, .f32⟩
  | 5 => ⟨S16000x1024, .f32⟩
  | 6 => ⟨S16000x2048, .f32⟩
  | 7 => ⟨S1024x1024, .f32⟩
  | 8 => ⟨S1024x1024, .f32⟩
  | 9 => ⟨S1024x1024, .f32⟩
  | 10 => ⟨S4096x1024, .f32⟩
  | 11 => ⟨S2048x1024, .f32⟩
  | 12 => ⟨S2048x1024, .f32⟩
  | 13 => ⟨S2048x1024, .f32⟩
  | 14 => ⟨S4096x2048, .f32⟩
  | 15 => ⟨S4096x16000, .f32⟩
  | 16 => ⟨S50x1, .f32⟩
  | 17 => ⟨S50x1024, .f32⟩
  | 18 => ⟨S50x2048, .f32⟩
  | 19 => ⟨S50x1, .f32⟩
  | 20 => ⟨S1x50, .f32⟩
  | 21 => ⟨S2048x50, .f32⟩
  | 22 => ⟨S50x50, .f32⟩
  | 23 => ⟨S50x50, .f32⟩
  | 24 => ⟨S50x50, .f32⟩
  | 25 => ⟨S50x50, .f32⟩
  | 26 => ⟨S50x1, .f32⟩
  | 27 => ⟨S50, .f32⟩
  | 28 => ⟨S_, .f32⟩
  | 29 => ⟨S_, .f32⟩
  | 30 => ⟨S_, .f32⟩
  | 31 => ⟨S_, .f32⟩
  | 32 => ⟨S1, .f32⟩
  | 33 => ⟨S50, .f32⟩
  | 34 => ⟨S50, .f32⟩
  | 35 => ⟨S50, .f32⟩
  | 36 => ⟨S_, .f32⟩
  | 37 => ⟨S_, .f32⟩
  | 38 => ⟨S1, .f32⟩
  | 39 => ⟨S50, .f32⟩
  | 40 => ⟨S50, .f32⟩
  | 41 => ⟨S50x1, .f32⟩
  | 42 => ⟨S50x2048, .f32⟩
  | 43 => ⟨S50x2048, .f32⟩
  | 44 => ⟨S_, .f32⟩
  | 45 => ⟨S2048, .f32⟩
  | 46 => ⟨S2048x1, .f32⟩
  | 47 => ⟨S1024x16000, .f32⟩
  | 48 => ⟨S1024x1, .f32⟩
  | 49 => ⟨S1024x1024, .f32⟩
  | 50 => ⟨S1024x1, .f32⟩
  | 51 => ⟨S1024x1, .f32⟩
  | 52 => ⟨S1024x2048, .f32⟩
  | 53 => ⟨S1024x1, .f32⟩
  | 54 => ⟨S1024x1, .f32⟩
  | 55 => ⟨S1024x1, .f32⟩
  | 56 => ⟨S1024x1, .f32⟩
  | 57 => ⟨S_, .f32⟩
  | 58 => ⟨S1024x1, .f32⟩
  | 59 => ⟨S1024x1, .f32⟩
  | 60 => ⟨S_, .f32⟩
  | 61 => ⟨S1024x1, .f32⟩
  | 62 => ⟨S1024x1, .f32⟩
  | 63 => ⟨S1024x16000, .f32⟩
  | 64 => ⟨S1024x1, .f32⟩
  | 65 => ⟨S1024x1024, .f32⟩
  | 66 => ⟨S1024x1, .f32⟩
  | 67 => ⟨S1024x1, .f32⟩
  | 68 => ⟨S1024x2048, .f32⟩
  | 69 => ⟨S1024x1, .f32⟩
  | 70 => ⟨S1024x1, .f32⟩
  | 71 => ⟨S1024x1, .f32⟩
  | 72 => ⟨S1024x1, .f32⟩
  | 73 => ⟨S_, .f32⟩
  | 74 => ⟨S1024x1, .f32⟩
  | 75 => ⟨S1024x1, .f32⟩
  | 76 => ⟨S_, .f32⟩
  | 77 => ⟨S1024x1, .f32⟩
  | 78 => ⟨S1024x1, .f32⟩
  | 79 => ⟨S1024x16000, .f32⟩
  | 80 => ⟨S1024x1, .f32⟩
  | 81 => ⟨S1024x1024, .f32⟩
  | 82 => ⟨S1024x1, .f32⟩
  | 83 => ⟨S1024x1, .f32⟩
  | 84 => ⟨S1024x1, .f32⟩
  | 85 => ⟨S1024x2048, .f32⟩
  | 86 => ⟨S1024x1, .f32⟩
  | 87 => ⟨S1024x1, .f32⟩
  | 88 => ⟨S1024x1, .f32⟩
  | 89 => ⟨S1024x1, .f32⟩
  | 90 => ⟨S_, .f32⟩
  | 91 => ⟨S1024x1, .f32⟩
  | 92 => ⟨S1024x1, .f32⟩
  | 93 => ⟨S_, .f32⟩
  | 94 => ⟨S1024x1, .f32⟩
  | 95 => ⟨S1024x1, .f32⟩
  | 96 => ⟨S_, .f32⟩
  | 97 => ⟨S1024x1, .f32⟩
  | 98 => ⟨S1024x1, .f32⟩
  | 99 => ⟨S1024x1, .f32⟩
  | 100 => ⟨S1024x1, .f32⟩
  | 101 => ⟨S1024x1, .f32⟩
  | 102 => ⟨S4096x1, .f32⟩
  | 103 => ⟨S4096x1, .f32⟩
  | 104 => ⟨S4096x1, .f32⟩
  | 105 => ⟨S4096x1, .f32⟩
  | 106 => ⟨S4096x1, .f32⟩
  | 107 => ⟨S4096x1, .f32⟩
  | 108 => ⟨S4096x1, .f32⟩
  | 109 => ⟨S_, .f32⟩
  | 110 => ⟨S4096x1, .f32⟩
  | 111 => ⟨S4096x1, .f32⟩
  | 112 => ⟨S_, .f32⟩
  | 113 => ⟨S4096x1, .f32⟩
  | 114 => ⟨S4096x1, .f32⟩
  | 115 => ⟨S2048x2x1, .f32⟩
  | 116 => ⟨S_, .f32⟩
  | 117 => ⟨S2048x1, .f32⟩
  | 118 => ⟨S16000x1, .f32⟩
  | 119 => ⟨S_, .f32⟩
  | 120 => ⟨S1, .f32⟩
  | 121 => ⟨S_, .f32⟩
  | 122 => ⟨S1, .f32⟩
  | 123 => ⟨S1, .f32⟩
  | 124 => ⟨S1x1, .f32⟩
  | 125 => ⟨S16000x1, .f32⟩
  | 126 => ⟨S16000x1, .f32⟩
  | 127 => ⟨S16000x1, .f32⟩
  | _ => ⟨S16000x1, .f32⟩

abbrev hbmTy0_1 (i : Nat) : BufTy := match i % 128 with
  | 0 => ⟨S_, .f32⟩
  | 1 => ⟨S1, .f32⟩
  | 2 => ⟨S1x1, .f32⟩
  | 3 => ⟨S1x1, .f32⟩
  | 4 => ⟨S16000x1, .f32⟩
  | 5 => ⟨S16000x1, .f32⟩
  | _ => ⟨S16000x1, .f32⟩

abbrev hbmTy (i : Nat) : BufTy := match i / 128 with
  | 0 => hbmTy0_0 i
  | 1 => hbmTy0_1 i
  | _ => ⟨S16000x1, .f32⟩

abbrev bufTy : (tb : Table) → Fin (tcTables nBuf tb) → BufTy
  | .hbm, ⟨i, _⟩ => hbmTy i
  | _, _ => ⟨S16000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_5 : Ref sig .tc := ⟨.hbm, 73, rfl⟩
abbrev main_v48 : Ref sig .tc := ⟨.hbm, 74, rfl⟩
abbrev main_v49 : Ref sig .tc := ⟨.hbm, 75, rfl⟩
abbrev main_cst_6 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_7 : Ref sig .tc := ⟨.hbm, 90, rfl⟩
abbrev main_v63 : Ref sig .tc := ⟨.hbm, 91, rfl⟩
abbrev main_v64 : Ref sig .tc := ⟨.hbm, 92, rfl⟩
abbrev main_cst_8 : Ref sig .tc := ⟨.hbm, 93, rfl⟩
abbrev main_v65 : Ref sig .tc := ⟨.hbm, 94, rfl⟩
abbrev main_v66 : Ref sig .tc := ⟨.hbm, 95, rfl⟩
abbrev main_cst_9 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_10 : Ref sig .tc := ⟨.hbm, 109, rfl⟩
abbrev main_v79 : Ref sig .tc := ⟨.hbm, 110, rfl⟩
abbrev main_v80 : Ref sig .tc := ⟨.hbm, 111, rfl⟩
abbrev main_cst_11 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_12 : Ref sig .tc := ⟨.hbm, 116, rfl⟩
abbrev main_v84 : Ref sig .tc := ⟨.hbm, 117, rfl⟩
abbrev main_v85 : Ref sig .tc := ⟨.hbm, 118, rfl⟩
abbrev main_call0_cst : Ref sig .tc := ⟨.hbm, 119, rfl⟩
abbrev main_call0_v0 : Ref sig .tc := ⟨.hbm, 120, rfl⟩
abbrev main_call0_cst_0 : Ref sig .tc := ⟨.hbm, 121, rfl⟩
abbrev main_call0_v1 : Ref sig .tc := ⟨.hbm, 122, rfl⟩
abbrev main_call0_v2 : Ref sig .tc := ⟨.hbm, 123, rfl⟩
abbrev main_call0_v3 : Ref sig .tc := ⟨.hbm, 124, rfl⟩
abbrev main_call0_v4 : Ref sig .tc := ⟨.hbm, 125, rfl⟩
abbrev main_call0_v5 : Ref sig .tc := ⟨.hbm, 126, rfl⟩
abbrev main_call0_v6 : Ref sig .tc := ⟨.hbm, 127, rfl⟩
abbrev main_call0_cst_1 : Ref sig .tc := ⟨.hbm, 128, rfl⟩
abbrev main_call0_v7 : Ref sig .tc := ⟨.hbm, 129, rfl⟩
abbrev main_call0_v8 : Ref sig .tc := ⟨.hbm, 130, rfl⟩
abbrev main_call0_v9 : Ref sig .tc := ⟨.hbm, 131, rfl⟩
abbrev main_call0_v10 : Ref sig .tc := ⟨.hbm, 132, rfl⟩
abbrev main_v86 : Ref sig .tc := ⟨.hbm, 133, rfl⟩

abbrev nD : Nat := 1
abbrev τ : Topo := Topo.v7x

variable {F : FTy → Type} [FloatOps F]

class Facts₀ : Prop where
  transposes_S50x1_S1x50_1_0 : S50x1.Transposes [1, 0] S1x50
  transposes_S50x2048_S2048x50_1_0 : S50x2048.Transposes [1, 0] S2048x50
  bcast_S1x50_S50x50_0_1 : S1x50.BroadcastsInDim S50x50 (![0, 1] : Fin 2 → Fin S50x50.rank)
  shapeCasts_S50x1_S50 : S50x1.ShapeCasts S50
  reducesTo_S50_S_d0 : S50.ReducesTo [0] S_
  h_S_ : 0 < S_.numel
  bcast_S_S1 : S_.BroadcastsInDim S1 (![] : Fin 0 → Fin S1.rank)
  bcast_S1_S50_0 : S1.BroadcastsInDim S50 (![0] : Fin 1 → Fin S50.rank)
  bcast_S50_S50x1_0 : S50.BroadcastsInDim S50x1 (![0] : Fin 1 → Fin S50x1.rank)
  bcast_S50x1_S50x2048_0_1 : S50x1.BroadcastsInDim S50x2048 (![0, 1] : Fin 2 → Fin S50x2048.rank)
  reducesTo_S50x2048_S2048_d0 : S50x2048.ReducesTo [0] S2048
  bcast_S2048_S2048x1_0 : S2048.BroadcastsInDim S2048x1 (![0] : Fin 1 → Fin S2048x1.rank)
  transposes_S16000x1024_S1024x16000_1_0 : S16000x1024.Transposes [1, 0] S1024x16000
  transposes_S1024x1024_S1024x1024_1_0 : S1024x1024.Transposes [1, 0] S1024x1024
  transposes_S2048x1024_S1024x2048_1_0 : S2048x1024.Transposes [1, 0] S1024x2048
  bcast_S_S1024x1 : S_.BroadcastsInDim S1024x1 (![] : Fin 0 → Fin S1024x1.rank)
  bcast_S_S4096x1 : S_.BroadcastsInDim S4096x1 (![] : Fin 0 → Fin S4096x1.rank)
  shapeCasts_S4096x1_S2048x2x1 : S4096x1.ShapeCasts S2048x2x1
  reducesTo_S2048x2x1_S2048x1_d1 : S2048x2x1.ReducesTo [1] S2048x1
  reducesTo_S16000x1_S1_d0 : S16000x1.ReducesTo [0] S1
  bcast_S1_S1x1_1 : S1.BroadcastsInDim S1x1 (![1] : Fin 1 → Fin S1x1.rank)
  bcast_S1x1_S16000x1_0_1 : S1x1.BroadcastsInDim S16000x1 (![0, 1] : Fin 2 → Fin S16000x1.rank)
  dot_S50x1024_S1024x1_S50x1_1_0_0_1_n_n_wf : DotDims.WF S50x1024 S1024x1 S50x1 [1] [0] [0] [1] [] []
  dot_S50x2048_S2048x50_S50x50_1_0_0_1_n_n_wf : DotDims.WF S50x2048 S2048x50 S50x50 [1] [0] [0] [1] [] []
  dot_S50x50_S50x1_S50x1_1_0_0_1_n_n_wf : DotDims.WF S50x50 S50x1 S50x1 [1] [0] [0] [1] [] []
  dot_S1024x16000_S16000x1_S1024x1_1_0_0_1_n_n_wf : DotDims.WF S1024x16000 S16000x1 S1024x1 [1] [0] [0] [1] [] []
  dot_S1024x1024_S1024x1_S1024x1_1_0_0_1_n_n_wf : DotDims.WF S1024x1024 S1024x1 S1024x1 [1] [0] [0] [1] [] []
  dot_S1024x2048_S2048x1_S1024x1_1_0_0_1_n_n_wf : DotDims.WF S1024x2048 S2048x1 S1024x1 [1] [0] [0] [1] [] []
  dot_S4096x1024_S1024x1_S4096x1_1_0_0_1_n_n_wf : DotDims.WF S4096x1024 S1024x1 S4096x1 [1] [0] [0] [1] [] []
  dot_S4096x16000_S16000x1_S4096x1_1_0_0_1_n_n_wf : DotDims.WF S4096x16000 S16000x1 S4096x1 [1] [0] [0] [1] [] []
  dot_S4096x2048_S2048x1_S4096x1_1_0_0_1_n_n_wf : DotDims.WF S4096x2048 S2048x1 S4096x1 [1] [0] [0] [1] [] []
  dot_S16000x2048_S2048x1_S16000x1_1_0_0_1_n_n_wf : DotDims.WF S16000x2048 S2048x1 S16000x1 [1] [0] [0] [1] [] []

variable [Facts₀]

def dot_S50x1024_S1024x1_S50x1_1_0_0_1_n_n : DotDims S50x1024 S1024x1 S50x1 where
  lhsContracting := [1]
  rhsContracting := [0]
  lhsNonContracting := [0]
  rhsNonContracting := [1]
  lhsBatch := []
  rhsBatch := []
  wf := dot_S50x1024_S1024x1_S50x1_1_0_0_1_n_n_wf
def dot_S50x2048_S2048x50_S50x50_1_0_0_1_n_n : DotDims S50x2048 S2048x50 S50x50 where
  lhsContracting := [1]
  rhsContracting := [0]
  lhsNonContracting := [0]
  rhsNonContracting := [1]
  lhsBatch := []
  rhsBatch := []
  wf := dot_S50x2048_S2048x50_S50x50_1_0_0_1_n_n_wf
def dot_S50x50_S50x1_S50x1_1_0_0_1_n_n : DotDims S50x50 S50x1 S50x1 where
  lhsContracting := [1]
  rhsContracting := [0]
  lhsNonContracting := [0]
  rhsNonContracting := [1]
  lhsBatch := []
  rhsBatch := []
  wf := dot_S50x50_S50x1_S50x1_1_0_0_1_n_n_wf
def dot_S1024x16000_S16000x1_S1024x1_1_0_0_1_n_n : DotDims S1024x16000 S16000x1 S1024x1 where
  lhsContracting := [1]
  rhsContracting := [0]
  lhsNonContracting := [0]
  rhsNonContracting := [1]
  lhsBatch := []
  rhsBatch := []
  wf := dot_S1024x16000_S16000x1_S1024x1_1_0_0_1_n_n_wf
def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf
def dot_S1024x2048_S2048x1_S1024x1_1_0_0_1_n_n : DotDims S1024x2048 S2048x1 S1024x1 where
  lhsContracting := [1]
  rhsContracting := [0]
  lhsNonContracting := [0]
  rhsNonContracting := [1]
  lhsBatch := []
  rhsBatch := []
  wf := dot_S1024x2048_S2048x1_S1024x1_1_0_0_1_n_n_wf
def dot_S4096x1024_S1024x1_S4096x1_1_0_0_1_n_n : DotDims S4096x1024 S1024x1 S4096x1 where
  lhsContracting := [1]
  rhsContracting := [0]
  lhsNonContracting := [0]
  rhsNonContracting := [1]
  lhsBatch := []
  rhsBatch := []
  wf := dot_S4096x1024_S1024x1_S4096x1_1_0_0_1_n_n_wf
def dot_S4096x16000_S16000x1_S4096x1_1_0_0_1_n_n : DotDims S4096x16000 S16000x1 S4096x1 where
  lhsContracting := [1]
  rhsContracting := [0]
  lhsNonContracting := [0]
  rhsNonContracting := [1]
  lhsBatch := []
  rhsBatch := []
  wf := dot_S4096x16000_S16000x1_S4096x1_1_0_0_1_n_n_wf
def dot_S4096x2048_S2048x1_S4096x1_1_0_0_1_n_n : DotDims S4096x2048 S2048x1 S4096x1 where
  lhsContracting := [1]
  rhsContracting := [0]
  lhsNonContracting := [0]
  rhsNonContracting := [1]
  lhsBatch := []
  rhsBatch := []
  wf := dot_S4096x2048_S2048x1_S4096x1_1_0_0_1_n_n_wf
def dot_S16000x2048_S2048x1_S16000x1_1_0_0_1_n_n : DotDims S16000x2048 S2048x1 S16000x1 where
  lhsContracting := [1]
  rhsContracting := [0]
  lhsNonContracting := [0]
  rhsNonContracting := [1]
  lhsBatch := []
  rhsBatch := []
  wf := dot_S16000x2048_S2048x1_S16000x1_1_0_0_1_n_n_wf

class Facts : Prop extends Facts₀ where

variable [Facts]
-- ==== Proof.KernelRun.lean ====
/-
  The idealized kernel program's run, with its three results named: every weakly fair execution of @main terminates
  without a fault in a state where each result buffer holds what the last segment boundary's contents hold for it,
  and every argument array is as launched. The contents at the boundaries are a fold from the launch memory: a host
  stretch applies its operations, a region puts each of its windows' arrays at what its write-backs leave. This is
  the frame theorem's own argument, keeping the result buffers in the final reading instead of dropping them.
-/
import proofs.«179386_j74783970558463_2_alg».proof.Proof.Gen.KernelIdeal.Frame

set_option maxRecDepth 16384

noncomputable section

namespace Cert.KernelIdeal.RunVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the three result buffers end at the last
    boundary's contents and the nineteen argument arrays as launched. -/
theorem run : θ_run defs (onTc (τ := τ) (main (F := F))) ⟨m, fun _ => 0, ρ⟩ (fun r => ∀ c : Dev nD,
      r.2.mem ((c.tc : Thread nD τ).loc main_v9) = W8 m ρ c (Proc.devRef .tc main_v9)
      ∧ r.2.mem ((c.tc : Thread nD τ).loc main_v3) = W8 m ρ c (Proc.devRef .tc main_v3)
      ∧ r.2.mem ((c.tc : Thread nD τ).loc main_v2_1) = W8 m ρ c (Proc.devRef .tc main_v2_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v9 (by decide)),
       h c _ (mem_uc main_v3 (by decide)),
       h c _ (mem_uc main_v2_1 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c)⟩)

end Cert.KernelIdeal.RunVal

end
-- ==== Proof.LibHostStages.lean ====
/-
  Two facts about a straight line of host operations, for any topology, buffer signature and element values.

  Running two lists of operations one after the other is running their concatenation (`after_append`): a long program can
  be read back stage by stage, each stage from ANY contents before it.

  An outlined function's intermediate values live in buffers typed through the call's record; a value is stored into
  such a buffer and read back through a change of type along the buffer's type equation, there and back. The round trip
  is the identity (`ofBuf_toBuf`): rewriting with it removes those changes of type in pairs, however deeply the function's
  operations nest them, before two spellings of the function's result are compared.
-/
import Idealize.ShloMosaic.Lib.StableHlo.Run

noncomputable section

namespace Cert.Lib.HostStages

open Idealize.ShloMosaic Idealize.ShloMosaic.StableHlo

variable {τ : Topo} {sig : RefSig} {Val : EltTy → Type}

/-- Running two lists of operations one after the other is running their concatenation. -/
theorem after_append (l₁ l₂ : List (HloOp τ sig Val)) :
    ∀ V : Valuation τ sig Val, after (l₁ ++ l₂) V = after l₂ (after l₁ V) := by
  induction l₁ with
  | nil => intro V; rfl
  | cons op l ih => intro V; exact ih (op.result V)

/-- A value stored in a typed buffer and read back is the value. -/
theorem ofBuf_toBuf {T : BufTy} (x : TRef sig T) (v : T.Contents Val) : x.ofBuf (x.toBuf v) = v := by
  obtain ⟨r, h, _, _⟩ := x
  subst h
  rfl

end Cert.Lib.HostStages

end
-- ==== Proof.Chain.lean ====
/-
  What each buffer holds at each boundary between the program's segments, walked back through the fold: a region
  leaves a buffer that is none of its windows' arrays alone, leaves an input window's array as it found it, and leaves
  an output window's array at what its write-backs made of it; a host stretch leaves every buffer it does not write.
  So each region finds, in each of its input windows, either an argument array as launched or an earlier region's
  output; and two of the three results are read straight off the regions that produced them.
-/
import proofs.«179386_j74783970558463_2_alg».proof.Proof.Gen.KernelIdeal.Frame
import proofs.«179386_j74783970558463_2_alg».proof.Proof.LibHostStages
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- Region 0 finds its window 0 at the launch contents of arg3. -/
theorem in0_0 (c : Dev nD) : V0 m ρ c (Pipeline.arrRef spec0 0) = m ((c : Thread nD τ).loc main_arg3) :=
  rfl

/-- Region 0 finds its window 1 at the launch contents of arg4. -/
theorem in0_1 (c : Dev nD) : V0 m ρ c (Pipeline.arrRef spec0 1) = m ((c : Thread nD τ).loc main_arg4) :=
  rfl

/-- Region 0 finds its window 2 at the launch contents of arg5. -/
theorem in0_2 (c : Dev nD) : V0 m ρ c (Pipeline.arrRef spec0 2) = m ((c : Thread nD τ).loc main_arg5) :=
  rfl

/-- Region 0 finds its window 3 at the launch contents of arg0. -/
theorem in0_3 (c : Dev nD) : V0 m ρ c (Pipeline.arrRef spec0 3) = m ((c : Thread nD τ).loc main_arg0) :=
  rfl

/-- Region 1 finds Vo as launched: region 0 does not touch it. -/
theorem in1_0 (c : Dev nD) : V1 m ρ c (Pipeline.arrRef spec1 0) = m ((c : Thread nD τ).loc main_arg15) :=
  (W1_of_ne m ρ c main_arg15 (by decide)).trans (rfl)

/-- Region 1 finds y as launched: region 0 only reads it. -/
theorem in1_1 (c : Dev nD) : V1 m ρ c (Pipeline.arrRef spec1 1) = m ((c : Thread nD τ).loc main_arg0) :=
  ((W1_arr m ρ c 3).trans (((dat0 (V0 m ρ) c).arrAt_in 3 rfl _).trans (A_eq0 (V0 m ρ) c 3)))

/-- Region 2 finds its window 0 at the launch contents of arg1: regions 0 and 1 do not touch it. -/
theorem in2_0 (c : Dev nD) : V2 m ρ c (Pipeline.arrRef spec2 0) = m ((c : Thread nD τ).loc main_arg1) :=
  (W2_of_ne m ρ c main_arg1 (by decide)).trans ((W1_of_ne m ρ c main_arg1 (by decide)).trans (rfl))

/-- Region 2 finds its window 1 at the launch contents of arg2: regions 0 and 1 do not touch it. -/
theorem in2_1 (c : Dev nD) : V2 m ρ c (Pipeline.arrRef spec2 1) = m ((c : Thread nD τ).loc main_arg2) :=
  (W2_of_ne m ρ c main_arg2 (by decide)).trans ((W1_of_ne m ρ c main_arg2 (by decide)).trans (rfl))

/-- Region 2 finds its window 2 at the launch contents of arg17: regions 0 and 1 do not touch it. -/
theorem in2_2 (c : Dev nD) : V2 m ρ c (Pipeline.arrRef spec2 2) = m ((c : Thread nD τ).loc main_arg17) :=
  (W2_of_ne m ρ c main_arg17 (by decide)).trans ((W1_of_ne m ρ c main_arg17 (by decide)).trans (rfl))

/-- Region 2 finds its window 3 at the launch contents of arg18: regions 0 and 1 do not touch it. -/
theorem in2_3 (c : Dev nD) : V2 m ρ c (Pipeline.arrRef spec2 3) = m ((c : Thread nD τ).loc main_arg18) :=
  (W2_of_ne m ρ c main_arg18 (by decide)).trans ((W1_of_ne m ρ c main_arg18 (by decide)).trans (rfl))

/-- Region 2 finds its window 4 at the launch contents of arg16: regions 0 and 1 do not touch it. -/
theorem in2_4 (c : Dev nD) : V2 m ρ c (Pipeline.arrRef spec2 4) = m ((c : Thread nD τ).loc main_arg16) :=
  (W2_of_ne m ρ c main_arg16 (by decide)).trans ((W1_of_ne m ρ c main_arg16 (by decide)).trans (rfl))

/-- Region 2 finds its window 7 at the launch contents of arg9: regions 0 and 1 do not touch it. -/
theorem in2_7 (c : Dev nD) : V2 m ρ c (Pipeline.arrRef spec2 7) = m ((c : Thread nD τ).loc main_arg9) :=
  (W2_of_ne m ρ c main_arg9 (by decide)).trans ((W1_of_ne m ρ c main_arg9 (by decide)).trans (rfl))

/-- Region 2 finds its window 8 at the launch contents of arg8: regions 0 and 1 do not touch it. -/
theorem in2_8 (c : Dev nD) : V2 m ρ c (Pipeline.arrRef spec2 8) = m ((c : Thread nD τ).loc main_arg8) :=
  (W2_of_ne m ρ c main_arg8 (by decide)).trans ((W1_of_ne m ρ c main_arg8 (by decide)).trans (rfl))

/-- Region 2 finds its window 9 at the launch contents of arg13: regions 0 and 1 do not touch it. -/
theorem in2_9 (c : Dev nD) : V2 m ρ c (Pipeline.arrRef spec2 9) = m ((c : Thread nD τ).loc main_arg13) :=
  (W2_of_ne m ρ c main_arg13 (by decide)).trans ((W1_of_ne m ρ c main_arg13 (by decide)).trans (rfl))

/-- Region 2 finds its window 10 at the launch contents of arg12: regions 0 and 1 do not touch it. -/
theorem in2_10 (c : Dev nD) : V2 m ρ c (Pipeline.arrRef spec2 10) = m ((c : Thread nD τ).loc main_arg12) :=
  (W2_of_ne m ρ c main_arg12 (by decide)).trans ((W1_of_ne m ρ c main_arg12 (by decide)).trans (rfl))

/-- Region 2 finds, for its window 5, what region 0 left in its output window 6. -/
theorem in2_5 (c : Dev nD) : V2 m ρ c (Pipeline.arrRef spec2 5) = (dat0 (V0 m ρ) c).arrAt 6 cfg0.N :=
  (W2_of_ne m ρ c main_v0_2 (by decide)).trans (W1_arr m ρ c 6)

/-- Region 2 finds, for its window 6, what region 0 left in its output window 5. -/
theorem in2_6 (c : Dev nD) : V2 m ρ c (Pipeline.arrRef spec2 6) = (dat0 (V0 m ρ) c).arrAt 5 cfg0.N :=
  (W2_of_ne m ρ c main_v0_1 (by decide)).trans (W1_arr m ρ c 5)

/-- Region 3 finds its window 0 at the launch contents of arg7. -/
theorem in3_0 (c : Dev nD) : V3 m ρ c (Pipeline.arrRef spec3 0) = m ((c : Thread nD τ).loc main_arg7) :=
  (W3_of_ne m ρ c main_arg7 (by decide)).trans ((W2_of_ne m ρ c main_arg7 (by decide)).trans ((W1_of_ne m ρ c main_arg7 (by decide)).trans (rfl)))

/-- Region 3 finds its window 1 at the launch contents of arg11. -/
theorem in3_1 (c : Dev nD) : V3 m ρ c (Pipeline.arrRef spec3 1) = m ((c : Thread nD τ).loc main_arg11) :=
  (W3_of_ne m ρ c main_arg11 (by decide)).trans ((W2_of_ne m ρ c main_arg11 (by decide)).trans ((W1_of_ne m ρ c main_arg11 (by decide)).trans (rfl)))

/-- Region 3 finds, for its window 2, what region 0 left in its output window 4. -/
theorem in3_2 (c : Dev nD) : V3 m ρ c (Pipeline.arrRef spec3 2) = (dat0 (V0 m ρ) c).arrAt 4 cfg0.N :=
  (W3_of_ne m ρ c main_v0_0 (by decide)).trans ((W2_of_ne m ρ c main_v0_0 (by decide)).trans (W1_arr m ρ c 4))

/-- Region 3 finds the state as launched: region 2 only reads it. -/
theorem in3_3 (c : Dev nD) : V3 m ρ c (Pipeline.arrRef spec3 3) = m ((c : Thread nD τ).loc main_arg1) :=
  ((W3_arr m ρ c 0).trans (((dat2 (V2 m ρ) c).arrAt_in 0 rfl _).trans (A_eq2 (V2 m ρ) c 0))).trans (in2_0 m ρ c)

/-- Region 3 finds, for its window 4, what region 2 left in its output window 11. -/
theorem in3_4 (c : Dev nD) : V3 m ρ c (Pipeline.arrRef spec3 4) = (dat2 (V2 m ρ) c).arrAt 11 cfg2.N :=
  W3_arr m ρ c 11

/-- Region 3 finds, for its window 5, what region 2 left in its output window 13. -/
theorem in3_5 (c : Dev nD) : V3 m ρ c (Pipeline.arrRef spec3 5) = (dat2 (V2 m ρ) c).arrAt 13 cfg2.N :=
  W3_arr m ρ c 13

/-- Region 3 finds, for its window 6, what region 2 left in its output window 14. -/
theorem in3_6 (c : Dev nD) : V3 m ρ c (Pipeline.arrRef spec3 6) = (dat2 (V2 m ρ) c).arrAt 14 cfg2.N :=
  W3_arr m ρ c 14

/-- Uo is as launched when the first host stretch starts. -/
theorem at4_arg10 (c : Dev nD) : W4 m ρ c (Proc.devRef .tc main_arg10) = m ((c : Thread nD τ).loc main_arg10) :=
  (W4_of_ne m ρ c main_arg10 (by decide)).trans ((W3_of_ne m ρ c main_arg10 (by decide)).trans ((W2_of_ne m ρ c main_arg10 (by decide)).trans ((W1_of_ne m ρ c main_arg10 (by decide)).trans (rfl))))

/-- Co is as launched when the first host stretch starts. -/
theorem at4_arg14 (c : Dev nD) : W4 m ρ c (Proc.devRef .tc main_arg14) = m ((c : Thread nD τ).loc main_arg14) :=
  (W4_of_ne m ρ c main_arg14 (by decide)).trans ((W3_of_ne m ρ c main_arg14 (by decide)).trans ((W2_of_ne m ρ c main_arg14 (by decide)).trans ((W1_of_ne m ρ c main_arg14 (by decide)).trans (rfl))))

/-- When the first host stretch starts, region 1's result buffer holds what region 1 left in its output window. -/
theorem at4_v1 (c : Dev nD) : W4 m ρ c (Proc.devRef .tc main_v1) = (dat1 (V1 m ρ) c).arrAt 2 cfg1.N :=
  (W4_of_ne m ρ c main_v1 (by decide)).trans ((W3_of_ne m ρ c main_v1 (by decide)).trans (W2_arr m ρ c 2))

/-- At region 3's exit its result buffer holds what it left in its output window. -/
theorem at4_v3 (c : Dev nD) : W4 m ρ c (Proc.devRef .tc main_v3) = (dat3 (V3 m ρ) c).arrAt 7 cfg3.N :=
  W4_arr m ρ c 7

/-- At region 3's exit the context buffer holds what region 2 left: region 3 only reads it. -/
theorem at4_v2_0 (c : Dev nD) : W4 m ρ c (Proc.devRef .tc main_v2_0) = (dat2 (V2 m ρ) c).arrAt 11 cfg2.N :=
  ((W4_arr m ρ c 4).trans (((dat3 (V3 m ρ) c).arrAt_in 4 rfl _).trans (A_eq3 (V3 m ρ) c 4))).trans (in3_4 m ρ c)

/-- At region 3's exit the weighted rows' buffer holds what region 2 left in its output window 12. -/
theorem at4_v2_1 (c : Dev nD) : W4 m ρ c (Proc.devRef .tc main_v2_1) = (dat2 (V2 m ρ) c).arrAt 12 cfg2.N :=
  (W4_of_ne m ρ c main_v2_1 (by decide)).trans (W3_arr m ρ c 12)

/-- Region 4 finds the new state as region 3 left it: the reshapes do not write it. -/
theorem in4_3 (c : Dev nD) : V5 m ρ c (Pipeline.arrRef spec4 3) = (dat3 (V3 m ρ) c).arrAt 7 cfg3.N :=
  (StableHlo.after_of_forall_not_mem (b := Proc.devRef .tc main_v3) _ _ (List.forall_iff_forall_mem.mp (by
      simp only [hostOps4, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (at4_v3 m ρ c)

/-- Region 4 finds the context as region 2 left it. -/
theorem in4_4 (c : Dev nD) : V5 m ρ c (Pipeline.arrRef spec4 4) = (dat2 (V2 m ρ) c).arrAt 11 cfg2.N :=
  (StableHlo.after_of_forall_not_mem (b := Proc.devRef .tc main_v2_0) _ _ (List.forall_iff_forall_mem.mp (by
      simp only [hostOps4, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (at4_v2_0 m ρ c)

/-- Region 5 finds Wo as launched. -/
theorem in5_0 (c : Dev nD) : V6 m ρ c (Pipeline.arrRef spec5 0) = m ((c : Thread nD τ).loc main_arg6) :=
  (W6_of_ne m ρ c main_arg6 (by decide)).trans ((StableHlo.after_of_forall_not_mem (b := Proc.devRef .tc main_arg6) _ _ (List.forall_iff_forall_mem.mp (by
      simp only [hostOps4, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans ((W4_of_ne m ρ c main_arg6 (by decide)).trans ((W3_of_ne m ρ c main_arg6 (by decide)).trans ((W2_of_ne m ρ c main_arg6 (by decide)).trans ((W1_of_ne m ρ c main_arg6 (by decide)).trans (rfl))))))

/-- Region 5 finds, for its window 1, what region 4 left in its output window. -/
theorem in5_1 (c : Dev nD) : V6 m ρ c (Pipeline.arrRef spec5 1) = (dat4 (V5 m ρ) c).arrAt 5 cfg4.N :=
  W6_arr m ρ c 5

/-- At region 5's exit the logits' buffer holds what it left in its output window. -/
theorem at7_v8 (c : Dev nD) : W7 m ρ c (Proc.devRef .tc main_v8) = (dat5 (V6 m ρ) c).arrAt 2 cfg5.N :=
  W7_arr m ρ c 2

/-- The second result: the new state as region 3 left it (region 4 only reads it; no host operation writes it). -/
theorem res_v3 (c : Dev nD) : W8 m ρ c (Proc.devRef .tc main_v3) = (dat3 (V3 m ρ) c).arrAt 7 cfg3.N :=
  (StableHlo.after_of_forall_not_mem (b := Proc.devRef .tc main_v3) _ _ (List.forall_iff_forall_mem.mp (by
      simp only [hostOps6, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans ((W7_of_ne m ρ c main_v3 (by decide)).trans (((W6_arr m ρ c 3).trans (((dat4 (V5 m ρ) c).arrAt_in 3 rfl _).trans (A_eq4 (V5 m ρ) c 3))).trans (in4_3 m ρ c)))

/-- The third result: the weighted rows as region 2 left them. -/
theorem res_v2_1 (c : Dev nD) : W8 m ρ c (Proc.devRef .tc main_v2_1) = (dat2 (V2 m ρ) c).arrAt 12 cfg2.N :=
  (StableHlo.after_of_forall_not_mem (b := Proc.devRef .tc main_v2_1) _ _ (List.forall_iff_forall_mem.mp (by
      simp only [hostOps6, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans ((W7_of_ne m ρ c main_v2_1 (by decide)).trans ((W6_of_ne m ρ c main_v2_1 (by decide)).trans ((StableHlo.after_of_forall_not_mem (b := Proc.devRef .tc main_v2_1) _ _ (List.forall_iff_forall_mem.mp (by
      simp only [hostOps4, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (at4_v2_1 m ρ c))))

/-! ## The host stretches -/

/-- Before region 4 the three [4096, .] operands are re-laid with their rows in pairs: window 0 is Uo as [2048,2,1024]. -/
theorem in4_0 (c : Dev nD) : V5 m ρ c (Pipeline.arrRef spec4 0)
    = shapeCast S2048x2x1024 (m ((c : Thread nD τ).loc main_arg10)) shapeCasts_S4096x1024_S2048x2x1024 := by
  have e : StableHlo.after hostOps4 (W4 m ρ c) (Proc.devRef .tc main_v4)
      = shapeCast S2048x2x1024 (W4 m ρ c (Proc.devRef .tc main_arg10)) shapeCasts_S4096x1024_S2048x2x1024 := by
    after_results; rfl
  exact e.trans (congrArg (fun x => shapeCast S2048x2x1024 x shapeCasts_S4096x1024_S2048x2x1024) (at4_arg10 m ρ c))

/-- Window 1 of region 4 is Co as [2048,2,2048]. -/
theorem in4_1 (c : Dev nD) : V5 m ρ c (Pipeline.arrRef spec4 1)
    = shapeCast S2048x2x2048 (m ((c : Thread nD τ).loc main_arg14)) shapeCasts_S4096x2048_S2048x2x2048 := by
  have e : StableHlo.after hostOps4 (W4 m ρ c) (Proc.devRef .tc main_v5)
      = shapeCast S2048x2x2048 (W4 m ρ c (Proc.devRef .tc main_arg14)) shapeCasts_S4096x2048_S2048x2x2048 := by
    after_results; rfl
  exact e.trans (congrArg (fun x => shapeCast S2048x2x2048 x shapeCasts_S4096x2048_S2048x2x2048) (at4_arg14 m ρ c))

/-- Window 2 of region 4 is region 1's result as [2048,2,1]. -/
theorem in4_2 (c : Dev nD) : V5 m ρ c (Pipeline.arrRef spec4 2)
    = shapeCast S2048x2x1 ((dat1 (V1 m ρ) c).arrAt 2 cfg1.N) shapeCasts_S4096x1_S2048x2x1 := by
  have e : StableHlo.after hostOps4 (W4 m ρ c) (Proc.devRef .tc main_v6)
      = shapeCast S2048x2x1 (W4 m ρ c (Proc.devRef .tc main_v1)) shapeCasts_S4096x1_S2048x2x1 := by
    after_results; rfl
  exact e.trans (congrArg (fun x => shapeCast S2048x2x1 x shapeCasts_S4096x1_S2048x2x1) (at4_v1 m ρ c))

/-- The logarithm of the softmax down a column of 16000, as the host spells it: subtract the column's maximum (taken
    from -infinity, and against -infinity once more), exponentiate, sum from zero, take the logarithm, subtract. -/
def tail (x : FVec F S16000x1 .f32) : FVec F S16000x1 .f32 :=
  subf
    (subf x (broadcastInDim S16000x1 ![0, 1] bcast_S1x1_S16000x1_0_1 (broadcastInDim S1x1 ![1] bcast_S1_S1x1_1
      (maximumf (broadcastInDim S1 ![] bcast_S_S1 (constant S_ .f32 0xFF800000#32))
        (Host.reduce FloatOps.maximumf x (constant S_ .f32 0xFF800000#32) reducesTo_S16000x1_S1_d0 h_S_)))))
    (broadcastInDim S16000x1 ![0, 1] bcast_S1x1_S16000x1_0_1 (Host.log (broadcastInDim S1x1 ![1] bcast_S1_S1x1_1
      (Host.reduceAdd (Host.exp (subf x (broadcastInDim S16000x1 ![0, 1] bcast_S1x1_S16000x1_0_1 (broadcastInDim S1x1 ![1] bcast_S1_S1x1_1
        (maximumf (broadcastInDim S1 ![] bcast_S_S1 (constant S_ .f32 0xFF800000#32))
          (Host.reduce FloatOps.maximumf x (constant S_ .f32 0xFF800000#32) reducesTo_S16000x1_S1_d0 h_S_))))))
        (constant S_ .f32 0x00000000#32) reducesTo_S16000x1_S1_d0 h_S_))))

/-- The first result: the last host stretch applies the log-softmax chain to what region 5 left in its output window. -/
theorem res_v9 (c : Dev nD) : W8 m ρ c (Proc.devRef .tc main_v9) = tail ((dat5 (V6 m ρ) c).arrAt 2 cfg5.N) := by
  have e : StableHlo.after hostOps6 (W7 m ρ c) (Proc.devRef .tc main_v9) = tail (W7 m ρ c (Proc.devRef .tc main_v8)) := by
    after_results
    simp only [Cert.Lib.HostStages.ofBuf_toBuf]
    rfl
  exact e.trans (congrArg tail (at7_v8 m ρ c))

end Cert.KernelIdeal.Chain

end
-- ==== Proof.Spec.lean ====
/-
  The decoder step both programs compute, as index formulas on the extended reals.

  One step of an attention decoder: from the previous output y [16000,1], the state s [1024,1] and the encoder
  rows h [50,2048],
    scores  e_t = sum_j tanh(sum_k Wa(j,k) s(k) + sum_k h(t,k) Ua(j,k)) Va(j)            (t < 50, j < 50)
    weights a_t = exp(e_t - m) / sum_u exp(e_u - m),  m the maximum of the e_u taken from -infinity
    alpha(t,q) = h(t,q) a_t,    c(q) = sum_t alpha(t,q)
    r = sigma((Wr^T y + Ur^T s) + Cr^T c),   z likewise,   s~ = sigma((W^T y + U^T (r.s)) + C^T c)
    s' = (1 - z) s + z s~
    t~ = sigma((Uo s' + Vo y) + Co c) [4096,1],   t(R) = max(t~(2R), t~(2R+1)),   logits = Wo t.
  Every sum is a finite sum in the commutative monoid of the extended reals, so how a program groups or tiles it
  does not matter; sigma is 1/(1 + e^-x) with the conventions of the ideal instance at the infinities.
-/
import Idealize.ShloMosaic.PureOps.Ideal
import Idealize.ShloMosaic.Lib.ValueIdx

noncomputable section

namespace Cert.Dec

open Idealize.ShloMosaic Idealize.ShloMosaic.ValueIdx

/-- An [a, b] array of extended reals. -/
abbrev Mat (a b : Nat) : Type := FVec Ideal ⟨2, ![a, b]⟩ .f32
/-- An [a, b, c] array of extended reals. -/
abbrev Cube (a b c : Nat) : Type := FVec Ideal ⟨3, ![a, b, c]⟩ .f32

/-- The float word of 1.0 read on the extended reals (kept as the word: both programs subtract from the same literal). -/
def one : EReal := Ideal.ofBits .f32 0x3F800000#32

/-- The transpose of A [K,N] applied to the column x [K,1]: entry p is the sum over k of A(k,p) x(k). -/
def mvT {K N : Nat} (A : Mat K N) (x : Mat K 1) : Mat N 1 := fun i => ∑ k : Fin K, A (ix2 k (i 0)) * x (ix2 k 0)
theorem mvT_apply {K N : Nat} (A : Mat K N) (x : Mat K 1) (p : Fin N) (q : Fin 1) :
    mvT A x (ix2 p q) = ∑ k : Fin K, A (ix2 k p) * x (ix2 k 0) := rfl

/-- A [N,K] applied to the column x [K,1]: entry p is the sum over k of A(p,k) x(k). -/
def mv {N K : Nat} (A : Mat N K) (x : Mat K 1) : Mat N 1 := fun i => ∑ k : Fin K, A (ix2 (i 0) k) * x (ix2 k 0)
theorem mv_apply {N K : Nat} (A : Mat N K) (x : Mat K 1) (p : Fin N) (q : Fin 1) :
    mv A x (ix2 p q) = ∑ k : Fin K, A (ix2 p k) * x (ix2 k 0) := rfl

/-- A gate: the logistic function of the three contributions, added left to right. -/
def gate {N : Nat} (a b c : Mat N 1) : Mat N 1 := fun i => Ideal.logistic ((a i + b i) + c i)
theorem gate_apply {N : Nat} (a b c : Mat N 1) (i : (⟨2, ![N, 1]⟩ : Shape).Idx) :
    gate a b c i = Ideal.logistic ((a i + b i) + c i) := rfl

/-- The entrywise product of two columns. -/
def had {N : Nat} (a b : Mat N 1) : Mat N 1 := fun i => a i * b i
theorem had_apply {N : Nat} (a b : Mat N 1) (i : (⟨2, ![N, 1]⟩ : Shape).Idx) : had a b i = a i * b i := rfl

/-- The new state: (1 - z) s + z s~. -/
def blend {N : Nat} (z s st : Mat N 1) : Mat N 1 := fun i => (one - z i) * s i + z i * st i
theorem blend_apply {N : Nat} (z s st : Mat N 1) (i : (⟨2, ![N, 1]⟩ : Shape).Idx) :
    blend z s st i = (one - z i) * s i + z i * st i := rfl

/-! ## Attention -/

/-- tanh of the state's projection (one row, the same for every t) plus the encoder rows' projection: entry (t, j). -/
def proj (s : Mat 1024 1) (h : Mat 50 2048) (Wa : Mat 50 1024) (Ua : Mat 50 2048) : Mat 50 50 :=
  fun i => Ideal.tanh ((∑ k : Fin 1024, Wa (ix2 (i 1) k) * s (ix2 k 0)) + ∑ k : Fin 2048, h (ix2 (i 0) k) * Ua (ix2 (i 1) k))
theorem proj_apply (s : Mat 1024 1) (h : Mat 50 2048) (Wa : Mat 50 1024) (Ua : Mat 50 2048) (t j : Fin 50) :
    proj s h Wa Ua (ix2 t j)
      = Ideal.tanh ((∑ k : Fin 1024, Wa (ix2 j k) * s (ix2 k 0)) + ∑ k : Fin 2048, h (ix2 t k) * Ua (ix2 j k)) := rfl

/-- The scores: P [50,50] against the column Va [50,1]. -/
def scores (s : Mat 1024 1) (h : Mat 50 2048) (Wa : Mat 50 1024) (Ua : Mat 50 2048) (Va : Mat 50 1) : Mat 50 1 :=
  mv (proj s h Wa Ua) Va

/-- The largest entry of a column of 50, folded from -infinity. -/
def colMax (x : Mat 50 1) : EReal := (Finset.univ : Finset (Fin 50)).fold max (⊥ : EReal) (fun t => x (ix2 t 0))

/-- The softmax weights of a column of 50 scores. -/
def weights (x : Mat 50 1) : Mat 50 1 :=
  fun i => Ideal.div (Ideal.exp (x (ix2 (i 0) 0) - colMax x)) (∑ u : Fin 50, Ideal.exp (x (ix2 u 0) - colMax x))
theorem weights_apply (x : Mat 50 1) (t : Fin 50) (q : Fin 1) :
    weights x (ix2 t q) = Ideal.div (Ideal.exp (x (ix2 t 0) - colMax x)) (∑ u : Fin 50, Ideal.exp (x (ix2 u 0) - colMax x)) := rfl

/-- The weighted encoder rows. -/
def alpha (h : Mat 50 2048) (a : Mat 50 1) : Mat 50 2048 := fun i => h i * a (ix2 (i 0) 0)
theorem alpha_apply (h : Mat 50 2048) (a : Mat 50 1) (t : Fin 50) (q : Fin 2048) :
    alpha h a (ix2 t q) = h (ix2 t q) * a (ix2 t 0) := rfl

/-- The context: the column sums of the weighted rows, as a column. -/
def ctx (al : Mat 50 2048) : Mat 2048 1 := fun i => ∑ t : Fin 50, al (ix2 t (i 0))
theorem ctx_apply (al : Mat 50 2048) (p : Fin 2048) (q : Fin 1) : ctx al (ix2 p q) = ∑ t : Fin 50, al (ix2 t p) := rfl

/-- The weighted rows as a function of the program's arguments. -/
def alphaOf (s : Mat 1024 1) (h : Mat 50 2048) (Wa : Mat 50 1024) (Ua : Mat 50 2048) (Va : Mat 50 1) : Mat 50 2048 :=
  alpha h (weights (scores s h Wa Ua Va))

/-! ## The maxout layer over rows taken in pairs -/

/-- The maxout of the pair of rows (2R, 2R+1), the [4096, .] operands given with their rows already paired as [2048, 2, .]. -/
def pairMax (Uo : Cube 2048 2 1024) (Co : Cube 2048 2 2048) (Voy : Cube 2048 2 1) (sn : Mat 1024 1) (c : Mat 2048 1) : Mat 2048 1 :=
  fun i => max
    (Ideal.logistic (((∑ k : Fin 1024, Uo (ix3 (i 0) 0 k) * sn (ix2 k 0)) + Voy (ix3 (i 0) 0 0)) + ∑ k : Fin 2048, Co (ix3 (i 0) 0 k) * c (ix2 k 0)))
    (Ideal.logistic (((∑ k : Fin 1024, Uo (ix3 (i 0) 1 k) * sn (ix2 k 0)) + Voy (ix3 (i 0) 1 0)) + ∑ k : Fin 2048, Co (ix3 (i 0) 1 k) * c (ix2 k 0)))
theorem pairMax_apply (Uo : Cube 2048 2 1024) (Co : Cube 2048 2 2048) (Voy : Cube 2048 2 1) (sn : Mat 1024 1) (c : Mat 2048 1)
    (R : Fin 2048) (q : Fin 1) :
    pairMax Uo Co Voy sn c (ix2 R q) = max
      (Ideal.logistic (((∑ k : Fin 1024, Uo (ix3 R 0 k) * sn (ix2 k 0)) + Voy (ix3 R 0 0)) + ∑ k : Fin 2048, Co (ix3 R 0 k) * c (ix2 k 0)))
      (Ideal.logistic (((∑ k : Fin 1024, Uo (ix3 R 1 k) * sn (ix2 k 0)) + Voy (ix3 R 1 0)) + ∑ k : Fin 2048, Co (ix3 R 1 k) * c (ix2 k 0))) := rfl

end Cert.Dec

end
-- ==== Proof.LibMatmulCols.lean ====
/-
  The product of the TRANSPOSE of a [K, M] matrix by a [K, N] matrix, read at an entry, on the extended reals, for any
  extents and element formats: both operands are contracted along their first axis, so entry (p, n) of the product
  taken into a zero accumulator is the sum over k of the left matrix's (k, p) entry times the right matrix's (k, n)
  entry — column p of the left against column n of the right; taken into an accumulator acc it is acc's entry plus
  that sum.
-/
import Idealize.ShloMosaic.PureOps.Ideal.Laws
import Idealize.ShloMosaic.Lib.ValueIdx

noncomputable section

namespace Cert.LibMatmulCols

open Idealize.ShloMosaic Idealize.ShloMosaic.ValueIdx

/-- The dimension numbers of a column-against-column product: contract the left matrix's rows with the right one's rows. -/
abbrev colsDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

variable {K M N : Nat} (wf : DotDims.WF ⟨2, ![K, M]⟩ ⟨2, ![K, N]⟩ ⟨2, ![M, N]⟩ [0] [0] [1] [1] [] [])

/-- The left operand's column coordinate is the output entry's row. -/
theorem lhsIdx_col (j : (⟨2, ![M, N]⟩ : Shape).Idx) (q : (colsDims K M N wf).contr.Idx) :
    ((colsDims K M N wf).lhsIdx j q 1).val = (j 0).val := by
  unfold DotDims.lhsIdx
  rw [dif_neg (show ¬(1 : Fin 2) ∈ (colsDims K M N wf).lhsBatch from List.not_mem_nil),
    dif_pos (show (1 : Fin 2) ∈ (colsDims K M N wf).lhsNonContracting from List.mem_singleton.mpr rfl)]
  rfl

/-- The right operand's column coordinate is the output entry's column. -/
theorem rhsIdx_col (j : (⟨2, ![M, N]⟩ : Shape).Idx) (q : (colsDims K M N wf).contr.Idx) :
    ((colsDims K M N wf).rhsIdx j q 1).val = (j 1).val := by
  unfold DotDims.rhsIdx
  rw [dif_neg (show ¬(1 : Fin 2) ∈ (colsDims K M N wf).rhsBatch from List.not_mem_nil),
    dif_pos (show (1 : Fin 2) ∈ (colsDims K M N wf).rhsNonContracting from List.mem_singleton.mpr rfl)]
  rfl

/-- The left operand's index for output entry (p, n) and contraction index k is (k, p). -/
theorem lhsIdx_eq (p : Fin M) (n : Fin N) (k : Fin K) :
    (colsDims K M N wf).lhsIdx (ix2 p n) ((contrEquiv1 (colsDims K M N wf) K rfl rfl).symm k) = ix2 k p := by
  have hk := contrEquiv1_symm_val (colsDims K M N wf) K rfl rfl k
  funext a
  refine Fin.ext ?_
  match a with
  | ⟨0, _⟩ => exact ((colsDims K M N wf).lhsIdx_val_of_single rfl _ _).trans hk
  | ⟨1, _⟩ => exact lhsIdx_col wf _ _

/-- The right operand's index for output entry (p, n) and contraction index k is (k, n). -/
theorem rhsIdx_eq (p : Fin M) (n : Fin N) (k : Fin K) :
    (colsDims K M N wf).rhsIdx (ix2 p n) ((contrEquiv1 (colsDims K M N wf) K rfl rfl).symm k) = ix2 k n := by
  have hk := contrEquiv1_symm_val (colsDims K M N wf) K rfl rfl k
  funext a
  refine Fin.ext ?_
  match a with
  | ⟨0, _⟩ => exact ((colsDims K M N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32)
    (p : Fin M) (n : Fin N) :
    FloatOps.matmul (colsDims K M N wf) prec lhs rhs acc (ix2 p n)
      = acc (ix2 p n) + ∑ k : Fin K, lhs (ix2 k p) * rhs (ix2 k n) := by
  rw [Ideal.matmul_apply, ← Equiv.sum_comp (contrEquiv1 (colsDims K M N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![K, M]⟩ φ₁) (rhs : FVec Ideal ⟨2, ![K, N]⟩ φ₂) (p : Fin M) (n : Fin N) :
    FloatOps.matmul (colsDims K M N wf) prec lhs rhs (constant ⟨2, ![M, N]⟩ .f32 0x00000000#32) (ix2 p n)
      = ∑ k : Fin K, lhs (ix2 k p) * rhs (ix2 k n) := by
  rw [matmul_apply wf prec lhs rhs _ p n]
  show Ideal.ofBits .f32 0x00000000#32 + _ = _
  rw [Ideal.ofBits_zero_f32, zero_add]

end Cert.LibMatmulCols

end
-- ==== Proof.Region0.lean ====
/-
  The first accumulation of the decoder step, read off its grid: the three products W^T y, Wz^T y, Wr^T y.

  Each weight matrix is [16000, 1024] and y is [16000, 1]; entry P of A^T y is the sum over the 16000 rows k of
  A(k, P) y(k). The grid has 2 * 16 points; point t works on half = t / 16 of the 1024 output entries (512 of them)
  and on step = t % 16 of the 16 groups of 1000 consecutive rows. At the first step of a half the three output
  blocks are set to zero; at every step each block gets, added to it, the product of the transposed [1000, 512]
  weight block with the [1000, 1] block of y, that is at entry p the sum over the 1000 rows of the group of
  A(row, 512 * half + p) y(row). So after step s the block holds the sum over the first (s + 1) * 1000 rows, after
  the last step the sum over all 16000, and that is when the block is written to rows 512 * half ... 512 * half + 511
  of the output array. Only associativity and commutativity of the addition of extended reals are used.
-/
import proofs.«179386_j74783970558463_2_alg».proof.Proof.Gen.KernelIdeal.Frame
import proofs.«179386_j74783970558463_2_alg».proof.Proof.Spec
import proofs.«179386_j74783970558463_2_alg».proof.Proof.LibMatmulCols
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

noncomputable section

namespace Cert.KernelIdeal.Region0

open Cert.KernelIdeal Cert.KernelIdeal.Gen Idealize.ShloMosaic Idealize.ShloMosaic.ValueIdx Idealize.ShloMosaic.TcCoe Idealize.SL.Sem
open Idealize.ShloMosaic.Pipeline (Dat)

/-! ## What one grid point leaves in each output block

The body, on whole staging buffers, stores into each of its three output blocks one value: the block's previous
contents (the zero block at the first step of a half, which the body has just stored there) plus the product of the
transposed weight block with the y block. -/

section Pieces
variable {F : FTy → Type} [FloatOps F]

/-- The zero offsets of a whole-buffer access. -/
theorem hz : (![0, 0] : Fin 2 → Nat) = fun _ => 0 := funext fun a => by fin_cases a <;> rfl

variable (c : Dev nD) (i : grid0.Coords)
  (a2 : Memref sig .tc .vmem S1000x512 .f32) (h2 : a2.IsWhole) (a3 : Memref sig .tc .vmem S1000x512 .f32) (h3 : a3.IsWhole)
  (a4 : Memref sig .tc .vmem S1000x512 .f32) (h4 : a4.IsWhole) (a5 : Memref sig .tc .vmem S1000x1 .f32) (h5 : a5.IsWhole)
  (a6 : Memref sig .tc .vmem S512x1 .f32) (h6 : a6.IsWhole) (a7 : Memref sig .tc .vmem S512x1 .f32) (h7 : a7.IsWhole)
  (a8 : Memref sig .tc .vmem S512x1 .f32) (h8 : a8.IsWhole)
  (x0 x1 x2 : Vec F S1000x512 .f32) (x3 : Vec F S1000x1 .f32) (xo4 xo5 xo6 : Vec F S512x1 .f32)

/-- At a later step of a half the first output block holds its previous contents plus the first product. -/
theorem outB4 (hc : ¬cond0_0 i) :
    out0_B_4 c i a2 h2 a3 h3 a4 h4 a5 h5 a6 h6 a7 h7 a8 h8 hc x0 x1 x2 x3 xo4 xo5 xo6 = k0_pay5 x3 x0 xo4 := by
  unfold out0_B_4
  rw [View.read_writes_eq_canon _ _ _ (cover0_B_4 c i a2 h2 a3 h3 a4 h4 a5 h5 a6 h6 a7 h7 a8 h8 hc x0 x1 x2 x3 xo4 xo5 xo6)]
  unfold kernelRun0_B
  dsimp only
  try sl_unfold_words
  rw [View.canon_unit_zero hz]
  simp only [View.readAt_eq_ld, h2.read_unread, h5.read_unread, h6.read_unread,
    View.ld_unit_zero (S := S1000x1) hz, View.ld_unit_zero (S := S1000x512) hz, View.ld_unit_zero (S := S512x1) hz]

/-- At a later step of a half the second output block holds its previous contents plus the second product. -/
theorem outB5 (hc : ¬cond0_0 i) :
    out0_B_5 c i a2 h2 a3 h3 a4 h4 a5 h5 a6 h6 a7 h7 a8 h8 hc x0 x1 x2 x3 xo4 xo5 xo6 = k0_pay6 x3 x1 xo5 := by
  unfold out0_B_5
  rw [View.read_writes_eq_canon _ _ _ (cover0_B_5 c i a2 h2 a3 h3 a4 h4 a5 h5 a6 h6 a7 h7 a8 h8 hc x0 x1 x2 x3 xo4 xo5 xo6)]
  unfold kernelRun0_B
  dsimp only
  try sl_unfold_words
  rw [View.canon_unit_zero hz]
  simp only [View.readAt_eq_ld, h3.read_unread, h5.read_unread, h7.read_unread,
    View.ld_unit_zero (S := S1000x1) hz, View.ld_unit_zero (S := S1000x512) hz, View.ld_unit_zero (S := S512x1) hz]

/-- At a later step of a half the third output block holds its previous contents plus the third product. -/
theorem outB6 (hc : ¬cond0_0 i) :
    out0_B_6 c i a2 h2 a3 h3 a4 h4 a5 h5 a6 h6 a7 h7 a8 h8 hc x0 x1 x2 x3 xo4 xo5 xo6 = k0_pay7 x3 x2 xo6 := by
  unfold out0_B_6
  rw [View.read_writes_eq_canon _ _ _ (cover0_B_6 c i a2 h2 a3 h3 a4 h4 a5 h5 a6 h6 a7 h7 a8 h8 hc x0 x1 x2 x3 xo4 xo5 xo6)]
  unfold kernelRun0_B
  dsimp only
  try sl_unfold_words
  rw [View.canon_unit_zero hz]
  simp only [View.readAt_eq_ld, h4.read_unread, h5.read_unread, h8.read_unread,
    View.ld_unit_zero (S := S1000x1) hz, View.ld_unit_zero (S := S1000x512) hz, View.ld_unit_zero (S := S512x1) hz]

/-- At the first step of a half the first output block holds the zero block plus the first product. -/
theorem outA4 (hc : cond0_0 i) :
    out0_A_4 c i a2 h2 a3 h3 a4 h4 a5 h5 a6 h6 a7 h7 a8 h8 hc x0 x1 x2 x3 = k0_pay5 x3 x0 (k0_pay1 (F := F)) := by
  unfold out0_A_4
  rw [View.read_writes_eq_canon _ _ _ (cover0_A_4 c i a2 h2 a3 h3 a4 h4 a5 h5 a6 h6 a7 h7 a8 h8 hc x0 x1 x2 x3)]
  unfold kernelRun0_A
  dsimp only
  try sl_unfold_words
  rw [View.canon_cons_unit_zero (S := S512x1) hz, View.readCov_unit_zero (S := S512x1) _ hz]
  simp only [View.readAt_eq_ld, h2.read_unread, h5.read_unread,
    View.ld_unit_zero (S := S1000x1) hz, View.ld_unit_zero (S := S1000x512) hz]

/-- At the first step of a half the second output block holds the zero block plus the second product. -/
theorem outA5 (hc : cond0_0 i) :
    out0_A_5 c i a2 h2 a3 h3 a4 h4 a5 h5 a6 h6 a7 h7 a8 h8 hc x0 x1 x2 x3 = k0_pay6 x3 x1 (k0_pay2 (F := F)) := by
  unfold out0_A_5
  rw [View.read_writes_eq_canon _ _ _ (cover0_A_5 c i a2 h2 a3 h3 a4 h4 a5 h5 a6 h6 a7 h7 a8 h8 hc x0 x1 x2 x3)]
  unfold kernelRun0_A
  dsimp only
  try sl_unfold_words
  rw [View.canon_cons_unit_zero (S := S512x1) hz, View.readCov_unit_zero (S := S512x1) _ hz]
  simp only [View.readAt_eq_ld, h3.read_unread, h5.read_unread,
    View.ld_unit_zero (S := S1000x1) hz, View.ld_unit_zero (S := S1000x512) hz]

/-- At the first step of a half the third output block holds the zero block plus the third product. -/
theorem outA6 (hc : cond0_0 i) :
    out0_A_6 c i a2 h2 a3 h3 a4 h4 a5 h5 a6 h6 a7 h7 a8 h8 hc x0 x1 x2 x3 = k0_pay7 x3 x2 (k0_pay3 (F := F)) := by
  unfold out0_A_6
  rw [View.read_writes_eq_canon _ _ _ (cover0_A_6 c i a2 h2 a3 h3 a4 h4 a5 h5 a6 h6 a7 h7 a8 h8 hc x0 x1 x2 x3)]
  unfold kernelRun0_A
  dsimp only
  try sl_unfold_words
  rw [View.canon_cons_unit_zero (S := S512x1) hz, View.readCov_unit_zero (S := S512x1) _ hz]
  simp only [View.readAt_eq_ld, h4.read_unread, h5.read_unread,
    View.ld_unit_zero (S := S1000x1) hz, View.ld_unit_zero (S := S1000x512) hz]

end Pieces

/-! ## The stored values at an entry, on the extended reals -/

section AtIdeal

/-- The first zero block reads 0 at every entry. -/
theorem zeros1 (j : S512x1.Idx) : k0_pay1 (F := Ideal) j = 0 := Ideal.ofBits_zero_f32
/-- The second zero block reads 0 at every entry. -/
theorem zeros2 (j : S512x1.Idx) : k0_pay2 (F := Ideal) j = 0 := Ideal.ofBits_zero_f32
/-- The third zero block reads 0 at every entry. -/
theorem zeros3 (j : S512x1.Idx) : k0_pay3 (F := Ideal) j = 0 := Ideal.ofBits_zero_f32

/-- Entry (p, q) of "the block plus the transposed weight block times the y block": the block's entry plus the sum
    over the 1000 rows j of the weight block's (j, p) entry times the y block's (j, q) entry. Changing the number
    format of the operands does nothing on the extended reals, and the product is taken into a zero accumulator. -/
theorem step_core (xw : FVec Ideal S1000x512 .f32) (xy : FVec Ideal S1000x1 .f32) (acc : FVec Ideal S512x1 .f32)
    (p : Fin 512) (q : Fin 1) :
    (addf (shapeCast S512x1 acc shapeCasts_S512x1_S512x1)
        (matmul dot_S1000x512_S1000x1_S512x1_0_0_1_1_n_n none (truncf .bf16 xw bitsLt_bf16_f32)
          (truncf .bf16 xy bitsLt_bf16_f32) (constant (F := Ideal) S512x1 .f32 0x00000000#32)) : FVec Ideal S512x1 .f32) (ix2 p q)
      = acc (ix2 p q) + ∑ j : Fin 1000, xw (ix2 j p) * xy (ix2 j q) := by
  rw [addf_apply, shapeCast_self]
  refine congrArg (acc (ix2 p q) + ·) ?_
  exact Cert.LibMatmulCols.matmul_zero_apply (K := 1000) (M := 512) (N := 1)
    dot_S1000x512_S1000x1_S512x1_0_0_1_1_n_n_wf none (truncf .bf16 xw bitsLt_bf16_f32) (truncf .bf16 xy bitsLt_bf16_f32) p q

/-- The first output's stored value at an entry. -/
theorem pay5_apply (xy : FVec Ideal S1000x1 .f32) (xw : FVec Ideal S1000x512 .f32) (acc : FVec Ideal S512x1 .f32)
    (p : Fin 512) (q : Fin 1) :
    k0_pay5 (F := Ideal) xy xw acc (ix2 p q) = acc (ix2 p q) + ∑ j : Fin 1000, xw (ix2 j p) * xy (ix2 j q) := by
  unfold k0_pay5 k0_pay4
  exact step_core xw xy acc p q

/-- The second output's stored value at an entry. -/
theorem pay6_apply (xy : FVec Ideal S1000x1 .f32) (xw : FVec Ideal S1000x512 .f32) (acc : FVec Ideal S512x1 .f32)
    (p : Fin 512) (q : Fin 1) :
    k0_pay6 (F := Ideal) xy xw acc (ix2 p q) = acc (ix2 p q) + ∑ j : Fin 1000, xw (ix2 j p) * xy (ix2 j q) := by
  unfold k0_pay6 k0_pay4
  exact step_core xw xy acc p q

/-- The third output's stored value at an entry. -/
theorem pay7_apply (xy : FVec Ideal S1000x1 .f32) (xw : FVec Ideal S1000x512 .f32) (acc : FVec Ideal S512x1 .f32)
    (p : Fin 512) (q : Fin 1) :
    k0_pay7 (F := Ideal) xy xw acc (ix2 p q) = acc (ix2 p q) + ∑ j : Fin 1000, xw (ix2 j p) * xy (ix2 j q) := by
  unfold k0_pay7 k0_pay4
  exact step_core xw xy acc p q

end AtIdeal

/-! ## Where the blocks sit, and what they read -/

/-- Where each window's block sits at grid point t, with half = t / 16 and step = t % 16: a weight window's at block
    (step, half), the y window's at block (step, 0), an output window's at block (half, 0). -/
theorem idx_facts : ∀ t : Fin cfg0.N,
    win0_0.index t (0 : Fin 2) = t.val % 16 ∧ win0_0.index t (1 : Fin 2) = t.val / 16
    ∧ win0_1.index t (0 : Fin 2) = t.val % 16 ∧ win0_1.index t (1 : Fin 2) = t.val / 16
    ∧ win0_2.index t (0 : Fin 2) = t.val % 16 ∧ win0_2.index t (1 : Fin 2) = t.val / 16
    ∧ win0_3.index t (0 : Fin 2) = t.val % 16 ∧ win0_3.index t (1 : Fin 2) = 0
    ∧ win0_4.index t (0 : Fin 2) = t.val / 16 ∧ win0_4.index t (1 : Fin 2) = 0
    ∧ win0_5.index t (0 : Fin 2) = t.val / 16 ∧ win0_5.index t (1 : Fin 2) = 0
    ∧ win0_6.index t (0 : Fin 2) = t.val / 16 ∧ win0_6.index t (1 : Fin 2) = 0 :=
  (by decide +kernel : ∀ t : Fin grid0.N, _)

section Blocks
variable (V : (c : Dev nD) → (b : Ref sig .tc) → Buf (Elt Ideal) ((c : Thread nD τ).loc b))

/-- The first weight window's block at point t reads its array at row step * 1000 + j and column half * 512 + p. -/
theorem iblk_w0 (c : Dev nD) (t : Fin cfg0.N) (j : Fin 1000) (p : Fin 512) (K : Fin 16000) (P : Fin 1024)
    (hK : K.val = t.val % 16 * 1000 + j.val) (hP : P.val = t.val / 16 * 512 + p.val) :
    (iblk0 V c 0 t : FVec Ideal S1000x512 .f32) (ix2 j p)
      = (V c (Pipeline.arrRef spec0 0) : Cert.Dec.Mat 16000 1024) (ix2 K P) := by
  obtain ⟨e0, e1, -⟩ := idx_facts t
  unfold iblk0
  rw [View.read_apply]
  refine congrArg (V c (Pipeline.arrRef spec0 0)) ?_
  funext a
  apply Fin.ext
  match a with
  | ⟨0, _⟩ => show win0_0.index t (0 : Fin 2) * 1000 + 1 * j.val = K.val; rw [e0, hK]; omega
  | ⟨1, _⟩ => show win0_0.index t (1 : Fin 2) * 512 + 1 * p.val = P.val; rw [e1, hP]; omega

/-- The second weight window's block at point t reads its array at row step * 1000 + j and column half * 512 + p. -/
theorem iblk_w1 (c : Dev nD) (t : Fin cfg0.N) (j : Fin 1000) (p : Fin 512) (K : Fin 16000) (P : Fin 1024)
    (hK : K.val = t.val % 16 * 1000 + j.val) (hP : P.val = t.val / 16 * 512 + p.val) :
    (iblk0 V c 1 t : FVec Ideal S1000x512 .f32) (ix2 j p)
      = (V c (Pipeline.arrRef spec0 1) : Cert.Dec.Mat 16000 1024) (ix2 K P) := by
  obtain ⟨-, -, e0, e1, -⟩ := idx_facts t
  unfold iblk0
  rw [View.read_apply]
  refine congrArg (V c (Pipeline.arrRef spec0 1)) ?_
  funext a
  apply Fin.ext
  match a with
  | ⟨0, _⟩ => show win0_1.index t (0 : Fin 2) * 1000 + 1 * j.val = K.val; rw [e0, hK]; omega
  | ⟨1, _⟩ => show win0_1.index t (1 : Fin 2) * 512 + 1 * p.val = P.val; rw [e1, hP]; omega

/-- The third weight window's block at point t reads its array at row step * 1000 + j and column half * 512 + p. -/
theorem iblk_w2 (c : Dev nD) (t : Fin cfg0.N) (j : Fin 1000) (p : Fin 512) (K : Fin 16000) (P : Fin 1024)
    (hK : K.val = t.val % 16 * 1000 + j.val) (hP : P.val = t.val / 16 * 512 + p.val) :
    (iblk0 V c 2 t : FVec Ideal S1000x512 .f32) (ix2 j p)
      = (V c (Pipeline.arrRef spec0 2) : Cert.Dec.Mat 16000 1024) (ix2 K P) := by
  obtain ⟨-, -, -, -, e0, e1, -⟩ := idx_facts t
  unfold iblk0
  rw [View.read_apply]
  refine congrArg (V c (Pipeline.arrRef spec0 2)) ?_
  funext a
  apply Fin.ext
  match a with
  | ⟨0, _⟩ => show win0_2.index t (0 : Fin 2) * 1000 + 1 * j.val = K.val; rw [e0, hK]; omega
  | ⟨1, _⟩ => show win0_2.index t (1 : Fin 2) * 512 + 1 * p.val = P.val; rw [e1, hP]; omega

/-- The y window's block at point t reads y at row step * 1000 + j. -/
theorem iblk_y (c : Dev nD) (t : Fin cfg0.N) (j : Fin 1000) (q : Fin 1) (K : Fin 16000)
    (hK : K.val = t.val % 16 * 1000 + j.val) :
    (iblk0 V c 3 t : FVec Ideal S1000x1 .f32) (ix2 j q)
      = (V c (Pipeline.arrRef spec0 3) : Cert.Dec.Mat 16000 1) (ix2 K 0) := by
  obtain ⟨-, -, -, -, -, -, e0, e1, -⟩ := idx_facts t
  unfold iblk0
  rw [View.read_apply]
  refine congrArg (V c (Pipeline.arrRef spec0 3)) ?_
  funext a
  apply Fin.ext
  match a with
  | ⟨0, _⟩ => show win0_3.index t (0 : Fin 2) * 1000 + 1 * j.val = K.val; rw [e0, hK]; omega
  | ⟨1, _⟩ => show win0_3.index t (1 : Fin 2) * 1 + 1 * q.val = 0; rw [e1]; omega

end Blocks

/-! ## The running sum

Entry P of the transposed product is the sum over the 16000 rows k of A(k, P) x(k). The grid visits the rows of a
half in 16 steps of 1000 consecutive rows; after step s the block's entry holds the sum over the first (s + 1) * 1000
rows. Partial sums are written over ranges of natural numbers, a row beyond the last contributing 0. -/

section Accumulate

/-- Row k's contribution to entry P of the transposed product (0 beyond the last row). -/
def term (A : Cert.Dec.Mat 16000 1024) (x : Cert.Dec.Mat 16000 1) (P : Fin 1024) (k : ℕ) : EReal :=
  if h : k < 16000 then A (ix2 ⟨k, h⟩ P) * x (ix2 ⟨k, h⟩ 0) else 0

/-- All 16000 contributions make the entry of the transposed product. -/
theorem sum_term (A : Cert.Dec.Mat 16000 1024) (x : Cert.Dec.Mat 16000 1) (P : Fin 1024) (q : Fin 1) :
    ∑ k ∈ Finset.range 16000, term A x P k = Cert.Dec.mvT A x (ix2 P q) := by
  rw [Cert.Dec.mvT_apply, Finset.sum_range]
  refine Finset.sum_congr rfl fun k _ => ?_
  unfold term
  rw [dif_pos k.isLt]

/-- One step: a block whose entry holds the contributions of the rows below s * 1000, plus the product of the 1000
    rows s * 1000 + j read through the blocks, holds the contributions of the rows below (s + 1) * 1000. -/
theorem acc_step (A : Cert.Dec.Mat 16000 1024) (x : Cert.Dec.Mat 16000 1) (P : Fin 1024) (s : ℕ) (hs : s < 16)
    (xw : FVec Ideal S1000x512 .f32) (xy : FVec Ideal S1000x1 .f32) (p : Fin 512) (q : Fin 1)
    (hw : ∀ (j : Fin 1000) (K : Fin 16000), K.val = s * 1000 + j.val → xw (ix2 j p) = A (ix2 K P))
    (hy : ∀ (j : Fin 1000) (K : Fin 16000), K.val = s * 1000 + j.val → xy (ix2 j q) = x (ix2 K 0))
    (a : EReal) (ha : a = ∑ k ∈ Finset.range (s * 1000), term A x P k) :
    a + ∑ j : Fin 1000, xw (ix2 j p) * xy (ix2 j q) = ∑ k ∈ Finset.range ((s + 1) * 1000), term A x P k := by
  have e : (s + 1) * 1000 = s * 1000 + 1000 := by omega
  rw [ha, e, Finset.sum_range_add]
  refine congrArg (_ + ·) ?_
  rw [← Fin.sum_univ_eq_sum_range]
  refine Finset.sum_congr rfl fun j _ => ?_
  have hj := j.isLt
  have hK : s * 1000 + j.val < 16000 := by omega
  unfold term
  rw [dif_pos hK, hw j ⟨_, hK⟩ rfl, hy j ⟨_, hK⟩ rfl]

/-- "After point n the block b holds, at each entry p, the contributions of the first (n % 16 + 1) * 1000 rows to
    entry (n / 16) * 512 + p of the transposed product." -/
def Holds (A : Cert.Dec.Mat 16000 1024) (x : Cert.Dec.Mat 16000 1) (b : FVec Ideal S512x1 .f32) (n : ℕ) : Prop :=
  ∀ (p : Fin 512) (q : Fin 1) (P : Fin 1024), P.val = n / 16 * 512 + p.val →
    b (ix2 p q) = ∑ k ∈ Finset.range ((n % 16 + 1) * 1000), term A x P k

/-- The first step of a half: the zero block plus the first 1000 rows' product. -/
theorem holds_first (A : Cert.Dec.Mat 16000 1024) (x : Cert.Dec.Mat 16000 1) (n : ℕ) (hn : n < 32) (h0 : n % 16 = 0)
    (xw : FVec Ideal S1000x512 .f32) (xy : FVec Ideal S1000x1 .f32)
    (hw : ∀ (j : Fin 1000) (p : Fin 512) (K : Fin 16000) (P : Fin 1024), K.val = n % 16 * 1000 + j.val →
      P.val = n / 16 * 512 + p.val → xw (ix2 j p) = A (ix2 K P))
    (hy : ∀ (j : Fin 1000) (q : Fin 1) (K : Fin 16000), K.val = n % 16 * 1000 + j.val → xy (ix2 j q) = x (ix2 K 0))
    (z b : FVec Ideal S512x1 .f32) (hz : ∀ j, z j = 0)
    (hb : ∀ (p : Fin 512) (q : Fin 1), b (ix2 p q) = z (ix2 p q) + ∑ j : Fin 1000, xw (ix2 j p) * xy (ix2 j q)) :
    Holds A x b n := by
  intro p q P hP
  rw [hb p q, h0]
  refine acc_step A x P 0 (by omega) xw xy p q (fun j K hK => hw j p K P (by rw [h0]; exact hK) hP)
    (fun j K hK => hy j q K (by rw [h0]; exact hK)) _ ?_
  rw [hz, Nat.zero_mul, Finset.range_zero, Finset.sum_empty]

/-- A later step of a half: what the point before left plus the next 1000 rows' product. -/
theorem holds_next (A : Cert.Dec.Mat 16000 1024) (x : Cert.Dec.Mat 16000 1) (n : ℕ) (hn : n < 32) (h0 : ¬n % 16 = 0)
    (xw : FVec Ideal S1000x512 .f32) (xy : FVec Ideal S1000x1 .f32)
    (hw : ∀ (j : Fin 1000) (p : Fin 512) (K : Fin 16000) (P : Fin 1024), K.val = n % 16 * 1000 + j.val →
      P.val = n / 16 * 512 + p.val → xw (ix2 j p) = A (ix2 K P))
    (hy : ∀ (j : Fin 1000) (q : Fin 1) (K : Fin 16000), K.val = n % 16 * 1000 + j.val → xy (ix2 j q) = x (ix2 K 0))
    (prev b : FVec Ideal S512x1 .f32) (hprev : Holds A x prev (n - 1))
    (hb : ∀ (p : Fin 512) (q : Fin 1), b (ix2 p q) = prev (ix2 p q) + ∑ j : Fin 1000, xw (ix2 j p) * xy (ix2 j q)) :
    Holds A x b n := by
  intro p q P hP
  have h1 : (n - 1) / 16 = n / 16 := by omega
  have h2 : (n - 1) % 16 + 1 = n % 16 := by omega
  rw [hb p q]
  refine acc_step A x P (n % 16) (by omega) xw xy p q (fun j K hK => hw j p K P hK hP) (fun j K hK => hy j q K hK) _ ?_
  have := hprev p q P (by rw [h1]; exact hP)
  rw [h2] at this
  exact this

end Accumulate

/-! ## The three output arrays after the region -/

section Run
variable (V : (c : Dev nD) → (b : Ref sig .tc) → Buf (Elt Ideal) ((c : Thread nD τ).loc b))

/-- At the first step of a half (t % 16 = 0) the three output blocks hold the first 1000 rows' sums. -/
theorem outs_first (c : Dev nD) (t : Fin cfg0.N) (h0 : t.val % 16 = 0) :
    Holds (V c (Pipeline.arrRef spec0 0)) (V c (Pipeline.arrRef spec0 3)) (outsAt0 V c t.val t.isLt).1 t.val
    ∧ Holds (V c (Pipeline.arrRef spec0 1)) (V c (Pipeline.arrRef spec0 3)) (outsAt0 V c t.val t.isLt).2.1 t.val
    ∧ Holds (V c (Pipeline.arrRef spec0 2)) (V c (Pipeline.arrRef spec0 3)) (outsAt0 V c t.val t.isLt).2.2 t.val := by
  have hN : grid0.N = 32 := N_0
  have ht : t.val < 32 := hN ▸ t.isLt
  rw [outsAt0_A V c t h0]
  dsimp only
  rw [outA4, outA5, outA6]
  exact ⟨holds_first _ _ t.val ht h0 (iblk0 V c 0 t) (iblk0 V c 3 t) (fun j p K P hK hP => iblk_w0 V c t j p K P hK hP)
      (fun j q K hK => iblk_y V c t j q K hK) k0_pay1 _ zeros1 (fun p q => pay5_apply _ _ _ p q),
    holds_first _ _ t.val ht h0 (iblk0 V c 1 t) (iblk0 V c 3 t) (fun j p K P hK hP => iblk_w1 V c t j p K P hK hP)
      (fun j q K hK => iblk_y V c t j q K hK) k0_pay2 _ zeros2 (fun p q => pay6_apply _ _ _ p q),
    holds_first _ _ t.val ht h0 (iblk0 V c 2 t) (iblk0 V c 3 t) (fun j p K P hK hP => iblk_w2 V c t j p K P hK hP)
      (fun j q K hK => iblk_y V c t j q K hK) k0_pay3 _ zeros3 (fun p q => pay7_apply _ _ _ p q)⟩

/-- At a later step of a half the three output blocks hold one more block of 1000 rows than after the point before. -/
theorem outs_next (c : Dev nD) (t : Fin cfg0.N) (h0 : ¬t.val % 16 = 0) (hlt : t.val - 1 < cfg0.N)
    (ih : Holds (V c (Pipeline.arrRef spec0 0)) (V c (Pipeline.arrRef spec0 3)) (outsAt0 V c (t.val - 1) hlt).1 (t.val - 1)
      ∧ Holds (V c (Pipeline.arrRef spec0 1)) (V c (Pipeline.arrRef spec0 3)) (outsAt0 V c (t.val - 1) hlt).2.1 (t.val - 1)
      ∧ Holds (V c (Pipeline.arrRef spec0 2)) (V c (Pipeline.arrRef spec0 3)) (outsAt0 V c (t.val - 1) hlt).2.2 (t.val - 1)) :
    Holds (V c (Pipeline.arrRef spec0 0)) (V c (Pipeline.arrRef spec0 3)) (outsAt0 V c t.val t.isLt).1 t.val
    ∧ Holds (V c (Pipeline.arrRef spec0 1)) (V c (Pipeline.arrRef spec0 3)) (outsAt0 V c t.val t.isLt).2.1 t.val
    ∧ Holds (V c (Pipeline.arrRef spec0 2)) (V c (Pipeline.arrRef spec0 3)) (outsAt0 V c t.val t.isLt).2.2 t.val := by
  have hN : grid0.N = 32 := N_0
  have ht : t.val < 32 := hN ▸ t.isLt
  rw [outsAt0_B V c t h0]
  dsimp only
  rw [outB4, outB5, outB6]
  exact ⟨holds_next _ _ t.val ht h0 (iblk0 V c 0 t) (iblk0 V c 3 t) (fun j p K P hK hP => iblk_w0 V c t j p K P hK hP)
      (fun j q K hK => iblk_y V c t j q K hK) _ _ ih.1 (fun p q => pay5_apply _ _ _ p q),
    holds_next _ _ t.val ht h0 (iblk0 V c 1 t) (iblk0 V c 3 t) (fun j p K P hK hP => iblk_w1 V c t j p K P hK hP)
      (fun j q K hK => iblk_y V c t j q K hK) _ _ ih.2.1 (fun p q => pay6_apply _ _ _ p q),
    holds_next _ _ t.val ht h0 (iblk0 V c 2 t) (iblk0 V c 3 t) (fun j p K P hK hP => iblk_w2 V c t j p K P hK hP)
      (fun j q K hK => iblk_y V c t j q K hK) _ _ ih.2.2 (fun p q => pay7_apply _ _ _ p q)⟩

/-- After every point the three output blocks hold the running sums, by induction on the point. -/
theorem outs_hold (c : Dev nD) : ∀ (n : ℕ) (h : n < cfg0.N),
    Holds (V c (Pipeline.arrRef spec0 0)) (V c (Pipeline.arrRef spec0 3)) (outsAt0 V c n h).1 n
    ∧ Holds (V c (Pipeline.arrRef spec0 1)) (V c (Pipeline.arrRef spec0 3)) (outsAt0 V c n h).2.1 n
    ∧ Holds (V c (Pipeline.arrRef spec0 2)) (V c (Pipeline.arrRef spec0 3)) (outsAt0 V c n h).2.2 n
  | 0, h => outs_first V c ⟨0, h⟩ rfl
  | n + 1, h => by
    by_cases h0 : (n + 1) % 16 = 0
    · exact outs_first V c ⟨n + 1, h⟩ h0
    · exact outs_next V c ⟨n + 1, h⟩ h0 (Nat.lt_of_succ_lt h) (outs_hold c n (Nat.lt_of_succ_lt h))

/-! ### Output window 4: the first weight matrix -/

/-- An entry of the array is in point t's block of output 4 iff each coordinate is in the block's range. -/
theorem mem_blk4 (t : Fin cfg0.N) (i : S1024x1.Idx) :
    i ∈ ((cfg0.win 4).blk t).view.set ↔ ∀ a : Fin 2, win0_4.index t a * S512x1.size a ≤ (i a).val
      ∧ (i a).val < win0_4.index t a * S512x1.size a + S512x1.size a := by
  show i ∈ ((View.whole main_v0_0).slice (win0_4.rect t)).set ↔ _
  rw [View.set_slice_whole, Rect.mem_set_unit]
  exact Iff.rfl

/-- What a writing-back point (the last step of a half) writes of output 4 is its block of the transposed product:
    there the running sum has all 16000 rows. -/
theorem flushed4 (c : Dev nD) (t : Fin cfg0.N) (hf : (cfg0.win 4).flush t = true) :
    (dat0 (F := Ideal) V c).flushed 4 t = ((cfg0.win 4).blk t).view.read (Elt Ideal)
      (Cert.Dec.mvT (V c (Pipeline.arrRef spec0 0)) (V c (Pipeline.arrRef spec0 3))) := by
  have h15 : t.val % 16 = 15 := (flush0_4 t).mp hf
  have hN : grid0.N = 32 := N_0
  have ht : t.val < 32 := hN ▸ t.isLt
  obtain ⟨-, -, -, -, -, -, -, -, e0, e1, -⟩ := idx_facts t
  show (cfg0.win 4).cut (grid0.coords t) ((dat0 (F := Ideal) V c).after 4 t) = _
  rw [after0_4]
  funext j
  obtain ⟨p, q, rfl⟩ : ∃ (p : Fin 512) (q : Fin 1), j = ix2 p q := ⟨j 0, j 1, eq_ix2 (n0 := 512) (n1 := 1) j⟩
  have hp := p.isLt
  have hq := q.isLt
  have hPlt : t.val / 16 * 512 + p.val < 1024 := by omega
  have hemb : ((cfg0.win 4).blk t).view.emb (ix2 p q) = ix2 (⟨t.val / 16 * 512 + p.val, hPlt⟩ : Fin 1024) (0 : Fin 1) := by
    funext a
    apply Fin.ext
    match a with
    | ⟨0, _⟩ => show win0_4.index t (0 : Fin 2) * 512 + 1 * p.val = t.val / 16 * 512 + p.val; rw [e0]; omega
    | ⟨1, _⟩ => show win0_4.index t (1 : Fin 2) * 1 + 1 * q.val = 0; rw [e1]; omega
  rw [View.read_apply]
  refine Eq.trans ?_ (congrArg (Cert.Dec.mvT (V c (Pipeline.arrRef spec0 0)) (V c (Pipeline.arrRef spec0 3))) hemb).symm
  rw [← sum_term _ _ _ (0 : Fin 1)]
  have := (outs_hold V c t.val t.isLt).1 p q ⟨t.val / 16 * 512 + p.val, hPlt⟩ rfl
  rw [h15] at this
  exact this

/-- Every entry of output 4's array is in the block some writing-back point writes: entry P in the block of the
    last step of half P / 512. -/
theorem cover4 (c : Dev nD) (i : ((cfg0.win 4).arr.view.loc (c.tc : Thread nD τ)).2.ty.Idx) :
    ∃ t : Fin cfg0.N, (cfg0.win 4).flush t = true ∧ i ∈ ((cfg0.win 4).blk t).view.set := by
  have hN : grid0.N = 32 := N_0
  have h0 : (i 0 : Nat) < 1024 := (i 0).isLt
  have h1 : (i 1 : Nat) < 1 := (i 1).isLt
  have hlt : 16 * ((i 0 : Nat) / 512) + 15 < cfg0.N := by show _ < grid0.N; rw [hN]; omega
  obtain ⟨-, -, -, -, -, -, -, -, e0, e1, -⟩ := idx_facts ⟨16 * ((i 0 : Nat) / 512) + 15, hlt⟩
  refine ⟨⟨16 * ((i 0 : Nat) / 512) + 15, hlt⟩, (flush0_4 _).mpr (by show (16 * ((i 0 : Nat) / 512) + 15) % 16 = 15; omega), ?_⟩
  rw [mem_blk4]
  intro a
  match a with
  | ⟨0, _⟩ =>
    show win0_4.index ⟨16 * ((i 0 : Nat) / 512) + 15, hlt⟩ (0 : Fin 2) * 512 ≤ (i 0 : Nat)
      ∧ (i 0 : Nat) < win0_4.index ⟨16 * ((i 0 : Nat) / 512) + 15, hlt⟩ (0 : Fin 2) * 512 + 512
    rw [e0]
    show (16 * ((i 0 : Nat) / 512) + 15) / 16 * 512 ≤ (i 0 : Nat) ∧ (i 0 : Nat) < (16 * ((i 0 : Nat) / 512) + 15) / 16 * 512 + 512
    omega
  | ⟨1, _⟩ =>
    show win0_4.index ⟨16 * ((i 0 : Nat) / 512) + 15, hlt⟩ (1 : Fin 2) * 1 ≤ (i 1 : Nat)
      ∧ (i 1 : Nat) < win0_4.index ⟨16 * ((i 0 : Nat) / 512) + 15, hlt⟩ (1 : Fin 2) * 1 + 1
    rw [e1]
    omega

/-- After the region the first output array is the transpose of the first weight matrix applied to y. -/
theorem arr4 (c : Dev nD) : (dat0 (F := Ideal) V c).arrAt 4 cfg0.N
    = Cert.Dec.mvT (V c (Pipeline.arrRef spec0 0)) (V c (Pipeline.arrRef spec0 3)) :=
  (dat0 (F := Ideal) V c).arrAt_eq_of_cover 4 _ (flushed4 V c) (cover4 c)

/-! ### Output window 5: the second weight matrix -/

/-- An entry of the array is in point t's block of output 5 iff each coordinate is in the block's range. -/
theorem mem_blk5 (t : Fin cfg0.N) (i : S1024x1.Idx) :
    i ∈ ((cfg0.win 5).blk t).view.set ↔ ∀ a : Fin 2, win0_5.index t a * S512x1.size a ≤ (i a).val
      ∧ (i a).val < win0_5.index t a * S512x1.size a + S512x1.size a := by
  show i ∈ ((View.whole main_v0_1).slice (win0_5.rect t)).set ↔ _
  rw [View.set_slice_whole, Rect.mem_set_unit]
  exact Iff.rfl

/-- What a writing-back point (the last step of a half) writes of output 5 is its block of the transposed product:
    there the running sum has all 16000 rows. -/
theorem flushed5 (c : Dev nD) (t : Fin cfg0.N) (hf : (cfg0.win 5).flush t = true) :
    (dat0 (F := Ideal) V c).flushed 5 t = ((cfg0.win 5).blk t).view.read (Elt Ideal)
      (Cert.Dec.mvT (V c (Pipeline.arrRef spec0 1)) (V c (Pipeline.arrRef spec0 3))) := by
  have h15 : t.val % 16 = 15 := (flush0_5 t).mp hf
  have hN : grid0.N = 32 := N_0
  have ht : t.val < 32 := hN ▸ t.isLt
  obtain ⟨-, -, -, -, -, -, -, -, -, -, e0, e1, -⟩ := idx_facts t
  show (cfg0.win 5).cut (grid0.coords t) ((dat0 (F := Ideal) V c).after 5 t) = _
  rw [after0_5]
  funext j
  obtain ⟨p, q, rfl⟩ : ∃ (p : Fin 512) (q : Fin 1), j = ix2 p q := ⟨j 0, j 1, eq_ix2 (n0 := 512) (n1 := 1) j⟩
  have hp := p.isLt
  have hq := q.isLt
  have hPlt : t.val / 16 * 512 + p.val < 1024 := by omega
  have hemb : ((cfg0.win 5).blk t).view.emb (ix2 p q) = ix2 (⟨t.val / 16 * 512 + p.val, hPlt⟩ : Fin 1024) (0 : Fin 1) := by
    funext a
    apply Fin.ext
    match a with
    | ⟨0, _⟩ => show win0_5.index t (0 : Fin 2) * 512 + 1 * p.val = t.val / 16 * 512 + p.val; rw [e0]; omega
    | ⟨1, _⟩ => show win0_5.index t (1 : Fin 2) * 1 + 1 * q.val = 0; rw [e1]; omega
  rw [View.read_apply]
  refine Eq.trans ?_ (congrArg (Cert.Dec.mvT (V c (Pipeline.arrRef spec0 1)) (V c (Pipeline.arrRef spec0 3))) hemb).symm
  rw [← sum_term _ _ _ (0 : Fin 1)]
  have := (outs_hold V c t.val t.isLt).2.1 p q ⟨t.val / 16 * 512 + p.val, hPlt⟩ rfl
  rw [h15] at this
  exact this

/-- Every entry of output 5's array is in the block some writing-back point writes: entry P in the block of the
    last step of half P / 512. -/
theorem cover5 (c : Dev nD) (i : ((cfg0.win 5).arr.view.loc (c.tc : Thread nD τ)).2.ty.Idx) :
    ∃ t : Fin cfg0.N, (cfg0.win 5).flush t = true ∧ i ∈ ((cfg0.win 5).blk t).view.set := by
  have hN : grid0.N = 32 := N_0
  have h0 : (i 0 : Nat) < 1024 := (i 0).isLt
  have h1 : (i 1 : Nat) < 1 := (i 1).isLt
  have hlt : 16 * ((i 0 : Nat) / 512) + 15 < cfg0.N := by show _ < grid0.N; rw [hN]; omega
  obtain ⟨-, -, -, -, -, -, -, -, -, -, e0, e1, -⟩ := idx_facts ⟨16 * ((i 0 : Nat) / 512) + 15, hlt⟩
  refine ⟨⟨16 * ((i 0 : Nat) / 512) + 15, hlt⟩, (flush0_5 _).mpr (by show (16 * ((i 0 : Nat) / 512) + 15) % 16 = 15; omega), ?_⟩
  rw [mem_blk5]
  intro a
  match a with
  | ⟨0, _⟩ =>
    show win0_5.index ⟨16 * ((i 0 : Nat) / 512) + 15, hlt⟩ (0 : Fin 2) * 512 ≤ (i 0 : Nat)
      ∧ (i 0 : Nat) < win0_5.index ⟨16 * ((i 0 : Nat) / 512) + 15, hlt⟩ (0 : Fin 2) * 512 + 512
    rw [e0]
    show (16 * ((i 0 : Nat) / 512) + 15) / 16 * 512 ≤ (i 0 : Nat) ∧ (i 0 : Nat) < (16 * ((i 0 : Nat) / 512) + 15) / 16 * 512 + 512
    omega
  | ⟨1, _⟩ =>
    show win0_5.index ⟨16 * ((i 0 : Nat) / 512) + 15, hlt⟩ (1 : Fin 2) * 1 ≤ (i 1 : Nat)
      ∧ (i 1 : Nat) < win0_5.index ⟨16 * ((i 0 : Nat) / 512) + 15, hlt⟩ (1 : Fin 2) * 1 + 1
    rw [e1]
    omega

/-- After the region the second output array is the transpose of the second weight matrix applied to y. -/
theorem arr5 (c : Dev nD) : (dat0 (F := Ideal) V c).arrAt 5 cfg0.N
    = Cert.Dec.mvT (V c (Pipeline.arrRef spec0 1)) (V c (Pipeline.arrRef spec0 3)) :=
  (dat0 (F := Ideal) V c).arrAt_eq_of_cover 5 _ (flushed5 V c) (cover5 c)

/-! ### Output window 6: the third weight matrix -/

/-- An entry of the array is in point t's block of output 6 iff each coordinate is in the block's range. -/
theorem mem_blk6 (t : Fin cfg0.N) (i : S1024x1.Idx) :
    i ∈ ((cfg0.win 6).blk t).view.set ↔ ∀ a : Fin 2, win0_6.index t a * S512x1.size a ≤ (i a).val
      ∧ (i a).val < win0_6.index t a * S512x1.size a + S512x1.size a := by
  show i ∈ ((View.whole main_v0_2).slice (win0_6.rect t)).set ↔ _
  rw [View.set_slice_whole, Rect.mem_set_unit]
  exact Iff.rfl

/-- What a writing-back point (the last step of a half) writes of output 6 is its block of the transposed product:
    there the running sum has all 16000 rows. -/
theorem flushed6 (c : Dev nD) (t : Fin cfg0.N) (hf : (cfg0.win 6).flush t = true) :
    (dat0 (F := Ideal) V c).flushed 6 t = ((cfg0.win 6).blk t).view.read (Elt Ideal)
      (Cert.Dec.mvT (V c (Pipeline.arrRef spec0 2)) (V c (Pipeline.arrRef spec0 3))) := by
  have h15 : t.val % 16 = 15 := (flush0_6 t).mp hf
  have hN : grid0.N = 32 := N_0
  have ht : t.val < 32 := hN ▸ t.isLt
  obtain ⟨-, -, -, -, -, -, -, -, -, -, -, -, e0, e1⟩ := idx_facts t
  show (cfg0.win 6).cut (grid0.coords t) ((dat0 (F := Ideal) V c).after 6 t) = _
  rw [after0_6]
  funext j
  obtain ⟨p, q, rfl⟩ : ∃ (p : Fin 512) (q : Fin 1), j = ix2 p q := ⟨j 0, j 1, eq_ix2 (n0 := 512) (n1 := 1) j⟩
  have hp := p.isLt
  have hq := q.isLt
  have hPlt : t.val / 16 * 512 + p.val < 1024 := by omega
  have hemb : ((cfg0.win 6).blk t).view.emb (ix2 p q) = ix2 (⟨t.val / 16 * 512 + p.val, hPlt⟩ : Fin 1024) (0 : Fin 1) := by
    funext a
    apply Fin.ext
    match a with
    | ⟨0, _⟩ => show win0_6.index t (0 : Fin 2) * 512 + 1 * p.val = t.val / 16 * 512 + p.val; rw [e0]; omega
    | ⟨1, _⟩ => show win0_6.index t (1 : Fin 2) * 1 + 1 * q.val = 0; rw [e1]; omega
  rw [View.read_apply]
  refine Eq.trans ?_ (congrArg (Cert.Dec.mvT (V c (Pipeline.arrRef spec0 2)) (V c (Pipeline.arrRef spec0 3))) hemb).symm
  rw [← sum_term _ _ _ (0 : Fin 1)]
  have := (outs_hold V c t.val t.isLt).2.2 p q ⟨t.val / 16 * 512 + p.val, hPlt⟩ rfl
  rw [h15] at this
  exact this

/-- Every entry of output 6's array is in the block some writing-back point writes: entry P in the block of the
    last step of half P / 512. -/
theorem cover6 (c : Dev nD) (i : ((cfg0.win 6).arr.view.loc (c.tc : Thread nD τ)).2.ty.Idx) :
    ∃ t : Fin cfg0.N, (cfg0.win 6).flush t = true ∧ i ∈ ((cfg0.win 6).blk t).view.set := by
  have hN : grid0.N = 32 := N_0
  have h0 : (i 0 : Nat) < 1024 := (i 0).isLt
  have h1 : (i 1 : Nat) < 1 := (i 1).isLt
  have hlt : 16 * ((i 0 : Nat) / 512) + 15 < cfg0.N := by show _ < grid0.N; rw [hN]; omega
  obtain ⟨-, -, -, -, -, -, -, -, -, -, -, -, e0, e1⟩ := idx_facts ⟨16 * ((i 0 : Nat) / 512) + 15, hlt⟩
  refine ⟨⟨16 * ((i 0 : Nat) / 512) + 15, hlt⟩, (flush0_6 _).mpr (by show (16 * ((i 0 : Nat) / 512) + 15) % 16 = 15; omega), ?_⟩
  rw [mem_blk6]
  intro a
  match a with
  | ⟨0, _⟩ =>
    show win0_6.index ⟨16 * ((i 0 : Nat) / 512) + 15, hlt⟩ (0 : Fin 2) * 512 ≤ (i 0 : Nat)
      ∧ (i 0 : Nat) < win0_6.index ⟨16 * ((i 0 : Nat) / 512) + 15, hlt⟩ (0 : Fin 2) * 512 + 512
    rw [e0]
    show (16 * ((i 0 : Nat) / 512) + 15) / 16 * 512 ≤ (i 0 : Nat) ∧ (i 0 : Nat) < (16 * ((i 0 : Nat) / 512) + 15) / 16 * 512 + 512
    omega
  | ⟨1, _⟩ =>
    show win0_6.index ⟨16 * ((i 0 : Nat) / 512) + 15, hlt⟩ (1 : Fin 2) * 1 ≤ (i 1 : Nat)
      ∧ (i 1 : Nat) < win0_6.index ⟨16 * ((i 0 : Nat) / 512) + 15, hlt⟩ (1 : Fin 2) * 1 + 1
    rw [e1]
    omega

/-- After the region the third output array is the transpose of the third weight matrix applied to y. -/
theorem arr6 (c : Dev nD) : (dat0 (F := Ideal) V c).arrAt 6 cfg0.N
    = Cert.Dec.mvT (V c (Pipeline.arrRef spec0 2)) (V c (Pipeline.arrRef spec0 3)) :=
  (dat0 (F := Ideal) V c).arrAt_eq_of_cover 6 _ (flushed6 V c) (cover6 c)

end Run

end Cert.KernelIdeal.Region0
end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.LibSumBlocks.lean ====
/-
  Summing a function over `Fin (a * b)` block by block.

  The numbers below `a * b` are exactly the numbers `k * b + j` with `k < a` and `j < b`, each written in one way
  (`k` is the quotient by `b`, `j` the remainder). So a sum over all of them, in a commutative monoid, is the sum
  over the `a` blocks of `b` consecutive numbers of each block's own sum. Only commutativity and associativity of
  the addition are used: nothing is cancelled or distributed, so the statements hold in any additive commutative
  monoid, the extended reals included.
-/
import Mathlib.Algebra.BigOperators.Fin
import Mathlib.Data.Fintype.BigOperators
import Mathlib.Logic.Equiv.Fin.Basic

open scoped BigOperators

namespace Cert.LibSumBlocks

/-- The `j`-th number of the `k`-th block of `b` consecutive numbers lies below `a * b` when `k < a` and `j < b`. -/
theorem block_index_lt {a b : ℕ} (k : Fin a) (j : Fin b) : k.val * b + j.val < a * b :=
  calc k.val * b + j.val < k.val * b + b := Nat.add_lt_add_left j.isLt _
    _ = (k.val + 1) * b := (Nat.succ_mul _ _).symm
    _ ≤ a * b := Nat.mul_le_mul_right _ k.isLt

/-- A sum over `Fin (a * b)` is the sum, over the `a` blocks of `b` consecutive indices, of the sums over each
    block: `∑ i, f i = ∑ k < a, ∑ j < b, f (k * b + j)`, in any additive commutative monoid. -/
theorem sum_blocks {M : Type*} [AddCommMonoid M] (a b : ℕ) (f : Fin (a * b) → M) :
    ∑ i : Fin (a * b), f i = ∑ k : Fin a, ∑ j : Fin b, f ⟨k.val * b + j.val, block_index_lt k j⟩ := by
  rw [← Equiv.sum_comp finProdFinEquiv f, Fintype.sum_prod_type]
  refine Finset.sum_congr rfl fun k _ => Finset.sum_congr rfl fun j _ => congrArg f (Fin.ext ?_)
  show j.val + b * k.val = k.val * b + j.val
  rw [Nat.mul_comm, Nat.add_comm]

/-- The same with the blocks' sums listed in the other nesting: the sum, over the position `j` inside a block, of
    the sum over the blocks. -/
theorem sum_blocks_comm {M : Type*} [AddCommMonoid M] (a b : ℕ) (f : Fin (a * b) → M) :
    ∑ i : Fin (a * b), f i = ∑ j : Fin b, ∑ k : Fin a, f ⟨k.val * b + j.val, block_index_lt k j⟩ :=
  (sum_blocks a b f).trans Finset.sum_comm

/-- `4096 = 4 * 1024`: a sum over 4096 indices, accumulated from zero one block of 1024 at a time — the blocks
    starting at 0, 1024, 2048 and 3072 — is the whole sum. -/
theorem sum_four_blocks {M : Type*} [AddCommMonoid M] (f : Fin 4096 → M) :
    ((((0 + ∑ j : Fin 1024, f ⟨j.val, by have := j.isLt; omega⟩)
          + ∑ j : Fin 1024, f ⟨1024 + j.val, by have := j.isLt; omega⟩)
        + ∑ j : Fin 1024, f ⟨2048 + j.val, by have := j.isLt; omega⟩)
      + ∑ j : Fin 1024, f ⟨3072 + j.val, by have := j.isLt; omega⟩)
    = ∑ i : Fin 4096, f i := by
  rw [zero_add]
  refine Eq.symm ((sum_blocks 4 1024 f).trans ?_)
  rw [Fin.sum_univ_four]
  refine congrArg₂ (· + ·) (congrArg₂ (· + ·) (congrArg₂ (· + ·) ?_ ?_) ?_) ?_
  · exact Finset.sum_congr rfl fun j _ => congrArg f (Fin.ext (by show 0 * 1024 + j.val = j.val; omega))
  · exact Finset.sum_congr rfl fun j _ => congrArg f (Fin.ext (by show 1 * 1024 + j.val = 1024 + j.val; omega))
  · exact Finset.sum_congr rfl fun j _ => congrArg f (Fin.ext (by show 2 * 1024 + j.val = 2048 + j.val; omega))
  · exact Finset.sum_congr rfl fun j _ => congrArg f (Fin.ext (by show 3 * 1024 + j.val = 3072 + j.val; omega))

end Cert.LibSumBlocks
-- ==== Proof.Region1.lean ====
/-
  The first matrix-vector stage of the output layer: the [4096, 16000] matrix Vo applied to the column y [16000, 1].

  The rows are taken in two halves of 2048 and the 16000 columns in 25 blocks of 640. For a fixed half the running
  block of 2048 entries starts from zero at the first column block and receives, at column block s, the products of
  the half's rows with the 640 entries of y that the block holds; after the 25th block the running block is written
  to the half's rows of the result. Entry P of the result is therefore the sum over all 16000 columns k of
  Vo(P, k) y(k), the 25 partial sums of 640 terms being regrouped into the one sum (only the commutativity and
  associativity of the addition of extended reals are used).
-/
import proofs.«179386_j74783970558463_2_alg».proof.Proof.Gen.KernelIdeal.Frame
import proofs.«179386_j74783970558463_2_alg».proof.Proof.Spec
import proofs.«179386_j74783970558463_2_alg».proof.Proof.LibMatmulPlain
import proofs.«179386_j74783970558463_2_alg».proof.Proof.LibSumBlocks
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

noncomputable section

namespace Cert.KernelIdeal.Region1

open Cert.KernelIdeal Cert.KernelIdeal.Gen Idealize.ShloMosaic Idealize.ShloMosaic.ValueIdx Idealize.ShloMosaic.TcCoe Idealize.SL.Sem
open Idealize.ShloMosaic.Pipeline (Dat)

/-- The all-zero offset of a whole block. -/
theorem hz : (![0, 0] : Fin 2 → Nat) = fun _ => 0 := funext fun a => by fin_cases a <;> rfl

/-! ## What one grid point leaves in the running block -/

/-- At a point that is not the first of its half, the body leaves in the running block, which held `xo`, the one
    accumulation step of the point's matrix block `x0` and column block `x1` onto `xo`. -/
theorem out_B (c : Dev nD) (i : grid1.Coords) (a2 : Memref sig .tc .vmem S2048x640 .f32) (h2 : a2.IsWhole)
    (a3 : Memref sig .tc .vmem S640x1 .f32) (h3 : a3.IsWhole) (a4 : Memref sig .tc .vmem S2048x1 .f32) (h4 : a4.IsWhole)
    (hc : ¬cond1_0 i) (x0 : Vec Ideal S2048x640 .f32) (x1 : Vec Ideal S640x1 .f32) (xo : Vec Ideal S2048x1 .f32) :
    out1_B_2 (F := Ideal) c i a2 h2 a3 h3 a4 h4 hc x0 x1 xo = k1_pay2 x0 x1 xo := by
  unfold out1_B_2
  rw [View.read_writes_eq_canon _ _ _ (cover1_B_2 c i a2 h2 a3 h3 a4 h4 hc x0 x1 xo)]
  unfold kernelRun1_B
  dsimp only
  rw [View.canon_unit_zero hz]
  simp only [View.readAt_eq_ld, h2.read_unread, h3.read_unread, h4.read_unread, View.ld_unit_zero (S := S2048x640) hz,
    View.ld_unit_zero (S := S640x1) hz, View.ld_unit_zero (S := S2048x1) hz]

/-- At the first point of a half the body first stores the zero block, reads it back, and leaves the one accumulation
    step of the point's blocks onto the zero block. -/
theorem out_A (c : Dev nD) (i : grid1.Coords) (a2 : Memref sig .tc .vmem S2048x640 .f32) (h2 : a2.IsWhole)
    (a3 : Memref sig .tc .vmem S640x1 .f32) (h3 : a3.IsWhole) (a4 : Memref sig .tc .vmem S2048x1 .f32) (h4 : a4.IsWhole)
    (hc : cond1_0 i) (x0 : Vec Ideal S2048x640 .f32) (x1 : Vec Ideal S640x1 .f32) :
    out1_A_2 (F := Ideal) c i a2 h2 a3 h3 a4 h4 hc x0 x1 = k1_pay2 x0 x1 (k1_pay1 (F := Ideal)) := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S2048x1) hz, View.readCov_unit_zero (S := S2048x1) _ hz]
  simp only [View.readAt_eq_ld, h2.read_unread, h3.read_unread, View.ld_unit_zero (S := S2048x640) hz,
    View.ld_unit_zero (S := S640x1) hz]

/-- Every entry of the zero block is 0. -/
theorem pay1_apply (j : S2048x1.Idx) : k1_pay1 (F := Ideal) j = 0 := by
  show Ideal.ofBits .f32 0x00000000#32 = 0
  exact Ideal.ofBits_zero_f32

/-- One accumulation step at entry p: the old entry plus the sum over the block's 640 columns k of x0(p, k) x1(k). -/
theorem pay2_apply (x0 : Vec Ideal S2048x640 .f32) (x1 : Vec Ideal S640x1 .f32) (acc : Vec Ideal S2048x1 .f32)
    (p : Fin 2048) (q : Fin 1) :
    k1_pay2 (F := Ideal) x0 x1 acc (ix2 p q) = acc (ix2 p q) + ∑ k : Fin 640, x0 (ix2 p k) * x1 (ix2 k 0) := by
  obtain rfl : q = 0 := Subsingleton.elim _ _
  unfold k1_pay2
  refine (addf_apply _ _ _).trans ?_
  refine congrArg₂ (· + ·) (congrFun (shapeCast_self acc _) (ix2 p 0)) ?_
  exact Cert.LibMatmulPlain.matmul_zero_apply dot_S2048x640_S640x1_S2048x1_1_0_0_1_n_n_wf none
    (truncf .bf16 x0 bitsLt_bf16_f32) (truncf .bf16 x1 bitsLt_bf16_f32) p 0

-- the buffer contents when the region is entered
variable (V : (c : Dev nD) → (b : Ref sig .tc) → Buf (Elt Ideal) ((c : Thread nD τ).loc b))

/-- The matrix as the region finds it: window 0's array, [4096, 16000]. -/
abbrev matA (c : Dev nD) : Cert.Dec.Mat 4096 16000 := V c (Pipeline.arrRef spec1 0)
/-- The column as the region finds it: window 1's array, [16000, 1]. -/
abbrev vecY (c : Dev nD) : Cert.Dec.Mat 16000 1 := V c (Pipeline.arrRef spec1 1)
/-- The matrix's block at point t, [2048, 640]. -/
abbrev blkA (c : Dev nD) (t : Fin cfg1.N) : Cert.Dec.Mat 2048 640 := iblk1 V c 0 t
/-- The column's block at point t, [640, 1]. -/
abbrev blkY (c : Dev nD) (t : Fin cfg1.N) : Cert.Dec.Mat 640 1 := iblk1 V c 1 t

/-- What grid point n adds to entry p of the running block: the sum over the 640 columns k of the point's matrix
    block of (p, k) times the point's column block at k (zero past the grid). -/
def addend (c : Dev nD) (n : ℕ) (p : Fin 2048) : EReal :=
  if h : n < cfg1.N then
    ∑ k : Fin 640, blkA V c ⟨n, h⟩ (ix2 p k) * blkY V c ⟨n, h⟩ (ix2 k 0)
  else 0

/-- At a point of the grid the addend is the sum over the point's own blocks. -/
theorem addend_of_lt (c : Dev nD) (t : Fin cfg1.N) (p : Fin 2048) :
    addend V c t.val p = ∑ k : Fin 640, blkA V c t (ix2 p k) * blkY V c t (ix2 k 0) := by
  unfold addend
  exact dif_pos t.isLt

/-- After the first point of a half, entry p of the running block is 0 plus the point's addend. -/
theorem step_A (c : Dev nD) (t : Fin cfg1.N) (h0 : t.val % 25 = 0) (p : Fin 2048) :
    (outsAt1 V c t.val t.isLt (ix2 p 0) : EReal) = 0 + addend V c t.val p := by
  refine (congrFun (outsAt1_A V c t h0) (ix2 p 0)).trans ?_
  refine (congrFun (out_A c (grid1.coords t) (ms1_0 t) (hs1_0 t) (ms1_1 t) (hs1_1 t) (ms1_2 t) (hs1_2 t)
    ((hcond1_0 t).mpr h0) (iblk1 V c 0 t) (iblk1 V c 1 t)) (ix2 p 0)).trans ?_
  refine (pay2_apply (iblk1 V c 0 t) (iblk1 V c 1 t) (k1_pay1 (F := Ideal)) p 0).trans ?_
  refine congrArg₂ (· + ·) (pay1_apply _) ?_
  exact (addend_of_lt V c t p).symm

/-- After any later point of a half, entry p of the running block is what the point before left plus the point's addend. -/
theorem step_B (c : Dev nD) (t : Fin cfg1.N) (h0 : ¬t.val % 25 = 0) (p : Fin 2048) :
    (outsAt1 V c t.val t.isLt (ix2 p 0) : EReal)
      = outsAt1 V c (t.val - 1) (Nat.lt_of_le_of_lt (Nat.sub_le _ _) t.isLt) (ix2 p 0) + addend V c t.val p := by
  refine (congrFun (outsAt1_B V c t h0) (ix2 p 0)).trans ?_
  refine (congrFun (out_B c (grid1.coords t) (ms1_0 t) (hs1_0 t) (ms1_1 t) (hs1_1 t) (ms1_2 t) (hs1_2 t)
    (fun h => h0 ((hcond1_0 t).mp h)) (iblk1 V c 0 t) (iblk1 V c 1 t)
    (outsAt1 V c (t.val - 1) (Nat.lt_of_le_of_lt (Nat.sub_le _ _) t.isLt))) (ix2 p 0)).trans ?_
  refine (pay2_apply (iblk1 V c 0 t) (iblk1 V c 1 t)
    (outsAt1 V c (t.val - 1) (Nat.lt_of_le_of_lt (Nat.sub_le _ _) t.isLt)) p 0).trans ?_
  refine congrArg₂ (· + ·) rfl ?_
  exact (addend_of_lt V c t p).symm

/-- THE RUNNING SUM. After point t, entry p of the running block is the sum of the addends of the points of t's half
    up to t: the points 25 (t / 25) + s for s ≤ t % 25. -/
theorem acc_eq (c : Dev nD) (t : Fin cfg1.N) (p : Fin 2048) :
    (outsAt1 V c t.val t.isLt (ix2 p 0) : EReal)
      = ∑ s ∈ Finset.range (t.val % 25 + 1), addend V c (25 * (t.val / 25) + s) p := by
  have h' : 25 * (t.val / 25) + t.val % 25 < cfg1.N := by rw [Nat.div_add_mod]; exact t.isLt
  have e1 := Pipeline.eq_accAt_of_mod (N := cfg1.N)
    (fun n h => fun p : Fin 2048 => (outsAt1 V c n h (ix2 p 0) : EReal)) 25
    (fun n _ => fun p => 0 + addend V c n p) (fun n _ acc => fun p => acc p + addend V c n p)
    (fun n h e => funext fun p => step_A V c ⟨n, h⟩ e p)
    (fun n h e => funext fun p => step_B V c ⟨n + 1, h⟩ e p)
    (by decide) t.val t.isLt h'
  have e2 := Pipeline.accAt_add_apply (N := cfg1.N) (fun n _ => fun p : Fin 2048 => (0 : EReal) + addend V c n p)
    (fun n _ acc => fun p => acc p + addend V c n p) (fun _ => 0) (fun n p => addend V c n p) (25 * (t.val / 25)) 24
    (fun _ _ => rfl) (fun _ _ _ _ _ _ => rfl) (t.val % 25) (by omega) h' p
  exact (congrFun e1 p).trans (e2.trans (zero_add _))

/-- After the last point of a half the running block holds the sum of the half's 25 addends. -/
theorem acc_last (c : Dev nD) (t : Fin cfg1.N) (h24 : t.val % 25 = 24) (p : Fin 2048) :
    (outsAt1 V c t.val t.isLt (ix2 p 0) : EReal) = ∑ s : Fin 25, addend V c (25 * (t.val / 25) + s.val) p := by
  rw [acc_eq V c t p, h24]
  exact Finset.sum_range (fun s => addend V c (25 * (t.val / 25) + s) p)

/-! ## The blocks as entries of the two arrays -/

/-- Row p of half hf of the 4096 rows. -/
abbrev rowOf (hf : Fin 2) (p : Fin 2048) : Fin 4096 := ⟨hf.val * 2048 + p.val, by omega⟩
/-- Column k of block s of the 16000 columns. -/
abbrev colOf (s : Fin 25) (k : Fin 640) : Fin 16000 := ⟨s.val * 640 + k.val, Cert.LibSumBlocks.block_index_lt s k⟩

/-- The block indices of the three windows at point t: the matrix's block is (t / 25, t % 25), the column's
    (t % 25, 0), the result's (t / 25, 0) — decided over the 50 points. -/
theorem idx_facts : ∀ t : Fin cfg1.N, win1_0.index t (0 : Fin 2) = t.val / 25 ∧ win1_0.index t (1 : Fin 2) = t.val % 25
    ∧ win1_1.index t (0 : Fin 2) = t.val % 25 ∧ win1_1.index t (1 : Fin 2) = 0
    ∧ win1_2.index t (0 : Fin 2) = t.val / 25 ∧ win1_2.index t (1 : Fin 2) = 0 :=
  (by decide +kernel : ∀ t : Fin grid1.N, _)

/-- The matrix's block at point 25 hf + s, at (p, k), is the matrix at row p of half hf and column k of block s. -/
theorem iblk0_apply (c : Dev nD) (t : Fin cfg1.N) (hf : Fin 2) (s : Fin 25) (ht : t.val = 25 * hf.val + s.val)
    (p : Fin 2048) (k : Fin 640) :
    blkA V c t (ix2 p k) = matA V c (ix2 (rowOf hf p) (colOf s k)) := by
  obtain ⟨e0, e1, -⟩ := idx_facts t
  have := hf.isLt; have := s.isLt
  show V c (Pipeline.arrRef spec1 0) (((cfg1.win 0).blk t).view.emb (ix2 p k)) = V c (Pipeline.arrRef spec1 0) _
  refine congrArg (V c (Pipeline.arrRef spec1 0)) ?_
  funext a
  apply Fin.ext
  match a with
  | ⟨0, _⟩ => show win1_0.index t (0 : Fin 2) * 2048 + 1 * p.val = hf.val * 2048 + p.val; rw [e0]; omega
  | ⟨1, _⟩ => show win1_0.index t (1 : Fin 2) * 640 + 1 * k.val = s.val * 640 + k.val; rw [e1]; omega

/-- The column's block at point 25 hf + s, at k, is the column at column k of block s. -/
theorem iblk1_apply (c : Dev nD) (t : Fin cfg1.N) (hf : Fin 2) (s : Fin 25) (ht : t.val = 25 * hf.val + s.val)
    (k : Fin 640) :
    blkY V c t (ix2 k 0) = vecY V c (ix2 (colOf s k) 0) := by
  obtain ⟨-, -, e2, e3, -⟩ := idx_facts t
  have := hf.isLt; have := s.isLt
  show V c (Pipeline.arrRef spec1 1) (((cfg1.win 1).blk t).view.emb (ix2 k 0)) = V c (Pipeline.arrRef spec1 1) _
  refine congrArg (V c (Pipeline.arrRef spec1 1)) ?_
  funext a
  apply Fin.ext
  match a with
  | ⟨0, _⟩ => show win1_1.index t (0 : Fin 2) * 640 + 1 * k.val = s.val * 640 + k.val; rw [e2]; omega
  | ⟨1, _⟩ => show win1_1.index t (1 : Fin 2) * 1 + 1 * 0 = 0; rw [e3]

/-- The addend of point 25 hf + s at entry p, over the arrays: the sum over the 640 columns of block s. -/
theorem addend_eq (c : Dev nD) (hf : Fin 2) (s : Fin 25) (p : Fin 2048) :
    addend V c (25 * hf.val + s.val) p
      = ∑ k : Fin 640, matA V c (ix2 (rowOf hf p) (colOf s k)) * vecY V c (ix2 (colOf s k) 0) := by
  have hN : cfg1.N = 50 := N_1
  have ht : 25 * hf.val + s.val < cfg1.N := by have := hf.isLt; have := s.isLt; omega
  unfold addend
  rw [dif_pos ht]
  exact Finset.sum_congr rfl fun k _ =>
    congrArg₂ (· * ·) (iblk0_apply V c ⟨_, ht⟩ hf s rfl p k) (iblk1_apply V c ⟨_, ht⟩ hf s rfl k)

/-- THE BLOCK WRITTEN BACK. After the last point of half hf, entry p of the running block is entry (row p of half hf)
    of the matrix applied to the column: the 25 sums of 640 terms are the one sum over the 16000 columns. -/
theorem block_eq (c : Dev nD) (t : Fin cfg1.N) (h24 : t.val % 25 = 24) (hf : Fin 2) (hhf : t.val / 25 = hf.val)
    (p : Fin 2048) (q : Fin 1) :
    (outsAt1 V c t.val t.isLt (ix2 p q) : EReal)
      = Cert.Dec.mv (V c (Pipeline.arrRef spec1 0)) (V c (Pipeline.arrRef spec1 1)) (ix2 (rowOf hf p) q) := by
  obtain rfl : q = 0 := Subsingleton.elim _ _
  have hs : ∑ i : Fin 16000, matA V c (ix2 (rowOf hf p) i) * vecY V c (ix2 i 0)
      = ∑ s : Fin 25, ∑ k : Fin 640, matA V c (ix2 (rowOf hf p) (colOf s k)) * vecY V c (ix2 (colOf s k) 0) :=
    Cert.LibSumBlocks.sum_blocks 25 640 (fun i : Fin (25 * 640) => matA V c (ix2 (rowOf hf p) i) * vecY V c (ix2 i 0))
  refine (acc_last V c t h24 p).trans ?_
  rw [hhf]
  refine (Finset.sum_congr rfl fun s _ => addend_eq V c hf s p).trans ?_
  exact hs.symm.trans (Cert.Dec.mv_apply (matA V c) (vecY V c) (rowOf hf p) 0).symm

/-! ## From the blocks written back to the array -/

/-- WHAT A WRITE-BACK WRITES: at the last point of a half, the half's block of the matrix applied to the column. -/
theorem flushed_eq (c : Dev nD) (t : Fin cfg1.N) (hfl : (cfg1.win 2).flush t = true) :
    (dat1 V c).flushed 2 t = ((cfg1.win 2).blk t).view.read (Elt Ideal)
      (Cert.Dec.mv (V c (Pipeline.arrRef spec1 0)) (V c (Pipeline.arrRef spec1 1))) := by
  have hN : cfg1.N = 50 := N_1
  have h24 : t.val % 25 = 24 := (flush1_2 t).mp hfl
  have htlt : t.val < 50 := lt_of_lt_of_eq t.isLt hN
  obtain ⟨-, -, -, -, e4, e5⟩ := idx_facts t
  show (cfg1.win 2).cut (grid1.coords t) ((dat1 V c).after 2 t) = _
  rw [after1_2]
  refine funext fun (j : S2048x1.Idx) => ?_
  obtain ⟨p, q, rfl⟩ : ∃ (p : Fin 2048) (q : Fin 1), j = ix2 p q := ⟨j 0, j 1, eq_ix2 j⟩
  rw [View.read_apply]
  refine (block_eq V c t h24 ⟨t.val / 25, by omega⟩ rfl p q).trans ?_
  refine congrArg (Cert.Dec.mv (V c (Pipeline.arrRef spec1 0)) (V c (Pipeline.arrRef spec1 1))) ?_
  funext a
  apply Fin.ext
  match a with
  | ⟨0, _⟩ => show t.val / 25 * 2048 + p.val = win1_2.index t (0 : Fin 2) * 2048 + 1 * p.val; rw [e4]; omega
  | ⟨1, _⟩ => show q.val = win1_2.index t (1 : Fin 2) * 1 + 1 * q.val; rw [e5]; omega

/-- An index of the result is in point t's block iff each coordinate is in the block's range on its axis. -/
theorem mem_blk (t : Fin cfg1.N) (i : S4096x1.Idx) :
    i ∈ ((cfg1.win 2).blk t).view.set ↔ ∀ a : Fin 2, win1_2.index t a * S2048x1.size a ≤ (i a).val ∧ (i a).val < win1_2.index t a * S2048x1.size a + S2048x1.size a := by
  show i ∈ ((View.whole main_v1).slice (win1_2.rect t)).set ↔ _
  rw [View.set_slice_whole, Rect.mem_set_unit]
  exact Iff.rfl

/-- Every row P of the result is written back by the last point of its half, the point 25 (P / 2048) + 24. -/
theorem cover (i : S4096x1.Idx) :
    ∃ t : Fin cfg1.N, (cfg1.win 2).flush t = true ∧ i ∈ ((cfg1.win 2).blk t).view.set := by
  have hN : cfg1.N = 50 := N_1
  have hi0 : (i 0).val < 4096 := (i 0).isLt
  have hi1 : (i 1).val < 1 := (i 1).isLt
  have htlt : 25 * ((i 0).val / 2048) + 24 < cfg1.N := by omega
  obtain ⟨-, -, -, -, e4, e5⟩ := idx_facts ⟨_, htlt⟩
  refine ⟨⟨_, htlt⟩, (flush1_2 _).mpr (by show (25 * ((i 0).val / 2048) + 24) % 25 = 24; omega), ?_⟩
  rw [mem_blk]
  intro a
  match a with
  | ⟨0, _⟩ =>
    show win1_2.index ⟨_, htlt⟩ (0 : Fin 2) * 2048 ≤ (i 0).val ∧ (i 0).val < win1_2.index ⟨_, htlt⟩ (0 : Fin 2) * 2048 + 2048
    rw [e4]; show (25 * ((i 0).val / 2048) + 24) / 25 * 2048 ≤ (i 0).val ∧ (i 0).val < (25 * ((i 0).val / 2048) + 24) / 25 * 2048 + 2048
    omega
  | ⟨1, _⟩ =>
    show win1_2.index ⟨_, htlt⟩ (1 : Fin 2) * 1 ≤ (i 1).val ∧ (i 1).val < win1_2.index ⟨_, htlt⟩ (1 : Fin 2) * 1 + 1
    rw [e5]; omega

/-- THE ARRAY after the region: the matrix applied to the column, entry P the sum over all 16000 columns k of
    Vo(P, k) y(k). -/
theorem arr2 (c : Dev nD) :
    (dat1 (F := Ideal) V c).arrAt 2 cfg1.N
      = Cert.Dec.mv (V c (Pipeline.arrRef spec1 0)) (V c (Pipeline.arrRef spec1 1)) :=
  (dat1 V c).arrAt_eq_of_cover 2 _ (flushed_eq V c) cover

end Cert.KernelIdeal.Region1

end
-- ==== Proof.Region2.lean ====
/-
  Region 2 of the decoder step (attention and the two gates r, z), read off the pipeline's proof data.

  The region has one grid point, and every window's block is its whole array. So what the one point leaves in an
  output window's buffer is the body's value for that window computed from the whole input arrays, and the array
  the window ends at is exactly that value. The attention outputs (the weighted encoder rows and the context
  column) are left as the body's own terms; the two gates are read as the logistic of the three contributions:
  the bias column, the transpose of the state matrix applied to the state, and the transpose of the context matrix
  applied to the context column (a change of float format is the identity on the extended reals, and a product
  taken into the zero accumulator is the plain sum over the contracted axis).
-/
import proofs.«179386_j74783970558463_2_alg».proof.Proof.Gen.KernelIdeal.Frame
import proofs.«179386_j74783970558463_2_alg».proof.Proof.Spec
import proofs.«179386_j74783970558463_2_alg».proof.Proof.LibMatmulCols
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Region2

open Cert.KernelIdeal Cert.KernelIdeal.Gen Idealize.ShloMosaic Idealize.ShloMosaic.ValueIdx Idealize.ShloMosaic.TcCoe Idealize.SL.Sem
open Idealize.ShloMosaic.Pipeline (Dat)

/-- The offsets of an access to a whole array are zero on both axes. -/
theorem hz : (![0, 0] : Fin 2 → Nat) = fun _ => 0 := funext fun a => by fin_cases a <;> rfl

/-! ## The gates' arithmetic -/

/-- The first gate's value: the logistic of the bias column, plus the transpose of the state matrix applied to the
    state column, plus the transpose of the context matrix applied to the context column. -/
theorem pay1_eq (v1 : FVec Ideal S1024x1 .bf16) (v33 : FVec Ideal S2048x1 .bf16) (v34 : Vec Ideal S1024x1024 .f32)
    (v37 : Vec Ideal S2048x1024 .f32) (v40 : Vec Ideal S1024x1 .f32) :
    k2_pay1 (F := Ideal) v1 v33 v34 v37 v40 = Cert.Dec.gate v40 (Cert.Dec.mvT v34 v1) (Cert.Dec.mvT v37 v33) := by
  funext j
  obtain ⟨p, q, rfl⟩ : ∃ (p : Fin 1024) (q : Fin 1), j = ix2 p q := ⟨j 0, j 1, eq_ix2 j⟩
  obtain rfl : q = 0 := Subsingleton.elim _ _
  rw [Cert.Dec.gate_apply, Cert.Dec.mvT_apply, Cert.Dec.mvT_apply]
  unfold k2_pay1
  refine congrArg Ideal.logistic ?_
  refine congrArg₂ (· + ·) (congrArg₂ (· + ·) ?_ ?_) ?_
  · exact congrFun (shapeCast_self v40 _) _
  · exact Cert.LibMatmulCols.matmul_zero_apply dot_S1024x1024_S1024x1_S1024x1_0_0_1_1_n_n_wf none
      (truncf .bf16 v34 bitsLt_bf16_f32) v1 p 0
  · exact Cert.LibMatmulCols.matmul_zero_apply dot_S2048x1024_S2048x1_S1024x1_0_0_1_1_n_n_wf none
      (truncf .bf16 v37 bitsLt_bf16_f32) v33 p 0

/-- The second gate's value: the same three contributions from its own bias column and matrices. -/
theorem pay2_eq (v1 : FVec Ideal S1024x1 .bf16) (v33 : FVec Ideal S2048x1 .bf16) (v46 : Vec Ideal S1024x1024 .f32)
    (v49 : Vec Ideal S2048x1024 .f32) (v52 : Vec Ideal S1024x1 .f32) :
    k2_pay2 (F := Ideal) v1 v33 v46 v49 v52 = Cert.Dec.gate v52 (Cert.Dec.mvT v46 v1) (Cert.Dec.mvT v49 v33) := by
  funext j
  obtain ⟨p, q, rfl⟩ : ∃ (p : Fin 1024) (q : Fin 1), j = ix2 p q := ⟨j 0, j 1, eq_ix2 j⟩
  obtain rfl : q = 0 := Subsingleton.elim _ _
  rw [Cert.Dec.gate_apply, Cert.Dec.mvT_apply, Cert.Dec.mvT_apply]
  unfold k2_pay2
  refine congrArg Ideal.logistic ?_
  refine congrArg₂ (· + ·) (congrArg₂ (· + ·) ?_ ?_) ?_
  · exact congrFun (shapeCast_self v52 _) _
  · exact Cert.LibMatmulCols.matmul_zero_apply dot_S1024x1024_S1024x1_S1024x1_0_0_1_1_n_n_wf none
      (truncf .bf16 v46 bitsLt_bf16_f32) v1 p 0
  · exact Cert.LibMatmulCols.matmul_zero_apply dot_S2048x1024_S2048x1_S1024x1_0_0_1_1_n_n_wf none
      (truncf .bf16 v49 bitsLt_bf16_f32) v33 p 0

/-- The state column in the narrower float format is the state column: a change of format is the identity on the
    extended reals. -/
theorem pay3_eq (v0 : Vec Ideal S1024x1 .f32) : k2_pay3 (F := Ideal) v0 = v0 := rfl

/-- The context column in the narrower float format is the context column, for the same reason. -/
theorem pay6_eq (v0 : Vec Ideal S1024x1 .f32) (v2 : Vec Ideal S50x1024 .f32) (v4 : Vec Ideal S50x2048 .f32)
    (v6 : Vec Ideal S50x2048 .f32) (v13 : Vec Ideal S50x1 .f32) :
    k2_pay6 (F := Ideal) v0 v2 v4 v6 v13 = k2_pay5 (F := Ideal) v0 v2 v4 v6 v13 := rfl

/-! ## Every window's block is its whole array -/

/-- Window 0's block index is zero on both axes at every point. -/
theorem idx0 : ∀ t : Fin cfg2.N, ∀ a : Fin 2, win2_0.index t a = 0 :=
  (by decide +kernel : ∀ t : Fin grid2.N, ∀ a : Fin 2, win2_0.index t a = 0)
/-- Window 1's block index is zero on both axes at every point. -/
theorem idx1 : ∀ t : Fin cfg2.N, ∀ a : Fin 2, win2_1.index t a = 0 :=
  (by decide +kernel : ∀ t : Fin grid2.N, ∀ a : Fin 2, win2_1.index t a = 0)
/-- Window 2's block index is zero on both axes at every point. -/
theorem idx2 : ∀ t : Fin cfg2.N, ∀ a : Fin 2, win2_2.index t a = 0 :=
  (by decide +kernel : ∀ t : Fin grid2.N, ∀ a : Fin 2, win2_2.index t a = 0)
/-- Window 3's block index is zero on both axes at every point. -/
theorem idx3 : ∀ t : Fin cfg2.N, ∀ a : Fin 2, win2_3.index t a = 0 :=
  (by decide +kernel : ∀ t : Fin grid2.N, ∀ a : Fin 2, win2_3.index t a = 0)
/-- Window 4's block index is zero on both axes at every point. -/
theorem idx4 : ∀ t : Fin cfg2.N, ∀ a : Fin 2, win2_4.index t a = 0 :=
  (by decide +kernel : ∀ t : Fin grid2.N, ∀ a : Fin 2, win2_4.index t a = 0)
/-- Window 5's block index is zero on both axes at every point. -/
theorem idx5 : ∀ t : Fin cfg2.N, ∀ a : Fin 2, win2_5.index t a = 0 :=
  (by decide +kernel : ∀ t : Fin grid2.N, ∀ a : Fin 2, win2_5.index t a = 0)
/-- Window 6's block index is zero on both axes at every point. -/
theorem idx6 : ∀ t : Fin cfg2.N, ∀ a : Fin 2, win2_6.index t a = 0 :=
  (by decide +kernel : ∀ t : Fin grid2.N, ∀ a : Fin 2, win2_6.index t a = 0)
/-- Window 7's block index is zero on both axes at every point. -/
theorem idx7 : ∀ t : Fin cfg2.N, ∀ a : Fin 2, win2_7.index t a = 0 :=
  (by decide +kernel : ∀ t : Fin grid2.N, ∀ a : Fin 2, win2_7.index t a = 0)
/-- Window 8's block index is zero on both axes at every point. -/
theorem idx8 : ∀ t : Fin cfg2.N, ∀ a : Fin 2, win2_8.index t a = 0 :=
  (by decide +kernel : ∀ t : Fin grid2.N, ∀ a : Fin 2, win2_8.index t a = 0)
/-- Window 9's block index is zero on both axes at every point. -/
theorem idx9 : ∀ t : Fin cfg2.N, ∀ a : Fin 2, win2_9.index t a = 0 :=
  (by decide +kernel : ∀ t : Fin grid2.N, ∀ a : Fin 2, win2_9.index t a = 0)
/-- Window 10's block index is zero on both axes at every point. -/
theorem idx10 : ∀ t : Fin cfg2.N, ∀ a : Fin 2, win2_10.index t a = 0 :=
  (by decide +kernel : ∀ t : Fin grid2.N, ∀ a : Fin 2, win2_10.index t a = 0)
/-- Window 11's block index is zero on both axes at every point. -/
theorem idx11 : ∀ t : Fin cfg2.N, ∀ a : Fin 2, win2_11.index t a = 0 :=
  (by decide +kernel : ∀ t : Fin grid2.N, ∀ a : Fin 2, win2_11.index t a = 0)
/-- Window 12's block index is zero on both axes at every point. -/
theorem idx12 : ∀ t : Fin cfg2.N, ∀ a : Fin 2, win2_12.index t a = 0 :=
  (by decide +kernel : ∀ t : Fin grid2.N, ∀ a : Fin 2, win2_12.index t a = 0)
/-- Window 13's block index is zero on both axes at every point. -/
theorem idx13 : ∀ t : Fin cfg2.N, ∀ a : Fin 2, win2_13.index t a = 0 :=
  (by decide +kernel : ∀ t : Fin grid2.N, ∀ a : Fin 2, win2_13.index t a = 0)
/-- Window 14's block index is zero on both axes at every point. -/
theorem idx14 : ∀ t : Fin cfg2.N, ∀ a : Fin 2, win2_14.index t a = 0 :=
  (by decide +kernel : ∀ t : Fin grid2.N, ∀ a : Fin 2, win2_14.index t a = 0)

/-! ## What the body leaves in each output window's buffer -/

section AnyInstance
variable {F : FTy → Type} [FloatOps F]

/-- What the body leaves in window 11's buffer is the context column computed from the whole input blocks. -/
theorem out11_eq (x0 : Vec F S1024x1 .f32) (x1 : Vec F S50x2048 .f32) (x2 : Vec F S50x1024 .f32) (x3 : Vec F S50x2048 .f32) (x4 : Vec F S50x1 .f32) (x5 : Vec F S1024x1 .f32) (x6 : Vec F S1024x1 .f32) (x7 : Vec F S1024x1024 .f32) (x8 : Vec F S1024x1024 .f32) (x9 : Vec F S2048x1024 .f32) (x10 : Vec F S2048x1024 .f32) :
    out2_11 x0 x1 x2 x3 x4 x5 x6 x7 x8 x9 x10 = k2_pay5 x0 x2 x3 x1 x4 := by
  unfold out2_11
  rw [View.canon_unit_zero hz]
  simp only [View.ld_unit_zero (S := S1024x1) hz, View.ld_unit_zero (S := S50x2048) hz, View.ld_unit_zero (S := S50x1024) hz, View.ld_unit_zero (S := S50x1) hz, View.ld_unit_zero (S := S1024x1024) hz, View.ld_unit_zero (S := S2048x1024) hz]

/-- What the body leaves in window 12's buffer is the weighted encoder rows computed from the whole input blocks. -/
theorem out12_eq (x0 : Vec F S1024x1 .f32) (x1 : Vec F S50x2048 .f32) (x2 : Vec F S50x1024 .f32) (x3 : Vec F S50x2048 .f32) (x4 : Vec F S50x1 .f32) (x5 : Vec F S1024x1 .f32) (x6 : Vec F S1024x1 .f32) (x7 : Vec F S1024x1024 .f32) (x8 : Vec F S1024x1024 .f32) (x9 : Vec F S2048x1024 .f32) (x10 : Vec F S2048x1024 .f32) :
    out2_12 x0 x1 x2 x3 x4 x5 x6 x7 x8 x9 x10 = k2_pay4 x0 x2 x3 x1 x4 := by
  unfold out2_12
  rw [View.canon_unit_zero hz]
  simp only [View.ld_unit_zero (S := S1024x1) hz, View.ld_unit_zero (S := S50x2048) hz, View.ld_unit_zero (S := S50x1024) hz, View.ld_unit_zero (S := S50x1) hz, View.ld_unit_zero (S := S1024x1024) hz, View.ld_unit_zero (S := S2048x1024) hz]

/-- What the body leaves in window 13's buffer is the first gate's value computed from the whole input blocks. -/
theorem out13_eq (x0 : Vec F S1024x1 .f32) (x1 : Vec F S50x2048 .f32) (x2 : Vec F S50x1024 .f32) (x3 : Vec F S50x2048 .f32) (x4 : Vec F S50x1 .f32) (x5 : Vec F S1024x1 .f32) (x6 : Vec F S1024x1 .f32) (x7 : Vec F S1024x1024 .f32) (x8 : Vec F S1024x1024 .f32) (x9 : Vec F S2048x1024 .f32) (x10 : Vec F S2048x1024 .f32) :
    out2_13 x0 x1 x2 x3 x4 x5 x6 x7 x8 x9 x10 = k2_pay1 (k2_pay3 x0) (k2_pay6 x0 x2 x3 x1 x4) x7 x9 x5 := by
  unfold out2_13
  rw [View.canon_unit_zero hz]
  simp only [View.ld_unit_zero (S := S1024x1) hz, View.ld_unit_zero (S := S50x2048) hz, View.ld_unit_zero (S := S50x1024) hz, View.ld_unit_zero (S := S50x1) hz, View.ld_unit_zero (S := S1024x1024) hz, View.ld_unit_zero (S := S2048x1024) hz]

/-- What the body leaves in window 14's buffer is the second gate's value computed from the whole input blocks. -/
theorem out14_eq (x0 : Vec F S1024x1 .f32) (x1 : Vec F S50x2048 .f32) (x2 : Vec F S50x1024 .f32) (x3 : Vec F S50x2048 .f32) (x4 : Vec F S50x1 .f32) (x5 : Vec F S1024x1 .f32) (x6 : Vec F S1024x1 .f32) (x7 : Vec F S1024x1024 .f32) (x8 : Vec F S1024x1024 .f32) (x9 : Vec F S2048x1024 .f32) (x10 : Vec F S2048x1024 .f32) :
    out2_14 x0 x1 x2 x3 x4 x5 x6 x7 x8 x9 x10 = k2_pay2 (k2_pay3 x0) (k2_pay6 x0 x2 x3 x1 x4) x8 x10 x6 := by
  unfold out2_14
  rw [View.canon_unit_zero hz]
  simp only [View.ld_unit_zero (S := S1024x1) hz, View.ld_unit_zero (S := S50x2048) hz, View.ld_unit_zero (S := S50x1024) hz, View.ld_unit_zero (S := S50x1) hz, View.ld_unit_zero (S := S1024x1024) hz, View.ld_unit_zero (S := S2048x1024) hz]

end AnyInstance

/-! ## From the one point's blocks to the arrays -/

variable (V : (c : Dev nD) → (b : Ref sig .tc) → Buf (Elt Ideal) ((c : Thread nD τ).loc b))

/-- Input window 0's block at a point is its whole array. -/
theorem iblk_0 (c : Dev nD) (t : Fin cfg2.N) :
    (iblk2 V c 0 t : Vec Ideal S1024x1 .f32) = V c (Pipeline.arrRef spec2 0) := by
  have hz' : (fun a => win2_0.index t a * main_arg1.ty.shape.size a) = fun _ => 0 :=
    funext fun a => by rw [idx0 t a]; exact Nat.zero_mul _
  exact Memref.read_access_unit_zero (Elt Ideal) main_arg1 hz' (fun a => by rw [congrFun hz' a]; simp) (V c (Pipeline.arrRef spec2 0))
/-- Input window 1's block at a point is its whole array. -/
theorem iblk_1 (c : Dev nD) (t : Fin cfg2.N) :
    (iblk2 V c 1 t : Vec Ideal S50x2048 .f32) = V c (Pipeline.arrRef spec2 1) := by
  have hz' : (fun a => win2_1.index t a * main_arg2.ty.shape.size a) = fun _ => 0 :=
    funext fun a => by rw [idx1 t a]; exact Nat.zero_mul _
  exact Memref.read_access_unit_zero (Elt Ideal) main_arg2 hz' (fun a => by rw [congrFun hz' a]; simp) (V c (Pipeline.arrRef spec2 1))
/-- Input window 2's block at a point is its whole array. -/
theorem iblk_2 (c : Dev nD) (t : Fin cfg2.N) :
    (iblk2 V c 2 t : Vec Ideal S50x1024 .f32) = V c (Pipeline.arrRef spec2 2) := by
  have hz' : (fun a => win2_2.index t a * main_arg17.ty.shape.size a) = fun _ => 0 :=
    funext fun a => by rw [idx2 t a]; exact Nat.zero_mul _
  exact Memref.read_access_unit_zero (Elt Ideal) main_arg17 hz' (fun a => by rw [congrFun hz' a]; simp) (V c (Pipeline.arrRef spec2 2))
/-- Input window 3's block at a point is its whole array. -/
theorem iblk_3 (c : Dev nD) (t : Fin cfg2.N) :
    (iblk2 V c 3 t : Vec Ideal S50x2048 .f32) = V c (Pipeline.arrRef spec2 3) := by
  have hz' : (fun a => win2_3.index t a * main_arg18.ty.shape.size a) = fun _ => 0 :=
    funext fun a => by rw [idx3 t a]; exact Nat.zero_mul _
  exact Memref.read_access_unit_zero (Elt Ideal) main_arg18 hz' (fun a => by rw [congrFun hz' a]; simp) (V c (Pipeline.arrRef spec2 3))
/-- Input window 4's block at a point is its whole array. -/
theorem iblk_4 (c : Dev nD) (t : Fin cfg2.N) :
    (iblk2 V c 4 t : Vec Ideal S50x1 .f32) = V c (Pipeline.arrRef spec2 4) := by
  have hz' : (fun a => win2_4.index t a * main_arg16.ty.shape.size a) = fun _ => 0 :=
    funext fun a => by rw [idx4 t a]; exact Nat.zero_mul _
  exact Memref.read_access_unit_zero (Elt Ideal) main_arg16 hz' (fun a => by rw [congrFun hz' a]; simp) (V c (Pipeline.arrRef spec2 4))
/-- Input window 5's block at a point is its whole array. -/
theorem iblk_5 (c : Dev nD) (t : Fin cfg2.N) :
    (iblk2 V c 5 t : Vec Ideal S1024x1 .f32) = V c (Pipeline.arrRef spec2 5) := by
  have hz' : (fun a => win2_5.index t a * main_v0_2.ty.shape.size a) = fun _ => 0 :=
    funext fun a => by rw [idx5 t a]; exact Nat.zero_mul _
  exact Memref.read_access_unit_zero (Elt Ideal) main_v0_2 hz' (fun a => by rw [congrFun hz' a]; simp) (V c (Pipeline.arrRef spec2 5))
/-- Input window 6's block at a point is its whole array. -/
theorem iblk_6 (c : Dev nD) (t : Fin cfg2.N) :
    (iblk2 V c 6 t : Vec Ideal S1024x1 .f32) = V c (Pipeline.arrRef spec2 6) := by
  have hz' : (fun a => win2_6.index t a * main_v0_1.ty.shape.size a) = fun _ => 0 :=
    funext fun a => by rw [idx6 t a]; exact Nat.zero_mul _
  exact Memref.read_access_unit_zero (Elt Ideal) main_v0_1 hz' (fun a => by rw [congrFun hz' a]; simp) (V c (Pipeline.arrRef spec2 6))
/-- Input window 7's block at a point is its whole array. -/
theorem iblk_7 (c : Dev nD) (t : Fin cfg2.N) :
    (iblk2 V c 7 t : Vec Ideal S1024x1024 .f32) = V c (Pipeline.arrRef spec2 7) := by
  have hz' : (fun a => win2_7.index t a * main_arg9.ty.shape.size a) = fun _ => 0 :=
    funext fun a => by rw [idx7 t a]; exact Nat.zero_mul _
  exact Memref.read_access_unit_zero (Elt Ideal) main_arg9 hz' (fun a => by rw [congrFun hz' a]; simp) (V c (Pipeline.arrRef spec2 7))
/-- Input window 8's block at a point is its whole array. -/
theorem iblk_8 (c : Dev nD) (t : Fin cfg2.N) :
    (iblk2 V c 8 t : Vec Ideal S1024x1024 .f32) = V c (Pipeline.arrRef spec2 8) := by
  have hz' : (fun a => win2_8.index t a * main_arg8.ty.shape.size a) = fun _ => 0 :=
    funext fun a => by rw [idx8 t a]; exact Nat.zero_mul _
  exact Memref.read_access_unit_zero (Elt Ideal) main_arg8 hz' (fun a => by rw [congrFun hz' a]; simp) (V c (Pipeline.arrRef spec2 8))
/-- Input window 9's block at a point is its whole array. -/
theorem iblk_9 (c : Dev nD) (t : Fin cfg2.N) :
    (iblk2 V c 9 t : Vec Ideal S2048x1024 .f32) = V c (Pipeline.arrRef spec2 9) := by
  have hz' : (fun a => win2_9.index t a * main_arg13.ty.shape.size a) = fun _ => 0 :=
    funext fun a => by rw [idx9 t a]; exact Nat.zero_mul _
  exact Memref.read_access_unit_zero (Elt Ideal) main_arg13 hz' (fun a => by rw [congrFun hz' a]; simp) (V c (Pipeline.arrRef spec2 9))
/-- Input window 10's block at a point is its whole array. -/
theorem iblk_10 (c : Dev nD) (t : Fin cfg2.N) :
    (iblk2 V c 10 t : Vec Ideal S2048x1024 .f32) = V c (Pipeline.arrRef spec2 10) := by
  have hz' : (fun a => win2_10.index t a * main_arg12.ty.shape.size a) = fun _ => 0 :=
    funext fun a => by rw [idx10 t a]; exact Nat.zero_mul _
  exact Memref.read_access_unit_zero (Elt Ideal) main_arg12 hz' (fun a => by rw [congrFun hz' a]; simp) (V c (Pipeline.arrRef spec2 10))

/-- The one grid point. -/
abbrev t0 : Fin cfg2.N := ⟨0, by decide⟩

/-- What a point writes back to window 12's array is the weighted encoder rows of the whole input arrays, read through the point's block. -/
theorem flushed12 (c : Dev nD) (t : Fin cfg2.N) :
    (dat2 (F := Ideal) V c).flushed 12 t = ((cfg2.win 12).blk t).view.read (Elt Ideal)
      (k2_pay4 (F := Ideal) (V c (Pipeline.arrRef spec2 0)) (V c (Pipeline.arrRef spec2 2)) (V c (Pipeline.arrRef spec2 3))
        (V c (Pipeline.arrRef spec2 1)) (V c (Pipeline.arrRef spec2 4))) := by
  show (cfg2.win 12).cut (grid2.coords t) ((dat2 V c).after 12 t) = _
  rw [after2_12, out12_eq, iblk_0 V c t, iblk_1 V c t, iblk_2 V c t, iblk_3 V c t, iblk_4 V c t]
  have hz' : (fun a => win2_12.index t a * main_v2_1.ty.shape.size a) = fun _ => 0 :=
    funext fun a => by rw [idx12 t a]; exact Nat.zero_mul _
  exact (Memref.read_access_unit_zero (Elt Ideal) main_v2_1 hz' (fun a => by rw [congrFun hz' a]; simp) _).symm

/-- The one point's block covers window 12's array, so the array ends at the weighted encoder rows of the whole input arrays. -/
theorem arr12 (c : Dev nD) : (dat2 (F := Ideal) V c).arrAt 12 cfg2.N
    = k2_pay4 (F := Ideal) (V c (Pipeline.arrRef spec2 0)) (V c (Pipeline.arrRef spec2 2)) (V c (Pipeline.arrRef spec2 3))
        (V c (Pipeline.arrRef spec2 1)) (V c (Pipeline.arrRef spec2 4)) :=
  (dat2 (F := Ideal) V c).arrAt_eq_of_cover 12 _ (fun t _ => flushed12 V c t) fun i =>
    ⟨t0, flush2_12 t0, by
      show i ∈ ((View.whole main_v2_1).slice (win2_12.rect t0)).set
      rw [View.set_slice_whole]
      have hz' : (fun a => win2_12.index t0 a * main_v2_1.ty.shape.size a) = fun _ => 0 :=
        funext fun a => by rw [idx12 t0 a]; exact Nat.zero_mul _
      exact View.mem_set_unit_zero hz' _ i⟩

/-- What a point writes back to window 11's array is the context column of the whole input arrays, read through the point's block. -/
theorem flushed11 (c : Dev nD) (t : Fin cfg2.N) :
    (dat2 (F := Ideal) V c).flushed 11 t = ((cfg2.win 11).blk t).view.read (Elt Ideal)
      (k2_pay5 (F := Ideal) (V c (Pipeline.arrRef spec2 0)) (V c (Pipeline.arrRef spec2 2)) (V c (Pipeline.arrRef spec2 3))
        (V c (Pipeline.arrRef spec2 1)) (V c (Pipeline.arrRef spec2 4))) := by
  show (cfg2.win 11).cut (grid2.coords t) ((dat2 V c).after 11 t) = _
  rw [after2_11, out11_eq, iblk_0 V c t, iblk_1 V c t, iblk_2 V c t, iblk_3 V c t, iblk_4 V c t]
  have hz' : (fun a => win2_11.index t a * main_v2_0.ty.shape.size a) = fun _ => 0 :=
    funext fun a => by rw [idx11 t a]; exact Nat.zero_mul _
  exact (Memref.read_access_unit_zero (Elt Ideal) main_v2_0 hz' (fun a => by rw [congrFun hz' a]; simp) _).symm

/-- The one point's block covers window 11's array, so the array ends at the context column of the whole input arrays. -/
theorem arr11 (c : Dev nD) : (dat2 (F := Ideal) V c).arrAt 11 cfg2.N
    = k2_pay5 (F := Ideal) (V c (Pipeline.arrRef spec2 0)) (V c (Pipeline.arrRef spec2 2)) (V c (Pipeline.arrRef spec2 3))
        (V c (Pipeline.arrRef spec2 1)) (V c (Pipeline.arrRef spec2 4)) :=
  (dat2 (F := Ideal) V c).arrAt_eq_of_cover 11 _ (fun t _ => flushed11 V c t) fun i =>
    ⟨t0, flush2_11 t0, by
      show i ∈ ((View.whole main_v2_0).slice (win2_11.rect t0)).set
      rw [View.set_slice_whole]
      have hz' : (fun a => win2_11.index t0 a * main_v2_0.ty.shape.size a) = fun _ => 0 :=
        funext fun a => by rw [idx11 t0 a]; exact Nat.zero_mul _
      exact View.mem_set_unit_zero hz' _ i⟩

/-- What a point writes back to window 13's array is the first gate's value of the whole input arrays, read through the point's block. -/
theorem flushed13 (c : Dev nD) (t : Fin cfg2.N) :
    (dat2 (F := Ideal) V c).flushed 13 t = ((cfg2.win 13).blk t).view.read (Elt Ideal)
      (k2_pay1 (F := Ideal) (k2_pay3 (V c (Pipeline.arrRef spec2 0))) (k2_pay6 (V c (Pipeline.arrRef spec2 0)) (V c (Pipeline.arrRef spec2 2)) (V c (Pipeline.arrRef spec2 3))
        (V c (Pipeline.arrRef spec2 1)) (V c (Pipeline.arrRef spec2 4)))
        (V c (Pipeline.arrRef spec2 7)) (V c (Pipeline.arrRef spec2 9)) (V c (Pipeline.arrRef spec2 5))) := by
  show (cfg2.win 13).cut (grid2.coords t) ((dat2 V c).after 13 t) = _
  rw [after2_13, out13_eq, iblk_0 V c t, iblk_1 V c t, iblk_2 V c t, iblk_3 V c t, iblk_4 V c t, iblk_5 V c t, iblk_7 V c t, iblk_9 V c t]
  have hz' : (fun a => win2_13.index t a * main_v2_2.ty.shape.size a) = fun _ => 0 :=
    funext fun a => by rw [idx13 t a]; exact Nat.zero_mul _
  exact (Memref.read_access_unit_zero (Elt Ideal) main_v2_2 hz' (fun a => by rw [congrFun hz' a]; simp) _).symm

/-- The one point's block covers window 13's array, so the array ends at the first gate's value of the whole input arrays. -/
theorem arr13_body (c : Dev nD) : (dat2 (F := Ideal) V c).arrAt 13 cfg2.N
    = k2_pay1 (F := Ideal) (k2_pay3 (V c (Pipeline.arrRef spec2 0))) (k2_pay6 (V c (Pipeline.arrRef spec2 0)) (V c (Pipeline.arrRef spec2 2)) (V c (Pipeline.arrRef spec2 3))
        (V c (Pipeline.arrRef spec2 1)) (V c (Pipeline.arrRef spec2 4)))
        (V c (Pipeline.arrRef spec2 7)) (V c (Pipeline.arrRef spec2 9)) (V c (Pipeline.arrRef spec2 5)) :=
  (dat2 (F := Ideal) V c).arrAt_eq_of_cover 13 _ (fun t _ => flushed13 V c t) fun i =>
    ⟨t0, flush2_13 t0, by
      show i ∈ ((View.whole main_v2_2).slice (win2_13.rect t0)).set
      rw [View.set_slice_whole]
      have hz' : (fun a => win2_13.index t0 a * main_v2_2.ty.shape.size a) = fun _ => 0 :=
        funext fun a => by rw [idx13 t0 a]; exact Nat.zero_mul _
      exact View.mem_set_unit_zero hz' _ i⟩

/-- What a point writes back to window 14's array is the second gate's value of the whole input arrays, read through the point's block. -/
theorem flushed14 (c : Dev nD) (t : Fin cfg2.N) :
    (dat2 (F := Ideal) V c).flushed 14 t = ((cfg2.win 14).blk t).view.read (Elt Ideal)
      (k2_pay2 (F := Ideal) (k2_pay3 (V c (Pipeline.arrRef spec2 0))) (k2_pay6 (V c (Pipeline.arrRef spec2 0)) (V c (Pipeline.arrRef spec2 2)) (V c (Pipeline.arrRef spec2 3))
        (V c (Pipeline.arrRef spec2 1)) (V c (Pipeline.arrRef spec2 4)))
        (V c (Pipeline.arrRef spec2 8)) (V c (Pipeline.arrRef spec2 10)) (V c (Pipeline.arrRef spec2 6))) := by
  show (cfg2.win 14).cut (grid2.coords t) ((dat2 V c).after 14 t) = _
  rw [after2_14, out14_eq, iblk_0 V c t, iblk_1 V c t, iblk_2 V c t, iblk_3 V c t, iblk_4 V c t, iblk_6 V c t, iblk_8 V c t, iblk_10 V c t]
  have hz' : (fun a => win2_14.index t a * main_v2_3.ty.shape.size a) = fun _ => 0 :=
    funext fun a => by rw [idx14 t a]; exact Nat.zero_mul _
  exact (Memref.read_access_unit_zero (Elt Ideal) main_v2_3 hz' (fun a => by rw [congrFun hz' a]; simp) _).symm

/-- The one point's block covers window 14's array, so the array ends at the second gate's value of the whole input arrays. -/
theorem arr14_body (c : Dev nD) : (dat2 (F := Ideal) V c).arrAt 14 cfg2.N
    = k2_pay2 (F := Ideal) (k2_pay3 (V c (Pipeline.arrRef spec2 0))) (k2_pay6 (V c (Pipeline.arrRef spec2 0)) (V c (Pipeline.arrRef spec2 2)) (V c (Pipeline.arrRef spec2 3))
        (V c (Pipeline.arrRef spec2 1)) (V c (Pipeline.arrRef spec2 4)))
        (V c (Pipeline.arrRef spec2 8)) (V c (Pipeline.arrRef spec2 10)) (V c (Pipeline.arrRef spec2 6)) :=
  (dat2 (F := Ideal) V c).arrAt_eq_of_cover 14 _ (fun t _ => flushed14 V c t) fun i =>
    ⟨t0, flush2_14 t0, by
      show i ∈ ((View.whole main_v2_3).slice (win2_14.rect t0)).set
      rw [View.set_slice_whole]
      have hz' : (fun a => win2_14.index t0 a * main_v2_3.ty.shape.size a) = fun _ => 0 :=
        funext fun a => by rw [idx14 t0 a]; exact Nat.zero_mul _
      exact View.mem_set_unit_zero hz' _ i⟩

/-! ## The gates' arrays -/

/-- The array window 13 ends at is the first gate: the logistic of its bias column, plus the transpose of its state
    matrix applied to the state, plus the transpose of its context matrix applied to the context column. -/
theorem arr13 (c : Dev nD) : (dat2 (F := Ideal) V c).arrAt 13 cfg2.N
    = Cert.Dec.gate (V c (Pipeline.arrRef spec2 5)) (Cert.Dec.mvT (V c (Pipeline.arrRef spec2 7)) (V c (Pipeline.arrRef spec2 0)))
        (Cert.Dec.mvT (V c (Pipeline.arrRef spec2 9)) (k2_pay5 (F := Ideal) (V c (Pipeline.arrRef spec2 0)) (V c (Pipeline.arrRef spec2 2)) (V c (Pipeline.arrRef spec2 3))
        (V c (Pipeline.arrRef spec2 1)) (V c (Pipeline.arrRef spec2 4)))) := by
  rw [arr13_body V c, pay1_eq, pay3_eq, pay6_eq]

/-- The array window 14 ends at is the second gate, likewise from its own bias column and matrices. -/
theorem arr14 (c : Dev nD) : (dat2 (F := Ideal) V c).arrAt 14 cfg2.N
    = Cert.Dec.gate (V c (Pipeline.arrRef spec2 6)) (Cert.Dec.mvT (V c (Pipeline.arrRef spec2 8)) (V c (Pipeline.arrRef spec2 0)))
        (Cert.Dec.mvT (V c (Pipeline.arrRef spec2 10)) (k2_pay5 (F := Ideal) (V c (Pipeline.arrRef spec2 0)) (V c (Pipeline.arrRef spec2 2)) (V c (Pipeline.arrRef spec2 3))
        (V c (Pipeline.arrRef spec2 1)) (V c (Pipeline.arrRef spec2 4)))) := by
  rw [arr14_body V c, pay2_eq, pay3_eq, pay6_eq]

end Cert.KernelIdeal.Region2

end
-- ==== Proof.Region35.lean ====
/-
  Two stages of the decoder step, read off the program's side as index formulas on the extended reals.

  The new state.  With U [1024,1024], C [2048,1024], Wy, s, r, z [1024,1] and c [2048,1], the stage computes
    s~(p) = sigma((Wy(p) + sum_k U(k,p) r(k) s(k)) + sum_k C(k,p) c(k)),      s'(p) = (1 - z(p)) s(p) + z(p) s~(p):
  both products contract the FIRST axis of the matrix with the column, so each is the transpose applied to the
  column; the changes of float format and the casts to the same shape are the identity on extended reals.  The
  stage runs at one grid point whose blocks are the whole arrays, so what that point writes back is the result.

  The logits.  With Wo [16000,2048] and t [2048,1], logits(R) = sum_k Wo(R,k) t(k).  The stage runs at sixteen grid
  points; point n takes rows 1000 n .. 1000 n + 999 of Wo and all of t, and writes rows 1000 n .. 1000 n + 999 of the
  result, so row R is written by point R / 1000 and the sixteen blocks tile the result.
-/
import proofs.«179386_j74783970558463_2_alg».proof.Proof.Gen.KernelIdeal.Frame
import proofs.«179386_j74783970558463_2_alg».proof.Proof.Spec
import proofs.«179386_j74783970558463_2_alg».proof.Proof.LibMatmulCols
import proofs.«179386_j74783970558463_2_alg».proof.Proof.LibMatmulPlain
import Idealize.ShloMosaic.Lib.ValueIdx
import Idealize.ShloMosaic.Lib.Pipeline.Value
import Idealize.ShloMosaic.Lib.ValueLayout
import Idealize.ShloMosaic.PureOps.Ideal.Laws

noncomputable section

/-! ## The new state -/

namespace Cert.KernelIdeal.Region3

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The pair of zero offsets is the constant zero function. -/
theorem hz : (![0, 0] : Fin 2 → Nat) = fun _ => 0 := funext fun a => by fin_cases a <;> rfl

/-- Row p of the transpose of U [1024,1024] applied to a column x [1024,1]: the sum over k of U(k,p) x(k). -/
theorem colsU (U : Vec Ideal S1024x1024 .f32) (x : Vec Ideal S1024x1 .f32) (h : FTy.bits .bf16 < FTy.bits .f32) (p : Fin 1024) :
    matmul (F := Ideal) dot_S1024x1024_S1024x1_S1024x1_0_0_1_1_n_n none (truncf (F := Ideal) .bf16 U h) (truncf (F := Ideal) .bf16 x h)
        (constant (F := Ideal) S1024x1 .f32 0x00000000#32) (ix2 p 0)
      = ∑ k : Fin 1024, U (ix2 k p) * x (ix2 k 0) :=
  Cert.LibMatmulCols.matmul_zero_apply (K := 1024) (M := 1024) (N := 1) dot_S1024x1024_S1024x1_S1024x1_0_0_1_1_n_n.wf none _ _ p 0

/-- Row p of the transpose of C [2048,1024] applied to a column x [2048,1]: the sum over k of C(k,p) x(k). -/
theorem colsC (C : Vec Ideal S2048x1024 .f32) (x : Vec Ideal S2048x1 .f32) (h : FTy.bits .bf16 < FTy.bits .f32) (p : Fin 1024) :
    matmul (F := Ideal) dot_S2048x1024_S2048x1_S1024x1_0_0_1_1_n_n none (truncf (F := Ideal) .bf16 C h) (truncf (F := Ideal) .bf16 x h)
        (constant (F := Ideal) S1024x1 .f32 0x00000000#32) (ix2 p 0)
      = ∑ k : Fin 2048, C (ix2 k p) * x (ix2 k 0) :=
  Cert.LibMatmulCols.matmul_zero_apply (K := 2048) (M := 1024) (N := 1) dot_S2048x1024_S2048x1_S1024x1_0_0_1_1_n_n.wf none _ _ p 0

/-- The stage's arithmetic is the new state of the specification: for any inputs, the blend of s with the gate of
    Wy, U^T (r s) and C^T c, weighted by z. -/
theorem pay_eq (s r z : Vec Ideal S1024x1 .f32) (U : Vec Ideal S1024x1024 .f32) (C : Vec Ideal S2048x1024 .f32)
    (cc : Vec Ideal S2048x1 .f32) (Wy : Vec Ideal S1024x1 .f32) :
    k3_pay1 (F := Ideal) s r z U C cc Wy
      = Cert.Dec.blend z s (Cert.Dec.gate Wy (Cert.Dec.mvT U (Cert.Dec.had r s)) (Cert.Dec.mvT C cc)) := by
  funext j
  obtain ⟨p, q, rfl⟩ : ∃ (p : Fin 1024) (q : Fin 1), j = ix2 p q := ⟨j 0, j 1, eq_ix2 j⟩
  obtain rfl : q = 0 := Subsingleton.elim _ _
  unfold k3_pay1
  simp only [shapeCast_self]
  rw [Cert.Dec.blend_apply, Cert.Dec.gate_apply, Cert.Dec.mvT_apply, Cert.Dec.mvT_apply]
  refine congrArg (fun x => (Cert.Dec.one - z (ix2 p 0)) * s (ix2 p 0) + z (ix2 p 0) * Ideal.logistic x) ?_
  refine congrArg₂ (· + ·) (congrArg (Wy (ix2 p 0) + ·) ?_) ?_
  · exact colsU U (mulf (F := Ideal) r s) _ p
  · exact colsC C cc _ p

/-- At the one grid point the block of the matrix U is the whole array: its block index is zero on both axes. -/
theorem iblk3_0_eq (c : Dev nD) (t : Fin cfg3.N) :
    iblk3 (F := Ideal) V c 0 t = (V c (Pipeline.arrRef spec3 0) : Vec Ideal S1024x1024 .f32) := by
  obtain rfl := fin_N3 t
  unfold iblk3
  have hz' : (fun a => win3_0.index t3_0 a * (Pipeline.arrRef spec3 0).ty.shape.size a) = fun _ => 0 :=
    funext fun a => by fin_cases a <;> decide
  exact Memref.read_access_unit_zero (Elt Ideal) (Pipeline.arrRef spec3 0) hz' (fun a => by rw [congrFun hz' a]; simp) _

/-- At the one grid point the block of the matrix C is the whole array: its block index is zero on both axes. -/
theorem iblk3_1_eq (c : Dev nD) (t : Fin cfg3.N) :
    iblk3 (F := Ideal) V c 1 t = (V c (Pipeline.arrRef spec3 1) : Vec Ideal S2048x1024 .f32) := by
  obtain rfl := fin_N3 t
  unfold iblk3
  have hz' : (fun a => win3_1.index t3_0 a * (Pipeline.arrRef spec3 1).ty.shape.size a) = fun _ => 0 :=
    funext fun a => by fin_cases a <;> decide
  exact Memref.read_access_unit_zero (Elt Ideal) (Pipeline.arrRef spec3 1) hz' (fun a => by rw [congrFun hz' a]; simp) _

/-- At the one grid point the block of the column Wy is the whole array: its block index is zero on both axes. -/
theorem iblk3_2_eq (c : Dev nD) (t : Fin cfg3.N) :
    iblk3 (F := Ideal) V c 2 t = (V c (Pipeline.arrRef spec3 2) : Vec Ideal S1024x1 .f32) := by
  obtain rfl := fin_N3 t
  unfold iblk3
  have hz' : (fun a => win3_2.index t3_0 a * (Pipeline.arrRef spec3 2).ty.shape.size a) = fun _ => 0 :=
    funext fun a => by fin_cases a <;> decide
  exact Memref.read_access_unit_zero (Elt Ideal) (Pipeline.arrRef spec3 2) hz' (fun a => by rw [congrFun hz' a]; simp) _

/-- At the one grid point the block of the state s is the whole array: its block index is zero on both axes. -/
theorem iblk3_3_eq (c : Dev nD) (t : Fin cfg3.N) :
    iblk3 (F := Ideal) V c 3 t = (V c (Pipeline.arrRef spec3 3) : Vec Ideal S1024x1 .f32) := by
  obtain rfl := fin_N3 t
  unfold iblk3
  have hz' : (fun a => win3_3.index t3_0 a * (Pipeline.arrRef spec3 3).ty.shape.size a) = fun _ => 0 :=
    funext fun a => by fin_cases a <;> decide
  exact Memref.read_access_unit_zero (Elt Ideal) (Pipeline.arrRef spec3 3) hz' (fun a => by rw [congrFun hz' a]; simp) _

/-- At the one grid point the block of the context c is the whole array: its block index is zero on both axes. -/
theorem iblk3_4_eq (c : Dev nD) (t : Fin cfg3.N) :
    iblk3 (F := Ideal) V c 4 t = (V c (Pipeline.arrRef spec3 4) : Vec Ideal S2048x1 .f32) := by
  obtain rfl := fin_N3 t
  unfold iblk3
  have hz' : (fun a => win3_4.index t3_0 a * (Pipeline.arrRef spec3 4).ty.shape.size a) = fun _ => 0 :=
    funext fun a => by fin_cases a <;> decide
  exact Memref.read_access_unit_zero (Elt Ideal) (Pipeline.arrRef spec3 4) hz' (fun a => by rw [congrFun hz' a]; simp) _

/-- At the one grid point the block of the gate r is the whole array: its block index is zero on both axes. -/
theorem iblk3_5_eq (c : Dev nD) (t : Fin cfg3.N) :
    iblk3 (F := Ideal) V c 5 t = (V c (Pipeline.arrRef spec3 5) : Vec Ideal S1024x1 .f32) := by
  obtain rfl := fin_N3 t
  unfold iblk3
  have hz' : (fun a => win3_5.index t3_0 a * (Pipeline.arrRef spec3 5).ty.shape.size a) = fun _ => 0 :=
    funext fun a => by fin_cases a <;> decide
  exact Memref.read_access_unit_zero (Elt Ideal) (Pipeline.arrRef spec3 5) hz' (fun a => by rw [congrFun hz' a]; simp) _

/-- At the one grid point the block of the gate z is the whole array: its block index is zero on both axes. -/
theorem iblk3_6_eq (c : Dev nD) (t : Fin cfg3.N) :
    iblk3 (F := Ideal) V c 6 t = (V c (Pipeline.arrRef spec3 6) : Vec Ideal S1024x1 .f32) := by
  obtain rfl := fin_N3 t
  unfold iblk3
  have hz' : (fun a => win3_6.index t3_0 a * (Pipeline.arrRef spec3 6).ty.shape.size a) = fun _ => 0 :=
    funext fun a => by fin_cases a <;> decide
  exact Memref.read_access_unit_zero (Elt Ideal) (Pipeline.arrRef spec3 6) hz' (fun a => by rw [congrFun hz' a]; simp) _

/-- The result's block at the one grid point is the whole result: reading any contents through it gives them back. -/
theorem blk7_read (c : Dev nD) (t : Fin cfg3.N) (X : Vec Ideal S1024x1 .f32) :
    ((cfg3.win 7).blk t).view.read (Elt Ideal) X = X := by
  obtain rfl := fin_N3 t
  have hz' : (fun a => win3_7.index t3_0 a * (Pipeline.arrRef spec3 7).ty.shape.size a) = fun _ => 0 :=
    funext fun a => by fin_cases a <;> decide
  exact Memref.read_access_unit_zero (Elt Ideal) (Pipeline.arrRef spec3 7) hz' (fun a => by rw [congrFun hz' a]; simp) _

/-- The new state as a function of the seven arrays the region finds. -/
abbrev newState (c : Dev nD) : Cert.Dec.Mat 1024 1 :=
  Cert.Dec.blend (V c (Pipeline.arrRef spec3 6) : Cert.Dec.Mat 1024 1) (V c (Pipeline.arrRef spec3 3) : Cert.Dec.Mat 1024 1)
        (Cert.Dec.gate (V c (Pipeline.arrRef spec3 2) : Cert.Dec.Mat 1024 1)
          (Cert.Dec.mvT (V c (Pipeline.arrRef spec3 0) : Cert.Dec.Mat 1024 1024) (Cert.Dec.had (V c (Pipeline.arrRef spec3 5) : Cert.Dec.Mat 1024 1) (V c (Pipeline.arrRef spec3 3) : Cert.Dec.Mat 1024 1)))
          (Cert.Dec.mvT (V c (Pipeline.arrRef spec3 1) : Cert.Dec.Mat 2048 1024) (V c (Pipeline.arrRef spec3 4) : Cert.Dec.Mat 2048 1)))

/-- What the one grid point writes back is the new state of the arrays the region finds. -/
theorem flushed7_eq (c : Dev nD) (t : Fin cfg3.N) :
    (dat3 (F := Ideal) V c).flushed 7 t = ((cfg3.win 7).blk t).view.read (Elt Ideal) (newState V c) := by
  show (cfg3.win 7).cut (grid3.coords t) ((dat3 (F := Ideal) V c).after 7 t) = _
  rw [after3_7]
  unfold out3_7
  rw [View.canon_unit_zero hz]
  simp only [View.ld_unit_zero (S := S1024x1) hz, View.ld_unit_zero (S := S1024x1024) hz,
    View.ld_unit_zero (S := S2048x1024) hz, View.ld_unit_zero (S := S2048x1) hz]
  rw [iblk3_0_eq, iblk3_1_eq, iblk3_2_eq, iblk3_3_eq, iblk3_4_eq, iblk3_5_eq, iblk3_6_eq, pay_eq]
  exact (blk7_read c t _).symm

/-- The array the result window ends at is the new state: (1 - z) s + z sigma((Wy + U^T (r s)) + C^T c), of the
    arrays the region finds; the one grid point's block covers every index. -/
theorem arr7 (c : Dev nD) :
    (dat3 (F := Ideal) V c).arrAt 7 cfg3.N
      = Cert.Dec.blend (V c (Pipeline.arrRef spec3 6) : Cert.Dec.Mat 1024 1) (V c (Pipeline.arrRef spec3 3) : Cert.Dec.Mat 1024 1)
        (Cert.Dec.gate (V c (Pipeline.arrRef spec3 2) : Cert.Dec.Mat 1024 1)
          (Cert.Dec.mvT (V c (Pipeline.arrRef spec3 0) : Cert.Dec.Mat 1024 1024) (Cert.Dec.had (V c (Pipeline.arrRef spec3 5) : Cert.Dec.Mat 1024 1) (V c (Pipeline.arrRef spec3 3) : Cert.Dec.Mat 1024 1)))
          (Cert.Dec.mvT (V c (Pipeline.arrRef spec3 1) : Cert.Dec.Mat 2048 1024) (V c (Pipeline.arrRef spec3 4) : Cert.Dec.Mat 2048 1))) :=
  (dat3 (F := Ideal) V c).arrAt_eq_of_cover 7 (newState V c) (fun t _ => flushed7_eq V c t) fun i =>
    ⟨t3_0, flush3_7 t3_0, by
      show i ∈ ((View.whole (Pipeline.arrRef spec3 7)).slice (win3_7.rect t3_0)).set
      rw [View.set_slice_whole, Rect.mem_set_unit]
      intro a
      have h0 : (i 0 : Nat) < 1024 := (i 0).isLt
      have h1 : (i 1 : Nat) < 1 := (i 1).isLt
      match a with
      | ⟨0, _⟩ =>
        show win3_7.index t3_0 0 * win3_7.size 0 ≤ (i 0 : Nat) ∧ (i 0 : Nat) < win3_7.index t3_0 0 * win3_7.size 0 + win3_7.xsize (grid3.coords t3_0) 0
        rw [show win3_7.index t3_0 0 * win3_7.size 0 = 0 from by decide +kernel, show win3_7.xsize (grid3.coords t3_0) 0 = 1024 from by decide +kernel]; omega
      | ⟨1, _⟩ =>
        show win3_7.index t3_0 1 * win3_7.size 1 ≤ (i 1 : Nat) ∧ (i 1 : Nat) < win3_7.index t3_0 1 * win3_7.size 1 + win3_7.xsize (grid3.coords t3_0) 1
        rw [show win3_7.index t3_0 1 * win3_7.size 1 = 0 from by decide +kernel, show win3_7.xsize (grid3.coords t3_0) 1 = 1 from by decide +kernel]; omega⟩

end Cert.KernelIdeal.Region3

/-! ## The logits -/

namespace Cert.KernelIdeal.Region5

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The pair of zero offsets is the constant zero function. -/
theorem hz : (![0, 0] : Fin 2 → Nat) = fun _ => 0 := funext fun a => by fin_cases a <;> rfl

/-- The block indices over the sixteen points: the matrix's and the result's blocks move down one block per point,
    the column's block stays at the top. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- There are sixteen grid points. -/
theorem lt16 (t : Fin cfg5.N) : t.val < 16 := lt_of_lt_of_eq t.isLt N_5

/-- Entry (p, k) of the matrix's block at point t is entry (1000 t + p, k) of the matrix. -/
theorem iblk5_0_apply (c : Dev nD) (t : Fin cfg5.N) (p : Fin 1000) (k : Fin 2048) (R : Fin 16000) (hR : R.val = 1000 * t.val + p.val) :
    (iblk5 (F := Ideal) V c 0 t : Vec Ideal S1000x2048 .f32) (ix2 p k)
      = (V c (Pipeline.arrRef spec5 0) : Vec Ideal S16000x2048 .f32) (ix2 R k) := by
  obtain ⟨e0, e1, -, -, -, -⟩ := idx5 t
  unfold iblk5
  rw [View.read_apply]
  show V c (Pipeline.arrRef spec5 0) _ = V c (Pipeline.arrRef spec5 0) _
  congr 1
  funext a
  apply Fin.ext
  match a with
  | ⟨0, _⟩ => show win5_0.index t 0 * 1000 + 1 * p.val = R.val; rw [e0, hR]; omega
  | ⟨1, _⟩ => show win5_0.index t 1 * 2048 + 1 * k.val = k.val; rw [e1]; omega

/-- The column's block at every point is the whole column. -/
theorem iblk5_1_eq (c : Dev nD) (t : Fin cfg5.N) :
    iblk5 (F := Ideal) V c 1 t = (V c (Pipeline.arrRef spec5 1) : Vec Ideal S2048x1 .f32) := by
  obtain ⟨-, -, e2, e3, -, -⟩ := idx5 t
  unfold iblk5
  have hz' : (fun a => win5_1.index t a * (Pipeline.arrRef spec5 1).ty.shape.size a) = fun _ => 0 := by
    funext a
    match a with
    | ⟨0, _⟩ => show win5_1.index t 0 * 2048 = 0; rw [e2]
    | ⟨1, _⟩ => show win5_1.index t 1 * 1 = 0; rw [e3]
  exact Memref.read_access_unit_zero (Elt Ideal) (Pipeline.arrRef spec5 1) hz' (fun a => by rw [congrFun hz' a]; simp) _

/-- The stage's arithmetic at an entry: row p of the block [1000,2048] against the column [2048,1], the sum over k of
    x0(p,k) x2(k). -/
theorem pay5_apply (x0 : Vec Ideal S1000x2048 .f32) (x2 : Vec Ideal S2048x1 .f32) (p : Fin 1000) :
    k5_pay1 (F := Ideal) x0 x2 (ix2 p 0) = ∑ k : Fin 2048, x0 (ix2 p k) * x2 (ix2 k 0) := by
  unfold k5_pay1
  simp only [shapeCast_self]
  exact Cert.LibMatmulPlain.matmul_zero_apply (M := 1000) (K := 2048) (N := 1) dot_S1000x2048_S2048x1_S1000x1_1_0_0_1_n_n.wf none _ _ p 0

/-- The logits as a function of the two arrays the region finds. -/
abbrev logits (c : Dev nD) : Cert.Dec.Mat 16000 1 :=
  Cert.Dec.mv (V c (Pipeline.arrRef spec5 0) : Cert.Dec.Mat 16000 2048) (V c (Pipeline.arrRef spec5 1) : Cert.Dec.Mat 2048 1)

/-- What point t writes back is rows 1000 t .. 1000 t + 999 of the logits of the arrays the region finds. -/
theorem flushed2_eq (c : Dev nD) (t : Fin cfg5.N) :
    (dat5 (F := Ideal) V c).flushed 2 t = ((cfg5.win 2).blk t).view.read (Elt Ideal) (logits V c) := by
  show (cfg5.win 2).cut (grid5.coords t) ((dat5 (F := Ideal) V c).after 2 t) = _
  rw [after5_2]
  unfold out5_2
  rw [View.canon_unit_zero hz]
  simp only [View.ld_unit_zero (S := S1000x2048) hz, View.ld_unit_zero (S := S2048x1) hz]
  obtain ⟨-, -, -, -, e4, e5⟩ := idx5 t
  have ht := lt16 t
  funext j
  obtain ⟨p, q, rfl⟩ : ∃ (p : Fin 1000) (q : Fin 1), j = ix2 p q := ⟨j 0, j 1, eq_ix2 j⟩
  obtain rfl : q = 0 := Subsingleton.elim _ _
  show k5_pay1 (F := Ideal) (iblk5 V c 0 t) (iblk5 V c 1 t) (ix2 p 0) = _
  rw [View.read_apply]
  show _ = logits V c (((cfg5.win 2).blk t).view.emb (ix2 p 0))
  have hR : 1000 * t.val + p.val < 16000 := by have := p.isLt; omega
  have he : ((cfg5.win 2).blk t).view.emb (ix2 p (0 : Fin 1))
      = (ix2 (⟨1000 * t.val + p.val, hR⟩ : Fin 16000) (0 : Fin 1) : (⟨2, ![16000, 1]⟩ : Shape).Idx) := by
    funext a
    apply Fin.ext
    match a with
    | ⟨0, _⟩ => show win5_2.index t 0 * 1000 + 1 * p.val = 1000 * t.val + p.val; rw [e4]; omega
    | ⟨1, _⟩ => show win5_2.index t 1 * 1 + 1 * 0 = 0; rw [e5]
  rw [he]
  show _ = Cert.Dec.mv (V c (Pipeline.arrRef spec5 0) : Cert.Dec.Mat 16000 2048) (V c (Pipeline.arrRef spec5 1) : Cert.Dec.Mat 2048 1) (ix2 _ _)
  rw [Cert.Dec.mv_apply]
  refine (pay5_apply (iblk5 V c 0 t) (iblk5 V c 1 t) p).trans (Finset.sum_congr rfl fun k _ => ?_)
  rw [iblk5_0_apply V c t p k ⟨1000 * t.val + p.val, hR⟩ rfl, iblk5_1_eq V c t]

/-- An index of the result is in point t's block iff, on each axis, it lies in the block's range there. -/
theorem mem_blk2 (t : Fin cfg5.N) (i : S16000x1.Idx) :
    i ∈ ((cfg5.win 2).blk t).view.set ↔ ∀ a : Fin 2, win5_2.index t a * S1000x1.size a ≤ (i a).val ∧ (i a).val < win5_2.index t a * S1000x1.size a + S1000x1.size a := by
  show i ∈ ((View.whole (Pipeline.arrRef spec5 2)).slice (win5_2.rect t)).set ↔ _
  rw [View.set_slice_whole, Rect.mem_set_unit]
  exact Iff.rfl

/-- The array the result window ends at is the logits Wo t of the arrays the region finds: row R is in the block of
    point R / 1000, so the sixteen blocks cover every index. -/
theorem arr2 (c : Dev nD) :
    (dat5 (F := Ideal) V c).arrAt 2 cfg5.N
      = Cert.Dec.mv (V c (Pipeline.arrRef spec5 0) : Cert.Dec.Mat 16000 2048) (V c (Pipeline.arrRef spec5 1) : Cert.Dec.Mat 2048 1) :=
  (dat5 (F := Ideal) V c).arrAt_eq_of_cover 2 (logits V c) (fun t _ => flushed2_eq V c t) fun i => by
    have h0 : (i 0 : Nat) < 16000 := (i 0).isLt
    have h1 : (i 1 : Nat) < 1 := (i 1).isLt
    have hT : (i 0 : Nat) / 1000 < cfg5.N := lt_of_lt_of_eq (show (i 0 : Nat) / 1000 < 16 by omega) N_5.symm
    refine ⟨⟨(i 0 : Nat) / 1000, hT⟩, flush5_2 _, ?_⟩
    obtain ⟨-, -, -, -, e4, e5⟩ := idx5 ⟨(i 0 : Nat) / 1000, hT⟩
    rw [mem_blk2]
    intro a
    match a with
    | ⟨0, _⟩ =>
      show win5_2.index ⟨(i 0 : Nat) / 1000, hT⟩ 0 * 1000 ≤ (i 0 : Nat) ∧ (i 0 : Nat) < win5_2.index ⟨(i 0 : Nat) / 1000, hT⟩ 0 * 1000 + 1000
      rw [e4]; show (i 0 : Nat) / 1000 * 1000 ≤ (i 0 : Nat) ∧ (i 0 : Nat) < (i 0 : Nat) / 1000 * 1000 + 1000; omega
    | ⟨1, _⟩ =>
      show win5_2.index ⟨(i 0 : Nat) / 1000, hT⟩ 1 * 1 ≤ (i 1 : Nat) ∧ (i 1 : Nat) < win5_2.index ⟨(i 0 : Nat) / 1000, hT⟩ 1 * 1 + 1
      rw [e5]; omega

end Cert.KernelIdeal.Region5

end
-- ==== Proof.LibRowsAndSlabs.lean ====
/-
  Three small re-layings read at an entry, for any extents and element type, and the affine normalisation followed by
  a rectifier that is built from them, on the extended reals.

  * A slab of unit thickness cut out of an [n0, n1, n2] array at position k of its middle axis and flattened to an
    [n0, n2] matrix holds, at (p, e), the array's entry (p, k, e).
  * Row r of an [a, b] matrix, cut out as a [1, b] block and flattened to a vector, holds at q the matrix's entry (r, q).
  * A vector of length b laid out as one row and repeated down a rows holds, at (p, q), the vector's entry q.
  * With the four rows of a [4, b] parameter matrix read as scale (row 0), shift (row 1), centre (row 2) and spread (row 3),
    the map  x ↦ max (((x - centre) · rsqrt (spread + e)) · scale + shift) z  applied entry by entry to a matrix, column q
    taking column q's parameters.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibRowsAndSlabs

open Idealize.ShloMosaic Idealize.ShloMosaic.ValueIdx

variable {α : Type}

/-- A slab of thickness one at position k of the middle axis fits only if k is a position of that axis. -/
theorem slab_lt {n0 n1 n2 k : ℕ} (hs : (⟨3, ![n0, n1, n2]⟩ : Shape).Slices ![0, k, 0] ⟨3, ![n0, 1, n2]⟩) : k < n1 := by
  obtain ⟨_, h⟩ := hs
  exact h 1

/-- A one-row block at row r fits only if r is a row. -/
theorem row_lt {a b r : ℕ} (hs : (⟨2, ![a, b]⟩ : Shape).Slices ![r, 0] ⟨2, ![1, b]⟩) : r < a := by
  obtain ⟨_, h⟩ := hs
  exact h 0

/-- The slab at position k of the middle axis, flattened to a matrix, read at (p, e): the array at (p, k, e). -/
theorem slabAsMatrix_apply {n0 n1 n2 : ℕ} (k : ℕ) (X : (⟨3, ![n0, n1, n2]⟩ : Shape).Idx → α)
    (hs : (⟨3, ![n0, n1, n2]⟩ : Shape).Slices ![0, k, 0] ⟨3, ![n0, 1, n2]⟩)
    (hc : (⟨3, ![n0, 1, n2]⟩ : Shape).ShapeCasts ⟨2, ![n0, n2]⟩) (p : Fin n0) (e : Fin n2) :
    shapeCast ⟨2, ![n0, n2]⟩ (extractStridedSlice ⟨3, ![n0, 1, n2]⟩ ![0, k, 0] X hs) hc (ix2 p e)
      = X (ix3 p ⟨k, slab_lt hs⟩ e) := by
  rw [shapeCast_apply _ hc (ix2 p e) (ix3 p (0 : Fin 1) e) (by
    rw [Shape.rowMajor_val_three, Shape.rowMajor_val_two]
    show (p.val * 1 + 0) * n2 + e.val = p.val * n2 + e.val
    rw [Nat.mul_one, Nat.add_zero])]
  exact slice3_axis1_apply k X hs p (0 : Fin 1) e ⟨k, slab_lt hs⟩ rfl

/-- Row r of a matrix as a vector, read at q: the matrix at (r, q). -/
theorem rowAsVector_apply {a b : ℕ} (r : ℕ) (X : (⟨2, ![a, b]⟩ : Shape).Idx → α)
    (hs : (⟨2, ![a, b]⟩ : Shape).Slices ![r, 0] ⟨2, ![1, b]⟩)
    (hc : (⟨2, ![1, b]⟩ : Shape).ShapeCasts ⟨1, ![b]⟩) (q : Fin b) :
    shapeCast ⟨1, ![b]⟩ (extractStridedSlice ⟨2, ![1, b]⟩ ![r, 0] X hs) hc (ix1 q) = X (ix2 ⟨r, row_lt hs⟩ q) := by
  rw [shapeCast_1a_a_apply]
  exact slice2_axis0_apply r X hs (0 : Fin 1) q ⟨r, row_lt hs⟩ rfl

/-- A vector laid out as one row and repeated down the rows, read at (p, q): the vector at q. -/
theorem rowDown_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) := by
  rw [broadcastTo_1b_ab_apply, shapeCast_a_1a_apply]

/-- The normalisation and rectifier of one value in column q: centre, scale by the reciprocal root of the spread plus
    e, scale, shift, and take the maximum with z. -/
def normRect {b : ℕ} (P : (⟨2, ![4, b]⟩ : Shape).Idx → EReal) (e z : EReal) (q : Fin b) (x : EReal) : EReal :=
  max ((x - P (ix2 2 q)) * Ideal.rsqrt (P (ix2 3 q) + e) * P (ix2 0 q) + P (ix2 1 q)) z

/-- The normalisation and rectifier never go below z. -/
theorem le_normRect {b : ℕ} (P : (⟨2, ![4, b]⟩ : Shape).Idx → EReal) (e z : EReal) (q : Fin b) (x : EReal) :
    z ≤ normRect P e z q x := le_max_right _ _

/-- The vector program of the normalisation and rectifier — each parameter row cut out, flattened, laid out as a row
    and repeated down the matrix; the spread's row shifted by e and its reciprocal root taken before it is spread —
    read at (p, q) is `normRect` of the matrix's entry. -/
theorem normRect_apply {a b : ℕ} (H : FVec Ideal ⟨2, ![a, b]⟩ .f32) (P : FVec Ideal ⟨2, ![4, b]⟩ .f32) (e z : Ideal .f32)
    (hs0 : (⟨2, ![4, b]⟩ : Shape).Slices ![0, 0] ⟨2, ![1, b]⟩) (hs1 : (⟨2, ![4, b]⟩ : Shape).Slices ![1, 0] ⟨2, ![1, b]⟩)
    (hs2 : (⟨2, ![4, b]⟩ : Shape).Slices ![2, 0] ⟨2, ![1, b]⟩) (hs3 : (⟨2, ![4, b]⟩ : Shape).Slices ![3, 0] ⟨2, ![1, b]⟩)
    (hc : (⟨2, ![1, b]⟩ : Shape).ShapeCasts ⟨1, ![b]⟩) (hc' : (⟨1, ![b]⟩ : Shape).ShapeCasts ⟨2, ![1, b]⟩)
    (hb : (⟨2, ![1, b]⟩ : Shape).Broadcasts ⟨2, ![a, b]⟩) (p : Fin a) (q : Fin b) :
    maximumf (addf (mulf (mulf (subf H
        (broadcastTo ⟨2, ![a, b]⟩ (shapeCast ⟨2, ![1, b]⟩ (shapeCast ⟨1, ![b]⟩ (extractStridedSlice ⟨2, ![1, b]⟩ ![2, 0] P hs2) hc) hc') hb))
        (broadcastTo ⟨2, ![a, b]⟩ (shapeCast ⟨2, ![1, b]⟩ (rsqrt (addf (shapeCast ⟨1, ![b]⟩ (extractStridedSlice ⟨2, ![1, b]⟩ ![3, 0] P hs3) hc) (broadcast ⟨1, ![b]⟩ e))) hc') hb))
        (broadcastTo ⟨2, ![a, b]⟩ (shapeCast ⟨2, ![1, b]⟩ (shapeCast ⟨1, ![b]⟩ (extractStridedSlice ⟨2, ![1, b]⟩ ![0, 0] P hs0) hc) hc') hb))
        (broadcastTo ⟨2, ![a, b]⟩ (shapeCast ⟨2, ![1, b]⟩ (shapeCast ⟨1, ![b]⟩ (extractStridedSlice ⟨2, ![1, b]⟩ ![1, 0] P hs1) hc) hc') hb))
      (broadcast ⟨2, ![a, b]⟩ z) (ix2 p q)
      = normRect P e z q (H (ix2 p q)) := by
  rw [maximumf_apply, addf_apply, mulf_apply, mulf_apply, subf_apply, rowDown_apply, rowDown_apply, rowDown_apply,
    rowDown_apply, rowAsVector_apply, rowAsVector_apply, rowAsVector_apply]
  show max ((H (ix2 p q) - _) * Ideal.rsqrt (shapeCast ⟨1, ![b]⟩ (extractStridedSlice ⟨2, ![1, b]⟩ ![3, 0] P hs3) hc (ix1 q) + e) * _ + _) z = _
  rw [rowAsVector_apply]
  rfl

end Cert.LibRowsAndSlabs

end
-- ==== Proof.Region4.lean ====
/-
  The maxout layer over rows taken in pairs, as the fifth region of the program computes it.

  The region walks the 2048 output rows in four blocks of 512. At a block it reads the rows' two slabs (positions 0 and 1
  of the middle axis) of the three paired operands, multiplies each slab of the first by the state column and each slab
  of the second by the context column, adds the third operand's entry in between, applies the logistic function, and
  keeps the larger of the two slabs' results. Entry R of the output is therefore
    max (sigma ((sum_k Uo(R,0,k) s(k) + Voy(R,0,0)) + sum_k Co(R,0,k) c(k)))
        (sigma ((sum_k Uo(R,1,k) s(k) + Voy(R,1,0)) + sum_k Co(R,1,k) c(k))),
  which is the specification's pairMax. A change of float format is the identity on the extended reals, and a matrix
  product into the zero accumulator is the plain finite sum.
-/
import proofs.«179386_j74783970558463_2_alg».proof.Proof.Gen.KernelIdeal.Frame
import proofs.«179386_j74783970558463_2_alg».proof.Proof.Spec
import proofs.«179386_j74783970558463_2_alg».proof.Proof.LibMatmulPlain
import proofs.«179386_j74783970558463_2_alg».proof.Proof.LibRowsAndSlabs
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Region4

open Cert.KernelIdeal Cert.KernelIdeal.Gen Idealize.ShloMosaic Idealize.ShloMosaic.ValueIdx Idealize.ShloMosaic.TcCoe Idealize.SL.Sem

/-! ## The body's arithmetic at a row -/

/-- The slab at position j of an [n0, 2, n2] array, flattened to an [n0, n2] matrix and multiplied by a column x [n2, 1]
    into the zero accumulator, has at row r the sum over e of the array's entry (r, j, e) times x(e). -/
theorem slab_matvec {n0 n2 : ℕ} (j : ℕ) (X : FVec Ideal ⟨3, ![n0, 2, n2]⟩ .f32) (x : FVec Ideal ⟨2, ![n2, 1]⟩ .f32)
    (wf : DotDims.WF ⟨2, ![n0, n2]⟩ ⟨2, ![n2, 1]⟩ ⟨2, ![n0, 1]⟩ [1] [0] [0] [1] [] [])
    (hX : (⟨3, ![n0, 2, n2]⟩ : Shape).ShapeCasts ⟨3, ![n0, 2, n2]⟩)
    (hx : (⟨2, ![n2, 1]⟩ : Shape).ShapeCasts ⟨2, ![n2, 1]⟩)
    (hs : (⟨3, ![n0, 2, n2]⟩ : Shape).Slices ![0, j, 0] ⟨3, ![n0, 1, n2]⟩)
    (hc : (⟨3, ![n0, 1, n2]⟩ : Shape).ShapeCasts ⟨2, ![n0, n2]⟩) (hb : FTy.bits .bf16 < FTy.bits .f32)
    (r : Fin n0) :
    FloatOps.matmul (F := Ideal) (Cert.LibMatmulPlain.plainDims n0 n2 1 wf) none
        (truncf (F := Ideal) .bf16 (shapeCast ⟨2, ![n0, n2]⟩
          (extractStridedSlice ⟨3, ![n0, 1, n2]⟩ ![0, j, 0] (shapeCast ⟨3, ![n0, 2, n2]⟩ X hX) hs) hc) hb)
        (truncf (F := Ideal) .bf16 (shapeCast ⟨2, ![n2, 1]⟩ x hx) hb)
        (constant (F := Ideal) ⟨2, ![n0, 1]⟩ .f32 0x00000000#32) (ix2 r 0)
      = ∑ e : Fin n2, X (ix3 r ⟨j, Cert.LibRowsAndSlabs.slab_lt hs⟩ e) * x (ix2 e 0) := by
  rw [Cert.LibMatmulPlain.matmul_zero_apply]
  refine Finset.sum_congr rfl fun e _ => ?_
  rw [truncf_apply, truncf_apply, Cert.LibRowsAndSlabs.slabAsMatrix_apply, shapeCast_self, shapeCast_self]

/-- The slab at position j of an [n0, 2, 1] array, flattened to a column, has at row r the array's entry (r, j, 0). -/
theorem slab_col {n0 : ℕ} (j : ℕ) (X : FVec Ideal ⟨3, ![n0, 2, 1]⟩ .f32)
    (hX : (⟨3, ![n0, 2, 1]⟩ : Shape).ShapeCasts ⟨3, ![n0, 2, 1]⟩)
    (hs : (⟨3, ![n0, 2, 1]⟩ : Shape).Slices ![0, j, 0] ⟨3, ![n0, 1, 1]⟩)
    (hc : (⟨3, ![n0, 1, 1]⟩ : Shape).ShapeCasts ⟨2, ![n0, 1]⟩) (r : Fin n0) :
    shapeCast ⟨2, ![n0, 1]⟩ (extractStridedSlice ⟨3, ![n0, 1, 1]⟩ ![0, j, 0] (shapeCast ⟨3, ![n0, 2, 1]⟩ X hX) hs) hc (ix2 r 0)
      = X (ix3 r ⟨j, Cert.LibRowsAndSlabs.slab_lt hs⟩ 0) := by
  rw [Cert.LibRowsAndSlabs.slabAsMatrix_apply, shapeCast_self]

/-- The body's result at row r of a block: the larger of the two slabs' logistic values, each slab's argument being its
    row of the first operand against the state column, plus the third operand's entry, plus its row of the second operand
    against the context column. -/
theorem pay_apply (sn : Vec Ideal S1024x1 .f32) (cc : Vec Ideal S2048x1 .f32) (uo : Vec Ideal S512x2x1024 .f32)
    (co : Vec Ideal S512x2x2048 .f32) (voy : Vec Ideal S512x2x1 .f32) (r : Fin 512) :
    k4_pay1 (F := Ideal) sn cc uo co voy (ix2 r 0)
      = max
        (Ideal.logistic (((∑ k : Fin 1024, uo (ix3 r 0 k) * sn (ix2 k 0)) + voy (ix3 r 0 0))
          + ∑ k : Fin 2048, co (ix3 r 0 k) * cc (ix2 k 0)))
        (Ideal.logistic (((∑ k : Fin 1024, uo (ix3 r 1 k) * sn (ix2 k 0)) + voy (ix3 r 1 0))
          + ∑ k : Fin 2048, co (ix3 r 1 k) * cc (ix2 k 0))) := by
  unfold k4_pay1
  refine (maximumf_apply _ _ _).trans (congrArg₂ max ?_ ?_)
  · show Ideal.logistic _ = _
    refine congrArg Ideal.logistic ((addf_apply _ _ _).trans (congrArg₂ (· + ·) ((addf_apply _ _ _).trans (congrArg₂ (· + ·) ?_ ?_)) ?_))
    · exact slab_matvec 0 uo sn _ _ _ _ _ _ r
    · exact slab_col 0 voy _ _ _ r
    · exact slab_matvec 0 co cc _ _ _ _ _ _ r
  · show Ideal.logistic _ = _
    refine congrArg Ideal.logistic ((addf_apply _ _ _).trans (congrArg₂ (· + ·) ((addf_apply _ _ _).trans (congrArg₂ (· + ·) ?_ ?_)) ?_))
    · exact slab_matvec 1 uo sn _ _ _ _ _ _ r
    · exact slab_col 1 voy _ _ _ r
    · exact slab_matvec 1 co cc _ _ _ _ _ _ r

/-! ## From the blocks to the array -/

/-- The zero offsets of a rank-2 access, as the constant function. -/
theorem hz2 : (![0, 0] : Fin 2 → Nat) = fun _ => 0 := funext fun a => by fin_cases a <;> rfl
/-- The zero offsets of a rank-3 access, as the constant function. -/
theorem hz3 : (![0, 0, 0] : Fin 3 → Nat) = fun _ => 0 := funext fun a => by fin_cases a <;> rfl

/-- The block indices over the grid, decided: at point t the three paired operands and the output are at row block t,
    and the two columns are whole. -/
theorem idx_facts : ∀ t : Fin cfg4.N,
    win4_0.index t (0 : Fin 3) = t.val ∧ win4_0.index t (1 : Fin 3) = 0 ∧ win4_0.index t (2 : Fin 3) = 0
    ∧ win4_1.index t (0 : Fin 3) = t.val ∧ win4_1.index t (1 : Fin 3) = 0 ∧ win4_1.index t (2 : Fin 3) = 0
    ∧ win4_2.index t (0 : Fin 3) = t.val ∧ win4_2.index t (1 : Fin 3) = 0 ∧ win4_2.index t (2 : Fin 3) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Row r of a block whose rows are rows R of the arrays computes the specification's entry R. -/
theorem block_row (Uo3 : Cert.Dec.Cube 2048 2 1024) (Co3 : Cert.Dec.Cube 2048 2 2048) (Voy3 : Cert.Dec.Cube 2048 2 1)
    (sn : Cert.Dec.Mat 1024 1) (cc : Cert.Dec.Mat 2048 1)
    (uo : Vec Ideal S512x2x1024 .f32) (co : Vec Ideal S512x2x2048 .f32) (voy : Vec Ideal S512x2x1 .f32)
    (sn' : Vec Ideal S1024x1 .f32) (cc' : Vec Ideal S2048x1 .f32) (r : Fin 512) (R : Fin 2048)
    (hU : ∀ (j : Fin 2) (k : Fin 1024), uo (ix3 r j k) = Uo3 (ix3 R j k))
    (hC : ∀ (j : Fin 2) (k : Fin 2048), co (ix3 r j k) = Co3 (ix3 R j k))
    (hV : ∀ (j : Fin 2), voy (ix3 r j 0) = Voy3 (ix3 R j 0))
    (hs : sn' = sn) (hc : cc' = cc) :
    k4_pay1 (F := Ideal) sn' cc' uo co voy (ix2 r 0) = Cert.Dec.pairMax Uo3 Co3 Voy3 sn cc (ix2 R 0) := by
  subst hs hc
  rw [pay_apply, Cert.Dec.pairMax_apply]
  simp only [hU, hC, hV]

variable (V : (c : Dev nD) → (b : Ref sig .tc) → Buf (Elt Ideal) ((c : Thread nD τ).loc b))

/-- Entry (r, j, k) of the first operand's block at point t is the array's entry (512 t + r, j, k). -/
theorem iblk0_apply (c : Dev nD) (t : Fin cfg4.N) (r : Fin 512) (R : Fin 2048) (hR : R.val = 512 * t.val + r.val)
    (j : Fin 2) (k : Fin 1024) :
    (iblk4 (F := Ideal) V c 0 t : Vec Ideal S512x2x1024 .f32) (ix3 r j k)
      = (V c (Pipeline.arrRef spec4 0) : Cert.Dec.Cube 2048 2 1024) (ix3 R j k) := by
  obtain ⟨e0, e1, e2, -⟩ := idx_facts t
  unfold iblk4
  rw [View.read_apply]
  show (V c (Pipeline.arrRef spec4 0) : Cert.Dec.Cube 2048 2 1024) _ = _
  refine congrArg _ (funext fun a => Fin.ext ?_)
  match a with
  | ⟨0, _⟩ => show win4_0.index t (0 : Fin 3) * 512 + 1 * r.val = R.val; omega
  | ⟨1, _⟩ => show win4_0.index t (1 : Fin 3) * 2 + 1 * j.val = j.val; omega
  | ⟨2, _⟩ => show win4_0.index t (2 : Fin 3) * 1024 + 1 * k.val = k.val; omega

/-- Entry (r, j, k) of the second operand's block at point t is the array's entry (512 t + r, j, k). -/
theorem iblk1_apply (c : Dev nD) (t : Fin cfg4.N) (r : Fin 512) (R : Fin 2048) (hR : R.val = 512 * t.val + r.val)
    (j : Fin 2) (k : Fin 2048) :
    (iblk4 (F := Ideal) V c 1 t : Vec Ideal S512x2x2048 .f32) (ix3 r j k)
      = (V c (Pipeline.arrRef spec4 1) : Cert.Dec.Cube 2048 2 2048) (ix3 R j k) := by
  obtain ⟨-, -, -, e0, e1, e2, -⟩ := idx_facts t
  unfold iblk4
  rw [View.read_apply]
  show (V c (Pipeline.arrRef spec4 1) : Cert.Dec.Cube 2048 2 2048) _ = _
  refine congrArg _ (funext fun a => Fin.ext ?_)
  match a with
  | ⟨0, _⟩ => show win4_1.index t (0 : Fin 3) * 512 + 1 * r.val = R.val; omega
  | ⟨1, _⟩ => show win4_1.index t (1 : Fin 3) * 2 + 1 * j.val = j.val; omega
  | ⟨2, _⟩ => show win4_1.index t (2 : Fin 3) * 2048 + 1 * k.val = k.val; omega

/-- Entry (r, j, 0) of the third operand's block at point t is the array's entry (512 t + r, j, 0). -/
theorem iblk2_apply (c : Dev nD) (t : Fin cfg4.N) (r : Fin 512) (R : Fin 2048) (hR : R.val = 512 * t.val + r.val)
    (j : Fin 2) :
    (iblk4 (F := Ideal) V c 2 t : Vec Ideal S512x2x1 .f32) (ix3 r j 0)
      = (V c (Pipeline.arrRef spec4 2) : Cert.Dec.Cube 2048 2 1) (ix3 R j 0) := by
  obtain ⟨-, -, -, -, -, -, e0, e1, e2, -⟩ := idx_facts t
  unfold iblk4
  rw [View.read_apply]
  show (V c (Pipeline.arrRef spec4 2) : Cert.Dec.Cube 2048 2 1) _ = _
  refine congrArg _ (funext fun a => Fin.ext ?_)
  match a with
  | ⟨0, _⟩ => show win4_2.index t (0 : Fin 3) * 512 + 1 * r.val = R.val; omega
  | ⟨1, _⟩ => show win4_2.index t (1 : Fin 3) * 2 + 1 * j.val = j.val; omega
  | ⟨2, _⟩ => show win4_2.index t (2 : Fin 3) * 1 + 1 * 0 = 0; omega

/-- The state column's block at every point is the whole column. -/
theorem iblk3_eq (c : Dev nD) (t : Fin cfg4.N) :
    (iblk4 (F := Ideal) V c 3 t : Vec Ideal S1024x1 .f32) = (V c (Pipeline.arrRef spec4 3) : Cert.Dec.Mat 1024 1) := by
  obtain ⟨-, -, -, -, -, -, -, -, -, e0, e1, -⟩ := idx_facts t
  funext x
  unfold iblk4
  rw [View.read_apply]
  show (V c (Pipeline.arrRef spec4 3) : Cert.Dec.Mat 1024 1) _ = _
  refine congrArg _ (funext fun a => Fin.ext ?_)
  match a with
  | ⟨0, _⟩ => show win4_3.index t (0 : Fin 2) * 1024 + 1 * (x 0).val = (x 0).val; omega
  | ⟨1, _⟩ => show win4_3.index t (1 : Fin 2) * 1 + 1 * (x 1).val = (x 1).val; omega

/-- The context column's block at every point is the whole column. -/
theorem iblk4_eq (c : Dev nD) (t : Fin cfg4.N) :
    (iblk4 (F := Ideal) V c 4 t : Vec Ideal S2048x1 .f32) = (V c (Pipeline.arrRef spec4 4) : Cert.Dec.Mat 2048 1) := by
  obtain ⟨-, -, -, -, -, -, -, -, -, -, -, e0, e1, -⟩ := idx_facts t
  funext x
  unfold iblk4
  rw [View.read_apply]
  show (V c (Pipeline.arrRef spec4 4) : Cert.Dec.Mat 2048 1) _ = _
  refine congrArg _ (funext fun a => Fin.ext ?_)
  match a with
  | ⟨0, _⟩ => show win4_4.index t (0 : Fin 2) * 2048 + 1 * (x 0).val = (x 0).val; omega
  | ⟨1, _⟩ => show win4_4.index t (1 : Fin 2) * 1 + 1 * (x 1).val = (x 1).val; omega

/-- The region's result as one function of the arrays it finds: the specification's maxout of paired rows. -/
abbrev result (c : Dev nD) : Cert.Dec.Mat 2048 1 :=
  Cert.Dec.pairMax (V c (Pipeline.arrRef spec4 0)) (V c (Pipeline.arrRef spec4 1)) (V c (Pipeline.arrRef spec4 2))
    (V c (Pipeline.arrRef spec4 3)) (V c (Pipeline.arrRef spec4 4))

/-- What point t writes back is block t (rows 512 t … 512 t + 511) of the result. -/
theorem flushed_eq (c : Dev nD) (t : Fin cfg4.N) :
    (dat4 (F := Ideal) V c).flushed 5 t = ((cfg4.win 5).blk t).view.read (Elt Ideal) (result V c) := by
  show (cfg4.win 5).cut (grid4.coords t) ((dat4 (F := Ideal) V c).after 5 t) = _
  rw [after4_5]
  unfold out4_5
  rw [View.canon_unit_zero hz2]
  simp only [View.ld_unit_zero (S := S1024x1) hz2, View.ld_unit_zero (S := S2048x1) hz2,
    View.ld_unit_zero (S := S512x2x1024) hz3, View.ld_unit_zero (S := S512x2x2048) hz3,
    View.ld_unit_zero (S := S512x2x1) hz3]
  funext y
  obtain ⟨r, q, rfl⟩ : ∃ (r : Fin 512) (q : Fin 1), y = ix2 r q := ⟨y 0, y 1, eq_ix2 y⟩
  obtain rfl : q = 0 := Subsingleton.elim _ _
  have ht : t.val < 4 := Nat.lt_of_lt_of_eq t.isLt (show cfg4.N = 4 from N_4)
  obtain ⟨-, -, -, -, -, -, -, -, -, -, -, -, -, e0, e1⟩ := idx_facts t
  have hr : r.val < 512 := r.isLt
  rw [View.read_apply]
  show k4_pay1 (F := Ideal) (iblk4 V c 3 t) (iblk4 V c 4 t) (iblk4 V c 0 t) (iblk4 V c 1 t) (iblk4 V c 2 t) (ix2 r 0) = result V c _
  refine (block_row (V c (Pipeline.arrRef spec4 0)) (V c (Pipeline.arrRef spec4 1)) (V c (Pipeline.arrRef spec4 2))
    (V c (Pipeline.arrRef spec4 3)) (V c (Pipeline.arrRef spec4 4))
    (iblk4 V c 0 t) (iblk4 V c 1 t) (iblk4 V c 2 t) (iblk4 V c 3 t) (iblk4 V c 4 t) r ⟨512 * t.val + r.val, by omega⟩
    (fun j k => iblk0_apply V c t r _ rfl j k) (fun j k => iblk1_apply V c t r _ rfl j k)
    (fun j => iblk2_apply V c t r _ rfl j) (iblk3_eq V c t) (iblk4_eq V c t)).trans ?_
  refine congrArg (result V c) (funext fun a => Fin.ext ?_)
  match a with
  | ⟨0, _⟩ => show 512 * t.val + r.val = win4_5.index t (0 : Fin 2) * 512 + 1 * r.val; omega
  | ⟨1, _⟩ => show 0 = win4_5.index t (1 : Fin 2) * 1 + 1 * 0; omega

/-- An index of the output array is in point t's block iff each coordinate is in the block's range on its axis. -/
theorem mem_blk (t : Fin cfg4.N) (i : S2048x1.Idx) :
    i ∈ ((cfg4.win 5).blk t).view.set ↔ ∀ a : Fin 2, win4_5.index t a * S512x1.size a ≤ (i a).val
      ∧ (i a).val < win4_5.index t a * S512x1.size a + S512x1.size a := by
  show i ∈ ((View.whole main_v7).slice (win4_5.rect t)).set ↔ _
  rw [View.set_slice_whole, Rect.mem_set_unit]
  exact Iff.rfl

/-- Row R of the output is covered by the block of point R / 512. -/
theorem cover (i : S2048x1.Idx) : ∃ t : Fin cfg4.N, (cfg4.win 5).flush t = true ∧ i ∈ ((cfg4.win 5).blk t).view.set := by
  have hi0 : (i 0).val < 2048 := (i 0).isLt
  have hi1 : (i 1).val < 1 := (i 1).isLt
  have hN : cfg4.N = 4 := N_4
  refine ⟨⟨(i 0).val / 512, by rw [hN]; omega⟩, flush4_5 _, ?_⟩
  obtain ⟨-, -, -, -, -, -, -, -, -, -, -, -, -, e0, e1⟩ := idx_facts ⟨(i 0).val / 512, by rw [hN]; omega⟩
  rw [mem_blk]
  intro a
  match a with
  | ⟨0, _⟩ =>
    show win4_5.index _ (0 : Fin 2) * 512 ≤ (i 0).val ∧ (i 0).val < win4_5.index _ (0 : Fin 2) * 512 + 512
    rw [e0]; show (i 0).val / 512 * 512 ≤ (i 0).val ∧ (i 0).val < (i 0).val / 512 * 512 + 512; omega
  | ⟨1, _⟩ =>
    show win4_5.index _ (1 : Fin 2) * 1 ≤ (i 1).val ∧ (i 1).val < win4_5.index _ (1 : Fin 2) * 1 + 1
    rw [e1]; omega

/-- After the region, the output array holds the maxout of paired rows of the arrays the region found. -/
theorem arr5 (c : Dev nD) : (dat4 (F := Ideal) V c).arrAt 5 cfg4.N
    = Cert.Dec.pairMax (V c (Pipeline.arrRef spec4 0)) (V c (Pipeline.arrRef spec4 1)) (V c (Pipeline.arrRef spec4 2))
        (V c (Pipeline.arrRef spec4 3)) (V c (Pipeline.arrRef spec4 4)) :=
  (dat4 (F := Ideal) V c).arrAt_eq_of_cover 5 (result V c) (fun t _ => flushed_eq V c t) cover

end Cert.KernelIdeal.Region4

end
-- ==== Proof.LibMatmulColRow.lean ====
/-
  The product of the TRANSPOSE of a [K, M] matrix by the TRANSPOSE of an [N, K] matrix, read at an entry, on the
  extended reals, for any extents and element formats: the left operand is contracted along its first axis and the
  right operand along its second, so entry (p, n) of the product taken into a zero accumulator is the sum over k of
  the left matrix's (k, p) entry times the right matrix's (n, k) entry — column p of the left against row n of the
  right; taken into an accumulator acc it is acc's entry plus that sum.
-/
import Idealize.ShloMosaic.PureOps.Ideal.Laws
import Idealize.ShloMosaic.Lib.ValueIdx

noncomputable section

namespace Cert.LibMatmulColRow

open Idealize.ShloMosaic Idealize.ShloMosaic.ValueIdx

/-- The dimension numbers of a column-against-row product: contract the left matrix's rows with the right one's columns. -/
abbrev colRowDims (K M N : Nat)
    (wf : DotDims.WF ⟨2, ![K, M]⟩ ⟨2, ![N, K]⟩ ⟨2, ![M, N]⟩ [0] [1] [1] [0] [] []) :
    DotDims ⟨2, ![K, M]⟩ ⟨2, ![N, K]⟩ ⟨2, ![M, N]⟩ where
  lhsContracting := [0]
  rhsContracting := [1]
  lhsNonContracting := [1]
  rhsNonContracting := [0]
  lhsBatch := []
  rhsBatch := []
  wf := wf

variable {K M N : Nat} (wf : DotDims.WF ⟨2, ![K, M]⟩ ⟨2, ![N, K]⟩ ⟨2, ![M, N]⟩ [0] [1] [1] [0] [] [])

/-- The left operand's column coordinate is the output entry's row. -/
theorem lhsIdx_col (j : (⟨2, ![M, N]⟩ : Shape).Idx) (q : (colRowDims K M N wf).contr.Idx) :
    ((colRowDims K M N wf).lhsIdx j q 1).val = (j 0).val := by
  unfold DotDims.lhsIdx
  rw [dif_neg (show ¬(1 : Fin 2) ∈ (colRowDims K M N wf).lhsBatch from List.not_mem_nil),
    dif_pos (show (1 : Fin 2) ∈ (colRowDims K M N wf).lhsNonContracting from List.mem_singleton.mpr rfl)]
  rfl

/-- The right operand's ROW coordinate is the output entry's column. -/
theorem rhsIdx_row (j : (⟨2, ![M, N]⟩ : Shape).Idx) (q : (colRowDims K M N wf).contr.Idx) :
    ((colRowDims K M N wf).rhsIdx j q 0).val = (j 1).val := by
  unfold DotDims.rhsIdx
  rw [dif_neg (show ¬(0 : Fin 2) ∈ (colRowDims K M N wf).rhsBatch from List.not_mem_nil),
    dif_pos (show (0 : Fin 2) ∈ (colRowDims K M N wf).rhsNonContracting from List.mem_singleton.mpr rfl)]
  rfl

/-- The left operand's index for output entry (p, n) and contraction index k is (k, p). -/
theorem lhsIdx_eq (p : Fin M) (n : Fin N) (k : Fin K) :
    (colRowDims K M N wf).lhsIdx (ix2 p n) ((contrEquiv1 (colRowDims K M N wf) K rfl rfl).symm k) = ix2 k p := by
  have hk := contrEquiv1_symm_val (colRowDims K M N wf) K rfl rfl k
  funext a
  refine Fin.ext ?_
  match a with
  | ⟨0, _⟩ => exact ((colRowDims K M N wf).lhsIdx_val_of_single rfl _ _).trans hk
  | ⟨1, _⟩ => exact lhsIdx_col wf _ _

/-- The right operand's index for output entry (p, n) and contraction index k is (n, k). -/
theorem rhsIdx_eq (p : Fin M) (n : Fin N) (k : Fin K) :
    (colRowDims K M N wf).rhsIdx (ix2 p n) ((contrEquiv1 (colRowDims K M N wf) K rfl rfl).symm k) = ix2 n k := by
  have hk := contrEquiv1_symm_val (colRowDims K M N wf) K rfl rfl k
  funext a
  refine Fin.ext ?_
  match a with
  | ⟨0, _⟩ => exact rhsIdx_row wf _ _
  | ⟨1, _⟩ => exact ((colRowDims K M N wf).rhsIdx_val_of_single rfl _ _).trans hk

/-- Entry (p, n) of the product taken into an accumulator: the accumulator's entry plus the K-term sum. -/
theorem matmul_apply {φ₁ φ₂ : FTy} (prec : Option ContractPrecision)
    (lhs : FVec Ideal ⟨2, ![K, M]⟩ φ₁) (rhs : FVec Ideal ⟨2, ![N, K]⟩ φ₂) (acc : FVec Ideal ⟨2, ![M, N]⟩ .f32)
    (p : Fin M) (n : Fin N) :
    FloatOps.matmul (colRowDims K M N wf) prec lhs rhs acc (ix2 p n)
      = acc (ix2 p n) + ∑ k : Fin K, lhs (ix2 k p) * rhs (ix2 n k) := by
  rw [Ideal.matmul_apply, ← Equiv.sum_comp (contrEquiv1 (colRowDims K M N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![K, M]⟩ φ₁) (rhs : FVec Ideal ⟨2, ![N, K]⟩ φ₂) (p : Fin M) (n : Fin N) :
    FloatOps.matmul (colRowDims K M N wf) prec lhs rhs (constant ⟨2, ![M, N]⟩ .f32 0x00000000#32) (ix2 p n)
      = ∑ k : Fin K, lhs (ix2 k p) * rhs (ix2 n k) := by
  rw [matmul_apply wf prec lhs rhs _ p n]
  show Ideal.ofBits .f32 0x00000000#32 + _ = _
  rw [Ideal.ofBits_zero_f32, zero_add]

end Cert.LibMatmulColRow

end
-- ==== Proof.LibMatmulRows.lean ====
/-
  The product of an [M, K] matrix by the TRANSPOSE of an [N, K] matrix, read at an entry, on the extended reals, for any
  extents and element formats: both operands are contracted along their second axis, so entry (p, n) of the product
  taken into a zero accumulator is the sum over k of the left matrix's (p, k) entry times the right matrix's (n, k)
  entry — row p of the left against row n of the right; taken into an accumulator acc it is acc's entry plus that sum.
-/
import Idealize.ShloMosaic.PureOps.Ideal.Laws
import Idealize.ShloMosaic.Lib.ValueIdx

noncomputable section

namespace Cert.LibMatmulRows

open Idealize.ShloMosaic Idealize.ShloMosaic.ValueIdx

/-- The dimension numbers of a row-against-row product: contract the left matrix's columns with the right one's columns. -/
abbrev rowsDims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : Nat} (wf : DotDims.WF ⟨2, ![M, K]⟩ ⟨2, ![N, K]⟩ ⟨2, ![M, N]⟩ [1] [1] [0] [0] [] [])

/-- The left operand's row coordinate is the output entry's row. -/
theorem lhsIdx_row (j : (⟨2, ![M, N]⟩ : Shape).Idx) (q : (rowsDims M K N wf).contr.Idx) :
    ((rowsDims M K N wf).lhsIdx j q 0).val = (j 0).val := by
  unfold DotDims.lhsIdx
  rw [dif_neg (show ¬(0 : Fin 2) ∈ (rowsDims M K N wf).lhsBatch from List.not_mem_nil),
    dif_pos (show (0 : Fin 2) ∈ (rowsDims M K N wf).lhsNonContracting from List.mem_singleton.mpr rfl)]
  rfl

/-- The right operand's ROW coordinate is the output entry's column. -/
theorem rhsIdx_row (j : (⟨2, ![M, N]⟩ : Shape).Idx) (q : (rowsDims M K N wf).contr.Idx) :
    ((rowsDims M K N wf).rhsIdx j q 0).val = (j 1).val := by
  unfold DotDims.rhsIdx
  rw [dif_neg (show ¬(0 : Fin 2) ∈ (rowsDims M K N wf).rhsBatch from List.not_mem_nil),
    dif_pos (show (0 : Fin 2) ∈ (rowsDims M K N wf).rhsNonContracting from List.mem_singleton.mpr rfl)]
  rfl

/-- The left operand's index for output entry (p, n) and contraction index k is (p, k). -/
theorem lhsIdx_eq (p : Fin M) (n : Fin N) (k : Fin K) :
    (rowsDims M K N wf).lhsIdx (ix2 p n) ((contrEquiv1 (rowsDims M K N wf) K rfl rfl).symm k) = ix2 p k := by
  have hk := contrEquiv1_symm_val (rowsDims M K N wf) K rfl rfl k
  funext a
  refine Fin.ext ?_
  match a with
  | ⟨0, _⟩ => exact lhsIdx_row wf _ _
  | ⟨1, _⟩ => exact ((rowsDims M K N wf).lhsIdx_val_of_single rfl _ _).trans hk

/-- The right operand's index for output entry (p, n) and contraction index k is (n, k). -/
theorem rhsIdx_eq (p : Fin M) (n : Fin N) (k : Fin K) :
    (rowsDims M K N wf).rhsIdx (ix2 p n) ((contrEquiv1 (rowsDims M K N wf) K rfl rfl).symm k) = ix2 n k := by
  have hk := contrEquiv1_symm_val (rowsDims M K N wf) K rfl rfl k
  funext a
  refine Fin.ext ?_
  match a with
  | ⟨0, _⟩ => exact rhsIdx_row wf _ _
  | ⟨1, _⟩ => exact ((rowsDims M K N wf).rhsIdx_val_of_single rfl _ _).trans hk

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![N, K]⟩ φ₂) (acc : FVec Ideal ⟨2, ![M, N]⟩ .f32)
    (p : Fin M) (n : Fin N) :
    FloatOps.matmul (rowsDims M K N wf) prec lhs rhs acc (ix2 p n)
      = acc (ix2 p n) + ∑ k : Fin K, lhs (ix2 p k) * rhs (ix2 n k) := by
  rw [Ideal.matmul_apply, ← Equiv.sum_comp (contrEquiv1 (rowsDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![N, K]⟩ φ₂) (p : Fin M) (n : Fin N) :
    FloatOps.matmul (rowsDims M K N wf) prec lhs rhs (constant ⟨2, ![M, N]⟩ .f32 0x00000000#32) (ix2 p n)
      = ∑ k : Fin K, lhs (ix2 p k) * rhs (ix2 n k) := by
  rw [matmul_apply wf prec lhs rhs _ p n]
  show Ideal.ofBits .f32 0x00000000#32 + _ = _
  rw [Ideal.ofBits_zero_f32, zero_add]

end Cert.LibMatmulRows

end
-- ==== Proof.LibKeepdims.lean ====
/-
  A row statistic kept as a column, read at an index.

  A reduction over the last axis of an [a, b] array with the reduced axis kept gives an [a] vector reshaped to
  an [a, 1] column. Such a column meets a rank-2 array in two ways: broadcast along the columns of an [a, b]
  array, where element (p, q) reads row p of the column; or turned into a [1, a] row and broadcast along the
  rows of a [b, a] array, where element (p, q) reads row q of the column. The lemmas read each step at an index
  given by its coordinates, for any extents and any element type; the last reads the row sums themselves, on the
  extended reals, as finite sums over the reduced coordinate.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A vector reshaped [a] → [a, 1]: row `p` of the column is element `p` of the vector. -/
theorem castCol_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast [a, 1] → [a, b] along the columns: element (p, q) is the column's row `p`. -/
theorem bcastCol_apply {a b : Nat} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) :=
  broadcastTo_apply col h (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

/-- A column turned into a row, [a, 1] → [1, a], and broadcast along the rows to [b, a]: element (p, q) is the
    column's row `q`. -/
theorem bcastColAsRow_apply {a b : Nat} (col : (⟨2, ![a, 1]⟩ : Shape).Idx → α)
    (ht : (⟨2, ![a, 1]⟩ : Shape).Transposes [1, 0] ⟨2, ![1, a]⟩)
    (h : (⟨2, ![1, a]⟩ : Shape).Broadcasts ⟨2, ![b, a]⟩) (p : Fin b) (q : Fin a) :
    broadcastTo ⟨2, ![b, a]⟩ (transpose ⟨2, ![1, a]⟩ [1, 0] col ht) h (ix2 p q) = col (ix2 q (0 : Fin 1)) := by
  refine (broadcastTo_apply _ h (ix2 p q) (ix2 (0 : Fin 1) q) (fun d => match d with
    | ⟨0, _⟩ => by show 0 = if (1 : Nat) = 1 then 0 else p.val; rw [if_pos rfl]
    | ⟨1, _⟩ => by
        show q.val = if a = 1 then 0 else q.val
        split_ifs with ha
        · subst ha; have := q.isLt; omega
        · rfl)).trans ?_
  exact transpose_apply [1, 0] col ht (ix2 (0 : Fin 1) q) (ix2 q (0 : Fin 1)) (fun d => match d with
    | ⟨0, _⟩ => rfl
    | ⟨1, _⟩ => rfl)

/-- The sums of an [a, b] array's rows, on the extended reals, kept as a column: row `p` of the column is the sum
    over the `b` coordinates of row `p`. -/
theorem sumCol_apply {a b : Nat} {φ : FTy} (v : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ v acc hr hφ hacc) hc (ix2 p (0 : Fin 1))
      = ∑ k : Fin b, v (ix2 p k) := by
  refine (castCol_apply _ hc p).trans ?_
  refine (Ideal.multiReduction_add_single v acc hr hφ hacc (ix1 p)).trans ?_
  refine Finset.sum_congr rfl fun k _ => ?_
  exact congrArg v (funext fun d => Fin.ext (by match d with | ⟨0, _⟩ => rfl | ⟨1, _⟩ => rfl))

end Cert.Lib.Keepdims

end
-- ==== Proof.Attn.lean ====
/-
  The attention step of the decoder, read off the kernel's arithmetic on the extended reals.

  The state's projection is a row of 50 numbers, the encoder rows' projection a 50 x 50 table; their sum goes
  through tanh and against the column Va to give 50 scores, one per encoder row. The scores are turned into
  weights by subtracting their maximum (taken from -infinity), exponentiating and dividing by the sum, the
  encoder rows are scaled by their weights, and the context is the sum of the scaled rows, laid out as a column.
  Each step is read at an index; the format changes are the identity on the extended reals and every product
  into the zero accumulator is a plain finite sum, so the result is the specification's weighted rows and context.
-/
import proofs.«179386_j74783970558463_2_alg».proof.Proof.Gen.KernelIdeal.Skeleton
import proofs.«179386_j74783970558463_2_alg».proof.Proof.Spec
import proofs.«179386_j74783970558463_2_alg».proof.Proof.LibMatmulColRow
import proofs.«179386_j74783970558463_2_alg».proof.Proof.LibMatmulPlain
import proofs.«179386_j74783970558463_2_alg».proof.Proof.LibMatmulRows
import proofs.«179386_j74783970558463_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Attn

open Cert.KernelIdeal Cert.KernelIdeal.Gen Idealize.ShloMosaic Idealize.ShloMosaic.ValueIdx

/-! ## The scores -/

/-- The kernel's scores as one term: the two projections, their sum through tanh, against the column Va. -/
def scoresK (s : Vec Ideal S1024x1 .f32) (Wa : Vec Ideal S50x1024 .f32) (Ua : Vec Ideal S50x2048 .f32)
    (h : Vec Ideal S50x2048 .f32) (Va : Vec Ideal S50x1 .f32) : FVec Ideal S50x1 .f32 :=
  matmul (φ₁ := .f32) (φ₂ := .f32) dot_S50x50_S50x1_S50x1_1_0_0_1_n_n (some .fp32)
    (tanh (addf
      (broadcastTo S50x50
        (matmul dot_S1024x1_S50x1024_S1x50_0_1_1_0_n_n none (Gen.k2_pay3 (F := Ideal) s) (truncf .bf16 Wa bitsLt_bf16_f32)
          (constant (F := Ideal) S1x50 .f32 0x00000000#32))
        broadcasts_S1x50_S50x50)
      (matmul dot_S50x2048_S50x2048_S50x50_1_1_0_0_n_n none (truncf .bf16 h bitsLt_bf16_f32) (truncf .bf16 Ua bitsLt_bf16_f32)
        (constant (F := Ideal) S50x50 .f32 0x00000000#32))))
    Va (constant (F := Ideal) S50x1 .f32 0x00000000#32)

/-- The state's projection, entry (0, j): the sum over k of Wa(j, k) s(k). -/
theorem rowProj_apply (s : Vec Ideal S1024x1 .f32) (Wa : Vec Ideal S50x1024 .f32) (u : Fin 1) (j : Fin 50) :
    matmul dot_S1024x1_S50x1024_S1x50_0_1_1_0_n_n none (Gen.k2_pay3 (F := Ideal) s) (truncf .bf16 Wa bitsLt_bf16_f32)
        (constant (F := Ideal) S1x50 .f32 0x00000000#32) (ix2 u j)
      = ∑ k : Fin 1024, Wa (ix2 j k) * s (ix2 k 0) := by
  refine (Cert.LibMatmulColRow.matmul_zero_apply (K := 1024) (M := 1) (N := 50) dot_S1024x1_S50x1024_S1x50_0_1_1_0_n_n.wf none
    (Gen.k2_pay3 (F := Ideal) s) (truncf .bf16 Wa bitsLt_bf16_f32) u j).trans ?_
  refine Finset.sum_congr rfl fun k _ => ?_
  have hu : u = 0 := Subsingleton.elim _ _
  subst hu
  exact mul_comm _ _

/-- The encoder rows' projection, entry (t, j): the sum over k of h(t, k) Ua(j, k). -/
theorem colProj_apply (h : Vec Ideal S50x2048 .f32) (Ua : Vec Ideal S50x2048 .f32) (t j : Fin 50) :
    matmul dot_S50x2048_S50x2048_S50x50_1_1_0_0_n_n none (truncf .bf16 h bitsLt_bf16_f32) (truncf .bf16 Ua bitsLt_bf16_f32)
        (constant (F := Ideal) S50x50 .f32 0x00000000#32) (ix2 t j)
      = ∑ k : Fin 2048, h (ix2 t k) * Ua (ix2 j k) :=
  Cert.LibMatmulRows.matmul_zero_apply (M := 50) (K := 2048) (N := 50) dot_S50x2048_S50x2048_S50x50_1_1_0_0_n_n.wf none
    (truncf .bf16 h bitsLt_bf16_f32) (truncf .bf16 Ua bitsLt_bf16_f32) t j

/-- The kernel's scores are the specification's. -/
theorem scoresK_eq (s : Vec Ideal S1024x1 .f32) (Wa : Vec Ideal S50x1024 .f32) (Ua : Vec Ideal S50x2048 .f32)
    (h : Vec Ideal S50x2048 .f32) (Va : Vec Ideal S50x1 .f32) :
    scoresK s Wa Ua h Va = Cert.Dec.scores s h Wa Ua Va := by
  funext i
  obtain ⟨t, q, rfl⟩ : ∃ (t : Fin 50) (q : Fin 1), i = ix2 t q := ⟨i 0, i 1, eq_ix2 i⟩
  have hq : q = 0 := Subsingleton.elim _ _
  subst hq
  unfold scoresK Cert.Dec.scores
  refine (Cert.LibMatmulPlain.matmul_zero_apply (M := 50) (K := 50) (N := 1) dot_S50x50_S50x1_S50x1_1_0_0_1_n_n.wf (some .fp32)
    _ Va t 0).trans ?_
  refine (Finset.sum_congr rfl fun j _ => ?_).trans (Cert.Dec.mv_apply _ Va t 0).symm
  refine congrArg (· * Va (ix2 j 0)) ?_
  refine Eq.trans ?_ (Cert.Dec.proj_apply s h Wa Ua t j).symm
  show Ideal.tanh (_ + _) = _
  refine congrArg Ideal.tanh ?_
  refine congrArg₂ (· + ·) ?_ (colProj_apply h Ua t j)
  exact (broadcastTo_1b_ab_apply _ broadcasts_S1x50_S50x50 t j).trans (rowProj_apply s Wa 0 j)

/-! ## The weights -/

/-- The word of -infinity reads as the least extended real. -/
theorem ofBits_negInf : Ideal.ofBits .f32 0xFF800000#32 = (⊥ : EReal) := by simp [Ideal.ofBits, Ideal.ieee]

/-- The maximum of a column of 50 taken from -infinity, at the one index of the reduced shape: the fold of max
    over the 50 entries. -/
theorem colMax_apply (x : FVec Ideal S50x1 .f32) (hφ : FKind.Formats .f32)
    (hacc : (0xFF800000#32 : BitVec 32) = FKind.maximumf.neutral .f32 hφ) :
    multiReduction .maximumf [0] S1 x 0xFF800000#32 reduces_S50x1_S1 hφ hacc (ix1 (0 : Fin 1)) = Cert.Dec.colMax x := by
  refine (Ideal.multiReduction_maximumf_single x 0xFF800000#32 reduces_S50x1_S1 hφ hacc (ix1 (0 : Fin 1))).trans ?_
  unfold Cert.Dec.colMax
  show (Finset.univ : Finset (Fin 50)).fold max (Ideal.ofBits .f32 0xFF800000#32)
    (fun t => x (reduces_S50x1_S1.lift (ix1 (0 : Fin 1)) t)) = _
  rw [ofBits_negInf]
  refine congrArg (fun f => Finset.fold max (⊥ : EReal) f (Finset.univ : Finset (Fin 50))) (funext fun t => congrArg x ?_)
  exact funext fun d => Fin.ext (by match d with | ⟨0, _⟩ => rfl | ⟨1, _⟩ => rfl)

/-- The column's maximum, taken once more against -infinity and broadcast down the column. -/
def maxB (x : FVec Ideal S50x1 .f32) : FVec Ideal S50x1 .f32 :=
  broadcastTo S50x1
    (shapeCast S1x1
      (maximumf (broadcast S1 (Scalar.ofBits (F := Ideal) .f32 0xFF800000#32))
        (multiReduction .maximumf [0] S1 x 0xFF800000#32 reduces_S50x1_S1 (.inl rfl) rfl))
      shapeCasts_S1_S1x1)
    broadcasts_S1x1_S50x1

/-- Every row of the broadcast maximum is the column's maximum: the second maximum against -infinity changes nothing. -/
theorem maxB_apply (x : FVec Ideal S50x1 .f32) (t : Fin 50) : maxB x (ix2 t 0) = Cert.Dec.colMax x := by
  unfold maxB
  refine (broadcastTo_1b_ab_apply _ broadcasts_S1x1_S50x1 t (0 : Fin 1)).trans ?_
  refine (Cert.Lib.Keepdims.castCol_apply _ shapeCasts_S1_S1x1 (0 : Fin 1)).trans ?_
  refine (maximumf_apply _ _ _).trans ?_
  refine (congrArg₂ max ?_ (colMax_apply x _ _)).trans (max_eq_right bot_le)
  exact ofBits_negInf

/-- The exponentials of the scores less their maximum. -/
def expShift (x : FVec Ideal S50x1 .f32) : FVec Ideal S50x1 .f32 := exp (subf x (maxB x))

/-- Row t of the shifted exponentials: exp(x_t - m). -/
theorem expShift_apply (x : FVec Ideal S50x1 .f32) (t : Fin 50) :
    expShift x (ix2 t 0) = Ideal.exp (x (ix2 t 0) - Cert.Dec.colMax x) := by
  unfold expShift
  show Ideal.exp (x (ix2 t 0) - maxB x (ix2 t 0)) = _
  rw [maxB_apply]

/-- The sum of a column of 50 from the zero word, at the one index of the reduced shape. -/
theorem colSum_apply (y : FVec Ideal S50x1 .f32) (hφ : FKind.Formats .f32)
    (hacc : (0x00000000#32 : BitVec 32) = FKind.add.neutral .f32 hφ) :
    multiReduction .add [0] S1 y 0x00000000#32 reduces_S50x1_S1 hφ hacc (ix1 (0 : Fin 1)) = ∑ t : Fin 50, y (ix2 t 0) := by
  refine (Ideal.multiReduction_add_single y 0x00000000#32 reduces_S50x1_S1 hφ hacc (ix1 (0 : Fin 1))).trans ?_
  refine Finset.sum_congr rfl fun t _ => congrArg y ?_
  exact funext fun d => Fin.ext (by match d with | ⟨0, _⟩ => rfl | ⟨1, _⟩ => rfl)

/-- A column's sum broadcast down the column. -/
def sumB (y : FVec Ideal S50x1 .f32) : FVec Ideal S50x1 .f32 :=
  broadcastTo S50x1
    (shapeCast S1x1 (multiReduction .add [0] S1 y 0x00000000#32 reduces_S50x1_S1 (.inl rfl) rfl) shapeCasts_S1_S1x1)
    broadcasts_S1x1_S50x1

/-- Every row of the broadcast sum is the sum of the column's 50 entries. -/
theorem sumB_apply (y : FVec Ideal S50x1 .f32) (t : Fin 50) : sumB y (ix2 t 0) = ∑ u : Fin 50, y (ix2 u 0) := by
  unfold sumB
  refine (broadcastTo_1b_ab_apply _ broadcasts_S1x1_S50x1 t (0 : Fin 1)).trans ?_
  refine (Cert.Lib.Keepdims.castCol_apply _ shapeCasts_S1_S1x1 (0 : Fin 1)).trans ?_
  exact colSum_apply y _ _

/-- The kernel's weights as one term: the shifted exponentials over their sum. -/
def softmaxK (x : FVec Ideal S50x1 .f32) : FVec Ideal S50x1 .f32 := divf (expShift x) (sumB (expShift x))

/-- The kernel's weights are the specification's. -/
theorem softmaxK_eq (x : FVec Ideal S50x1 .f32) : softmaxK x = Cert.Dec.weights x := by
  funext i
  obtain ⟨t, q, rfl⟩ : ∃ (t : Fin 50) (q : Fin 1), i = ix2 t q := ⟨i 0, i 1, eq_ix2 i⟩
  have hq : q = 0 := Subsingleton.elim _ _
  subst hq
  unfold softmaxK
  refine (divf_apply _ _ _).trans ?_
  refine Eq.trans ?_ (Cert.Dec.weights_apply x t 0).symm
  refine congrArg₂ Ideal.div (expShift_apply x t) ?_
  exact (sumB_apply _ t).trans (Finset.sum_congr rfl fun u _ => expShift_apply x u)

/-! ## The weighted rows and the context -/

/-- The kernel's weighted rows, with the scores and the weights named: each encoder row times its weight. -/
theorem pay4_unfold (s : Vec Ideal S1024x1 .f32) (Wa : Vec Ideal S50x1024 .f32) (Ua : Vec Ideal S50x2048 .f32)
    (h : Vec Ideal S50x2048 .f32) (Va : Vec Ideal S50x1 .f32) :
    Gen.k2_pay4 (F := Ideal) s Wa Ua h Va
      = mulf h (broadcastTo S50x2048 (softmaxK (scoresK s Wa Ua h Va)) broadcasts_S50x1_S50x2048) := rfl

/-- The kernel's weighted rows are the specification's: entry (t, q) is h(t, q) times the weight of row t. -/
theorem pay4_eq (s : Vec Ideal S1024x1 .f32) (Wa : Vec Ideal S50x1024 .f32) (Ua : Vec Ideal S50x2048 .f32)
    (h : Vec Ideal S50x2048 .f32) (Va : Vec Ideal S50x1 .f32) :
    Gen.k2_pay4 (F := Ideal) s Wa Ua h Va = Cert.Dec.alphaOf s h Wa Ua Va := by
  refine (pay4_unfold s Wa Ua h Va).trans ?_
  funext i
  obtain ⟨t, q, rfl⟩ : ∃ (t : Fin 50) (q : Fin 2048), i = ix2 t q := ⟨i 0, i 1, eq_ix2 i⟩
  refine (mulf_apply _ _ _).trans ?_
  unfold Cert.Dec.alphaOf
  refine Eq.trans ?_ (Cert.Dec.alpha_apply h _ t q).symm
  refine congrArg (h (ix2 t q) * ·) ?_
  refine (Cert.Lib.Keepdims.bcastCol_apply _ broadcasts_S50x1_S50x2048 t q).trans ?_
  rw [softmaxK_eq, scoresK_eq]

/-- The kernel's context is the specification's: entry p of the column is the sum over the 50 rows of the weighted
    rows' entry (t, p). -/
theorem pay5_eq (s : Vec Ideal S1024x1 .f32) (Wa : Vec Ideal S50x1024 .f32) (Ua : Vec Ideal S50x2048 .f32)
    (h : Vec Ideal S50x2048 .f32) (Va : Vec Ideal S50x1 .f32) :
    Gen.k2_pay5 (F := Ideal) s Wa Ua h Va = Cert.Dec.ctx (Cert.Dec.alphaOf s h Wa Ua Va) := by
  funext i
  obtain ⟨p, q, rfl⟩ : ∃ (p : Fin 2048) (q : Fin 1), i = ix2 p q := ⟨i 0, i 1, eq_ix2 i⟩
  unfold Gen.k2_pay5
  refine (transpose_ix2_apply _ transposes_S1x2048_p1_0_S2048x1 p q).trans ?_
  refine (shapeCast_a_1a_apply _ shapeCasts_S2048_S1x2048 q p).trans ?_
  refine (Ideal.multiReduction_add_single _ 0x00000000#32 reduces_S50x2048_S2048 _ _ (ix1 p)).trans ?_
  refine Eq.trans ?_ (Cert.Dec.ctx_apply _ p q).symm
  refine Finset.sum_congr rfl fun t _ => ?_
  rw [pay4_eq]
  exact congrArg _ (funext fun d => Fin.ext (by match d with | ⟨0, _⟩ => rfl | ⟨1, _⟩ => rfl))

end Cert.KernelIdeal.Attn

end
-- ==== Proof.Whole.lean ====
/-
  The whole decoder step as functions of the program's argument arrays, composed from the pieces of the specification:
  the context, the two gates, the candidate state, the new state, the maxout layer and the logits. The argument arrays
  keep the names the reference's reading gives them: x0 the previous output, x1 the state, x2 the encoder rows,
  x3 x4 x5 the three [16000,1024] input weights (candidate, update gate, reset gate), x6 the output weights,
  x7 x8 x9 the three [1024,1024] state weights, x10 and x14 the maxout layer's state and context weights,
  x11 x12 x13 the three [2048,1024] context weights, x15 the maxout layer's input weights, x16 x17 x18 the attention's.
-/
import proofs.«179386_j74783970558463_2_alg».proof.Proof.Spec
import Idealize.ShloMosaic.Lib.Pipeline.Value

noncomputable section

namespace Cert.Dec

open Idealize.ShloMosaic Idealize.ShloMosaic.ValueIdx

/-- The context vector: the column sums of the weighted encoder rows. -/
def ctxW (x1 : Mat 1024 1) (x2 : Mat 50 2048) (x16 : Mat 50 1) (x17 : Mat 50 1024) (x18 : Mat 50 2048) : Mat 2048 1 :=
  ctx (alphaOf x1 x2 x17 x18 x16)

/-- A gate over the three weight matrices A [16000,1024], B [1024,1024], D [2048,1024]: sigma((A^T y + B^T v) + D^T c). -/
def gateW (A : Mat 16000 1024) (B : Mat 1024 1024) (D : Mat 2048 1024) (y : Mat 16000 1) (v : Mat 1024 1) (c : Mat 2048 1) : Mat 1024 1 :=
  gate (mvT A y) (mvT B v) (mvT D c)

/-- The new state from the context c: the reset gate r, the update gate z, the candidate over r.s, blended. -/
def snW (x0 : Mat 16000 1) (x1 : Mat 1024 1) (x3 x4 x5 : Mat 16000 1024) (x7 x8 x9 : Mat 1024 1024) (x11 x12 x13 : Mat 2048 1024)
    (c : Mat 2048 1) : Mat 1024 1 :=
  blend (gateW x4 x8 x12 x0 x1 c) x1 (gateW x3 x7 x11 x0 (had (gateW x5 x9 x13 x0 x1 c) x1) c)

/-- The maxout layer over rows in pairs, the three [4096, .] operands re-laid as [2048, 2, .] (any proofs that the
    element counts agree: the re-laying does not depend on them). -/
def tW (x10 : Mat 4096 1024) (x14 : Mat 4096 2048) (voy : Mat 4096 1) (sn : Mat 1024 1) (c : Mat 2048 1)
    (h1 : (⟨2, ![4096, 1024]⟩ : Shape).ShapeCasts ⟨3, ![2048, 2, 1024]⟩)
    (h2 : (⟨2, ![4096, 2048]⟩ : Shape).ShapeCasts ⟨3, ![2048, 2, 2048]⟩)
    (h3 : (⟨2, ![4096, 1]⟩ : Shape).ShapeCasts ⟨3, ![2048, 2, 1]⟩) : Mat 2048 1 :=
  pairMax (shapeCast ⟨3, ![2048, 2, 1024]⟩ x10 h1) (shapeCast ⟨3, ![2048, 2, 2048]⟩ x14 h2) (shapeCast ⟨3, ![2048, 2, 1]⟩ voy h3) sn c

end Cert.Dec

end
-- ==== Proof.KernelValue.lean ====
/-
  The idealized kernel program's values: what each region leaves in its output windows, as the specification's
  functions of the argument arrays. Each region's own lemma reads its result off the arrays it FINDS in its input
  windows; the boundary walk says what those are (an argument as launched, or an earlier region's output); the two
  compose region by region, in the order the program runs them.
-/
import proofs.«179386_j74783970558463_2_alg».proof.Proof.Chain
import proofs.«179386_j74783970558463_2_alg».proof.Proof.Region0
import proofs.«179386_j74783970558463_2_alg».proof.Proof.Region1
import proofs.«179386_j74783970558463_2_alg».proof.Proof.Region2
import proofs.«179386_j74783970558463_2_alg».proof.Proof.Region35
import proofs.«179386_j74783970558463_2_alg».proof.Proof.Region4
import proofs.«179386_j74783970558463_2_alg».proof.Proof.Attn
import proofs.«179386_j74783970558463_2_alg».proof.Proof.Whole

set_option maxRecDepth 16384

noncomputable section

namespace Cert.KernelIdeal.Whole

open Cert.KernelIdeal Cert.KernelIdeal.Gen Cert.KernelIdeal.Chain
open Idealize.ShloMosaic Idealize.ShloMosaic.TcCoe Idealize.SL.Sem

variable (m : (ℓ : Loc nD τ sig) → Buf (Elt Ideal) ℓ) (ρ : Dev nD → PrngReg) (c : Dev nD)

/-- The argument arrays as launched on core c, at the specification's array types. -/
abbrev a0 : Cert.Dec.Mat 16000 1 := m ((c : Thread nD τ).loc main_arg0)
abbrev a1 : Cert.Dec.Mat 1024 1 := m ((c : Thread nD τ).loc main_arg1)
abbrev a2 : Cert.Dec.Mat 50 2048 := m ((c : Thread nD τ).loc main_arg2)
abbrev a3 : Cert.Dec.Mat 16000 1024 := m ((c : Thread nD τ).loc main_arg3)
abbrev a4 : Cert.Dec.Mat 16000 1024 := m ((c : Thread nD τ).loc main_arg4)
abbrev a5 : Cert.Dec.Mat 16000 1024 := m ((c : Thread nD τ).loc main_arg5)
abbrev a6 : Cert.Dec.Mat 16000 2048 := m ((c : Thread nD τ).loc main_arg6)
abbrev a7 : Cert.Dec.Mat 1024 1024 := m ((c : Thread nD τ).loc main_arg7)
abbrev a8 : Cert.Dec.Mat 1024 1024 := m ((c : Thread nD τ).loc main_arg8)
abbrev a9 : Cert.Dec.Mat 1024 1024 := m ((c : Thread nD τ).loc main_arg9)
abbrev a10 : Cert.Dec.Mat 4096 1024 := m ((c : Thread nD τ).loc main_arg10)
abbrev a11 : Cert.Dec.Mat 2048 1024 := m ((c : Thread nD τ).loc main_arg11)
abbrev a12 : Cert.Dec.Mat 2048 1024 := m ((c : Thread nD τ).loc main_arg12)
abbrev a13 : Cert.Dec.Mat 2048 1024 := m ((c : Thread nD τ).loc main_arg13)
abbrev a14 : Cert.Dec.Mat 4096 2048 := m ((c : Thread nD τ).loc main_arg14)
abbrev a15 : Cert.Dec.Mat 4096 16000 := m ((c : Thread nD τ).loc main_arg15)
abbrev a16 : Cert.Dec.Mat 50 1 := m ((c : Thread nD τ).loc main_arg16)
abbrev a17 : Cert.Dec.Mat 50 1024 := m ((c : Thread nD τ).loc main_arg17)
abbrev a18 : Cert.Dec.Mat 50 2048 := m ((c : Thread nD τ).loc main_arg18)

/-- Region 2's weighted encoder rows are the specification's, of the state, the encoder rows and the attention weights. -/
theorem k_alpha : (dat2 (V2 m ρ) c).arrAt 12 cfg2.N = Cert.Dec.alphaOf (a1 m c) (a2 m c) (a17 m c) (a18 m c) (a16 m c) := by
  rw [Region2.arr12 (V2 m ρ) c, in2_0 m ρ c, in2_2 m ρ c, in2_3 m ρ c, in2_1 m ρ c, in2_4 m ρ c]
  exact Attn.pay4_eq _ _ _ _ _

/-- Region 2's context vector is the specification's. -/
theorem k_ctx : (dat2 (V2 m ρ) c).arrAt 11 cfg2.N = Cert.Dec.ctxW (a1 m c) (a2 m c) (a16 m c) (a17 m c) (a18 m c) := by
  rw [Region2.arr11 (V2 m ρ) c, in2_0 m ρ c, in2_2 m ρ c, in2_3 m ρ c, in2_1 m ρ c, in2_4 m ρ c]
  exact Attn.pay5_eq _ _ _ _ _

/-- Region 0's three accumulated products: the input weights' transposes applied to the previous output. -/
theorem k_wy : (dat0 (V0 m ρ) c).arrAt 4 cfg0.N = Cert.Dec.mvT (a3 m c) (a0 m c) := Region0.arr4 (V0 m ρ) c
theorem k_wzy : (dat0 (V0 m ρ) c).arrAt 5 cfg0.N = Cert.Dec.mvT (a4 m c) (a0 m c) := Region0.arr5 (V0 m ρ) c
theorem k_wry : (dat0 (V0 m ρ) c).arrAt 6 cfg0.N = Cert.Dec.mvT (a5 m c) (a0 m c) := Region0.arr6 (V0 m ρ) c

/-- Region 1's accumulated product: the maxout layer's input weights applied to the previous output. -/
theorem k_voy : (dat1 (V1 m ρ) c).arrAt 2 cfg1.N = Cert.Dec.mv (a15 m c) (a0 m c) := by
  rw [Region1.arr2 (V1 m ρ) c, in1_0 m ρ c, in1_1 m ρ c]

/-- The context vector, named once. -/
abbrev cx : Cert.Dec.Mat 2048 1 := Cert.Dec.ctxW (a1 m c) (a2 m c) (a16 m c) (a17 m c) (a18 m c)

/-- Region 2's reset gate. -/
theorem k_r : (dat2 (V2 m ρ) c).arrAt 13 cfg2.N = Cert.Dec.gateW (a5 m c) (a9 m c) (a13 m c) (a0 m c) (a1 m c) (cx m c) := by
  rw [Region2.arr13 (V2 m ρ) c, in2_5 m ρ c, in2_7 m ρ c, in2_0 m ρ c, in2_9 m ρ c, in2_2 m ρ c, in2_3 m ρ c, in2_1 m ρ c, in2_4 m ρ c,
    k_wry m ρ c, Attn.pay5_eq]
  rfl

/-- Region 2's update gate. -/
theorem k_z : (dat2 (V2 m ρ) c).arrAt 14 cfg2.N = Cert.Dec.gateW (a4 m c) (a8 m c) (a12 m c) (a0 m c) (a1 m c) (cx m c) := by
  rw [Region2.arr14 (V2 m ρ) c, in2_6 m ρ c, in2_8 m ρ c, in2_0 m ρ c, in2_10 m ρ c, in2_2 m ρ c, in2_3 m ρ c, in2_1 m ρ c, in2_4 m ρ c,
    k_wzy m ρ c, Attn.pay5_eq]
  rfl

/-- The new state, named once. -/
abbrev sn : Cert.Dec.Mat 1024 1 :=
  Cert.Dec.snW (a0 m c) (a1 m c) (a3 m c) (a4 m c) (a5 m c) (a7 m c) (a8 m c) (a9 m c) (a11 m c) (a12 m c) (a13 m c) (cx m c)

/-- Region 3's new state. -/
theorem k_sn : (dat3 (V3 m ρ) c).arrAt 7 cfg3.N = sn m c := by
  rw [Region3.arr7 (V3 m ρ) c, in3_0 m ρ c, in3_1 m ρ c, in3_2 m ρ c, in3_3 m ρ c, in3_4 m ρ c, in3_5 m ρ c, in3_6 m ρ c,
    k_wy m ρ c, k_ctx m ρ c, k_r m ρ c, k_z m ρ c]
  rfl

/-- The maxout layer's result, named once (the re-laying facts are the kernel program's). -/
abbrev tt : Cert.Dec.Mat 2048 1 :=
  Cert.Dec.tW (a10 m c) (a14 m c) (Cert.Dec.mv (a15 m c) (a0 m c)) (sn m c) (cx m c)
    shapeCasts_S4096x1024_S2048x2x1024 shapeCasts_S4096x2048_S2048x2x2048 shapeCasts_S4096x1_S2048x2x1

/-- Region 4's maxout over rows in pairs. -/
theorem k_t : (dat4 (V5 m ρ) c).arrAt 5 cfg4.N = tt m c := by
  rw [Region4.arr5 (V5 m ρ) c, in4_0 m ρ c, in4_1 m ρ c, in4_2 m ρ c, in4_3 m ρ c, in4_4 m ρ c, k_voy m ρ c, k_sn m ρ c, k_ctx m ρ c]
  rfl

/-- Region 5's logits. -/
theorem k_lg : (dat5 (V6 m ρ) c).arrAt 2 cfg5.N = Cert.Dec.mv (a6 m c) (tt m c) := by
  rw [Region5.arr2 (V6 m ρ) c, in5_0 m ρ c, in5_1 m ρ c, k_t m ρ c]

/-- The first result: the log-softmax chain applied to the logits. -/
theorem out_v9 : W8 m ρ c (Proc.devRef .tc main_v9) = tail (Cert.Dec.mv (a6 m c) (tt m c)) :=
  (res_v9 m ρ c).trans (congrArg tail (k_lg m ρ c))

/-- The second result: the new state. -/
theorem out_v3 : W8 m ρ c (Proc.devRef .tc main_v3) = sn m c := (res_v3 m ρ c).trans (k_sn m ρ c)

/-- The third result: the weighted encoder rows. -/
theorem out_v2_1 : W8 m ρ c (Proc.devRef .tc main_v2_1) = Cert.Dec.alphaOf (a1 m c) (a2 m c) (a17 m c) (a18 m c) (a16 m c) :=
  (res_v2_1 m ρ c).trans (k_alpha m ρ c)

end Cert.KernelIdeal.Whole

end
-- ==== Proof.RefAttn.lean ====
/-
  The reference's attention, read as the specification's formulas.

  Its first twenty-four host operations compute, from the state s [1024,1], the encoder rows h [50,2048] and the
  attention parameters Wa [50,1024], Ua [50,2048], Va [50,1]:
    the pre-activation (Wa s)^T, one row broadcast down the 50 rows, plus h Ua^T, entry (t, j);
    its tanh P [50,50] and the scores e = P Va [50,1];
    the scores flattened to [50], their maximum m folded from minus infinity (and once more taken against minus infinity,
    which changes nothing: max(-inf, m) = m);
    exp(e_t - m), its sum from 0, the quotient a_t;
    the rows of h scaled by a_t, and the column sums of the result from 0, as a column.
  Every step is read at an index; a sum that starts from the zero word starts from 0, the word of minus infinity is the
  bottom element, and a total reduction of a [50] array to a scalar runs over all 50 entries.
-/
import proofs.«179386_j74783970558463_2_alg».proof.Proof.RefRead0
import proofs.«179386_j74783970558463_2_alg».proof.Proof.Spec

noncomputable section

namespace Cert.ReferenceIdeal.RefAttn

open Cert.ReferenceIdeal Cert.ReferenceIdeal.Gen Cert.ReferenceIdeal.Read Idealize.ShloMosaic Idealize.ShloMosaic.ValueIdx

/-! ## Three general facts -/

/-- A rank-1 index set is its one coordinate's range. -/
def idxEquiv1 {n : Nat} : (⟨1, ![n]⟩ : Shape).Idx ≃ Fin n where
  toFun i := i 0
  invFun p := ix1 p
  left_inv i := (eq_ix1 i).symm
  right_inv _ := rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The word of minus infinity reads as the bottom element of the extended reals. -/
theorem ofBits_neg_inf : Ideal.ofBits .f32 0xFF800000#32 = (⊥ : EReal) := by simp [Ideal.ofBits, Ideal.ieee]

/-- A maximum-reduction of a [50] array to a scalar is the fold of max over its 50 entries from the initial value:
    every entry drops to the scalar's one index, and the order of a fold of max is immaterial. -/
theorem reduce_max50 (x : FVec Ideal ⟨1, ![50]⟩ .f32) (init : FVec Ideal ⟨0, ![]⟩ .f32)
    (h' : (⟨1, ![50]⟩ : Shape).ReducesTo [0] ⟨0, ![]⟩) (hu : 0 < (⟨0, ![]⟩ : Shape).numel) (j : (⟨0, ![]⟩ : Shape).Idx) :
    Host.reduce (FloatOps.maximumf (F := Ideal) (φ := .f32)) x init h' hu j
      = (Finset.univ : Finset (Fin 50)).fold max (init (Shape.Idx.first hu)) (fun t => x (ix1 t)) := by
  refine (Host.reduce_eq_fold _ x init h' hu j).trans ?_
  have hf : (Finset.univ.filter fun i => h'.drop i = j) = Finset.univ :=
    Finset.filter_true_of_mem (fun i _ => funext fun b => b.elim0)
  have hm : (Finset.univ : Finset (⟨1, ![50]⟩ : Shape).Idx)
      = (Finset.univ : Finset (Fin 50)).map (idxEquiv1 (n := 50)).symm.toEmbedding := (Finset.map_univ_equiv _).symm
  rw [hf, hm, Finset.fold_map]
  rfl

/-! ## The stages -/

section Stages

variable (x1 : (⟨S1024x1, .f32⟩ : BufTy).Contents (Elt Ideal)) (x2 : (⟨S50x2048, .f32⟩ : BufTy).Contents (Elt Ideal))
  (x16 : (⟨S50x1, .f32⟩ : BufTy).Contents (Elt Ideal)) (x17 : (⟨S50x1024, .f32⟩ : BufTy).Contents (Elt Ideal))
  (x18 : (⟨S50x2048, .f32⟩ : BufTy).Contents (Elt Ideal))

/-- The pre-activation at (t, j): the state's projection sum_k Wa(j,k) s(k), the same on every row t, plus the encoder
    row's projection sum_k h(t,k) Ua(j,k). -/
theorem preact_apply (t j : Fin 50) :
    val_main_v5 (F := Ideal) x1 x2 x17 x18 (ix2 t j)
      = (∑ k : Fin 1024, x17 (ix2 j k) * x1 (ix2 k 0)) + ∑ k : Fin 2048, x2 (ix2 t k) * x18 (ix2 j k) := by
  have e0l : ∀ k : Fin 1024, lidx_main_v0 (idx_main_v1 (idx_main_v4 (ix2 t j))) k = ix2 j k := fun k =>
    funext fun a => Fin.ext (by match a with | ⟨0, _⟩ => rfl | ⟨1, _⟩ => rfl)
  have e0r : ∀ k : Fin 1024, ridx_main_v0 (idx_main_v1 (idx_main_v4 (ix2 t j))) k = ix2 k 0 := fun k =>
    funext fun a => Fin.ext (by match a with | ⟨0, _⟩ => rfl | ⟨1, _⟩ => rfl)
  have e3l : ∀ k : Fin 2048, lidx_main_v3 (ix2 t j) k = ix2 t k := fun k =>
    funext fun a => Fin.ext (by match a with | ⟨0, _⟩ => rfl | ⟨1, _⟩ => rfl)
  have e3r : ∀ k : Fin 2048, idx_main_v2 (ridx_main_v3 (ix2 t j) k) = ix2 j k := fun k =>
    funext fun a => Fin.ext (by match a with | ⟨0, _⟩ => rfl | ⟨1, _⟩ => rfl)
  rw [val_main_v5_apply, val_main_v4_apply, val_main_v1_apply, val_main_v0_apply, val_main_v3_apply]
  simp only [val_main_v2_apply, e0l, e0r, e3l, e3r, Ideal.addf_def]

/-- The tanh of the pre-activation is the specification's P. -/
theorem proj_eq : val_main_v6 (F := Ideal) x1 x2 x17 x18 = Cert.Dec.proj x1 x2 x17 x18 := by
  funext i
  obtain ⟨t, j, rfl⟩ : ∃ t j : Fin 50, i = ix2 t j := ⟨i 0, i 1, eq_ix2 i⟩
  rw [val_main_v6_apply, preact_apply, Ideal.hostUnary_tanh_def, Cert.Dec.proj_apply]

/-- P against the column Va is the specification's scores. -/
theorem scores_eq : val_main_v7 (F := Ideal) x1 x2 x16 x17 x18 = Cert.Dec.scores x1 x2 x17 x18 x16 := by
  funext i
  obtain ⟨t, q, rfl⟩ : ∃ (t : Fin 50) (q : Fin 1), i = ix2 t q := ⟨i 0, i 1, eq_ix2 i⟩
  obtain rfl : q = 0 := Fin.eq_zero q
  have el : ∀ k : Fin 50, lidx_main_v7 (ix2 t (0 : Fin 1)) k = ix2 t k := fun k =>
    funext fun a => Fin.ext (by match a with | ⟨0, _⟩ => rfl | ⟨1, _⟩ => rfl)
  have er : ∀ k : Fin 50, ridx_main_v7 (ix2 t (0 : Fin 1)) k = ix2 k 0 := fun k =>
    funext fun a => Fin.ext (by match a with | ⟨0, _⟩ => rfl | ⟨1, _⟩ => rfl)
  rw [val_main_v7_apply, proj_eq]
  unfold Cert.Dec.scores
  rw [Cert.Dec.mv_apply]
  simp only [el, er]

/-- The flattened scores: entry t of the [50] array is the score of row t. -/
theorem flat_apply (t : Fin 50) :
    val_main_v8 (F := Ideal) x1 x2 x16 x17 x18 (ix1 t) = Cert.Dec.scores x1 x2 x17 x18 x16 (ix2 t 0) := by
  have e : idx_main_v8 (ix1 t) = ix2 t 0 :=
    funext fun a => Fin.ext (by match a with | ⟨0, _⟩ => exact Nat.div_one _ | ⟨1, _⟩ => rfl)
  rw [val_main_v8_apply, e, scores_eq]

/-- The maximum of the flattened scores, folded from minus infinity, is the specification's column maximum. -/
theorem max_apply :
    val_main_v9 (F := Ideal) x1 x2 x16 x17 x18 ix0 = Cert.Dec.colMax (Cert.Dec.scores x1 x2 x17 x18 x16) := by
  unfold val_main_v9
  refine (reduce_max50 _ _ _ _ _).trans ?_
  rw [val_main_cst_apply, Ideal.ofBits_def, ofBits_neg_inf]
  unfold Cert.Dec.colMax
  exact Finset.fold_congr (fun t _ => flat_apply x1 x2 x16 x17 x18 t)

/-- The maximum taken once more against minus infinity and broadcast back to [50]: every entry is the column maximum. -/
theorem maxb_apply (t : Fin 50) :
    val_main_v12 (F := Ideal) x1 x2 x16 x17 x18 (ix1 t) = Cert.Dec.colMax (Cert.Dec.scores x1 x2 x17 x18 x16) := by
  rw [val_main_v12_apply, val_main_v11_apply, val_main_v10_apply, val_main_cst_0_apply,
    eq_ix0 (idx_main_v11 (idx_main_v12 (ix1 t))), max_apply, Ideal.maximumf_def, Ideal.ofBits_def, ofBits_neg_inf,
    max_bot_left]

/-- The exponential of a score less the maximum. -/
theorem exp_apply (t : Fin 50) :
    val_main_v14 (F := Ideal) x1 x2 x16 x17 x18 (ix1 t)
      = Ideal.exp (Cert.Dec.scores x1 x2 x17 x18 x16 (ix2 t 0) - Cert.Dec.colMax (Cert.Dec.scores x1 x2 x17 x18 x16)) := by
  rw [val_main_v14_apply, val_main_v13_apply, flat_apply, maxb_apply, Ideal.hostUnary_exp_def, Ideal.subf_def]

/-- The normalizer, broadcast back to [50]: the sum of the 50 exponentials (started from 0). -/
theorem norm_apply (t : Fin 50) :
    val_main_v17 (F := Ideal) x1 x2 x16 x17 x18 (ix1 t)
      = ∑ u : Fin 50, Ideal.exp (Cert.Dec.scores x1 x2 x17 x18 x16 (ix2 u 0) - Cert.Dec.colMax (Cert.Dec.scores x1 x2 x17 x18 x16)) := by
  rw [val_main_v17_apply, val_main_v16_apply, val_main_v15_apply, val_main_cst_1_apply, Ideal.ofBits_def,
    Ideal.ofBits_zero_f32, zero_add, sum_idx1]
  exact Finset.sum_congr rfl (fun u _ => exp_apply x1 x2 x16 x17 x18 u)

/-- The quotient is the specification's softmax weight. -/
theorem weight_apply (t : Fin 50) :
    val_main_v18 (F := Ideal) x1 x2 x16 x17 x18 (ix1 t)
      = Cert.Dec.weights (Cert.Dec.scores x1 x2 x17 x18 x16) (ix2 t 0) := by
  rw [val_main_v18_apply, exp_apply, norm_apply, Ideal.hostDivf_def, Cert.Dec.weights_apply]

/-- The reference's weighted encoder rows are the specification's: entry (t, q) is h(t,q) times the weight of row t. -/
theorem alpha_eq : val_main_v21 (F := Ideal) x1 x2 x16 x17 x18 = Cert.Dec.alphaOf x1 x2 x17 x18 x16 := by
  funext i
  obtain ⟨t, q, rfl⟩ : ∃ (t : Fin 50) (q : Fin 2048), i = ix2 t q := ⟨i 0, i 1, eq_ix2 i⟩
  have e : idx_main_v19 (idx_main_v20 (ix2 t q)) = ix1 t :=
    funext fun a => Fin.ext (by match a with | ⟨0, _⟩ => rfl)
  rw [val_main_v21_apply, val_main_v20_apply, val_main_v19_apply, e, weight_apply, Ideal.mulf_def]
  unfold Cert.Dec.alphaOf
  rw [Cert.Dec.alpha_apply]

/-- The reference's context is the specification's: entry p is the sum over the 50 rows of the weighted rows' column p
    (started from 0). -/
theorem ctx_eq :
    val_main_v23 (F := Ideal) x1 x2 x16 x17 x18 = Cert.Dec.ctx (Cert.Dec.alphaOf x1 x2 x17 x18 x16) := by
  funext i
  obtain ⟨p, q, rfl⟩ : ∃ (p : Fin 2048) (q : Fin 1), i = ix2 p q := ⟨i 0, i 1, eq_ix2 i⟩
  have e : ∀ k : Fin 50, idx_main_v22 (idx_main_v23 (ix2 p q)) k = ix2 k p := fun k =>
    funext fun a => Fin.ext (by match a with | ⟨0, _⟩ => rfl | ⟨1, _⟩ => rfl)
  rw [val_main_v23_apply, val_main_v22_apply, val_main_cst_2_apply, Ideal.ofBits_def, Ideal.ofBits_zero_f32, zero_add,
    Cert.Dec.ctx_apply, alpha_eq]
  simp only [e]

end Stages

end Cert.ReferenceIdeal.RefAttn

end
-- ==== Proof.RefStep.lean ====
/-
  The reference's recurrent step, read on the extended reals: its three gates, the new state, the maxout layer
  and the logits, each identified with the specification's formula, the attention context kept as an opaque column.

  A transposed weight matrix against a column is the sum over the matrix's rows (mvT); the reference spells the
  logistic function as 1 / (1 + e^(-x)) with the float word of 1.0, which reads as the extended real 1, so each gate
  is the logistic function of the sum of its three products.
-/
import proofs.«179386_j74783970558463_2_alg».proof.Proof.RefRead0
import proofs.«179386_j74783970558463_2_alg».proof.Proof.Spec

noncomputable section

namespace Cert.ReferenceIdeal.RefStep

open Cert.ReferenceIdeal Cert.ReferenceIdeal.Read Idealize.ShloMosaic Idealize.ShloMosaic.ValueIdx
open Cert.Dec

/-- The float word of 1.0 denotes the extended real 1. -/
theorem one_word : Ideal.ofBits .f32 0x3F800000#32 = 1 := by
  simp [Ideal.ofBits, Ideal.ieee, -EReal.coe_mul]; norm_num

/-- The reset gate's input product: entry p is the sum over k of Wr(k,p) y(k). -/
theorem wr_eq (x0 : (⟨S16000x1, .f32⟩ : BufTy).Contents (Elt Ideal)) (x5 : (⟨S16000x1024, .f32⟩ : BufTy).Contents (Elt Ideal)) :
    val_main_v25 (F := Ideal) x0 x5 = mvT (K := 16000) (N := 1024) x5 x0 := by
  funext i
  obtain ⟨p, q, rfl⟩ : ∃ (p : Fin 1024) (q : Fin 1), i = ix2 p q := ⟨i 0, i 1, eq_ix2 i⟩
  obtain rfl : q = 0 := Subsingleton.elim _ _
  rw [val_main_v25_apply, mvT_apply]
  refine Finset.sum_congr rfl fun k _ => ?_
  rw [val_main_v24_apply]
  have e1 : idx_main_v24 (lidx_main_v25 (ix2 p 0) k) = ix2 k p :=
    funext fun a => Fin.ext (by match a with | ⟨0, _⟩ => rfl | ⟨1, _⟩ => rfl)
  have e2 : ridx_main_v25 (ix2 p 0) k = ix2 k 0 :=
    funext fun a => Fin.ext (by match a with | ⟨0, _⟩ => rfl | ⟨1, _⟩ => rfl)
  rw [e1, e2]

/-- The reset gate's state product: entry p is the sum over k of Ur(k,p) s(k). -/
theorem ur_eq (x1 : (⟨S1024x1, .f32⟩ : BufTy).Contents (Elt Ideal)) (x9 : (⟨S1024x1024, .f32⟩ : BufTy).Contents (Elt Ideal)) :
    val_main_v27 (F := Ideal) x1 x9 = mvT (K := 1024) (N := 1024) x9 x1 := by
  funext i
  obtain ⟨p, q, rfl⟩ : ∃ (p : Fin 1024) (q : Fin 1), i = ix2 p q := ⟨i 0, i 1, eq_ix2 i⟩
  obtain rfl : q = 0 := Subsingleton.elim _ _
  rw [val_main_v27_apply, mvT_apply]
  refine Finset.sum_congr rfl fun k _ => ?_
  rw [val_main_v26_apply]
  have e1 : idx_main_v26 (lidx_main_v27 (ix2 p 0) k) = ix2 k p :=
    funext fun a => Fin.ext (by match a with | ⟨0, _⟩ => rfl | ⟨1, _⟩ => rfl)
  have e2 : ridx_main_v27 (ix2 p 0) k = ix2 k 0 :=
    funext fun a => Fin.ext (by match a with | ⟨0, _⟩ => rfl | ⟨1, _⟩ => rfl)
  rw [e1, e2]

/-- The reset gate's context product: entry p is the sum over k of Cr(k,p) c(k), c the context column. -/
theorem cr_eq (x1 : (⟨S1024x1, .f32⟩ : BufTy).Contents (Elt Ideal)) (x2 : (⟨S50x2048, .f32⟩ : BufTy).Contents (Elt Ideal)) (x13 : (⟨S2048x1024, .f32⟩ : BufTy).Contents (Elt Ideal)) (x16 : (⟨S50x1, .f32⟩ : BufTy).Contents (Elt Ideal)) (x17 : (⟨S50x1024, .f32⟩ : BufTy).Contents (Elt Ideal)) (x18 : (⟨S50x2048, .f32⟩ : BufTy).Contents (Elt Ideal)) :
    val_main_v30 (F := Ideal) x1 x2 x13 x16 x17 x18 = mvT (K := 2048) (N := 1024) x13 (val_main_v23 (F := Ideal) x1 x2 x16 x17 x18) := by
  funext i
  obtain ⟨p, q, rfl⟩ : ∃ (p : Fin 1024) (q : Fin 1), i = ix2 p q := ⟨i 0, i 1, eq_ix2 i⟩
  obtain rfl : q = 0 := Subsingleton.elim _ _
  rw [val_main_v30_apply, mvT_apply]
  refine Finset.sum_congr rfl fun k _ => ?_
  rw [val_main_v29_apply]
  have e1 : idx_main_v29 (lidx_main_v30 (ix2 p 0) k) = ix2 k p :=
    funext fun a => Fin.ext (by match a with | ⟨0, _⟩ => rfl | ⟨1, _⟩ => rfl)
  have e2 : ridx_main_v30 (ix2 p 0) k = ix2 k 0 :=
    funext fun a => Fin.ext (by match a with | ⟨0, _⟩ => rfl | ⟨1, _⟩ => rfl)
  rw [e1, e2]

/-- The reset gate r: the logistic function of (Wr^T y + Ur^T s) + Cr^T c. -/
theorem r_eq (x0 : (⟨S16000x1, .f32⟩ : BufTy).Contents (Elt Ideal)) (x1 : (⟨S1024x1, .f32⟩ : BufTy).Contents (Elt Ideal)) (x2 : (⟨S50x2048, .f32⟩ : BufTy).Contents (Elt Ideal)) (x5 : (⟨S16000x1024, .f32⟩ : BufTy).Contents (Elt Ideal)) (x9 : (⟨S1024x1024, .f32⟩ : BufTy).Contents (Elt Ideal)) (x13 : (⟨S2048x1024, .f32⟩ : BufTy).Contents (Elt Ideal)) (x16 : (⟨S50x1, .f32⟩ : BufTy).Contents (Elt Ideal)) (x17 : (⟨S50x1024, .f32⟩ : BufTy).Contents (Elt Ideal)) (x18 : (⟨S50x2048, .f32⟩ : BufTy).Contents (Elt Ideal)) :
    val_main_v37 (F := Ideal) x0 x1 x2 x5 x9 x13 x16 x17 x18
      = gate (mvT (K := 16000) (N := 1024) x5 x0) (mvT (K := 1024) (N := 1024) x9 x1) (mvT (K := 2048) (N := 1024) x13 (val_main_v23 (F := Ideal) x1 x2 x16 x17 x18)) := by
  funext i
  rw [val_main_v37_apply, val_main_v36_apply, val_main_cst_4_apply, val_main_v35_apply, val_main_v34_apply, val_main_cst_3_apply, val_main_v33_apply, val_main_v32_apply, val_main_v31_apply, val_main_v28_apply,
    wr_eq, ur_eq, cr_eq, gate_apply]
  simp only [Ideal.hostDivf_def, Ideal.addf_def, Ideal.hostUnary_exp_def, Ideal.hostNegf_def, Ideal.negf_def,
    Ideal.ofBits_def, one_word]
  rfl

/-- The update gate's input product: entry p is the sum over k of Wz(k,p) y(k). -/
theorem wz_eq (x0 : (⟨S16000x1, .f32⟩ : BufTy).Contents (Elt Ideal)) (x4 : (⟨S16000x1024, .f32⟩ : BufTy).Contents (Elt Ideal)) :
    val_main_v39 (F := Ideal) x0 x4 = mvT (K := 16000) (N := 1024) x4 x0 := by
  funext i
  obtain ⟨p, q, rfl⟩ : ∃ (p : Fin 1024) (q : Fin 1), i = ix2 p q := ⟨i 0, i 1, eq_ix2 i⟩
  obtain rfl : q = 0 := Subsingleton.elim _ _
  rw [val_main_v39_apply, mvT_apply]
  refine Finset.sum_congr rfl fun k _ => ?_
  rw [val_main_v38_apply]
  have e1 : idx_main_v38 (lidx_main_v39 (ix2 p 0) k) = ix2 k p :=
    funext fun a => Fin.ext (by match a with | ⟨0, _⟩ => rfl | ⟨1, _⟩ => rfl)
  have e2 : ridx_main_v39 (ix2 p 0) k = ix2 k 0 :=
    funext fun a => Fin.ext (by match a with | ⟨0, _⟩ => rfl | ⟨1, _⟩ => rfl)
  rw [e1, e2]

/-- The update gate's state product: entry p is the sum over k of Uz(k,p) s(k). -/
theorem uz_eq (x1 : (⟨S1024x1, .f32⟩ : BufTy).Contents (Elt Ideal)) (x8 : (⟨S1024x1024, .f32⟩ : BufTy).Contents (Elt Ideal)) :
    val_main_v41 (F := Ideal) x1 x8 = mvT (K := 1024) (N := 1024) x8 x1 := by
  funext i
  obtain ⟨p, q, rfl⟩ : ∃ (p : Fin 1024) (q : Fin 1), i = ix2 p q := ⟨i 0, i 1, eq_ix2 i⟩
  obtain rfl : q = 0 := Subsingleton.elim _ _
  rw [val_main_v41_apply, mvT_apply]
  refine Finset.sum_congr rfl fun k _ => ?_
  rw [val_main_v40_apply]
  have e1 : idx_main_v40 (lidx_main_v41 (ix2 p 0) k) = ix2 k p :=
    funext fun a => Fin.ext (by match a with | ⟨0, _⟩ => rfl | ⟨1, _⟩ => rfl)
  have e2 : ridx_main_v41 (ix2 p 0) k = ix2 k 0 :=
    funext fun a => Fin.ext (by match a with | ⟨0, _⟩ => rfl | ⟨1, _⟩ => rfl)
  rw [e1, e2]

/-- The update gate's context product: entry p is the sum over k of Cz(k,p) c(k). -/
theorem cz_eq (x1 : (⟨S1024x1, .f32⟩ : BufTy).Contents (Elt Ideal)) (x2 : (⟨S50x2048, .f32⟩ : BufTy).Contents (Elt Ideal)) (x12 : (⟨S2048x1024, .f32⟩ : BufTy).Contents (Elt Ideal)) (x16 : (⟨S50x1, .f32⟩ : BufTy).Contents (Elt Ideal)) (x17 : (⟨S50x1024, .f32⟩ : BufTy).Contents (Elt Ideal)) (x18 : (⟨S50x2048, .f32⟩ : BufTy).Contents (Elt Ideal)) :
    val_main_v44 (F := Ideal) x1 x2 x12 x16 x17 x18 = mvT (K := 2048) (N := 1024) x12 (val_main_v23 (F := Ideal) x1 x2 x16 x17 x18) := by
  funext i
  obtain ⟨p, q, rfl⟩ : ∃ (p : Fin 1024) (q : Fin 1), i = ix2 p q := ⟨i 0, i 1, eq_ix2 i⟩
  obtain rfl : q = 0 := Subsingleton.elim _ _
  rw [val_main_v44_apply, mvT_apply]
  refine Finset.sum_congr rfl fun k _ => ?_
  rw [val_main_v43_apply]
  have e1 : idx_main_v43 (lidx_main_v44 (ix2 p 0) k) = ix2 k p :=
    funext fun a => Fin.ext (by match a with | ⟨0, _⟩ => rfl | ⟨1, _⟩ => rfl)
  have e2 : ridx_main_v44 (ix2 p 0) k = ix2 k 0 :=
    funext fun a => Fin.ext (by match a with | ⟨0, _⟩ => rfl | ⟨1, _⟩ => rfl)
  rw [e1, e2]

/-- The update gate z: the logistic function of (Wz^T y + Uz^T s) + Cz^T c. -/
theorem z_eq (x0 : (⟨S16000x1, .f32⟩ : BufTy).Contents (Elt Ideal)) (x1 : (⟨S1024x1, .f32⟩ : BufTy).Contents (Elt Ideal)) (x2 : (⟨S50x2048, .f32⟩ : BufTy).Contents (Elt Ideal)) (x4 : (⟨S16000x1024, .f32⟩ : BufTy).Contents (Elt Ideal)) (x8 : (⟨S1024x1024, .f32⟩ : BufTy).Contents (Elt Ideal)) (x12 : (⟨S2048x1024, .f32⟩ : BufTy).Contents (Elt Ideal)) (x16 : (⟨S50x1, .f32⟩ : BufTy).Contents (Elt Ideal)) (x17 : (⟨S50x1024, .f32⟩ : BufTy).Contents (Elt Ideal)) (x18 : (⟨S50x2048, .f32⟩ : BufTy).Contents (Elt Ideal)) :
    val_main_v51 (F := Ideal) x0 x1 x2 x4 x8 x12 x16 x17 x18
      = gate (mvT (K := 16000) (N := 1024) x4 x0) (mvT (K := 1024) (N := 1024) x8 x1) (mvT (K := 2048) (N := 1024) x12 (val_main_v23 (F := Ideal) x1 x2 x16 x17 x18)) := by
  funext i
  rw [val_main_v51_apply, val_main_v50_apply, val_main_cst_6_apply, val_main_v49_apply, val_main_v48_apply, val_main_cst_5_apply, val_main_v47_apply, val_main_v46_apply, val_main_v45_apply, val_main_v42_apply,
    wz_eq, uz_eq, cz_eq, gate_apply]
  simp only [Ideal.hostDivf_def, Ideal.addf_def, Ideal.hostUnary_exp_def, Ideal.hostNegf_def, Ideal.negf_def,
    Ideal.ofBits_def, one_word]
  rfl

/-- The reset state: the entrywise product of the reset gate and the state. -/
theorem rs_eq (x0 : (⟨S16000x1, .f32⟩ : BufTy).Contents (Elt Ideal)) (x1 : (⟨S1024x1, .f32⟩ : BufTy).Contents (Elt Ideal)) (x2 : (⟨S50x2048, .f32⟩ : BufTy).Contents (Elt Ideal)) (x5 : (⟨S16000x1024, .f32⟩ : BufTy).Contents (Elt Ideal)) (x9 : (⟨S1024x1024, .f32⟩ : BufTy).Contents (Elt Ideal)) (x13 : (⟨S2048x1024, .f32⟩ : BufTy).Contents (Elt Ideal)) (x16 : (⟨S50x1, .f32⟩ : BufTy).Contents (Elt Ideal)) (x17 : (⟨S50x1024, .f32⟩ : BufTy).Contents (Elt Ideal)) (x18 : (⟨S50x2048, .f32⟩ : BufTy).Contents (Elt Ideal)) :
    val_main_v55 (F := Ideal) x0 x1 x2 x5 x9 x13 x16 x17 x18
      = had (gate (mvT (K := 16000) (N := 1024) x5 x0) (mvT (K := 1024) (N := 1024) x9 x1) (mvT (K := 2048) (N := 1024) x13 (val_main_v23 (F := Ideal) x1 x2 x16 x17 x18))) x1 := by
  funext i
  rw [val_main_v55_apply, r_eq, had_apply]
  rfl

/-- The candidate's input product: entry p is the sum over k of W(k,p) y(k). -/
theorem w_eq (x0 : (⟨S16000x1, .f32⟩ : BufTy).Contents (Elt Ideal)) (x3 : (⟨S16000x1024, .f32⟩ : BufTy).Contents (Elt Ideal)) :
    val_main_v53 (F := Ideal) x0 x3 = mvT (K := 16000) (N := 1024) x3 x0 := by
  funext i
  obtain ⟨p, q, rfl⟩ : ∃ (p : Fin 1024) (q : Fin 1), i = ix2 p q := ⟨i 0, i 1, eq_ix2 i⟩
  obtain rfl : q = 0 := Subsingleton.elim _ _
  rw [val_main_v53_apply, mvT_apply]
  refine Finset.sum_congr rfl fun k _ => ?_
  rw [val_main_v52_apply]
  have e1 : idx_main_v52 (lidx_main_v53 (ix2 p 0) k) = ix2 k p :=
    funext fun a => Fin.ext (by match a with | ⟨0, _⟩ => rfl | ⟨1, _⟩ => rfl)
  have e2 : ridx_main_v53 (ix2 p 0) k = ix2 k 0 :=
    funext fun a => Fin.ext (by match a with | ⟨0, _⟩ => rfl | ⟨1, _⟩ => rfl)
  rw [e1, e2]

/-- The candidate's state product: entry p is the sum over k of U(k,p) times the reset state at k. -/
theorem u_eq (x0 : (⟨S16000x1, .f32⟩ : BufTy).Contents (Elt Ideal)) (x1 : (⟨S1024x1, .f32⟩ : BufTy).Contents (Elt Ideal)) (x2 : (⟨S50x2048, .f32⟩ : BufTy).Contents (Elt Ideal)) (x5 : (⟨S16000x1024, .f32⟩ : BufTy).Contents (Elt Ideal)) (x7 : (⟨S1024x1024, .f32⟩ : BufTy).Contents (Elt Ideal)) (x9 : (⟨S1024x1024, .f32⟩ : BufTy).Contents (Elt Ideal)) (x13 : (⟨S2048x1024, .f32⟩ : BufTy).Contents (Elt Ideal)) (x16 : (⟨S50x1, .f32⟩ : BufTy).Contents (Elt Ideal)) (x17 : (⟨S50x1024, .f32⟩ : BufTy).Contents (Elt Ideal)) (x18 : (⟨S50x2048, .f32⟩ : BufTy).Contents (Elt Ideal)) :
    val_main_v56 (F := Ideal) x0 x1 x2 x5 x7 x9 x13 x16 x17 x18 = mvT (K := 1024) (N := 1024) x7 (val_main_v55 (F := Ideal) x0 x1 x2 x5 x9 x13 x16 x17 x18) := by
  funext i
  obtain ⟨p, q, rfl⟩ : ∃ (p : Fin 1024) (q : Fin 1), i = ix2 p q := ⟨i 0, i 1, eq_ix2 i⟩
  obtain rfl : q = 0 := Subsingleton.elim _ _
  rw [val_main_v56_apply, mvT_apply]
  refine Finset.sum_congr rfl fun k _ => ?_
  rw [val_main_v54_apply]
  have e1 : idx_main_v54 (lidx_main_v56 (ix2 p 0) k) = ix2 k p :=
    funext fun a => Fin.ext (by match a with | ⟨0, _⟩ => rfl | ⟨1, _⟩ => rfl)
  have e2 : ridx_main_v56 (ix2 p 0) k = ix2 k 0 :=
    funext fun a => Fin.ext (by match a with | ⟨0, _⟩ => rfl | ⟨1, _⟩ => rfl)
  rw [e1, e2]

/-- The candidate's context product: entry p is the sum over k of C(k,p) c(k). -/
theorem c_eq (x1 : (⟨S1024x1, .f32⟩ : BufTy).Contents (Elt Ideal)) (x2 : (⟨S50x2048, .f32⟩ : BufTy).Contents (Elt Ideal)) (x11 : (⟨S2048x1024, .f32⟩ : BufTy).Contents (Elt Ideal)) (x16 : (⟨S50x1, .f32⟩ : BufTy).Contents (Elt Ideal)) (x17 : (⟨S50x1024, .f32⟩ : BufTy).Contents (Elt Ideal)) (x18 : (⟨S50x2048, .f32⟩ : BufTy).Contents (Elt Ideal)) :
    val_main_v59 (F := Ideal) x1 x2 x11 x16 x17 x18 = mvT (K := 2048) (N := 1024) x11 (val_main_v23 (F := Ideal) x1 x2 x16 x17 x18) := by
  funext i
  obtain ⟨p, q, rfl⟩ : ∃ (p : Fin 1024) (q : Fin 1), i = ix2 p q := ⟨i 0, i 1, eq_ix2 i⟩
  obtain rfl : q = 0 := Subsingleton.elim _ _
  rw [val_main_v59_apply, mvT_apply]
  refine Finset.sum_congr rfl fun k _ => ?_
  rw [val_main_v58_apply]
  have e1 : idx_main_v58 (lidx_main_v59 (ix2 p 0) k) = ix2 k p :=
    funext fun a => Fin.ext (by match a with | ⟨0, _⟩ => rfl | ⟨1, _⟩ => rfl)
  have e2 : ridx_main_v59 (ix2 p 0) k = ix2 k 0 :=
    funext fun a => Fin.ext (by match a with | ⟨0, _⟩ => rfl | ⟨1, _⟩ => rfl)
  rw [e1, e2]

/-- The candidate state: the logistic function of (W^T y + U^T (r.s)) + C^T c. -/
theorem st_eq (x0 : (⟨S16000x1, .f32⟩ : BufTy).Contents (Elt Ideal)) (x1 : (⟨S1024x1, .f32⟩ : BufTy).Contents (Elt Ideal)) (x2 : (⟨S50x2048, .f32⟩ : BufTy).Contents (Elt Ideal)) (x3 : (⟨S16000x1024, .f32⟩ : BufTy).Contents (Elt Ideal)) (x5 : (⟨S16000x1024, .f32⟩ : BufTy).Contents (Elt Ideal)) (x7 : (⟨S1024x1024, .f32⟩ : BufTy).Contents (Elt Ideal)) (x9 : (⟨S1024x1024, .f32⟩ : BufTy).Contents (Elt Ideal)) (x11 : (⟨S2048x1024, .f32⟩ : BufTy).Contents (Elt Ideal)) (x13 : (⟨S2048x1024, .f32⟩ : BufTy).Contents (Elt Ideal)) (x16 : (⟨S50x1, .f32⟩ : BufTy).Contents (Elt Ideal)) (x17 : (⟨S50x1024, .f32⟩ : BufTy).Contents (Elt Ideal)) (x18 : (⟨S50x2048, .f32⟩ : BufTy).Contents (Elt Ideal)) :
    val_main_v66 (F := Ideal) x0 x1 x2 x3 x5 x7 x9 x11 x13 x16 x17 x18
      = gate (mvT (K := 16000) (N := 1024) x3 x0) (mvT (K := 1024) (N := 1024) x7 (had (gate (mvT (K := 16000) (N := 1024) x5 x0) (mvT (K := 1024) (N := 1024) x9 x1) (mvT (K := 2048) (N := 1024) x13 (val_main_v23 (F := Ideal) x1 x2 x16 x17 x18))) x1)) (mvT (K := 2048) (N := 1024) x11 (val_main_v23 (F := Ideal) x1 x2 x16 x17 x18)) := by
  funext i
  rw [val_main_v66_apply, val_main_v65_apply, val_main_cst_8_apply, val_main_v64_apply, val_main_v63_apply, val_main_cst_7_apply, val_main_v62_apply, val_main_v61_apply, val_main_v60_apply, val_main_v57_apply,
    w_eq, u_eq, rs_eq, c_eq, gate_apply]
  simp only [Ideal.hostDivf_def, Ideal.addf_def, Ideal.hostUnary_exp_def, Ideal.hostNegf_def, Ideal.negf_def,
    Ideal.ofBits_def, one_word]
  rfl

/-- The new state: (1 - z) s + z s~, the 1 the float word of 1.0 as both programs write it. -/
theorem snew_eq (x0 : (⟨S16000x1, .f32⟩ : BufTy).Contents (Elt Ideal)) (x1 : (⟨S1024x1, .f32⟩ : BufTy).Contents (Elt Ideal)) (x2 : (⟨S50x2048, .f32⟩ : BufTy).Contents (Elt Ideal)) (x3 : (⟨S16000x1024, .f32⟩ : BufTy).Contents (Elt Ideal)) (x4 : (⟨S16000x1024, .f32⟩ : BufTy).Contents (Elt Ideal)) (x5 : (⟨S16000x1024, .f32⟩ : BufTy).Contents (Elt Ideal)) (x7 : (⟨S1024x1024, .f32⟩ : BufTy).Contents (Elt Ideal)) (x8 : (⟨S1024x1024, .f32⟩ : BufTy).Contents (Elt Ideal)) (x9 : (⟨S1024x1024, .f32⟩ : BufTy).Contents (Elt Ideal)) (x11 : (⟨S2048x1024, .f32⟩ : BufTy).Contents (Elt Ideal)) (x12 : (⟨S2048x1024, .f32⟩ : BufTy).Contents (Elt Ideal)) (x13 : (⟨S2048x1024, .f32⟩ : BufTy).Contents (Elt Ideal)) (x16 : (⟨S50x1, .f32⟩ : BufTy).Contents (Elt Ideal)) (x17 : (⟨S50x1024, .f32⟩ : BufTy).Contents (Elt Ideal)) (x18 : (⟨S50x2048, .f32⟩ : BufTy).Contents (Elt Ideal)) :
    val_main_v71 (F := Ideal) x0 x1 x2 x3 x4 x5 x7 x8 x9 x11 x12 x13 x16 x17 x18
      = blend (gate (mvT (K := 16000) (N := 1024) x4 x0) (mvT (K := 1024) (N := 1024) x8 x1) (mvT (K := 2048) (N := 1024) x12 (val_main_v23 (F := Ideal) x1 x2 x16 x17 x18))) x1 (gate (mvT (K := 16000) (N := 1024) x3 x0) (mvT (K := 1024) (N := 1024) x7 (had (gate (mvT (K := 16000) (N := 1024) x5 x0) (mvT (K := 1024) (N := 1024) x9 x1) (mvT (K := 2048) (N := 1024) x13 (val_main_v23 (F := Ideal) x1 x2 x16 x17 x18))) x1)) (mvT (K := 2048) (N := 1024) x11 (val_main_v23 (F := Ideal) x1 x2 x16 x17 x18))) := by
  funext i
  rw [val_main_v71_apply, val_main_v69_apply, val_main_v68_apply, val_main_v67_apply, val_main_cst_9_apply,
    val_main_v70_apply, z_eq, st_eq, blend_apply]
  simp only [Ideal.addf_def, Ideal.mulf_def, Ideal.subf_def, Ideal.ofBits_def]
  rfl

end Cert.ReferenceIdeal.RefStep

end
-- ==== Proof.RefLogits.lean ====
/-
  The reference's maxout layer and logits, read on the extended reals.

  The layer has 4096 units: unit P is the logistic function, written 1 / (1 + exp(-x)), of
  (sum_k Uo(P,k) s'(k) + sum_k Vo(P,k) y(k)) + sum_k Co(P,k) c(k), s' the new state and c the context. The column of
  units is read as 2048 pairs of consecutive rows, each pair is replaced by the larger of its two entries (the maximum
  taken from -infinity), and the logits are Wo against the 2048 maxima. Reading a [4096, K] array as [2048, 2, K] puts
  entry (2R + j, k) at (R, j, k), the two being one row-major sequence, so the pair maxima are the specification's
  maxout over the weights' rows taken in pairs. The new state and the context stay unopened throughout.
-/
import proofs.«179386_j74783970558463_2_alg».proof.Proof.RefRead0
import proofs.«179386_j74783970558463_2_alg».proof.Proof.Spec
import proofs.«179386_j74783970558463_2_alg».proof.Proof.Whole

noncomputable section

namespace Cert.ReferenceIdeal.RefLogits

open Cert.ReferenceIdeal Cert.ReferenceIdeal.Gen Cert.ReferenceIdeal.Read Idealize.ShloMosaic Idealize.ShloMosaic.ValueIdx
open Cert.Dec

/-! ## Words, pairs of rows, and the maximum of a pair -/

/-- The float word of 1.0 denotes the extended real 1. -/
theorem one_word : Ideal.ofBits .f32 0x3F800000#32 = 1 := by
  simp [Ideal.ofBits, Ideal.ieee, -EReal.coe_mul]; norm_num

/-- The float word of -infinity denotes the least extended real. -/
theorem bot_word : Ideal.ofBits .f32 0xFF800000#32 = ⊥ := by simp [Ideal.ofBits, Ideal.ieee]

/-- Rows taken in pairs: a [4096, K] array read as [2048, 2, K] has at (R, j, k) the entry (2R + j, k), the two
    arrays being one row-major sequence. -/
theorem pair_apply {K : Nat} {α : Type} (x : (⟨2, ![4096, K]⟩ : Shape).Idx → α)
    (h : (⟨2, ![4096, K]⟩ : Shape).ShapeCasts ⟨3, ![2048, 2, K]⟩) (R : Fin 2048) (j : Fin 2) (k : Fin K) :
    shapeCast ⟨3, ![2048, 2, K]⟩ x h (ix3 R j k) = x (ix2 ⟨2 * R.val + j.val, by omega⟩ k) := by
  refine shapeCast_apply x h _ _ ?_
  rw [Shape.rowMajor_val_two, Shape.rowMajor_val_three]
  show (2 * R.val + j.val) * K + k.val = (R.val * 2 + j.val) * K + k.val
  rw [Nat.mul_comm 2 R.val]

/-- The maximum of two extended reals, folded from -infinity, is the larger of the two. -/
theorem fold_max_two (f : Fin 2 → EReal) : (Finset.univ : Finset (Fin 2)).fold max ⊥ f = max (f 0) (f 1) := by
  rw [show (Finset.univ : Finset (Fin 2)) = {0, 1} from rfl]
  rw [Finset.fold_insert (by decide), Finset.fold_singleton, max_bot_right]

/-- The index of a [2048, 2, 1] array that lies over (R, 0) of its [2048, 1] reduction at position j of the middle axis. -/
theorem lift_pair (h : Shape.Reduces ⟨3, ![2048, 2, 1]⟩ [1] ⟨2, ![2048, 1]⟩) (R : Fin 2048) (j : Fin 2) :
    h.lift (ix2 R 0) j = ix3 R j 0 :=
  funext fun a => Fin.ext (by match a with | ⟨0, _⟩ => rfl | ⟨1, _⟩ => rfl | ⟨2, _⟩ => rfl)

/-- The maximum over the middle axis of a [2048, 2, 1] array taken from the -infinity word: entry R is the larger of
    the two entries of pair R. -/
theorem reduce_pair (x : (⟨S2048x2x1, .f32⟩ : BufTy).Contents (Elt Ideal)) (R : Fin 2048) :
    Host.reduce (FloatOps.maximumf (F := Ideal) (φ := .f32)) x (val_main_cst_12 (F := Ideal))
        reducesTo_S2048x2x1_S2048x1_d1 h_S_ (ix2 R 0)
      = max (x (ix3 R 0 0)) (x (ix3 R 1 0)) := by
  have h : S2048x2x1.Reduces [1] S2048x1 := by decide
  refine (Host.reduce_eq_fold_single _ x _ reducesTo_S2048x2x1_S2048x1_d1 h h_S_ (ix2 R 0)).trans ?_
  rw [val_main_cst_12_apply, Ideal.ofBits_def, bot_word]
  refine (fold_max_two _).trans ?_
  show max (x (h.lift (ix2 R 0) (0 : Fin 2))) (x (h.lift (ix2 R 0) (1 : Fin 2))) = _
  rw [lift_pair, lift_pair]

/-- Where row 2R + j of the [4096, 1] column sits once the column is read as [2048, 2, 1]. -/
theorem idx83 (R : Fin 2048) (j : Fin 2) : idx_main_v83 (ix3 R j 0) = ix2 ⟨2 * R.val + j.val, by omega⟩ 0 :=
  funext fun a => Fin.ext (by
    match a with
    | ⟨0, _⟩ => show ((R.val * 2 + j.val) * 1 + 0) / 1 = 2 * R.val + j.val; omega
    | ⟨1, _⟩ => rfl)

/-! ## The layer, the maxout and the logits -/

section Stages

variable (x0 : (⟨S16000x1, .f32⟩ : BufTy).Contents (Elt Ideal)) (x1 : (⟨S1024x1, .f32⟩ : BufTy).Contents (Elt Ideal)) (x2 : (⟨S50x2048, .f32⟩ : BufTy).Contents (Elt Ideal))
  (x3 x4 x5 : (⟨S16000x1024, .f32⟩ : BufTy).Contents (Elt Ideal)) (x6 : (⟨S16000x2048, .f32⟩ : BufTy).Contents (Elt Ideal))
  (x7 x8 x9 : (⟨S1024x1024, .f32⟩ : BufTy).Contents (Elt Ideal)) (x10 : (⟨S4096x1024, .f32⟩ : BufTy).Contents (Elt Ideal))
  (x11 x12 x13 : (⟨S2048x1024, .f32⟩ : BufTy).Contents (Elt Ideal)) (x14 : (⟨S4096x2048, .f32⟩ : BufTy).Contents (Elt Ideal))
  (x15 : (⟨S4096x16000, .f32⟩ : BufTy).Contents (Elt Ideal)) (x16 : (⟨S50x1, .f32⟩ : BufTy).Contents (Elt Ideal))
  (x17 : (⟨S50x1024, .f32⟩ : BufTy).Contents (Elt Ideal)) (x18 : (⟨S50x2048, .f32⟩ : BufTy).Contents (Elt Ideal))

/-- The layer's state product: entry P is the sum over k of Uo(P,k) s'(k), s' the new state. -/
theorem uo_eq :
    val_main_v72 (F := Ideal) x0 x1 x2 x3 x4 x5 x7 x8 x9 x10 x11 x12 x13 x16 x17 x18
      = mv (N := 4096) (K := 1024) x10 (val_main_v71 (F := Ideal) x0 x1 x2 x3 x4 x5 x7 x8 x9 x11 x12 x13 x16 x17 x18) := by
  funext i
  obtain ⟨p, q, rfl⟩ : ∃ (p : Fin 4096) (q : Fin 1), i = ix2 p q := ⟨i 0, i 1, eq_ix2 i⟩
  obtain rfl : q = 0 := Subsingleton.elim _ _
  rw [val_main_v72_apply, mv_apply]
  refine Finset.sum_congr rfl fun k _ => ?_
  have e1 : lidx_main_v72 (ix2 p 0) k = ix2 p k :=
    funext fun a => Fin.ext (by match a with | ⟨0, _⟩ => rfl | ⟨1, _⟩ => rfl)
  have e2 : ridx_main_v72 (ix2 p 0) k = ix2 k 0 :=
    funext fun a => Fin.ext (by match a with | ⟨0, _⟩ => rfl | ⟨1, _⟩ => rfl)
  rw [e1, e2]

/-- The layer's input product: entry P is the sum over k of Vo(P,k) y(k). -/
theorem vo_eq : val_main_v73 (F := Ideal) x0 x15 = mv (N := 4096) (K := 16000) x15 x0 := by
  funext i
  obtain ⟨p, q, rfl⟩ : ∃ (p : Fin 4096) (q : Fin 1), i = ix2 p q := ⟨i 0, i 1, eq_ix2 i⟩
  obtain rfl : q = 0 := Subsingleton.elim _ _
  rw [val_main_v73_apply, mv_apply]
  refine Finset.sum_congr rfl fun k _ => ?_
  have e1 : lidx_main_v73 (ix2 p 0) k = ix2 p k :=
    funext fun a => Fin.ext (by match a with | ⟨0, _⟩ => rfl | ⟨1, _⟩ => rfl)
  have e2 : ridx_main_v73 (ix2 p 0) k = ix2 k 0 :=
    funext fun a => Fin.ext (by match a with | ⟨0, _⟩ => rfl | ⟨1, _⟩ => rfl)
  rw [e1, e2]

/-- The layer's context product: entry P is the sum over k of Co(P,k) c(k), c the context. -/
theorem co_eq :
    val_main_v75 (F := Ideal) x1 x2 x14 x16 x17 x18
      = mv (N := 4096) (K := 2048) x14 (val_main_v23 (F := Ideal) x1 x2 x16 x17 x18) := by
  funext i
  obtain ⟨p, q, rfl⟩ : ∃ (p : Fin 4096) (q : Fin 1), i = ix2 p q := ⟨i 0, i 1, eq_ix2 i⟩
  obtain rfl : q = 0 := Subsingleton.elim _ _
  rw [val_main_v75_apply, mv_apply]
  refine Finset.sum_congr rfl fun k _ => ?_
  have e1 : lidx_main_v75 (ix2 p 0) k = ix2 p k :=
    funext fun a => Fin.ext (by match a with | ⟨0, _⟩ => rfl | ⟨1, _⟩ => rfl)
  have e2 : ridx_main_v75 (ix2 p 0) k = ix2 k 0 :=
    funext fun a => Fin.ext (by match a with | ⟨0, _⟩ => rfl | ⟨1, _⟩ => rfl)
  rw [e1, e2]

/-- The layer's 4096 units: the logistic function of (Uo s' + Vo y) + Co c. -/
theorem t_eq :
    val_main_v82 (F := Ideal) x0 x1 x2 x3 x4 x5 x7 x8 x9 x10 x11 x12 x13 x14 x15 x16 x17 x18
      = gate (mv (N := 4096) (K := 1024) x10 (val_main_v71 (F := Ideal) x0 x1 x2 x3 x4 x5 x7 x8 x9 x11 x12 x13 x16 x17 x18))
          (mv (N := 4096) (K := 16000) x15 x0)
          (mv (N := 4096) (K := 2048) x14 (val_main_v23 (F := Ideal) x1 x2 x16 x17 x18)) := by
  funext i
  rw [val_main_v82_apply, val_main_v81_apply, val_main_cst_11_apply, val_main_v80_apply, val_main_v79_apply,
    val_main_cst_10_apply, val_main_v78_apply, val_main_v77_apply, val_main_v76_apply, val_main_v74_apply,
    uo_eq, vo_eq, co_eq, gate_apply]
  simp only [Ideal.hostDivf_def, Ideal.addf_def, Ideal.hostUnary_exp_def, Ideal.hostNegf_def, Ideal.negf_def,
    Ideal.ofBits_def, one_word]
  rfl

variable (h1 : (⟨2, ![4096, 1024]⟩ : Shape).ShapeCasts ⟨3, ![2048, 2, 1024]⟩)
  (h2 : (⟨2, ![4096, 2048]⟩ : Shape).ShapeCasts ⟨3, ![2048, 2, 2048]⟩)
  (h3 : (⟨2, ![4096, 1]⟩ : Shape).ShapeCasts ⟨3, ![2048, 2, 1]⟩)

/-- The maxout: unit R is the larger of units 2R and 2R + 1 of the layer, which is the specification's maxout over the
    weights' rows read in pairs. -/
theorem pair_eq :
    val_main_v84 (F := Ideal) x0 x1 x2 x3 x4 x5 x7 x8 x9 x10 x11 x12 x13 x14 x15 x16 x17 x18
      = tW x10 x14 (mv (N := 4096) (K := 16000) x15 x0)
          (val_main_v71 (F := Ideal) x0 x1 x2 x3 x4 x5 x7 x8 x9 x11 x12 x13 x16 x17 x18)
          (val_main_v23 (F := Ideal) x1 x2 x16 x17 x18) h1 h2 h3 := by
  funext i
  obtain ⟨R, q, rfl⟩ : ∃ (R : Fin 2048) (q : Fin 1), i = ix2 R q := ⟨i 0, i 1, eq_ix2 i⟩
  obtain rfl : q = 0 := Subsingleton.elim _ _
  unfold val_main_v84 tW
  refine (reduce_pair _ R).trans ?_
  rw [val_main_v83_apply, val_main_v83_apply, idx83 R 0, idx83 R 1, t_eq, gate_apply, gate_apply, pairMax_apply]
  simp only [pair_apply, mv_apply]

/-- The logits' product: entry n is the sum over R of Wo(n,R) t(R), t the maxout. -/
theorem wo_eq :
    val_main_v85 (F := Ideal) x0 x1 x2 x3 x4 x5 x6 x7 x8 x9 x10 x11 x12 x13 x14 x15 x16 x17 x18
      = mv (N := 16000) (K := 2048) x6 (val_main_v84 (F := Ideal) x0 x1 x2 x3 x4 x5 x7 x8 x9 x10 x11 x12 x13 x14 x15 x16 x17 x18) := by
  funext i
  obtain ⟨p, q, rfl⟩ : ∃ (p : Fin 16000) (q : Fin 1), i = ix2 p q := ⟨i 0, i 1, eq_ix2 i⟩
  obtain rfl : q = 0 := Subsingleton.elim _ _
  rw [val_main_v85_apply, mv_apply]
  refine Finset.sum_congr rfl fun k _ => ?_
  have e1 : lidx_main_v85 (ix2 p 0) k = ix2 p k :=
    funext fun a => Fin.ext (by match a with | ⟨0, _⟩ => rfl | ⟨1, _⟩ => rfl)
  have e2 : ridx_main_v85 (ix2 p 0) k = ix2 k 0 :=
    funext fun a => Fin.ext (by match a with | ⟨0, _⟩ => rfl | ⟨1, _⟩ => rfl)
  rw [e1, e2]

/-- The logits: Wo against the maxout of the layer computed from the new state, the input and the context. -/
theorem logits_eq :
    val_main_v85 (F := Ideal) x0 x1 x2 x3 x4 x5 x6 x7 x8 x9 x10 x11 x12 x13 x14 x15 x16 x17 x18
      = mv (N := 16000) (K := 2048) x6
          (tW x10 x14 (mv (N := 4096) (K := 16000) x15 x0)
            (val_main_v71 (F := Ideal) x0 x1 x2 x3 x4 x5 x7 x8 x9 x11 x12 x13 x16 x17 x18)
            (val_main_v23 (F := Ideal) x1 x2 x16 x17 x18) h1 h2 h3) := by
  rw [wo_eq, pair_eq x0 x1 x2 x3 x4 x5 x7 x8 x9 x10 x11 x12 x13 x14 x15 x16 x17 x18 h1 h2 h3]

end Stages

end Cert.ReferenceIdeal.RefLogits

end
-- ==== Proof.RefTail.lean ====
/-
  The reference's last sixteen operations are the logarithm of the softmax down the column of 16000 logits: the
  column's maximum (folded from -infinity, and taken against -infinity once more) is subtracted, the differences are
  exponentiated and summed from zero, and the logarithm of that sum is subtracted again. The other program ends with
  the same sixteen operations, so the two tails are one function of the logits; only the evidence each program carries
  for its shape relations differs, and any two proofs of one proposition are equal.
-/
import proofs.«179386_j74783970558463_2_alg».proof.Proof.RefRead0
import proofs.«179386_j74783970558463_2_alg».proof.Proof.Chain

noncomputable section

namespace Cert.ReferenceIdeal.RefTail

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The reference's first result is the log-softmax chain applied to its logits (its stage before the chain), for
    every float instance: stage by stage the two spellings are the same operations on the same column. -/
theorem tail_eq (x0 : (⟨S16000x1, .f32⟩ : BufTy).Contents (Elt F)) (x1 : (⟨S1024x1, .f32⟩ : BufTy).Contents (Elt F))
    (x2 : (⟨S50x2048, .f32⟩ : BufTy).Contents (Elt F)) (x3 x4 x5 : (⟨S16000x1024, .f32⟩ : BufTy).Contents (Elt F))
    (x6 : (⟨S16000x2048, .f32⟩ : BufTy).Contents (Elt F)) (x7 x8 x9 : (⟨S1024x1024, .f32⟩ : BufTy).Contents (Elt F))
    (x10 : (⟨S4096x1024, .f32⟩ : BufTy).Contents (Elt F)) (x11 x12 x13 : (⟨S2048x1024, .f32⟩ : BufTy).Contents (Elt F))
    (x14 : (⟨S4096x2048, .f32⟩ : BufTy).Contents (Elt F)) (x15 : (⟨S4096x16000, .f32⟩ : BufTy).Contents (Elt F))
    (x16 : (⟨S50x1, .f32⟩ : BufTy).Contents (Elt F)) (x17 : (⟨S50x1024, .f32⟩ : BufTy).Contents (Elt F))
    (x18 : (⟨S50x2048, .f32⟩ : BufTy).Contents (Elt F)) :
    val_main_v86 (F := F) x0 x1 x2 x3 x4 x5 x6 x7 x8 x9 x10 x11 x12 x13 x14 x15 x16 x17 x18
      = Cert.KernelIdeal.Chain.tail (F := F) (val_main_v85 (F := F) x0 x1 x2 x3 x4 x5 x6 x7 x8 x9 x10 x11 x12 x13 x14 x15 x16 x17 x18) := by
  unfold val_main_v86 val_main_call0_v10 val_main_call0_v9 val_main_call0_v8 val_main_call0_v7 val_main_call0_v6
    val_main_call0_v5 val_main_call0_v4 val_main_call0_v3 val_main_call0_v2 val_main_call0_v1 val_main_call0_v0
    val_main_call0_cst val_main_call0_cst_0 val_main_call0_cst_1 Cert.KernelIdeal.Chain.tail
  generalize val_main_v85 (F := F) x0 x1 x2 x3 x4 x5 x6 x7 x8 x9 x10 x11 x12 x13 x14 x15 x16 x17 x18 = L
  rfl

end Cert.ReferenceIdeal.RefTail

end
-- ==== Proof.RefValue.lean ====
/-
  The reference's three results as the specification's functions of its arguments: the weighted encoder rows; the new
  state, from the context vector through the two gates and the candidate; and the log-softmax chain applied to the
  output weights against the maxout layer over rows in pairs. Each is read stage by stage off the reference's host
  operations; here the stages are composed.
-/
import proofs.«179386_j74783970558463_2_alg».proof.Proof.RefRead0
import proofs.«179386_j74783970558463_2_alg».proof.Proof.RefAttn
import proofs.«179386_j74783970558463_2_alg».proof.Proof.RefStep
import proofs.«179386_j74783970558463_2_alg».proof.Proof.RefLogits
import proofs.«179386_j74783970558463_2_alg».proof.Proof.RefTail
import proofs.«179386_j74783970558463_2_alg».proof.Proof.Whole
import proofs.«179386_j74783970558463_2_alg».proof.Proof.Chain

noncomputable section

namespace Cert.ReferenceIdeal.Whole

open Cert.ReferenceIdeal Cert.ReferenceIdeal.Read Idealize.ShloMosaic

variable (x0 : (⟨S16000x1, .f32⟩ : BufTy).Contents (Elt Ideal)) (x1 : (⟨S1024x1, .f32⟩ : BufTy).Contents (Elt Ideal)) (x2 : (⟨S50x2048, .f32⟩ : BufTy).Contents (Elt Ideal)) (x3 : (⟨S16000x1024, .f32⟩ : BufTy).Contents (Elt Ideal)) (x4 : (⟨S16000x1024, .f32⟩ : BufTy).Contents (Elt Ideal)) (x5 : (⟨S16000x1024, .f32⟩ : BufTy).Contents (Elt Ideal)) (x6 : (⟨S16000x2048, .f32⟩ : BufTy).Contents (Elt Ideal)) (x7 : (⟨S1024x1024, .f32⟩ : BufTy).Contents (Elt Ideal)) (x8 : (⟨S1024x1024, .f32⟩ : BufTy).Contents (Elt Ideal)) (x9 : (⟨S1024x1024, .f32⟩ : BufTy).Contents (Elt Ideal)) (x10 : (⟨S4096x1024, .f32⟩ : BufTy).Contents (Elt Ideal)) (x11 : (⟨S2048x1024, .f32⟩ : BufTy).Contents (Elt Ideal)) (x12 : (⟨S2048x1024, .f32⟩ : BufTy).Contents (Elt Ideal)) (x13 : (⟨S2048x1024, .f32⟩ : BufTy).Contents (Elt Ideal)) (x14 : (⟨S4096x2048, .f32⟩ : BufTy).Contents (Elt Ideal)) (x15 : (⟨S4096x16000, .f32⟩ : BufTy).Contents (Elt Ideal)) (x16 : (⟨S50x1, .f32⟩ : BufTy).Contents (Elt Ideal)) (x17 : (⟨S50x1024, .f32⟩ : BufTy).Contents (Elt Ideal)) (x18 : (⟨S50x2048, .f32⟩ : BufTy).Contents (Elt Ideal))

/-- The third result: the weighted encoder rows. -/
theorem r_alpha : val_main_v21 (F := Ideal) x1 x2 x16 x17 x18 = Cert.Dec.alphaOf x1 x2 x17 x18 x16 :=
  RefAttn.alpha_eq x1 x2 x16 x17 x18

/-- The context vector. -/
theorem r_ctx : val_main_v23 (F := Ideal) x1 x2 x16 x17 x18 = Cert.Dec.ctxW x1 x2 x16 x17 x18 :=
  RefAttn.ctx_eq x1 x2 x16 x17 x18

/-- The second result: the new state. -/
theorem r_sn : val_main_v71 (F := Ideal) x0 x1 x2 x3 x4 x5 x7 x8 x9 x11 x12 x13 x16 x17 x18
    = Cert.Dec.snW x0 x1 x3 x4 x5 x7 x8 x9 x11 x12 x13 (Cert.Dec.ctxW x1 x2 x16 x17 x18) := by
  rw [RefStep.snew_eq, r_ctx]
  rfl

/-- The first result: the log-softmax chain applied to the logits (for any evidence that the re-layings keep the
    element counts). -/
theorem r_out0 (h1 : (⟨2, ![4096, 1024]⟩ : Shape).ShapeCasts ⟨3, ![2048, 2, 1024]⟩)
    (h2 : (⟨2, ![4096, 2048]⟩ : Shape).ShapeCasts ⟨3, ![2048, 2, 2048]⟩)
    (h3 : (⟨2, ![4096, 1]⟩ : Shape).ShapeCasts ⟨3, ![2048, 2, 1]⟩) :
    val_main_v86 (F := Ideal) x0 x1 x2 x3 x4 x5 x6 x7 x8 x9 x10 x11 x12 x13 x14 x15 x16 x17 x18
      = Cert.KernelIdeal.Chain.tail (F := Ideal) (Cert.Dec.mv x6 (Cert.Dec.tW x10 x14 (Cert.Dec.mv x15 x0)
          (Cert.Dec.snW x0 x1 x3 x4 x5 x7 x8 x9 x11 x12 x13 (Cert.Dec.ctxW x1 x2 x16 x17 x18)) (Cert.Dec.ctxW x1 x2 x16 x17 x18) h1 h2 h3)) := by
  rw [RefTail.tail_eq, RefLogits.logits_eq x0 x1 x2 x3 x4 x5 x6 x7 x8 x9 x10 x11 x12 x13 x14 x15 x16 x17 x18 h1 h2 h3, r_sn, r_ctx]

end Cert.ReferenceIdeal.Whole

end
-- ==== Proof.RefStaged.lean ====
/-
  The reference program read back in stages.

  The program is a straight line of 115 array operations. It is cut into six consecutive stretches along its data flow
  (the attention and the context; the first gate; the second gate; the candidate state and the new state; the output
  layer, the maxout and the logits; the logarithm of the softmax). Running the whole line is running the stretches one after the
  other. For each stretch two facts are proved from ANY contents before it: the one or two buffers that later
  stretches or the results need hold the stretch's operations applied to the contents of the stretch's inputs, and
  every buffer the stretch does not write keeps its contents. Composed, they give each result as the stage function
  of the program's arguments, each stage opened once and never inside a later one.
-/
import proofs.«179386_j74783970558463_2_alg».proof.Proof.RefOps
import proofs.«179386_j74783970558463_2_alg».proof.Proof.RefRead0
import proofs.«179386_j74783970558463_2_alg».proof.Proof.LibHostStages
import Idealize.ShloMosaic.Lib.StableHlo.Run

set_option maxRecDepth 16384

noncomputable section

namespace Cert.ReferenceIdeal.Staged

open Cert.ReferenceIdeal Cert.ReferenceIdeal.Gen Idealize.ShloMosaic Idealize.ShloMosaic.TcCoe Idealize.SL.Sem Idealize.ShloMosaic.StableHlo
open Cert.ReferenceIdeal.Value (ops main_eq scopedRefs_eq scopedSems_eq ops_sub)
open Cert.ReferenceIdeal.Read

variable {F : FTy → Type} [FloatOps F]

/-! ## The six stretches -/

/-- Operations 0 to 27 of the program, in order. -/
abbrev chunk1 : List (HloOp τ sig (Elt F)) :=
  [ binary main_arg17 main_arg1 main_v0 ((fun l r => Host.dotGeneral dot_S50x1024_S1024x1_S50x1_1_0_0_1_n_n none l r) : (⟨S50x1024, .f32⟩ : BufTy).Contents (Elt F) → (⟨S1024x1, .f32⟩ : BufTy).Contents (Elt F) → (⟨S50x1, .f32⟩ : BufTy).Contents (Elt F)),
    unary main_v0 main_v1 ((transpose S1x50 [1, 0] · transposes_S50x1_S1x50_1_0) : (⟨S50x1, .f32⟩ : BufTy).Contents (Elt F) → (⟨S1x50, .f32⟩ : BufTy).Contents (Elt F)),
    unary main_arg18 main_v2 ((transpose S2048x50 [1, 0] · transposes_S50x2048_S2048x50_1_0) : (⟨S50x2048, .f32⟩ : BufTy).Contents (Elt F) → (⟨S2048x50, .f32⟩ : BufTy).Contents (Elt F)),
    binary main_arg2 main_v2 main_v3 ((fun l r => Host.dotGeneral dot_S50x2048_S2048x50_S50x50_1_0_0_1_n_n none l r) : (⟨S50x2048, .f32⟩ : BufTy).Contents (Elt F) → (⟨S2048x50, .f32⟩ : BufTy).Contents (Elt F) → (⟨S50x50, .f32⟩ : BufTy).Contents (Elt F)),
    unary main_v1 main_v4 (broadcastInDim S50x50 ![0, 1] bcast_S1x50_S50x50_0_1 : (⟨S1x50, .f32⟩ : BufTy).Contents (Elt F) → (⟨S50x50, .f32⟩ : BufTy).Contents (Elt F)),
    binary main_v4 main_v3 main_v5 (addf : (⟨S50x50, .f32⟩ : BufTy).Contents (Elt F) → (⟨S50x50, .f32⟩ : BufTy).Contents (Elt F) → (⟨S50x50, .f32⟩ : BufTy).Contents (Elt F)),
    unary main_v5 main_v6 (Host.tanh : (⟨S50x50, .f32⟩ : BufTy).Contents (Elt F) → (⟨S50x50, .f32⟩ : BufTy).Contents (Elt F)),
    binary main_v6 main_arg16 main_v7 ((fun l r => Host.dotGeneral dot_S50x50_S50x1_S50x1_1_0_0_1_n_n none l r) : (⟨S50x50, .f32⟩ : BufTy).Contents (Elt F) → (⟨S50x1, .f32⟩ : BufTy).Contents (Elt F) → (⟨S50x1, .f32⟩ : BufTy).Contents (Elt F)),
    reshape main_v7 main_v8 rfl shapeCasts_S50x1_S50,
    nullary main_cst (constant S_ .f32 0xFF800000#32),
    binary main_v8 main_cst main_v9 ((fun x v => Host.reduce FloatOps.maximumf x v reducesTo_S50_S_d0 h_S_) : (⟨S50, .f32⟩ : BufTy).Contents (Elt F) → (⟨S_, .f32⟩ : BufTy).Contents (Elt F) → (⟨S_, .f32⟩ : BufTy).Contents (Elt F)),
    nullary main_cst_0 (constant S_ .f32 0xFF800000#32),
    binary main_cst_0 main_v9 main_v10 (maximumf : (⟨S_, .f32⟩ : BufTy).Contents (Elt F) → (⟨S_, .f32⟩ : BufTy).Contents (Elt F) → (⟨S_, .f32⟩ : BufTy).Contents (Elt F)),
    unary main_v10 main_v11 (broadcastInDim S1 ![] bcast_S_S1 : (⟨S_, .f32⟩ : BufTy).Contents (Elt F) → (⟨S1, .f32⟩ : BufTy).Contents (Elt F)),
    unary main_v11 main_v12 (broadcastInDim S50 ![0] bcast_S1_S50_0 : (⟨S1, .f32⟩ : BufTy).Contents (Elt F) → (⟨S50, .f32⟩ : BufTy).Contents (Elt F)),
    binary main_v8 main_v12 main_v13 (subf : (⟨S50, .f32⟩ : BufTy).Contents (Elt F) → (⟨S50, .f32⟩ : BufTy).Contents (Elt F) → (⟨S50, .f32⟩ : BufTy).Contents (Elt F)),
    unary main_v13 main_v14 (Host.exp : (⟨S50, .f32⟩ : BufTy).Contents (Elt F) → (⟨S50, .f32⟩ : BufTy).Contents (Elt F)),
    nullary main_cst_1 (constant S_ .f32 0x00000000#32),
    binary main_v14 main_cst_1 main_v15 ((fun x v => Host.reduceAdd x v reducesTo_S50_S_d0 h_S_) : (⟨S50, .f32⟩ : BufTy).Contents (Elt F) → (⟨S_, .f32⟩ : BufTy).Contents (Elt F) → (⟨S_, .f32⟩ : BufTy).Contents (Elt F)),
    unary main_v15 main_v16 (broadcastInDim S1 ![] bcast_S_S1 : (⟨S_, .f32⟩ : BufTy).Contents (Elt F) → (⟨S1, .f32⟩ : BufTy).Contents (Elt F)),
    unary main_v16 main_v17 (broadcastInDim S50 ![0] bcast_S1_S50_0 : (⟨S1, .f32⟩ : BufTy).Contents (Elt F) → (⟨S50, .f32⟩ : BufTy).Contents (Elt F)),
    binary main_v14 main_v17 main_v18 (Host.divf : (⟨S50, .f32⟩ : BufTy).Contents (Elt F) → (⟨S50, .f32⟩ : BufTy).Contents (Elt F) → (⟨S50, .f32⟩ : BufTy).Contents (Elt F)),
    unary main_v18 main_v19 (broadcastInDim S50x1 ![0] bcast_S50_S50x1_0 : (⟨S50, .f32⟩ : BufTy).Contents (Elt F) → (⟨S50x1, .f32⟩ : BufTy).Contents (Elt F)),
    unary main_v19 main_v20 (broadcastInDim S50x2048 ![0, 1] bcast_S50x1_S50x2048_0_1 : (⟨S50x1, .f32⟩ : BufTy).Contents (Elt F) → (⟨S50x2048, .f32⟩ : BufTy).Contents (Elt F)),
    binary main_arg2 main_v20 main_v21 (mulf : (⟨S50x2048, .f32⟩ : BufTy).Contents (Elt F) → (⟨S50x2048, .f32⟩ : BufTy).Contents (Elt F) → (⟨S50x2048, .f32⟩ : BufTy).Contents (Elt F)),
    nullary main_cst_2 (constant S_ .f32 0x00000000#32),
    binary main_v21 main_cst_2 main_v22 ((fun x v => Host.reduceAdd x v reducesTo_S50x2048_S2048_d0 h_S_) : (⟨S50x2048, .f32⟩ : BufTy).Contents (Elt F) → (⟨S_, .f32⟩ : BufTy).Contents (Elt F) → (⟨S2048, .f32⟩ : BufTy).Contents (Elt F)),
    unary main_v22 main_v23 (broadcastInDim S2048x1 ![0] bcast_S2048_S2048x1_0 : (⟨S2048, .f32⟩ : BufTy).Contents (Elt F) → (⟨S2048x1, .f32⟩ : BufTy).Contents (Elt F)) ]

/-- The buffers those operations write. -/
abbrev writes1 : List (Ref sig .tc) :=
  [main_v0, main_v1, main_v2, main_v3, main_v4, main_v5, main_v6, main_v7, main_v8, main_cst, main_v9, main_cst_0, main_v10, main_v11, main_v12, main_v13, main_v14, main_cst_1, main_v15, main_v16, main_v17, main_v18, main_v19, main_v20, main_v21, main_cst_2, main_v22, main_v23]

/-- Operations 28 to 43 of the program, in order. -/
abbrev chunk2 : List (HloOp τ sig (Elt F)) :=
  [ unary main_arg5 main_v24 ((transpose S1024x16000 [1, 0] · transposes_S16000x1024_S1024x16000_1_0) : (⟨S16000x1024, .f32⟩ : BufTy).Contents (Elt F) → (⟨S1024x16000, .f32⟩ : BufTy).Contents (Elt F)),
    binary main_v24 main_arg0 main_v25 ((fun l r => Host.dotGeneral dot_S1024x16000_S16000x1_S1024x1_1_0_0_1_n_n none l r) : (⟨S1024x16000, .f32⟩ : BufTy).Contents (Elt F) → (⟨S16000x1, .f32⟩ : BufTy).Contents (Elt F) → (⟨S1024x1, .f32⟩ : BufTy).Contents (Elt F)),
    unary main_arg9 main_v26 ((transpose S1024x1024 [1, 0] · transposes_S1024x1024_S1024x1024_1_0) : (⟨S1024x1024, .f32⟩ : BufTy).Contents (Elt F) → (⟨S1024x1024, .f32⟩ : BufTy).Contents (Elt F)),
    binary main_v26 main_arg1 main_v27 ((fun l r => Host.dotGeneral dot_S1024x1024_S1024x1_S1024x1_1_0_0_1_n_n none l r) : (⟨S1024x1024, .f32⟩ : BufTy).Contents (Elt F) → (⟨S1024x1, .f32⟩ : BufTy).Contents (Elt F) → (⟨S1024x1, .f32⟩ : BufTy).Contents (Elt F)),
    binary main_v25 main_v27 main_v28 (addf : (⟨S1024x1, .f32⟩ : BufTy).Contents (Elt F) → (⟨S1024x1, .f32⟩ : BufTy).Contents (Elt F) → (⟨S1024x1, .f32⟩ : BufTy).Contents (Elt F)),
    unary main_arg13 main_v29 ((transpose S1024x2048 [1, 0] · transposes_S2048x1024_S1024x2048_1_0) : (⟨S2048x1024, .f32⟩ : BufTy).Contents (Elt F) → (⟨S1024x2048, .f32⟩ : BufTy).Contents (Elt F)),
    binary main_v29 main_v23 main_v30 ((fun l r => Host.dotGeneral dot_S1024x2048_S2048x1_S1024x1_1_0_0_1_n_n none l r) : (⟨S1024x2048, .f32⟩ : BufTy).Contents (Elt F) → (⟨S2048x1, .f32⟩ : BufTy).Contents (Elt F) → (⟨S1024x1, .f32⟩ : BufTy).Contents (Elt F)),
    binary main_v28 main_v30 main_v31 (addf : (⟨S1024x1, .f32⟩ : BufTy).Contents (Elt F) → (⟨S1024x1, .f32⟩ : BufTy).Contents (Elt F) → (⟨S1024x1, .f32⟩ : BufTy).Contents (Elt F)),
    unary main_v31 main_v32 (Host.negf : (⟨S1024x1, .f32⟩ : BufTy).Contents (Elt F) → (⟨S1024x1, .f32⟩ : BufTy).Contents (Elt F)),
    unary main_v32 main_v33 (Host.exp : (⟨S1024x1, .f32⟩ : BufTy).Contents (Elt F) → (⟨S1024x1, .f32⟩ : BufTy).Contents (Elt F)),
    nullary main_cst_3 (constant S_ .f32 0x3F800000#32),
    unary main_cst_3 main_v34 (broadcastInDim S1024x1 ![] bcast_S_S1024x1 : (⟨S_, .f32⟩ : BufTy).Contents (Elt F) → (⟨S1024x1, .f32⟩ : BufTy).Contents (Elt F)),
    binary main_v34 main_v33 main_v35 (addf : (⟨S1024x1, .f32⟩ : BufTy).Contents (Elt F) → (⟨S1024x1, .f32⟩ : BufTy).Contents (Elt F) → (⟨S1024x1, .f32⟩ : BufTy).Contents (Elt F)),
    nullary main_cst_4 (constant S_ .f32 0x3F800000#32),
    unary main_cst_4 main_v36 (broadcastInDim S1024x1 ![] bcast_S_S1024x1 : (⟨S_, .f32⟩ : BufTy).Contents (Elt F) → (⟨S1024x1, .f32⟩ : BufTy).Contents (Elt F)),
    binary main_v36 main_v35 main_v37 (Host.divf : (⟨S1024x1, .f32⟩ : BufTy).Contents (Elt F) → (⟨S1024x1, .f32⟩ : BufTy).Contents (Elt F) → (⟨S1024x1, .f32⟩ : BufTy).Contents (Elt F)) ]

/-- The buffers those operations write. -/
abbrev writes2 : List (Ref sig .tc) :=
  [main_v24, main_v25, main_v26, main_v27, main_v28, main_v29, main_v30, main_v31, main_v32, main_v33, main_cst_3, main_v34, main_v35, main_cst_4, main_v36, main_v37]

/-- Operations 44 to 59 of the program, in order. -/
abbrev chunk3 : List (HloOp τ sig (Elt F)) :=
  [ unary main_arg4 main_v38 ((transpose S1024x16000 [1, 0] · transposes_S16000x1024_S1024x16000_1_0) : (⟨S16000x1024, .f32⟩ : BufTy).Contents (Elt F) → (⟨S1024x16000, .f32⟩ : BufTy).Contents (Elt F)),
    binary main_v38 main_arg0 main_v39 ((fun l r => Host.dotGeneral dot_S1024x16000_S16000x1_S1024x1_1_0_0_1_n_n none l r) : (⟨S1024x16000, .f32⟩ : BufTy).Contents (Elt F) → (⟨S16000x1, .f32⟩ : BufTy).Contents (Elt F) → (⟨S1024x1, .f32⟩ : BufTy).Contents (Elt F)),
    unary main_arg8 main_v40 ((transpose S1024x1024 [1, 0] · transposes_S1024x1024_S1024x1024_1_0) : (⟨S1024x1024, .f32⟩ : BufTy).Contents (Elt F) → (⟨S1024x1024, .f32⟩ : BufTy).Contents (Elt F)),
    binary main_v40 main_arg1 main_v41 ((fun l r => Host.dotGeneral dot_S1024x1024_S1024x1_S1024x1_1_0_0_1_n_n none l r) : (⟨S1024x1024, .f32⟩ : BufTy).Contents (Elt F) → (⟨S1024x1, .f32⟩ : BufTy).Contents (Elt F) → (⟨S1024x1, .f32⟩ : BufTy).Contents (Elt F)),
    binary main_v39 main_v41 main_v42 (addf : (⟨S1024x1, .f32⟩ : BufTy).Contents (Elt F) → (⟨S1024x1, .f32⟩ : BufTy).Contents (Elt F) → (⟨S1024x1, .f32⟩ : BufTy).Contents (Elt F)),
    unary main_arg12 main_v43 ((transpose S1024x2048 [1, 0] · transposes_S2048x1024_S1024x2048_1_0) : (⟨S2048x1024, .f32⟩ : BufTy).Contents (Elt F) → (⟨S1024x2048, .f32⟩ : BufTy).Contents (Elt F)),
    binary main_v43 main_v23 main_v44 ((fun l r => Host.dotGeneral dot_S1024x2048_S2048x1_S1024x1_1_0_0_1_n_n none l r) : (⟨S1024x2048, .f32⟩ : BufTy).Contents (Elt F) → (⟨S2048x1, .f32⟩ : BufTy).Contents (Elt F) → (⟨S1024x1, .f32⟩ : BufTy).Contents (Elt F)),
    binary main_v42 main_v44 main_v45 (addf : (⟨S1024x1, .f32⟩ : BufTy).Contents (Elt F) → (⟨S1024x1, .f32⟩ : BufTy).Contents (Elt F) → (⟨S1024x1, .f32⟩ : BufTy).Contents (Elt F)),
    unary main_v45 main_v46 (Host.negf : (⟨S1024x1, .f32⟩ : BufTy).Contents (Elt F) → (⟨S1024x1, .f32⟩ : BufTy).Contents (Elt F)),
    unary main_v46 main_v47 (Host.exp : (⟨S1024x1, .f32⟩ : BufTy).Contents (Elt F) → (⟨S1024x1, .f32⟩ : BufTy).Contents (Elt F)),
    nullary main_cst_5 (constant S_ .f32 0x3F800000#32),
    unary main_cst_5 main_v48 (broadcastInDim S1024x1 ![] bcast_S_S1024x1 : (⟨S_, .f32⟩ : BufTy).Contents (Elt F) → (⟨S1024x1, .f32⟩ : BufTy).Contents (Elt F)),
    binary main_v48 main_v47 main_v49 (addf : (⟨S1024x1, .f32⟩ : BufTy).Contents (Elt F) → (⟨S1024x1, .f32⟩ : BufTy).Contents (Elt F) → (⟨S1024x1, .f32⟩ : BufTy).Contents (Elt F)),
    nullary main_cst_6 (constant S_ .f32 0x3F800000#32),
    unary main_cst_6 main_v50 (broadcastInDim S1024x1 ![] bcast_S_S1024x1 : (⟨S_, .f32⟩ : BufTy).Contents (Elt F) → (⟨S1024x1, .f32⟩ : BufTy).Contents (Elt F)),
    binary main_v50 main_v49 main_v51 (Host.divf : (⟨S1024x1, .f32⟩ : BufTy).Contents (Elt F) → (⟨S1024x1, .f32⟩ : BufTy).Contents (Elt F) → (⟨S1024x1, .f32⟩ : BufTy).Contents (Elt F)) ]

/-- The buffers those operations write. -/
abbrev writes3 : List (Ref sig .tc) :=
  [main_v38, main_v39, main_v40, main_v41, main_v42, main_v43, main_v44, main_v45, main_v46, main_v47, main_cst_5, main_v48, main_v49, main_cst_6, main_v50, main_v51]

/-- Operations 60 to 82 of the program, in order. -/
abbrev chunk4 : List (HloOp τ sig (Elt F)) :=
  [ unary main_arg3 main_v52 ((transpose S1024x16000 [1, 0] · transposes_S16000x1024_S1024x16000_1_0) : (⟨S16000x1024, .f32⟩ : BufTy).Contents (Elt F) → (⟨S1024x16000, .f32⟩ : BufTy).Contents (Elt F)),
    binary main_v52 main_arg0 main_v53 ((fun l r => Host.dotGeneral dot_S1024x16000_S16000x1_S1024x1_1_0_0_1_n_n none l r) : (⟨S1024x16000, .f32⟩ : BufTy).Contents (Elt F) → (⟨S16000x1, .f32⟩ : BufTy).Contents (Elt F) → (⟨S1024x1, .f32⟩ : BufTy).Contents (Elt F)),
    unary main_arg7 main_v54 ((transpose S1024x1024 [1, 0] · transposes_S1024x1024_S1024x1024_1_0) : (⟨S1024x1024, .f32⟩ : BufTy).Contents (Elt F) → (⟨S1024x1024, .f32⟩ : BufTy).Contents (Elt F)),
    binary main_v37 main_arg1 main_v55 (mulf : (⟨S1024x1, .f32⟩ : BufTy).Contents (Elt F) → (⟨S1024x1, .f32⟩ : BufTy).Contents (Elt F) → (⟨S1024x1, .f32⟩ : BufTy).Contents (Elt F)),
    binary main_v54 main_v55 main_v56 ((fun l r => Host.dotGeneral dot_S1024x1024_S1024x1_S1024x1_1_0_0_1_n_n none l r) : (⟨S1024x1024, .f32⟩ : BufTy).Contents (Elt F) → (⟨S1024x1, .f32⟩ : BufTy).Contents (Elt F) → (⟨S1024x1, .f32⟩ : BufTy).Contents (Elt F)),
    binary main_v53 main_v56 main_v57 (addf : (⟨S1024x1, .f32⟩ : BufTy).Contents (Elt F) → (⟨S1024x1, .f32⟩ : BufTy).Contents (Elt F) → (⟨S1024x1, .f32⟩ : BufTy).Contents (Elt F)),
    unary main_arg11 main_v58 ((transpose S1024x2048 [1, 0] · transposes_S2048x1024_S1024x2048_1_0) : (⟨S2048x1024, .f32⟩ : BufTy).Contents (Elt F) → (⟨S1024x2048, .f32⟩ : BufTy).Contents (Elt F)),
    binary main_v58 main_v23 main_v59 ((fun l r => Host.dotGeneral dot_S1024x2048_S2048x1_S1024x1_1_0_0_1_n_n none l r) : (⟨S1024x2048, .f32⟩ : BufTy).Contents (Elt F) → (⟨S2048x1, .f32⟩ : BufTy).Contents (Elt F) → (⟨S1024x1, .f32⟩ : BufTy).Contents (Elt F)),
    binary main_v57 main_v59 main_v60 (addf : (⟨S1024x1, .f32⟩ : BufTy).Contents (Elt F) → (⟨S1024x1, .f32⟩ : BufTy).Contents (Elt F) → (⟨S1024x1, .f32⟩ : BufTy).Contents (Elt F)),
    unary main_v60 main_v61 (Host.negf : (⟨S1024x1, .f32⟩ : BufTy).Contents (Elt F) → (⟨S1024x1, .f32⟩ : BufTy).Contents (Elt F)),
    unary main_v61 main_v62 (Host.exp : (⟨S1024x1, .f32⟩ : BufTy).Contents (Elt F) → (⟨S1024x1, .f32⟩ : BufTy).Contents (Elt F)),
    nullary main_cst_7 (constant S_ .f32 0x3F800000#32),
    unary main_cst_7 main_v63 (broadcastInDim S1024x1 ![] bcast_S_S1024x1 : (⟨S_, .f32⟩ : BufTy).Contents (Elt F) → (⟨S1024x1, .f32⟩ : BufTy).Contents (Elt F)),
    binary main_v63 main_v62 main_v64 (addf : (⟨S1024x1, .f32⟩ : BufTy).Contents (Elt F) → (⟨S1024x1, .f32⟩ : BufTy).Contents (Elt F) → (⟨S1024x1, .f32⟩ : BufTy).Contents (Elt F)),
    nullary main_cst_8 (constant S_ .f32 0x3F800000#32),
    unary main_cst_8 main_v65 (broadcastInDim S1024x1 ![] bcast_S_S1024x1 : (⟨S_, .f32⟩ : BufTy).Contents (Elt F) → (⟨S1024x1, .f32⟩ : BufTy).Contents (Elt F)),
    binary main_v65 main_v64 main_v66 (Host.divf : (⟨S1024x1, .f32⟩ : BufTy).Contents (Elt F) → (⟨S1024x1, .f32⟩ : BufTy).Contents (Elt F) → (⟨S1024x1, .f32⟩ : BufTy).Contents (Elt F)),
    nullary main_cst_9 (constant S_ .f32 0x3F800000#32),
    unary main_cst_9 main_v67 (broadcastInDim S1024x1 ![] bcast_S_S1024x1 : (⟨S_, .f32⟩ : BufTy).Contents (Elt F) → (⟨S1024x1, .f32⟩ : BufTy).Contents (Elt F)),
    binary main_v67 main_v51 main_v68 (subf : (⟨S1024x1, .f32⟩ : BufTy).Contents (Elt F) → (⟨S1024x1, .f32⟩ : BufTy).Contents (Elt F) → (⟨S1024x1, .f32⟩ : BufTy).Contents (Elt F)),
    binary main_v68 main_arg1 main_v69 (mulf : (⟨S1024x1, .f32⟩ : BufTy).Contents (Elt F) → (⟨S1024x1, .f32⟩ : BufTy).Contents (Elt F) → (⟨S1024x1, .f32⟩ : BufTy).Contents (Elt F)),
    binary main_v51 main_v66 main_v70 (mulf : (⟨S1024x1, .f32⟩ : BufTy).Contents (Elt F) → (⟨S1024x1, .f32⟩ : BufTy).Contents (Elt F) → (⟨S1024x1, .f32⟩ : BufTy).Contents (Elt F)),
    binary main_v69 main_v70 main_v71 (addf : (⟨S1024x1, .f32⟩ : BufTy).Contents (Elt F) → (⟨S1024x1, .f32⟩ : BufTy).Contents (Elt F) → (⟨S1024x1, .f32⟩ : BufTy).Contents (Elt F)) ]

/-- The buffers those operations write. -/
abbrev writes4 : List (Ref sig .tc) :=
  [main_v52, main_v53, main_v54, main_v55, main_v56, main_v57, main_v58, main_v59, main_v60, main_v61, main_v62, main_cst_7, main_v63, main_v64, main_cst_8, main_v65, main_v66, main_cst_9, main_v67, main_v68, main_v69, main_v70, main_v71]

/-- Operations 83 to 99 of the program, in order. -/
abbrev chunk5 : List (HloOp τ sig (Elt F)) :=
  [ binary main_arg10 main_v71 main_v72 ((fun l r => Host.dotGeneral dot_S4096x1024_S1024x1_S4096x1_1_0_0_1_n_n none l r) : (⟨S4096x1024, .f32⟩ : BufTy).Contents (Elt F) → (⟨S1024x1, .f32⟩ : BufTy).Contents (Elt F) → (⟨S4096x1, .f32⟩ : BufTy).Contents (Elt F)),
    binary main_arg15 main_arg0 main_v73 ((fun l r => Host.dotGeneral dot_S4096x16000_S16000x1_S4096x1_1_0_0_1_n_n none l r) : (⟨S4096x16000, .f32⟩ : BufTy).Contents (Elt F) → (⟨S16000x1, .f32⟩ : BufTy).Contents (Elt F) → (⟨S4096x1, .f32⟩ : BufTy).Contents (Elt F)),
    binary main_v72 main_v73 main_v74 (addf : (⟨S4096x1, .f32⟩ : BufTy).Contents (Elt F) → (⟨S4096x1, .f32⟩ : BufTy).Contents (Elt F) → (⟨S4096x1, .f32⟩ : BufTy).Contents (Elt F)),
    binary main_arg14 main_v23 main_v75 ((fun l r => Host.dotGeneral dot_S4096x2048_S2048x1_S4096x1_1_0_0_1_n_n none l r) : (⟨S4096x2048, .f32⟩ : BufTy).Contents (Elt F) → (⟨S2048x1, .f32⟩ : BufTy).Contents (Elt F) → (⟨S4096x1, .f32⟩ : BufTy).Contents (Elt F)),
    binary main_v74 main_v75 main_v76 (addf : (⟨S4096x1, .f32⟩ : BufTy).Contents (Elt F) → (⟨S4096x1, .f32⟩ : BufTy).Contents (Elt F) → (⟨S4096x1, .f32⟩ : BufTy).Contents (Elt F)),
    unary main_v76 main_v77 (Host.negf : (⟨S4096x1, .f32⟩ : BufTy).Contents (Elt F) → (⟨S4096x1, .f32⟩ : BufTy).Contents (Elt F)),
    unary main_v77 main_v78 (Host.exp : (⟨S4096x1, .f32⟩ : BufTy).Contents (Elt F) → (⟨S4096x1, .f32⟩ : BufTy).Contents (Elt F)),
    nullary main_cst_10 (constant S_ .f32 0x3F800000#32),
    unary main_cst_10 main_v79 (broadcastInDim S4096x1 ![] bcast_S_S4096x1 : (⟨S_, .f32⟩ : BufTy).Contents (Elt F) → (⟨S4096x1, .f32⟩ : BufTy).Contents (Elt F)),
    binary main_v79 main_v78 main_v80 (addf : (⟨S4096x1, .f32⟩ : BufTy).Contents (Elt F) → (⟨S4096x1, .f32⟩ : BufTy).Contents (Elt F) → (⟨S4096x1, .f32⟩ : BufTy).Contents (Elt F)),
    nullary main_cst_11 (constant S_ .f32 0x3F800000#32),
    unary main_cst_11 main_v81 (broadcastInDim S4096x1 ![] bcast_S_S4096x1 : (⟨S_, .f32⟩ : BufTy).Contents (Elt F) → (⟨S4096x1, .f32⟩ : BufTy).Contents (Elt F)),
    binary main_v81 main_v80 main_v82 (Host.divf : (⟨S4096x1, .f32⟩ : BufTy).Contents (Elt F) → (⟨S4096x1, .f32⟩ : BufTy).Contents (Elt F) → (⟨S4096x1, .f32⟩ : BufTy).Contents (Elt F)),
    reshape main_v82 main_v83 rfl shapeCasts_S4096x1_S2048x2x1,
    nullary main_cst_12 (constant S_ .f32 0xFF800000#32),
    binary main_v83 main_cst_12 main_v84 ((fun x v => Host.reduce FloatOps.maximumf x v reducesTo_S2048x2x1_S2048x1_d1 h_S_) : (⟨S2048x2x1, .f32⟩ : BufTy).Contents (Elt F) → (⟨S_, .f32⟩ : BufTy).Contents (Elt F) → (⟨S2048x1, .f32⟩ : BufTy).Contents (Elt F)),
    binary main_arg6 main_v84 main_v85 ((fun l r => Host.dotGeneral dot_S16000x2048_S2048x1_S16000x1_1_0_0_1_n_n none l r) : (⟨S16000x2048, .f32⟩ : BufTy).Contents (Elt F) → (⟨S2048x1, .f32⟩ : BufTy).Contents (Elt F) → (⟨S16000x1, .f32⟩ : BufTy).Contents (Elt F)) ]

/-- The buffers those operations write. -/
abbrev writes5 : List (Ref sig .tc) :=
  [main_v72, main_v73, main_v74, main_v75, main_v76, main_v77, main_v78, main_cst_10, main_v79, main_v80, main_cst_11, main_v81, main_v82, main_v83, main_cst_12, main_v84, main_v85]

/-- Operations 100 to 114 of the program, in order. -/
abbrev chunk6 : List (HloOp τ sig (Elt F)) :=
  [ TRef.nullary (TRef.of (T := ⟨S_, .f32⟩) main_call0_cst) (constant S_ .f32 0xFF800000#32),
    TRef.binary (TRef.of (T := ⟨S16000x1, .f32⟩) main_v85) (TRef.of (T := ⟨S_, .f32⟩) main_call0_cst) (TRef.of (T := ⟨S1, .f32⟩) main_call0_v0) (fun x v => Host.reduce FloatOps.maximumf x v reducesTo_S16000x1_S1_d0 h_S_),
    TRef.nullary (TRef.of (T := ⟨S_, .f32⟩) main_call0_cst_0) (constant S_ .f32 0xFF800000#32),
    TRef.unary (TRef.of (T := ⟨S_, .f32⟩) main_call0_cst_0) (TRef.of (T := ⟨S1, .f32⟩) main_call0_v1) (broadcastInDim S1 ![] bcast_S_S1),
    TRef.binary (TRef.of (T := ⟨S1, .f32⟩) main_call0_v1) (TRef.of (T := ⟨S1, .f32⟩) main_call0_v0) (TRef.of (T := ⟨S1, .f32⟩) main_call0_v2) maximumf,
    TRef.unary (TRef.of (T := ⟨S1, .f32⟩) main_call0_v2) (TRef.of (T := ⟨S1x1, .f32⟩) main_call0_v3) (broadcastInDim S1x1 ![1] bcast_S1_S1x1_1),
    TRef.unary (TRef.of (T := ⟨S1x1, .f32⟩) main_call0_v3) (TRef.of (T := ⟨S16000x1, .f32⟩) main_call0_v4) (broadcastInDim S16000x1 ![0, 1] bcast_S1x1_S16000x1_0_1),
    TRef.binary (TRef.of (T := ⟨S16000x1, .f32⟩) main_v85) (TRef.of (T := ⟨S16000x1, .f32⟩) main_call0_v4) (TRef.of (T := ⟨S16000x1, .f32⟩) main_call0_v5) subf,
    TRef.unary (TRef.of (T := ⟨S16000x1, .f32⟩) main_call0_v5) (TRef.of (T := ⟨S16000x1, .f32⟩) main_call0_v6) Host.exp,
    TRef.nullary (TRef.of (T := ⟨S_, .f32⟩) main_call0_cst_1) (constant S_ .f32 0x00000000#32),
    TRef.binary (TRef.of (T := ⟨S16000x1, .f32⟩) main_call0_v6) (TRef.of (T := ⟨S_, .f32⟩) main_call0_cst_1) (TRef.of (T := ⟨S1, .f32⟩) main_call0_v7) (fun x v => Host.reduceAdd x v reducesTo_S16000x1_S1_d0 h_S_),
    TRef.unary (TRef.of (T := ⟨S1, .f32⟩) main_call0_v7) (TRef.of (T := ⟨S1x1, .f32⟩) main_call0_v8) (broadcastInDim S1x1 ![1] bcast_S1_S1x1_1),
    TRef.unary (TRef.of (T := ⟨S1x1, .f32⟩) main_call0_v8) (TRef.of (T := ⟨S1x1, .f32⟩) main_call0_v9) Host.log,
    TRef.unary (TRef.of (T := ⟨S1x1, .f32⟩) main_call0_v9) (TRef.of (T := ⟨S16000x1, .f32⟩) main_call0_v10) (broadcastInDim S16000x1 ![0, 1] bcast_S1x1_S16000x1_0_1),
    TRef.binary (TRef.of (T := ⟨S16000x1, .f32⟩) main_call0_v5) (TRef.of (T := ⟨S16000x1, .f32⟩) main_call0_v10) (TRef.of (T := ⟨S16000x1, .f32⟩) main_v86) subf ]

/-- The buffers those operations write. -/
abbrev writes6 : List (Ref sig .tc) :=
  [main_call0_cst, main_call0_v0, main_call0_cst_0, main_call0_v1, main_call0_v2, main_call0_v3, main_call0_v4, main_call0_v5, main_call0_v6, main_call0_cst_1, main_call0_v7, main_call0_v8, main_call0_v9, main_call0_v10, main_v86]

/-- The program is the six stretches one after the other. -/
theorem ops_eq : (ops : List (HloOp τ sig (Elt F))) = chunk1 ++ (chunk2 ++ (chunk3 ++ (chunk4 ++ (chunk5 ++ chunk6)))) := rfl

/-- Running the program is running the six stretches in turn. -/
theorem after_ops (V : Valuation τ sig (Elt F)) :
    after ops V = after chunk6 (after chunk5 (after chunk4 (after chunk3 (after chunk2 (after chunk1 V))))) := by
  rw [ops_eq, Cert.Lib.HostStages.after_append, Cert.Lib.HostStages.after_append, Cert.Lib.HostStages.after_append,
    Cert.Lib.HostStages.after_append, Cert.Lib.HostStages.after_append]

/-! ## What a stretch does not write it leaves alone -/

/-- A buffer that stretch 1 does not write keeps its contents through it. -/
theorem frame1 (W : Valuation τ sig (Elt F)) {r : Ref sig .tc} (hr : r ∉ writes1) :
    after (chunk1 (F := F)) W (Proc.devRef .tc r) = W (Proc.devRef .tc r) :=
  after_of_writes_sub (W := writes1) chunk1 W (by
    simp only [chunk1, writes1, List.Forall, TRef.nullary, TRef.unary, TRef.binary, nullary_writes, unary_writes, binary_writes, reshape_writes, Finset.singleton_subset_iff]
    repeat' apply And.intro
    all_goals exact List.mem_toFinset.mpr (List.mem_map_of_mem (by decide))) hr

/-- A buffer that stretch 2 does not write keeps its contents through it. -/
theorem frame2 (W : Valuation τ sig (Elt F)) {r : Ref sig .tc} (hr : r ∉ writes2) :
    after (chunk2 (F := F)) W (Proc.devRef .tc r) = W (Proc.devRef .tc r) :=
  after_of_writes_sub (W := writes2) chunk2 W (by
    simp only [chunk2, writes2, List.Forall, TRef.nullary, TRef.unary, TRef.binary, nullary_writes, unary_writes, binary_writes, reshape_writes, Finset.singleton_subset_iff]
    repeat' apply And.intro
    all_goals exact List.mem_toFinset.mpr (List.mem_map_of_mem (by decide))) hr

/-- A buffer that stretch 3 does not write keeps its contents through it. -/
theorem frame3 (W : Valuation τ sig (Elt F)) {r : Ref sig .tc} (hr : r ∉ writes3) :
    after (chunk3 (F := F)) W (Proc.devRef .tc r) = W (Proc.devRef .tc r) :=
  after_of_writes_sub (W := writes3) chunk3 W (by
    simp only [chunk3, writes3, List.Forall, TRef.nullary, TRef.unary, TRef.binary, nullary_writes, unary_writes, binary_writes, reshape_writes, Finset.singleton_subset_iff]
    repeat' apply And.intro
    all_goals exact List.mem_toFinset.mpr (List.mem_map_of_mem (by decide))) hr

/-- A buffer that stretch 4 does not write keeps its contents through it. -/
theorem frame4 (W : Valuation τ sig (Elt F)) {r : Ref sig .tc} (hr : r ∉ writes4) :
    after (chunk4 (F := F)) W (Proc.devRef .tc r) = W (Proc.devRef .tc r) :=
  after_of_writes_sub (W := writes4) chunk4 W (by
    simp only [chunk4, writes4, List.Forall, TRef.nullary, TRef.unary, TRef.binary, nullary_writes, unary_writes, binary_writes, reshape_writes, Finset.singleton_subset_iff]
    repeat' apply And.intro
    all_goals exact List.mem_toFinset.mpr (List.mem_map_of_mem (by decide))) hr

/-- A buffer that stretch 5 does not write keeps its contents through it. -/
theorem frame5 (W : Valuation τ sig (Elt F)) {r : Ref sig .tc} (hr : r ∉ writes5) :
    after (chunk5 (F := F)) W (Proc.devRef .tc r) = W (Proc.devRef .tc r) :=
  after_of_writes_sub (W := writes5) chunk5 W (by
    simp only [chunk5, writes5, List.Forall, TRef.nullary, TRef.unary, TRef.binary, nullary_writes, unary_writes, binary_writes, reshape_writes, Finset.singleton_subset_iff]
    repeat' apply And.intro
    all_goals exact List.mem_toFinset.mpr (List.mem_map_of_mem (by decide))) hr

/-- A buffer that stretch 6 does not write keeps its contents through it. -/
theorem frame6 (W : Valuation τ sig (Elt F)) {r : Ref sig .tc} (hr : r ∉ writes6) :
    after (chunk6 (F := F)) W (Proc.devRef .tc r) = W (Proc.devRef .tc r) :=
  after_of_writes_sub (W := writes6) chunk6 W (by
    simp only [chunk6, writes6, List.Forall, TRef.nullary, TRef.unary, TRef.binary, nullary_writes, unary_writes, binary_writes, reshape_writes, Finset.singleton_subset_iff]
    repeat' apply And.intro
    all_goals exact List.mem_toFinset.mpr (List.mem_map_of_mem (by decide))) hr

/-! ## Each stretch from any contents W before it -/

/-- Stretch 1 leaves in the context's buffer the context's stage function of the arguments W holds. -/
theorem stage1_v23 (W : Valuation τ sig (Elt F)) (a1 : (⟨S1024x1, .f32⟩ : BufTy).Contents (Elt F)) (a2 : (⟨S50x2048, .f32⟩ : BufTy).Contents (Elt F)) (a16 : (⟨S50x1, .f32⟩ : BufTy).Contents (Elt F)) (a17 : (⟨S50x1024, .f32⟩ : BufTy).Contents (Elt F)) (a18 : (⟨S50x2048, .f32⟩ : BufTy).Contents (Elt F))
    (h1 : W (Proc.devRef .tc main_arg1) = a1) (h2 : W (Proc.devRef .tc main_arg2) = a2) (h16 : W (Proc.devRef .tc main_arg16) = a16) (h17 : W (Proc.devRef .tc main_arg17) = a17) (h18 : W (Proc.devRef .tc main_arg18) = a18) :
    after (chunk1 (F := F)) W (Proc.devRef .tc main_v23) = val_main_v23 a1 a2 a16 a17 a18 := by
  subst h1 h2 h16 h17 h18
  after_results_simp
  simp only [val_main_v23, val_main_v22, val_main_cst_2, val_main_v21, val_main_v20, val_main_v19, val_main_v18, val_main_v17, val_main_v16, val_main_v15, val_main_cst_1, val_main_v14, val_main_v13, val_main_v12, val_main_v11, val_main_v10, val_main_cst_0, val_main_v9, val_main_cst, val_main_v8, val_main_v7, val_main_v6, val_main_v5, val_main_v4, val_main_v3, val_main_v2, val_main_v1, val_main_v0]
  try rfl

/-- Stretch 1 leaves in the weighted rows' buffer their stage function of the arguments W holds. -/
theorem stage1_v21 (W : Valuation τ sig (Elt F)) (a1 : (⟨S1024x1, .f32⟩ : BufTy).Contents (Elt F)) (a2 : (⟨S50x2048, .f32⟩ : BufTy).Contents (Elt F)) (a16 : (⟨S50x1, .f32⟩ : BufTy).Contents (Elt F)) (a17 : (⟨S50x1024, .f32⟩ : BufTy).Contents (Elt F)) (a18 : (⟨S50x2048, .f32⟩ : BufTy).Contents (Elt F))
    (h1 : W (Proc.devRef .tc main_arg1) = a1) (h2 : W (Proc.devRef .tc main_arg2) = a2) (h16 : W (Proc.devRef .tc main_arg16) = a16) (h17 : W (Proc.devRef .tc main_arg17) = a17) (h18 : W (Proc.devRef .tc main_arg18) = a18) :
    after (chunk1 (F := F)) W (Proc.devRef .tc main_v21) = val_main_v21 a1 a2 a16 a17 a18 := by
  subst h1 h2 h16 h17 h18
  after_results_simp
  simp only [val_main_v23, val_main_v22, val_main_cst_2, val_main_v21, val_main_v20, val_main_v19, val_main_v18, val_main_v17, val_main_v16, val_main_v15, val_main_cst_1, val_main_v14, val_main_v13, val_main_v12, val_main_v11, val_main_v10, val_main_cst_0, val_main_v9, val_main_cst, val_main_v8, val_main_v7, val_main_v6, val_main_v5, val_main_v4, val_main_v3, val_main_v2, val_main_v1, val_main_v0]
  try rfl

/-- Stretch 2 leaves in the first gate's buffer the gate's stage function, when W holds the context's. -/
theorem stage2_v37 (W : Valuation τ sig (Elt F)) (a0 : (⟨S16000x1, .f32⟩ : BufTy).Contents (Elt F)) (a1 : (⟨S1024x1, .f32⟩ : BufTy).Contents (Elt F)) (a2 : (⟨S50x2048, .f32⟩ : BufTy).Contents (Elt F)) (a5 : (⟨S16000x1024, .f32⟩ : BufTy).Contents (Elt F)) (a9 : (⟨S1024x1024, .f32⟩ : BufTy).Contents (Elt F)) (a13 : (⟨S2048x1024, .f32⟩ : BufTy).Contents (Elt F)) (a16 : (⟨S50x1, .f32⟩ : BufTy).Contents (Elt F)) (a17 : (⟨S50x1024, .f32⟩ : BufTy).Contents (Elt F)) (a18 : (⟨S50x2048, .f32⟩ : BufTy).Contents (Elt F))
    (h0 : W (Proc.devRef .tc main_arg0) = a0) (h1 : W (Proc.devRef .tc main_arg1) = a1) (h5 : W (Proc.devRef .tc main_arg5) = a5) (h9 : W (Proc.devRef .tc main_arg9) = a9) (h13 : W (Proc.devRef .tc main_arg13) = a13)
    (h_v23 : W (Proc.devRef .tc main_v23) = val_main_v23 a1 a2 a16 a17 a18) :
    after (chunk2 (F := F)) W (Proc.devRef .tc main_v37) = val_main_v37 a0 a1 a2 a5 a9 a13 a16 a17 a18 := by
  subst h0 h1 h5 h9 h13
  after_results_simp
  simp only [h_v23]
  simp only [val_main_v37, val_main_v36, val_main_cst_4, val_main_v35, val_main_v34, val_main_cst_3, val_main_v33, val_main_v32, val_main_v31, val_main_v30, val_main_v29, val_main_v28, val_main_v27, val_main_v26, val_main_v25, val_main_v24]
  try rfl

/-- Stretch 3 leaves in the second gate's buffer the gate's stage function, when W holds the context's. -/
theorem stage3_v51 (W : Valuation τ sig (Elt F)) (a0 : (⟨S16000x1, .f32⟩ : BufTy).Contents (Elt F)) (a1 : (⟨S1024x1, .f32⟩ : BufTy).Contents (Elt F)) (a2 : (⟨S50x2048, .f32⟩ : BufTy).Contents (Elt F)) (a4 : (⟨S16000x1024, .f32⟩ : BufTy).Contents (Elt F)) (a8 : (⟨S1024x1024, .f32⟩ : BufTy).Contents (Elt F)) (a12 : (⟨S2048x1024, .f32⟩ : BufTy).Contents (Elt F)) (a16 : (⟨S50x1, .f32⟩ : BufTy).Contents (Elt F)) (a17 : (⟨S50x1024, .f32⟩ : BufTy).Contents (Elt F)) (a18 : (⟨S50x2048, .f32⟩ : BufTy).Contents (Elt F))
    (h0 : W (Proc.devRef .tc main_arg0) = a0) (h1 : W (Proc.devRef .tc main_arg1) = a1) (h4 : W (Proc.devRef .tc main_arg4) = a4) (h8 : W (Proc.devRef .tc main_arg8) = a8) (h12 : W (Proc.devRef .tc main_arg12) = a12)
    (h_v23 : W (Proc.devRef .tc main_v23) = val_main_v23 a1 a2 a16 a17 a18) :
    after (chunk3 (F := F)) W (Proc.devRef .tc main_v51) = val_main_v51 a0 a1 a2 a4 a8 a12 a16 a17 a18 := by
  subst h0 h1 h4 h8 h12
  after_results_simp
  simp only [h_v23]
  simp only [val_main_v51, val_main_v50, val_main_cst_6, val_main_v49, val_main_v48, val_main_cst_5, val_main_v47, val_main_v46, val_main_v45, val_main_v44, val_main_v43, val_main_v42, val_main_v41, val_main_v40, val_main_v39, val_main_v38]
  try rfl

/-- Stretch 4 leaves in the new state's buffer its stage function, when W holds the two gates' and the context's. -/
theorem stage4_v71 (W : Valuation τ sig (Elt F)) (a0 : (⟨S16000x1, .f32⟩ : BufTy).Contents (Elt F)) (a1 : (⟨S1024x1, .f32⟩ : BufTy).Contents (Elt F)) (a2 : (⟨S50x2048, .f32⟩ : BufTy).Contents (Elt F)) (a3 : (⟨S16000x1024, .f32⟩ : BufTy).Contents (Elt F)) (a4 : (⟨S16000x1024, .f32⟩ : BufTy).Contents (Elt F)) (a5 : (⟨S16000x1024, .f32⟩ : BufTy).Contents (Elt F)) (a7 : (⟨S1024x1024, .f32⟩ : BufTy).Contents (Elt F)) (a8 : (⟨S1024x1024, .f32⟩ : BufTy).Contents (Elt F)) (a9 : (⟨S1024x1024, .f32⟩ : BufTy).Contents (Elt F)) (a11 : (⟨S2048x1024, .f32⟩ : BufTy).Contents (Elt F)) (a12 : (⟨S2048x1024, .f32⟩ : BufTy).Contents (Elt F)) (a13 : (⟨S2048x1024, .f32⟩ : BufTy).Contents (Elt F)) (a16 : (⟨S50x1, .f32⟩ : BufTy).Contents (Elt F)) (a17 : (⟨S50x1024, .f32⟩ : BufTy).Contents (Elt F)) (a18 : (⟨S50x2048, .f32⟩ : BufTy).Contents (Elt F))
    (h0 : W (Proc.devRef .tc main_arg0) = a0) (h1 : W (Proc.devRef .tc main_arg1) = a1) (h3 : W (Proc.devRef .tc main_arg3) = a3) (h7 : W (Proc.devRef .tc main_arg7) = a7) (h11 : W (Proc.devRef .tc main_arg11) = a11)
    (h_v37 : W (Proc.devRef .tc main_v37) = val_main_v37 a0 a1 a2 a5 a9 a13 a16 a17 a18)
    (h_v23 : W (Proc.devRef .tc main_v23) = val_main_v23 a1 a2 a16 a17 a18)
    (h_v51 : W (Proc.devRef .tc main_v51) = val_main_v51 a0 a1 a2 a4 a8 a12 a16 a17 a18) :
    after (chunk4 (F := F)) W (Proc.devRef .tc main_v71) = val_main_v71 a0 a1 a2 a3 a4 a5 a7 a8 a9 a11 a12 a13 a16 a17 a18 := by
  subst h0 h1 h3 h7 h11
  after_results_simp
  simp only [h_v37, h_v23, h_v51]
  simp only [val_main_v71, val_main_v70, val_main_v69, val_main_v68, val_main_v67, val_main_cst_9, val_main_v66, val_main_v65, val_main_cst_8, val_main_v64, val_main_v63, val_main_cst_7, val_main_v62, val_main_v61, val_main_v60, val_main_v59, val_main_v58, val_main_v57, val_main_v56, val_main_v55, val_main_v54, val_main_v53, val_main_v52]
  try rfl

/-- Stretch 5 leaves in the logits' buffer their stage function, when W holds the new state's and the context's. -/
theorem stage5_v85 (W : Valuation τ sig (Elt F)) (a0 : (⟨S16000x1, .f32⟩ : BufTy).Contents (Elt F)) (a1 : (⟨S1024x1, .f32⟩ : BufTy).Contents (Elt F)) (a2 : (⟨S50x2048, .f32⟩ : BufTy).Contents (Elt F)) (a3 : (⟨S16000x1024, .f32⟩ : BufTy).Contents (Elt F)) (a4 : (⟨S16000x1024, .f32⟩ : BufTy).Contents (Elt F)) (a5 : (⟨S16000x1024, .f32⟩ : BufTy).Contents (Elt F)) (a6 : (⟨S16000x2048, .f32⟩ : BufTy).Contents (Elt F)) (a7 : (⟨S1024x1024, .f32⟩ : BufTy).Contents (Elt F)) (a8 : (⟨S1024x1024, .f32⟩ : BufTy).Contents (Elt F)) (a9 : (⟨S1024x1024, .f32⟩ : BufTy).Contents (Elt F)) (a10 : (⟨S4096x1024, .f32⟩ : BufTy).Contents (Elt F)) (a11 : (⟨S2048x1024, .f32⟩ : BufTy).Contents (Elt F)) (a12 : (⟨S2048x1024, .f32⟩ : BufTy).Contents (Elt F)) (a13 : (⟨S2048x1024, .f32⟩ : BufTy).Contents (Elt F)) (a14 : (⟨S4096x2048, .f32⟩ : BufTy).Contents (Elt F)) (a15 : (⟨S4096x16000, .f32⟩ : BufTy).Contents (Elt F)) (a16 : (⟨S50x1, .f32⟩ : BufTy).Contents (Elt F)) (a17 : (⟨S50x1024, .f32⟩ : BufTy).Contents (Elt F)) (a18 : (⟨S50x2048, .f32⟩ : BufTy).Contents (Elt F))
    (h0 : W (Proc.devRef .tc main_arg0) = a0) (h6 : W (Proc.devRef .tc main_arg6) = a6) (h10 : W (Proc.devRef .tc main_arg10) = a10) (h14 : W (Proc.devRef .tc main_arg14) = a14) (h15 : W (Proc.devRef .tc main_arg15) = a15)
    (h_v71 : W (Proc.devRef .tc main_v71) = val_main_v71 a0 a1 a2 a3 a4 a5 a7 a8 a9 a11 a12 a13 a16 a17 a18)
    (h_v23 : W (Proc.devRef .tc main_v23) = val_main_v23 a1 a2 a16 a17 a18) :
    after (chunk5 (F := F)) W (Proc.devRef .tc main_v85) = val_main_v85 a0 a1 a2 a3 a4 a5 a6 a7 a8 a9 a10 a11 a12 a13 a14 a15 a16 a17 a18 := by
  subst h0 h6 h10 h14 h15
  after_results_simp
  simp only [h_v71, h_v23]
  simp only [val_main_v85, val_main_v84, val_main_cst_12, val_main_v83, val_main_v82, val_main_v81, val_main_cst_11, val_main_v80, val_main_v79, val_main_cst_10, val_main_v78, val_main_v77, val_main_v76, val_main_v75, val_main_v74, val_main_v73, val_main_v72]
  try rfl

/-- Stretch 6 leaves in the first result's buffer its stage function, when W holds the logits'. -/
theorem stage6_v86 (W : Valuation τ sig (Elt F)) (a0 : (⟨S16000x1, .f32⟩ : BufTy).Contents (Elt F)) (a1 : (⟨S1024x1, .f32⟩ : BufTy).Contents (Elt F)) (a2 : (⟨S50x2048, .f32⟩ : BufTy).Contents (Elt F)) (a3 : (⟨S16000x1024, .f32⟩ : BufTy).Contents (Elt F)) (a4 : (⟨S16000x1024, .f32⟩ : BufTy).Contents (Elt F)) (a5 : (⟨S16000x1024, .f32⟩ : BufTy).Contents (Elt F)) (a6 : (⟨S16000x2048, .f32⟩ : BufTy).Contents (Elt F)) (a7 : (⟨S1024x1024, .f32⟩ : BufTy).Contents (Elt F)) (a8 : (⟨S1024x1024, .f32⟩ : BufTy).Contents (Elt F)) (a9 : (⟨S1024x1024, .f32⟩ : BufTy).Contents (Elt F)) (a10 : (⟨S4096x1024, .f32⟩ : BufTy).Contents (Elt F)) (a11 : (⟨S2048x1024, .f32⟩ : BufTy).Contents (Elt F)) (a12 : (⟨S2048x1024, .f32⟩ : BufTy).Contents (Elt F)) (a13 : (⟨S2048x1024, .f32⟩ : BufTy).Contents (Elt F)) (a14 : (⟨S4096x2048, .f32⟩ : BufTy).Contents (Elt F)) (a15 : (⟨S4096x16000, .f32⟩ : BufTy).Contents (Elt F)) (a16 : (⟨S50x1, .f32⟩ : BufTy).Contents (Elt F)) (a17 : (⟨S50x1024, .f32⟩ : BufTy).Contents (Elt F)) (a18 : (⟨S50x2048, .f32⟩ : BufTy).Contents (Elt F))

    (h_v85 : W (Proc.devRef .tc main_v85) = val_main_v85 a0 a1 a2 a3 a4 a5 a6 a7 a8 a9 a10 a11 a12 a13 a14 a15 a16 a17 a18) :
    after (chunk6 (F := F)) W (Proc.devRef .tc main_v86) = val_main_v86 a0 a1 a2 a3 a4 a5 a6 a7 a8 a9 a10 a11 a12 a13 a14 a15 a16 a17 a18 := by
  after_results_simp
  simp only [Cert.Lib.HostStages.ofBuf_toBuf]
  simp only [h_v85]
  simp only [val_main_v86, val_main_call0_v10, val_main_call0_v9, val_main_call0_v8, val_main_call0_v7, val_main_call0_cst_1, val_main_call0_v6, val_main_call0_v5, val_main_call0_v4, val_main_call0_v3, val_main_call0_v2, val_main_call0_v1, val_main_call0_cst_0, val_main_call0_v0, val_main_call0_cst]
  try rfl

/-! ## A buffer none of the first k stretches writes keeps its contents through them -/

/-- A buffer none of the first 1 stretch writes holds after it what it held before. -/
theorem keep1 (V : Valuation τ sig (Elt F)) {r : Ref sig .tc} (h1 : r ∉ writes1) :
    after chunk1 V (Proc.devRef .tc r) = V (Proc.devRef .tc r) :=
  frame1 V h1

/-- A buffer none of the first 2 stretches writes holds after them what it held before. -/
theorem keep2 (V : Valuation τ sig (Elt F)) {r : Ref sig .tc} (h1 : r ∉ writes1) (h2 : r ∉ writes2) :
    after chunk2 (after chunk1 V) (Proc.devRef .tc r) = V (Proc.devRef .tc r) :=
  (frame2 _ h2).trans (keep1 V h1)

/-- A buffer none of the first 3 stretches writes holds after them what it held before. -/
theorem keep3 (V : Valuation τ sig (Elt F)) {r : Ref sig .tc} (h1 : r ∉ writes1) (h2 : r ∉ writes2) (h3 : r ∉ writes3) :
    after chunk3 (after chunk2 (after chunk1 V)) (Proc.devRef .tc r) = V (Proc.devRef .tc r) :=
  (frame3 _ h3).trans (keep2 V h1 h2)

/-- A buffer none of the first 4 stretches writes holds after them what it held before. -/
theorem keep4 (V : Valuation τ sig (Elt F)) {r : Ref sig .tc} (h1 : r ∉ writes1) (h2 : r ∉ writes2) (h3 : r ∉ writes3) (h4 : r ∉ writes4) :
    after chunk4 (after chunk3 (after chunk2 (after chunk1 V))) (Proc.devRef .tc r) = V (Proc.devRef .tc r) :=
  (frame4 _ h4).trans (keep3 V h1 h2 h3)

/-- A buffer none of the first 5 stretches writes holds after them what it held before. -/
theorem keep5 (V : Valuation τ sig (Elt F)) {r : Ref sig .tc} (h1 : r ∉ writes1) (h2 : r ∉ writes2) (h3 : r ∉ writes3) (h4 : r ∉ writes4) (h5 : r ∉ writes5) :
    after chunk5 (after chunk4 (after chunk3 (after chunk2 (after chunk1 V)))) (Proc.devRef .tc r) = V (Proc.devRef .tc r) :=
  (frame5 _ h5).trans (keep4 V h1 h2 h3 h4)

/-- A buffer none of the first 6 stretches writes holds after them what it held before. -/
theorem keep6 (V : Valuation τ sig (Elt F)) {r : Ref sig .tc} (h1 : r ∉ writes1) (h2 : r ∉ writes2) (h3 : r ∉ writes3) (h4 : r ∉ writes4) (h5 : r ∉ writes5) (h6 : r ∉ writes6) :
    after chunk6 (after chunk5 (after chunk4 (after chunk3 (after chunk2 (after chunk1 V))))) (Proc.devRef .tc r) = V (Proc.devRef .tc r) :=
  (frame6 _ h6).trans (keep5 V h1 h2 h3 h4 h5)

/-! ## The values between the stretches, from any contents V before the program, as stage functions of V's arguments -/

/-- After stretch 1 the context holds its stage function of the arguments. -/
theorem at1_v23 (V : Valuation τ sig (Elt F)) :
    after chunk1 V (Proc.devRef .tc main_v23) = val_main_v23 (V (Proc.devRef .tc main_arg1)) (V (Proc.devRef .tc main_arg2)) (V (Proc.devRef .tc main_arg16)) (V (Proc.devRef .tc main_arg17)) (V (Proc.devRef .tc main_arg18)) :=
  stage1_v23 V (V (Proc.devRef .tc main_arg1)) (V (Proc.devRef .tc main_arg2)) (V (Proc.devRef .tc main_arg16)) (V (Proc.devRef .tc main_arg17)) (V (Proc.devRef .tc main_arg18)) rfl rfl rfl rfl rfl

/-- After stretch 1 the weighted rows hold their stage function of the arguments. -/
theorem at1_v21 (V : Valuation τ sig (Elt F)) :
    after chunk1 V (Proc.devRef .tc main_v21) = val_main_v21 (V (Proc.devRef .tc main_arg1)) (V (Proc.devRef .tc main_arg2)) (V (Proc.devRef .tc main_arg16)) (V (Proc.devRef .tc main_arg17)) (V (Proc.devRef .tc main_arg18)) :=
  stage1_v21 V (V (Proc.devRef .tc main_arg1)) (V (Proc.devRef .tc main_arg2)) (V (Proc.devRef .tc main_arg16)) (V (Proc.devRef .tc main_arg17)) (V (Proc.devRef .tc main_arg18)) rfl rfl rfl rfl rfl

/-- After stretch 2 the first gate holds its stage function of the arguments. -/
theorem at2_v37 (V : Valuation τ sig (Elt F)) :
    after chunk2 (after chunk1 V) (Proc.devRef .tc main_v37) = val_main_v37 (V (Proc.devRef .tc main_arg0)) (V (Proc.devRef .tc main_arg1)) (V (Proc.devRef .tc main_arg2)) (V (Proc.devRef .tc main_arg5)) (V (Proc.devRef .tc main_arg9)) (V (Proc.devRef .tc main_arg13)) (V (Proc.devRef .tc main_arg16)) (V (Proc.devRef .tc main_arg17)) (V (Proc.devRef .tc main_arg18)) :=
  stage2_v37 (after chunk1 V) (V (Proc.devRef .tc main_arg0)) (V (Proc.devRef .tc main_arg1)) (V (Proc.devRef .tc main_arg2)) (V (Proc.devRef .tc main_arg5)) (V (Proc.devRef .tc main_arg9)) (V (Proc.devRef .tc main_arg13)) (V (Proc.devRef .tc main_arg16)) (V (Proc.devRef .tc main_arg17)) (V (Proc.devRef .tc main_arg18))
    (keep1 V (by decide)) (keep1 V (by decide)) (keep1 V (by decide)) (keep1 V (by decide)) (keep1 V (by decide))
    (at1_v23 V)

/-- After stretch 3 the second gate holds its stage function of the arguments. -/
theorem at3_v51 (V : Valuation τ sig (Elt F)) :
    after chunk3 (after chunk2 (after chunk1 V)) (Proc.devRef .tc main_v51) = val_main_v51 (V (Proc.devRef .tc main_arg0)) (V (Proc.devRef .tc main_arg1)) (V (Proc.devRef .tc main_arg2)) (V (Proc.devRef .tc main_arg4)) (V (Proc.devRef .tc main_arg8)) (V (Proc.devRef .tc main_arg12)) (V (Proc.devRef .tc main_arg16)) (V (Proc.devRef .tc main_arg17)) (V (Proc.devRef .tc main_arg18)) :=
  stage3_v51 (after chunk2 (after chunk1 V)) (V (Proc.devRef .tc main_arg0)) (V (Proc.devRef .tc main_arg1)) (V (Proc.devRef .tc main_arg2)) (V (Proc.devRef .tc main_arg4)) (V (Proc.devRef .tc main_arg8)) (V (Proc.devRef .tc main_arg12)) (V (Proc.devRef .tc main_arg16)) (V (Proc.devRef .tc main_arg17)) (V (Proc.devRef .tc main_arg18))
    (keep2 V (by decide) (by decide)) (keep2 V (by decide) (by decide)) (keep2 V (by decide) (by decide)) (keep2 V (by decide) (by decide)) (keep2 V (by decide) (by decide))
    ((frame2 _ (by decide)).trans (at1_v23 V))

/-- After stretch 4 the new state holds its stage function of the arguments. -/
theorem at4_v71 (V : Valuation τ sig (Elt F)) :
    after chunk4 (after chunk3 (after chunk2 (after chunk1 V))) (Proc.devRef .tc main_v71) = val_main_v71 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg11)) (V (Proc.devRef .tc main_arg12)) (V (Proc.devRef .tc main_arg13)) (V (Proc.devRef .tc main_arg16)) (V (Proc.devRef .tc main_arg17)) (V (Proc.devRef .tc main_arg18)) :=
  stage4_v71 (after chunk3 (after chunk2 (after chunk1 V))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg11)) (V (Proc.devRef .tc main_arg12)) (V (Proc.devRef .tc main_arg13)) (V (Proc.devRef .tc main_arg16)) (V (Proc.devRef .tc main_arg17)) (V (Proc.devRef .tc main_arg18))
    (keep3 V (by decide) (by decide) (by decide)) (keep3 V (by decide) (by decide) (by decide)) (keep3 V (by decide) (by decide) (by decide)) (keep3 V (by decide) (by decide) (by decide)) (keep3 V (by decide) (by decide) (by decide))
    ((frame3 _ (by decide)).trans (at2_v37 V))
    ((frame3 _ (by decide)).trans ((frame2 _ (by decide)).trans (at1_v23 V)))
    (at3_v51 V)

/-- After stretch 5 the logits hold their stage function of the arguments. -/
theorem at5_v85 (V : Valuation τ sig (Elt F)) :
    after chunk5 (after chunk4 (after chunk3 (after chunk2 (after chunk1 V)))) (Proc.devRef .tc main_v85) = val_main_v85 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) :=
  stage5_v85 (after chunk4 (after chunk3 (after chunk2 (after chunk1 V)))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18))
    (keep4 V (by decide) (by decide) (by decide) (by decide)) (keep4 V (by decide) (by decide) (by decide) (by decide)) (keep4 V (by decide) (by decide) (by decide) (by decide)) (keep4 V (by decide) (by decide) (by decide) (by decide)) (keep4 V (by decide) (by decide) (by decide) (by decide))
    (at4_v71 V)
    ((frame4 _ (by decide)).trans ((frame3 _ (by decide)).trans ((frame2 _ (by decide)).trans (at1_v23 V))))

/-- After stretch 6 the first result holds its stage function of the arguments. -/
theorem at6_v86 (V : Valuation τ sig (Elt F)) :
    after chunk6 (after chunk5 (after chunk4 (after chunk3 (after chunk2 (after chunk1 V))))) (Proc.devRef .tc main_v86) = val_main_v86 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) :=
  stage6_v86 (after chunk5 (after chunk4 (after chunk3 (after chunk2 (after chunk1 V))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18))

    (at5_v85 V)

/-! ## The program's results and arguments after the whole line -/

/-- The first result after the program. -/
theorem res_v86 (V : Valuation τ sig (Elt F)) :
    after ops V (Proc.devRef .tc main_v86) = val_main_v86 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) :=
  (congrFun (after_ops V) _).trans (at6_v86 V)

/-- The second result after the program: the new state, which the last two stretches do not write. -/
theorem res_v71 (V : Valuation τ sig (Elt F)) :
    after ops V (Proc.devRef .tc main_v71) = val_main_v71 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg11)) (V (Proc.devRef .tc main_arg12)) (V (Proc.devRef .tc main_arg13)) (V (Proc.devRef .tc main_arg16)) (V (Proc.devRef .tc main_arg17)) (V (Proc.devRef .tc main_arg18)) :=
  (congrFun (after_ops V) _).trans ((frame6 _ (by decide)).trans ((frame5 _ (by decide)).trans (at4_v71 V)))

/-- The third result after the program: the weighted rows, which no later stretch writes. -/
theorem res_v21 (V : Valuation τ sig (Elt F)) :
    after ops V (Proc.devRef .tc main_v21) = val_main_v21 (V (Proc.devRef .tc main_arg1)) (V (Proc.devRef .tc main_arg2)) (V (Proc.devRef .tc main_arg16)) (V (Proc.devRef .tc main_arg17)) (V (Proc.devRef .tc main_arg18)) :=
  (congrFun (after_ops V) _).trans ((frame6 _ (by decide)).trans ((frame5 _ (by decide)).trans ((frame4 _ (by decide)).trans ((frame3 _ (by decide)).trans ((frame2 _ (by decide)).trans (at1_v21 V))))))

/-- No operation writes an argument. -/
theorem res_arg (V : Valuation τ sig (Elt F)) {r : Ref sig .tc} (h1 : r ∉ writes1) (h2 : r ∉ writes2) (h3 : r ∉ writes3)
    (h4 : r ∉ writes4) (h5 : r ∉ writes5) (h6 : r ∉ writes6) :
    after ops V (Proc.devRef .tc r) = V (Proc.devRef .tc r) :=
  (congrFun (after_ops V) _).trans (keep6 V h1 h2 h3 h4 h5 h6)

/-- On every device, for any float values, from any memory with zero counters: every weakly fair execution of the
    program terminates with each result at its stage function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v86) = val_main_v86 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_v71) = val_main_v71 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg11)) (m ((c.tc : Thread nD τ).loc main_arg12)) (m ((c.tc : Thread nD τ).loc main_arg13)) (m ((c.tc : Thread nD τ).loc main_arg16)) (m ((c.tc : Thread nD τ).loc main_arg17)) (m ((c.tc : Thread nD τ).loc main_arg18))
      ∧ r.2.mem ((c.tc : Thread nD τ).loc main_v21) = val_main_v21 (F := F) (m ((c.tc : Thread nD τ).loc main_arg1)) (m ((c.tc : Thread nD τ).loc main_arg2)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v86).trans (res_v86 (launchContents m c)),
      (h c main_v71).trans (res_v71 (launchContents m c)),
      (h c main_v21).trans (res_v21 (launchContents m c)),
      (h c main_arg0).trans (res_arg (launchContents m c) (by decide) (by decide) (by decide) (by decide) (by decide) (by decide)),
      (h c main_arg1).trans (res_arg (launchContents m c) (by decide) (by decide) (by decide) (by decide) (by decide) (by decide)),
      (h c main_arg2).trans (res_arg (launchContents m c) (by decide) (by decide) (by decide) (by decide) (by decide) (by decide)),
      (h c main_arg3).trans (res_arg (launchContents m c) (by decide) (by decide) (by decide) (by decide) (by decide) (by decide)),
      (h c main_arg4).trans (res_arg (launchContents m c) (by decide) (by decide) (by decide) (by decide) (by decide) (by decide)),
      (h c main_arg5).trans (res_arg (launchContents m c) (by decide) (by decide) (by decide) (by decide) (by decide) (by decide)),
      (h c main_arg6).trans (res_arg (launchContents m c) (by decide) (by decide) (by decide) (by decide) (by decide) (by decide)),
      (h c main_arg7).trans (res_arg (launchContents m c) (by decide) (by decide) (by decide) (by decide) (by decide) (by decide)),
      (h c main_arg8).trans (res_arg (launchContents m c) (by decide) (by decide) (by decide) (by decide) (by decide) (by decide)),
      (h c main_arg9).trans (res_arg (launchContents m c) (by decide) (by decide) (by decide) (by decide) (by decide) (by decide)),
      (h c main_arg10).trans (res_arg (launchContents m c) (by decide) (by decide) (by decide) (by decide) (by decide) (by decide)),
      (h c main_arg11).trans (res_arg (launchContents m c) (by decide) (by decide) (by decide) (by decide) (by decide) (by decide)),
      (h c main_arg12).trans (res_arg (launchContents m c) (by decide) (by decide) (by decide) (by decide) (by decide) (by decide)),
      (h c main_arg13).trans (res_arg (launchContents m c) (by decide) (by decide) (by decide) (by decide) (by decide) (by decide)),
      (h c main_arg14).trans (res_arg (launchContents m c) (by decide) (by decide) (by decide) (by decide) (by decide) (by decide)),
      (h c main_arg15).trans (res_arg (launchContents m c) (by decide) (by decide) (by decide) (by decide) (by decide) (by decide)),
      (h c main_arg16).trans (res_arg (launchContents m c) (by decide) (by decide) (by decide) (by decide) (by decide) (by decide)),
      (h c main_arg17).trans (res_arg (launchContents m c) (by decide) (by decide) (by decide) (by decide) (by decide) (by decide)),
      (h c main_arg18).trans (res_arg (launchContents m c) (by decide) (by decide) (by decide) (by decide) (by decide) (by decide))⟩)
    (run_seq scopedRefs_eq scopedSems_eq defs main (fun _ => ops) main_eq (fun _ => ops_sub) m ρ)

end Cert.ReferenceIdeal.Staged

end
-- ==== Proof.lean ====
/-
  One step of an attention decoder — Bahdanau attention over 50 encoder rows, a gated recurrent update of a state of
  1024, a maxout output layer over rows in pairs and the logarithm of a softmax over a vocabulary of 16000 — computed
  by six tiled kernels with two short host stretches between them, against the same step written as one host program.

  On the extended reals the two programs are the same function of the nineteen argument arrays. The kernels round
  their matrix operands to a narrower float format before each product, which is the identity on the extended reals;
  two of them accumulate a product over the vocabulary axis block by block (sixteen blocks of 1000 rows, twenty-five
  blocks of 640 columns), which is a regrouping of one finite sum in a commutative monoid; the maxout layer reads its
  rows in pairs through a re-laying [4096, K] → [2048, 2, K] where the reference re-lays the layer's values and takes a
  maximum from -infinity; and both programs end with the same sixteen host operations on the logits. Every sum of three
  contributions is associated the same way in both programs, and the logistic function is spelt by the reference as
  1 / (1 + exp (-x)), which is the ideal instance's definition of it. No step uses the finiteness of the inputs.

  The three frames: the two kernel programs' are the generated frame certificates; the reference's is its run (read back
  stage by stage) with the results dropped. The ideal pass rewrote nothing, so the preservation claim is trivial. The value claim puts the kernel
  program's run (its three result buffers read at the last segment boundary's contents, composed region by region in
  KernelValue.lean) beside the reference's run (its results stage by stage in RefValue.lean).
-/
import proofs.«179386_j74783970558463_2_alg».proof.Defs
import proofs.«179386_j74783970558463_2_alg».proof.Proof.Gen.Kernel
import proofs.«179386_j74783970558463_2_alg».proof.Proof.Gen.Kernel.Skeleton
import proofs.«179386_j74783970558463_2_alg».proof.Proof.Gen.Kernel.Launch
import proofs.«179386_j74783970558463_2_alg».proof.Proof.Gen.Kernel.Points
import proofs.«179386_j74783970558463_2_alg».proof.Proof.Gen.Kernel.Frame
import proofs.«179386_j74783970558463_2_alg».proof.Proof.Gen.KernelIdeal
import proofs.«179386_j74783970558463_2_alg».proof.Proof.Gen.KernelIdeal.Skeleton
import proofs.«179386_j74783970558463_2_alg».proof.Proof.Gen.KernelIdeal.Launch
import proofs.«179386_j74783970558463_2_alg».proof.Proof.Gen.KernelIdeal.Points
import proofs.«179386_j74783970558463_2_alg».proof.Proof.Gen.KernelIdeal.Frame
import proofs.«179386_j74783970558463_2_alg».proof.Proof.Gen.ReferenceIdeal
import proofs.«179386_j74783970558463_2_alg».proof.Proof.Gen.Pre_finite_inputs
import proofs.«179386_j74783970558463_2_alg».proof.Proof.KernelRun
import proofs.«179386_j74783970558463_2_alg».proof.Proof.KernelValue
import proofs.«179386_j74783970558463_2_alg».proof.Proof.RefValue
import proofs.«179386_j74783970558463_2_alg».proof.Proof.RefStaged
import Idealize.ShloMosaic.Adequacy
import Idealize.ShloMosaic.Init

noncomputable section

namespace Cert.Proof

open Idealize.ShloMosaic Idealize.ShloMosaic.TcCoe Idealize.SL.Sem

/-- The word-level kernel program runs and leaves its arguments alone: the generated frame certificate. -/
theorem frame_p : Cert.frame_Kernel := fun m ρ _ => Cert.Kernel.Gen.frame m ρ

/-- So does the idealized kernel program. -/
theorem frame_pi : Cert.frame_KernelIdeal := fun m ρ _ => Cert.KernelIdeal.Gen.frame m ρ

/-- The reference runs and leaves its arguments alone: its run with the three results dropped. -/
theorem frame_ri : Cert.frame_ReferenceIdeal := fun m ρ _ =>
  (θ_run Cert.ReferenceIdeal.defs _ _).mono (fun _ h c => (h c).2.2.2) (Cert.ReferenceIdeal.Staged.run m ρ)

/-- The ideal pass rewrote no operation. -/
theorem preserves : Cert.preserves_Kernel_KernelIdeal := trivial

/-- On the extended reals the two programs, run from memories agreeing on the arguments, end with equal results: each
    of the kernel program's three results and the reference's corresponding one is the same function of the arguments
    (the log-softmax of the logits, the new state, the weighted encoder rows). -/
theorem algebraic : Cert.algebraic_KernelIdeal_ReferenceIdeal := by
  intro m ρ m' ρ' _ hagree
  refine ⟨_, _, _, Cert.KernelIdeal.RunVal.run (F := Ideal) m ρ, ?_⟩
  refine (θ_run Cert.ReferenceIdeal.defs _ _).mono (fun _ h c => ?_) (Cert.ReferenceIdeal.Staged.run m' ρ')
  obtain ⟨e0, e1, e2, e3, e4, e5, e6, e7, e8, e9, e10, e11, e12, e13, e14, e15, e16, e17, e18⟩ := hagree c
  refine ⟨(h c).1.trans ?_, (h c).2.1.trans ?_, (h c).2.2.1.trans ?_, (h c).2.2.2⟩
  · rw [e0, e1, e2, e3, e4, e5, e6, e7, e8, e9, e10, e11, e12, e13, e14, e15, e16, e17, e18]
    exact (Cert.ReferenceIdeal.Whole.r_out0 _ _ _ _ _ _ _ _ _ _ _ _ _ _ _ _ _ _ _ _ _ _).trans (Cert.KernelIdeal.Whole.out_v9 m ρ c).symm
  · rw [e0, e1, e2, e3, e4, e5, e7, e8, e9, e11, e12, e13, e16, e17, e18]
    exact (Cert.ReferenceIdeal.Whole.r_sn _ _ _ _ _ _ _ _ _ _ _ _ _ _ _).trans (Cert.KernelIdeal.Whole.out_v3 m ρ c).symm
  · rw [e1, e2, e16, e17, e18]
    exact (Cert.ReferenceIdeal.Whole.r_alpha _ _ _ _ _).trans (Cert.KernelIdeal.Whole.out_v2_1 m ρ c).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
